-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S32x16 : Shape := ⟨2, ![32, 16]⟩
abbrev S32 : Shape := ⟨1, ![32]⟩
abbrev S16x32 : Shape := ⟨2, ![16, 32]⟩
abbrev S16 : Shape := ⟨1, ![16]⟩
abbrev S16x16 : Shape := ⟨2, ![16, 16]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg7 : FVec F S16x16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  main_v38

def fn_part1 {F : FTy → Type} [FloatOps F] (main_arg4 : FVec F S16 .f32) (main_arg5 : FVec F S16x16 .f32) (main_arg6 : FVec F S16x16 .f32) (main_arg7 : FVec F S16x16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_v33

def fn {F : FTy → Type} [FloatOps F] (main_arg0 : FVec F S1048576x16 .f32) (main_arg1 : FVec F S32x16 .f32) (main_arg2 : FVec F S32 .f32) (main_arg3 : FVec F S16x32 .f32) (main_arg4 : FVec F S16 .f32) (main_arg5 : FVec F S16x16 .f32) (main_arg6 : FVec F S16x16 .f32) (main_arg7 : FVec F S16x16 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_arg7 main_v13 main_v16
-- ==== Kernel.lean ====
abbrev S1048576x16 : Shape := ⟨2, ![1048576, 16]⟩
abbrev S32x16 : Shape := ⟨2, ![32, 16]⟩
abbrev S32 : Shape := ⟨1, ![32]⟩
abbrev S16x32 : Shape := ⟨2, ![16, 32]⟩
abbrev S16 : Shape := ⟨1, ![16]⟩
abbrev S16x16 : Shape := ⟨2, ![16, 16]⟩
abbrev S1x32 : Shape := ⟨2, ![1, 32]⟩
abbrev S1x16 : Shape := ⟨2, ![1, 16]⟩
abbrev S2x32x16 : Shape := ⟨3, ![2, 32, 16]⟩
abbrev S2x1x32 : Shape := ⟨3, ![2, 1, 32]⟩
abbrev S2x16x32 : Shape := ⟨3, ![2, 16, 32]⟩
abbrev S2x1x16 : Shape := ⟨3, ![2, 1, 16]⟩
abbrev S8192x16 : Shape := ⟨2, ![8192, 16]⟩
abbrev S1x32x16 : Shape := ⟨3, ![1, 32, 16]⟩
abbrev S1x1x32 : Shape := ⟨3, ![1, 1, 32]⟩
abbrev S1x16x32 : Shape := ⟨3, ![1, 16, 32]⟩
abbrev S1x1x16 : Shape := ⟨3, ![1, 1, 16]⟩
abbrev S512x16 : Shape := ⟨2, ![512, 16]⟩
abbrev S512 : Shape := ⟨1, ![512]⟩
abbrev S512x1 : Shape := ⟨2, ![512, 1]⟩
abbrev S512x32 : Shape := ⟨2, ![512, 32]⟩
abbrev S_ : Shape := ⟨0, ![]⟩
abbrev S1024x16 : Shape := ⟨2, ![1024, 16]⟩
abbrev S1024 : Shape := ⟨1, ![1024]⟩
abbrev S1024x1 : Shape := ⟨2, ![1024, 1]⟩
abbrev S1024x32 : Shape := ⟨2, ![1024, 32]⟩

abbrev nBuf : Space → Nat
  | .hbm => 68
  | .vmem => 30
  | .smem => 0
  | _ => 0

abbrev bufTy : (tb : Table) → Fin (tcTables nBuf tb) → BufTy
  | .hbm, ⟨0, _⟩ => ⟨S1048576x16, .f32⟩
  | .hbm, ⟨1, _⟩ => ⟨S32x16, .f32⟩
  | .hbm, ⟨2, _⟩ => ⟨S32, .f32⟩
  | .hbm, ⟨3, _⟩ => ⟨S16x32, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16x16, .f32⟩
  | .hbm, ⟨8, _⟩ => ⟨S16x16, .f32⟩
  | .hbm, ⟨9, _⟩ => ⟨S16x16, .bf16⟩
  | .hbm, ⟨10, _⟩ => ⟨S16x16, .f32⟩
  | .hbm, ⟨11, _⟩ => ⟨S16x16, .bf16⟩
  | .hbm, ⟨12, _⟩ => ⟨S16x32, .f32⟩
  | .hbm, ⟨13, _⟩ => ⟨S16x32, .bf16⟩
  | .hbm, ⟨14, _⟩ => ⟨S16x32, .bf16⟩
  | .hbm, ⟨15, _⟩ => ⟨S32x16, .f32⟩
  | .hbm, ⟨16, _⟩ => ⟨S32x16, .bf16⟩
  | .hbm, ⟨17, _⟩ => ⟨S1x32, .f32⟩
  | .hbm, ⟨18, _⟩ => ⟨S1x16, .f32⟩
  | .hbm, ⟨19, _⟩ => ⟨S2x32x16, .f32⟩
  | .hbm, ⟨20, _⟩ => ⟨S2x1x32, .f32⟩
  | .hbm, ⟨21, _⟩ => ⟨S2x16x32, .f32⟩
  | .hbm, ⟨22, _⟩ => ⟨S2x1x16, .f32⟩
  | .hbm, ⟨23, _⟩ => ⟨S_, .f32⟩
  | .hbm, ⟨24, _⟩ => ⟨S32x16, .f32⟩
  | .hbm, ⟨25, _⟩ => ⟨S_, .f32⟩
  | .hbm, ⟨26, _⟩ => ⟨S1x32, .f32⟩
  | .hbm, ⟨27, _⟩ => ⟨S_, .f32⟩
  | .hbm, ⟨28, _⟩ => ⟨S16x32, .f32⟩
  | .hbm, ⟨29, _⟩ => ⟨S_, .f32⟩
  | .hbm, ⟨30, _⟩ => ⟨S1x16, .f32⟩
  | .hbm, ⟨31, _⟩ => ⟨S_, .f32⟩
  | .hbm, ⟨32, _⟩ => ⟨S32x16, .f32⟩
  | .hbm, ⟨33, _⟩ => ⟨S32x16, .f32⟩
  | .hbm, ⟨34, _⟩ => ⟨S_, .f32⟩
  | .hbm, ⟨35, _⟩ => ⟨S32x16, .f32⟩
  | .hbm, ⟨36, _⟩ => ⟨S32x16, .f32⟩
  | .hbm, ⟨37, _⟩ => ⟨S32x16, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S1x32, .f32⟩
  | .hbm, ⟨47, _⟩ => ⟨S_, .f32⟩
  | .hbm, ⟨48, _⟩ => ⟨S16x32, .f32⟩
  | .hbm, ⟨49, _⟩ => ⟨S16x32, .f32⟩
  | .hbm, ⟨50, _⟩ => ⟨S_, .f32⟩
  | .hbm, ⟨51, _⟩ => ⟨S16x32, .f32⟩
  | .hbm, ⟨52, _⟩ => ⟨S16x32, .f32⟩
  | .hbm, ⟨53, _⟩ => ⟨S16x32, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S16, .f32⟩
  | .hbm, ⟨62, _⟩ => ⟨S1x16, .f32⟩
  | .hbm, ⟨63, _⟩ => ⟨S16x32, .f32⟩
  | .hbm, ⟨64, _⟩ => ⟨S16x32, .bf16⟩
  | .hbm, ⟨65, _⟩ => ⟨S32x16, .f32⟩
  | .hbm, ⟨66, _⟩ => ⟨S32x16, .bf16⟩
  | .hbm, ⟨67, _⟩ => ⟨S1048576x16, .f32⟩
  | .local _ .vmem, ⟨0, _⟩ => ⟨S8192x16, .f32⟩
  | .local _ .vmem, ⟨1, _⟩ => ⟨S8192x16, .f32⟩
  | .local _ .vmem, ⟨2, _⟩ => ⟨S16x16, .bf16⟩
  | .local _ .vmem, ⟨3, _⟩ => ⟨S16x16, .bf16⟩
  | .local _ .vmem, ⟨4, _⟩ => ⟨S16x32, .bf16⟩
  | .local _ .vmem, ⟨5, _⟩ => ⟨S1x32, .f32⟩
  | .local _ .vmem, ⟨6, _⟩ => ⟨S16x32, .bf16⟩
  | .local _ .vmem, ⟨7, _⟩ => ⟨S32x16, .bf16⟩
  | .local _ .vmem, ⟨8, _⟩ => ⟨S1x16, .f32⟩
  | .local _ .vmem, ⟨9, _⟩ => ⟨S1x32x16, .f32⟩
  | .local _ .vmem, ⟨10, _⟩ => ⟨S1x32x16, .f32⟩
  | .local _ .vmem, ⟨11, _⟩ => ⟨S1x1x32, .f32⟩
  | .local _ .vmem, ⟨12, _⟩ => ⟨S1x1x32, .f32⟩
  | .local _ .vmem, ⟨13, _⟩ => ⟨S1x16x32, .f32⟩
  | .local _ .vmem, ⟨14, _⟩ => ⟨S1x16x32, .f32⟩
  | .local _ .vmem, ⟨15, _⟩ => ⟨S1x1x16, .f32⟩
  | .local _ .vmem, ⟨16, _⟩ => ⟨S1x1x16, .f32⟩
  | .local _ .vmem, ⟨17, _⟩ => ⟨S32x16, .f32⟩
  | .local _ .vmem, ⟨18, _⟩ => ⟨S1x32, .f32⟩
  | .local _ .vmem, ⟨19, _⟩ => ⟨S16x32, .f32⟩
  | .local _ .vmem, ⟨20, _⟩ => ⟨S1x16, .f32⟩
  | .local _ .vmem, ⟨21, _⟩ => ⟨S8192x16, .f32⟩
  | .local _ .vmem, ⟨22, _⟩ => ⟨S8192x16, .f32⟩
  | .local _ .vmem, ⟨23, _⟩ => ⟨S16x16, .bf16⟩
  | .local _ .vmem, ⟨24, _⟩ => ⟨S16x32, .bf16⟩
  | .local _ .vmem, ⟨25, _⟩ => ⟨S1x32, .f32⟩
  | .local _ .vmem, ⟨26, _⟩ => ⟨S32x16, .bf16⟩
  | .local _ .vmem, ⟨27, _⟩ => ⟨S1x16, .f32⟩
  | .local _ .vmem, ⟨28, _⟩ => ⟨S8192x16, .f32⟩
  | .local _ .vmem, ⟨29, _⟩ => ⟨S8192x16, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_25 : BitVec 32 := 0#32
  let c16_i32 : BitVec 32 := 16#32
  let v33 : BitVec 32 := Scalar.addi c0_i32_25 c16_i32
  let c1_i32 : BitVec 32 := 1#32
  ⟨c0_i32_25, v33, c1_i32⟩
def k0_mult1 (k0_t1 : Fin k0_t1_loop.trips) : BitVec 32 :=
  let c0_i32_60 : BitVec 32 := 0#32
  let c0_i32_25 : BitVec 32 := 0#32
  let c1_i32 : BitVec 32 := 1#32
  let arg18 : BitVec 32 := Scf.iv c0_i32_25 c1_i32 k0_t1
  let c1_i32_59 : BitVec 32 := 1#32
  let v62 : BitVec 32 := Scalar.muli arg18 c1_i32_59
  let v63 : BitVec 32 := Scalar.addi c0_i32_60 v62
  let c512_i32 : BitVec 32 := 512#32
  let v64 : BitVec 32 := Scalar.muli v63 c512_i32
  v64
def k0_off1 (k0_t1 : Fin k0_t1_loop.trips) : Fin 2 → Nat :=
  let c0_i32_60 : BitVec 32 := 0#32
  let c0_i32_25 : BitVec 32 := 0#32
  let c1_i32 : BitVec 32 := 1#32
  let arg18 : BitVec 32 := Scf.iv c0_i32_25 c1_i32 k0_t1
  let c1_i32_59 : BitVec 32 := 1#32
  let v62 : BitVec 32 := Scalar.muli arg18 c1_i32_59
  let v63 : BitVec 32 := Scalar.addi c0_i32_60 v62
  let c512_i32 : BitVec 32 := 512#32
  let v64 : BitVec 32 := Scalar.muli v63 c512_i32
  let v65 : BitVec 32 := v64
  let v66 : Index := Scalar.indexCast v65
  let c0_61 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![128], ![false]⟩

@[reducible] def k1_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k1_mult1 (k1_t1 : Fin k1_t1_loop.trips) : BitVec 32 :=
  let c0_i32_11 : BitVec 32 := 0#32
  let c0_i32 : BitVec 32 := 0#32
  let c1_i32 : BitVec 32 := 1#32
  let arg8 : BitVec 32 := Scf.iv c0_i32 c1_i32 k1_t1
  let c1_i32_10 : BitVec 32 := 1#32
  let v11 : BitVec 32 := Scalar.muli arg8 c1_i32_10
  let v12 : BitVec 32 := Scalar.addi c0_i32_11 v11
  let c1024_i32 : BitVec 32 := 1024#32
  let v13 : BitVec 32 := Scalar.muli v12 c1024_i32
  v13
def k1_off1 (k1_t1 : Fin k1_t1_loop.trips) : Fin 2 → Nat :=
  let c0_i32_11 : BitVec 32 := 0#32
  let c0_i32 : BitVec 32 := 0#32
  let c1_i32 : BitVec 32 := 1#32
  let arg8 : BitVec 32 := Scf.iv c0_i32 c1_i32 k1_t1
  let c1_i32_10 : BitVec 32 := 1#32
  let v11 : BitVec 32 := Scalar.muli arg8 c1_i32_10
  let v12 : BitVec 32 := Scalar.addi c0_i32_11 v11
  let c1024_i32 : BitVec 32 := 1024#32
  let v13 : BitVec 32 := Scalar.muli v12 c1024_i32
  let v14 : BitVec 32 := v13
  let v15 : Index := Scalar.indexCast v14
  let c0_12 : Index := 0#32
  ![v15.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S16x16_S16x16_1_0 : S16x16.Transposes [1, 0] S16x16
  bitsLt_bf16_f32 : FTy.bits .bf16 < FTy.bits .f32
  transposes_S32x16_S16x32_1_0 : S32x16.Transposes [1, 0] S16x32
  transposes_S16x32_S32x16_1_0 : S16x32.Transposes [1, 0] S32x16
  shapeCasts_S32_S1x32 : S32.ShapeCasts S1x32
  shapeCasts_S16_S1x16 : S16.ShapeCasts S1x16
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S1x16x32_S1x16x32_0_0_0 : ∀ a, (![0, 0, 0] : Fin 3 → Nat) a + S1x16x32.size a ≤ S1x16x32.size a
  h_S1x16x32 : 0 < S1x16x32.numel
  shapeCasts_S1x16x32_S16x32 : S1x16x32.ShapeCasts S16x32
  shapeCasts_S16x32_S1x16x32 : S16x32.ShapeCasts S1x16x32
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  h_S512x16 : 0 < S512x16.numel
  reduces_S512x16_S512 : S512x16.Reduces [1] S512
  shapeCasts_S512_S512x1 : S512.ShapeCasts S512x1
  broadcasts_S512x1_S512x16 : S512x1.Broadcasts S512x16
  broadcasts_S1x32_S512x32 : S1x32.Broadcasts S512x32
  broadcasts_S1x16_S512x16 : S1x16.Broadcasts S512x16
  reduces_S512x16_S16 : S512x16.Reduces [0] S16
  reduces_S512x32_S32 : S512x32.Reduces [0] S32
  reducesTo_S2x32x16_S32x16_d0 : S2x32x16.ReducesTo [0] S32x16
  h_S_ : 0 < S_.numel
  reducesTo_S2x1x32_S1x32_d0 : S2x1x32.ReducesTo [0] S1x32
  reducesTo_S2x16x32_S16x32_d0 : S2x16x32.ReducesTo [0] S16x32
  reducesTo_S2x1x16_S1x16_d0 : S2x1x16.ReducesTo [0] S1x16
  bcast_S_S32x16 : S_.BroadcastsInDim S32x16 (![] : Fin 0 → Fin S32x16.rank)
  bcast_S_S32 : S_.BroadcastsInDim S32 (![] : Fin 0 → Fin S32.rank)
  shapeCasts_S1x32_S32 : S1x32.ShapeCasts S32
  bcast_S_S16x32 : S_.BroadcastsInDim S16x32 (![] : Fin 0 → Fin S16x32.rank)
  bcast_S_S16 : S_.BroadcastsInDim S16 (![] : Fin 0 → Fin S16.rank)
  shapeCasts_S1x16_S16 : S1x16.ShapeCasts S16
  h_S1024x16 : 0 < S1024x16.numel
  reduces_S1024x16_S1024 : S1024x16.Reduces [1] S1024
  shapeCasts_S1024_S1024x1 : S1024.ShapeCasts S1024x1
  broadcasts_S1024x1_S1024x16 : S1024x1.Broadcasts S1024x16
  broadcasts_S1x32_S1024x32 : S1x32.Broadcasts S1024x32
  broadcasts_S1x16_S1024x16 : S1x16.Broadcasts S1024x16
  dot_S512x16_S16x16_S512x16_1_0_0_1_n_n_wf : DotDims.WF S512x16 S16x16 S512x16 [1] [0] [0] [1] [] []
  dot_S512x16_S16x32_S512x32_1_0_0_1_n_n_wf : DotDims.WF S512x16 S16x32 S512x32 [1] [0] [0] [1] [] []
  dot_S512x32_S32x16_S512x16_1_0_0_1_n_n_wf : DotDims.WF S512x32 S32x16 S512x16 [1] [0] [0] [1] [] []
  dot_S512x16_S512x32_S16x32_0_0_1_1_n_n_wf : DotDims.WF S512x16 S512x32 S16x32 [0] [0] [1] [1] [] []
  dot_S512x32_S512x16_S32x16_0_0_1_1_n_n_wf : DotDims.WF S512x32 S512x16 S32x16 [0] [0] [1] [1] [] []
  dot_S1024x16_S16x16_S1024x16_1_0_0_1_n_n_wf : DotDims.WF S1024x16 S16x16 S1024x16 [1] [0] [0] [1] [] []
  dot_S1024x16_S16x32_S1024x32_1_0_0_1_n_n_wf : DotDims.WF S1024x16 S16x32 S1024x32 [1] [0] [0] [1] [] []
  dot_S1024x32_S32x16_S1024x16_1_0_0_1_n_n_wf : DotDims.WF S1024x32 S32x16 S1024x16 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x16.size a ≤ S8192x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S1048576x16.size a
  hwx0_0 : ∀ i : grid0.Coords, EltTy.bits .f32 = 32 ∨ (Rect.block (s := S1048576x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .bf16 = 32 ∨ (Rect.block (s := S16x16) S16x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .bf16 = 32 ∨ (Rect.block (s := S16x16) S16x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .bf16 = 32 ∨ (Rect.block (s := S16x32) S16x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .bf16 = 32 ∨ (Rect.block (s := S16x32) S16x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .bf16 = 32 ∨ (Rect.block (s := S32x16) S32x16.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x16.size a ≤ S2x32x16.size a
  hwx0_8 : ∀ i : grid0.Coords, EltTy.bits .f32 = 32 ∨ (Rect.block (s := S2x32x16) S1x32x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x32.size a ≤ S2x1x32.size a
  hwx0_9 : ∀ i : grid0.Coords, EltTy.bits .f32 = 32 ∨ (Rect.block (s := S2x1x32) S1x1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16x32.size a ≤ S2x16x32.size a
  hwx0_10 : ∀ i : grid0.Coords, EltTy.bits .f32 = 32 ∨ (Rect.block (s := S2x16x32) S1x16x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x16.size a ≤ S2x1x16.size a
  hwx0_11 : ∀ i : grid0.Coords, EltTy.bits .f32 = 32 ∨ (Rect.block (s := S2x1x16) S1x1x16.size (cc0_transform_11 i) (hinb0_11 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x16.size a ≤ S8192x16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S1048576x16.size a
  hwx1_0 : ∀ i : grid1.Coords, EltTy.bits .f32 = 32 ∨ (Rect.block (s := S1048576x16) S8192x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .bf16 = 32 ∨ (Rect.block (s := S16x16) S16x16.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .bf16 = 32 ∨ (Rect.block (s := S16x32) S16x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .bf16 = 32 ∨ (Rect.block (s := S32x16) S32x16.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192x16.size a ≤ S1048576x16.size a
  hwx1_6 : ∀ i : grid1.Coords, EltTy.bits .f32 = 32 ∨ (Rect.block (s := S1048576x16) S8192x16.size (cc1_transform_6 i) (hinb1_6 i)).WholeWords (EltTy.packing .f32)

variable [Facts₀]

def dot_S512x16_S16x16_S512x16_1_0_0_1_n_n : DotDims S512x16 S16x16 S512x16 where
  lhsContracting := [1]
  rhsContracting := [0]
  lhsNonContracting := [0]
  rhsNonContracting := [1]
  lhsBatch := []
  rhsBatch := []
  wf := dot_S512x16_S16x16_S512x16_1_0_0_1_n_n_wf
def dot_S512x16_S16x32_S512x32_1_0_0_1_n_n : DotDims S512x16 S16x32 S512x32 where
  lhsContracting := [1]
  rhsContracting := [0]
  lhsNonContracting := [0]
  rhsNonContracting := [1]
  lhsBatch := []
  rhsBatch := []
  wf := dot_S512x16_S16x32_S512x32_1_0_0_1_n_n_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x16_S512x32_S16x32_0_0_1_1_n_n : DotDims S512x16 S512x32 S16x32 where
  lhsContracting := [0]
  rhsContracting := [0]
  lhsNonContracting := [1]
  rhsNonContracting := [1]
  lhsBatch := []
  rhsBatch := []
  wf := dot_S512x16_S512x32_S16x32_0_0_1_1_n_n_wf
def dot_S512x32_S512x16_S32x16_0_0_1_1_n_n : DotDims S512x32 S512x16 S32x16 where
  lhsContracting := [0]
  rhsContracting := [0]
  lhsNonContracting := [1]
  rhsNonContracting := [1]
  lhsBatch := []
  rhsBatch := []
  wf := dot_S512x32_S512x16_S32x16_0_0_1_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S16x32_S1024x32_1_0_0_1_n_n : DotDims S1024x16 S16x32 S1024x32 where
  lhsContracting := [1]
  rhsContracting := [0]
  lhsNonContracting := [0]
  rhsNonContracting := [1]
  lhsBatch := []
  rhsBatch := []
  wf := dot_S1024x16_S16x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S1x32x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S1x1x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_2) S1x16x32.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_3) S1x1x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S8192x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1048576x16 : Shape := ⟨2, ![1048576, 16]⟩
abbrev S32x16 : Shape := ⟨2, ![32, 16]⟩
abbrev S32 : Shape := ⟨1, ![32]⟩
abbrev S16x32 : Shape := ⟨2, ![16, 32]⟩
abbrev S16 : Shape := ⟨1, ![16]⟩
abbrev S16x16 : Shape := ⟨2, ![16, 16]⟩
abbrev S_ : Shape := ⟨0, ![]⟩
abbrev S1048576 : Shape := ⟨1, ![1048576]⟩
abbrev S1048576x1 : Shape := ⟨2, ![1048576, 1]⟩
abbrev S1048576x32 : Shape := ⟨2, ![1048576, 32]⟩
abbrev S1x32 : Shape := ⟨2, ![1, 32]⟩
abbrev S1x16 : Shape := ⟨2, ![1, 16]⟩

abbrev nBuf : Space → Nat
  | .hbm => 192
  | .vmem => 0
  | .smem => 0
  | _ => 0

abbrev hbmTy0_0 (i : Nat) : BufTy := match i % 128 with
  | 0 => ⟨S1048576x16, .f32⟩
  | 1 => ⟨S32x16, .f32⟩
  | 2 => ⟨S32, .f32⟩
  | 3 => ⟨S16x32, .f32⟩
  | 4 => ⟨S16, .f32⟩
  | 5 => ⟨S16x16, .f32⟩
  | 6 => ⟨S16x16, .f32⟩
  | 7 => ⟨S16x16, .f32⟩
  | 8 => ⟨S16x16, .f32⟩
  | 9 => ⟨S1048576x16, .f32⟩
  | 10 => ⟨S1048576x16, .f32⟩
  | 11 => ⟨S1048576x16, .f32⟩
  | 12 => ⟨S_, .f32⟩
  | 13 => ⟨S1048576x16, .f32⟩
  | 14 => ⟨S1048576x16, .f32⟩
  | 15 => ⟨S_, .f32⟩
  | 16 => ⟨S1048576x16, .f32⟩
  | 17 => ⟨S1048576x16, .f32⟩
  | 18 => ⟨S1048576x16, .f32⟩
  | 19 => ⟨S16x16, .f32⟩
  | 20 => ⟨S1048576x16, .f32⟩
  | 21 => ⟨S1048576x16, .f32⟩
  | 22 => ⟨S1048576x16, .f32⟩
  | 23 => ⟨S_, .f32⟩
  | 24 => ⟨S1048576x16, .f32⟩
  | 25 => ⟨S1048576x16, .f32⟩
  | 26 => ⟨S_, .f32⟩
  | 27 => ⟨S1048576x16, .f32⟩
  | 28 => ⟨S1048576x16, .f32⟩
  | 29 => ⟨S1048576x16, .f32⟩
  | 30 => ⟨S1048576x16, .f32⟩
  | 31 => ⟨S_, .f32⟩
  | 32 => ⟨S1048576, .f32⟩
  | 33 => ⟨S1048576x1, .f32⟩
  | 34 => ⟨S1048576x1, .f32⟩
  | 35 => ⟨S_, .f32⟩
  | 36 => ⟨S1048576x1, .f32⟩
  | 37 => ⟨S1048576x1, .f32⟩
  | 38 => ⟨S1048576x16, .f32⟩
  | 39 => ⟨S1048576x16, .f32⟩
  | 40 => ⟨S16x32, .f32⟩
  | 41 => ⟨S1048576x32, .f32⟩
  | 42 => ⟨S1x32, .f32⟩
  | 43 => ⟨S1048576x32, .f32⟩
  | 44 => ⟨S1048576x32, .f32⟩
  | 45 => ⟨S1048576x32, .f32⟩
  | 46 => ⟨S1048576x32, .f32⟩
  | 47 => ⟨S_, .f32⟩
  | 48 => ⟨S1048576x32, .f32⟩
  | 49 => ⟨S1048576x32, .f32⟩
  | 50 => ⟨S_, .f32⟩
  | 51 => ⟨S1048576x32, .f32⟩
  | 52 => ⟨S1048576x32, .f32⟩
  | 53 => ⟨S_, .f32⟩
  | 54 => ⟨S1048576x32, .f32⟩
  | 55 => ⟨S1048576x32, .f32⟩
  | 56 => ⟨S1048576x32, .f32⟩
  | 57 => ⟨S1048576x32, .f32⟩
  | 58 => ⟨S32x16, .f32⟩
  | 59 => ⟨S1048576x16, .f32⟩
  | 60 => ⟨S1x16, .f32⟩
  | 61 => ⟨S1048576x16, .f32⟩
  | 62 => ⟨S1048576x16, .f32⟩
  | 63 => ⟨S1048576x16, .f32⟩
  | 64 => ⟨S1048576x16, .f32⟩
  | 65 => ⟨S_, .f32⟩
  | 66 => ⟨S1048576x16, .f32⟩
  | 67 => ⟨S1048576x16, .f32⟩
  | 68 => ⟨S_, .f32⟩
  | 69 => ⟨S1048576x16, .f32⟩
  | 70 => ⟨S1048576x16, .f32⟩
  | 71 => ⟨S_, .f32⟩
  | 72 => ⟨S1048576x16, .f32⟩
  | 73 => ⟨S1048576x16, .f32⟩
  | 74 => ⟨S1048576x16, .f32⟩
  | 75 => ⟨S1048576x16, .f32⟩
  | 76 => ⟨S1048576x16, .f32⟩
  | 77 => ⟨S1048576x16, .f32⟩
  | 78 => ⟨S_, .f32⟩
  | 79 => ⟨S1048576x16, .f32⟩
  | 80 => ⟨S1048576x16, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1048576x16, .f32⟩
  | 89 => ⟨S1048576x16, .f32⟩
  | 90 => ⟨S1048576x16, .f32⟩
  | 91 => ⟨S1048576x16, .f32⟩
  | 92 => ⟨S1048576x16, .f32⟩
  | 93 => ⟨S1048576x16, .f32⟩
  | 94 => ⟨S_, .f32⟩
  | 95 => ⟨S16, .f32⟩
  | 96 => ⟨S1x16, .f32⟩
  | 97 => ⟨S_, .f32⟩
  | 98 => ⟨S16, .f32⟩
  | 99 => ⟨S16x32, .f32⟩
  | 100 => ⟨S32x16, .f32⟩
  | 101 => ⟨S1048576x32, .f32⟩
  | 102 => ⟨S16x32, .f32⟩
  | 103 => ⟨S1048576x32, .f32⟩
  | 104 => ⟨S1048576x32, .f32⟩
  | 105 => ⟨S1048576x32, .f32⟩
  | 106 => ⟨S1048576x32, .f32⟩
  | 107 => ⟨S_, .f32⟩
  | 108 => ⟨S32, .f32⟩
  | 109 => ⟨S1x32, .f32⟩
  | 110 => ⟨S_, .f32⟩
  | 111 => ⟨S32, .f32⟩
  | 112 => ⟨S32x16, .f32⟩
  | 113 => ⟨S16x32, .f32⟩
  | 114 => ⟨S32x16, .f32⟩
  | 115 => ⟨S_, .f32⟩
  | 116 => ⟨S32x16, .f32⟩
  | 117 => ⟨S32x16, .f32⟩
  | 118 => ⟨S_, .f32⟩
  | 119 => ⟨S32x16, .f32⟩
  | 120 => ⟨S32x16, .f32⟩
  | 121 => ⟨S32x16, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S1048576x16, .f32⟩

abbrev hbmTy0_1 (i : Nat) : BufTy := match i % 128 with
  | 0 => ⟨S32, .f32⟩
  | 1 => ⟨S_, .f32⟩
  | 2 => ⟨S16x32, .f32⟩
  | 3 => ⟨S16x32, .f32⟩
  | 4 => ⟨S_, .f32⟩
  | 5 => ⟨S16x32, .f32⟩
  | 6 => ⟨S16x32, .f32⟩
  | 7 => ⟨S16x32, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S16x16, .f32⟩
  | 16 => ⟨S1048576x16, .f32⟩
  | 17 => ⟨S1048576x16, .f32⟩
  | 18 => ⟨S_, .f32⟩
  | 19 => ⟨S1048576, .f32⟩
  | 20 => ⟨S1048576x1, .f32⟩
  | 21 => ⟨S1048576x1, .f32⟩
  | 22 => ⟨S_, .f32⟩
  | 23 => ⟨S1048576x1, .f32⟩
  | 24 => ⟨S1048576x1, .f32⟩
  | 25 => ⟨S1048576x16, .f32⟩
  | 26 => ⟨S1048576x16, .f32⟩
  | 27 => ⟨S1048576x16, .f32⟩
  | 28 => ⟨S1048576x16, .f32⟩
  | 29 => ⟨S_, .f32⟩
  | 30 => ⟨S1048576x16, .f32⟩
  | 31 => ⟨S1048576x16, .f32⟩
  | 32 => ⟨S_, .f32⟩
  | 33 => ⟨S1048576x16, .f32⟩
  | 34 => ⟨S1048576x16, .f32⟩
  | 35 => ⟨S1048576x16, .f32⟩
  | 36 => ⟨S16x32, .f32⟩
  | 37 => ⟨S1048576x32, .f32⟩
  | 38 => ⟨S1x32, .f32⟩
  | 39 => ⟨S1048576x32, .f32⟩
  | 40 => ⟨S1048576x32, .f32⟩
  | 41 => ⟨S1048576x32, .f32⟩
  | 42 => ⟨S1048576x32, .f32⟩
  | 43 => ⟨S_, .f32⟩
  | 44 => ⟨S1048576x32, .f32⟩
  | 45 => ⟨S1048576x32, .f32⟩
  | 46 => ⟨S_, .f32⟩
  | 47 => ⟨S1048576x32, .f32⟩
  | 48 => ⟨S1048576x32, .f32⟩
  | 49 => ⟨S1048576x32, .f32⟩
  | 50 => ⟨S32x16, .f32⟩
  | 51 => ⟨S1048576x16, .f32⟩
  | 52 => ⟨S1x16, .f32⟩
  | 53 => ⟨S1048576x16, .f32⟩
  | 54 => ⟨S1048576x16, .f32⟩
  | 55 => ⟨S1048576x16, .f32⟩
  | 56 => ⟨S1048576x16, .f32⟩
  | 57 => ⟨S_, .f32⟩
  | 58 => ⟨S1048576x16, .f32⟩
  | 59 => ⟨S1048576x16, .f32⟩
  | 60 => ⟨S_, .f32⟩
  | 61 => ⟨S1048576x16, .f32⟩
  | 62 => ⟨S1048576x16, .f32⟩
  | 63 => ⟨S1048576x16, .f32⟩
  | _ => ⟨S1048576x16, .f32⟩

abbrev hbmTy (i : Nat) : BufTy := match i / 128 with
  | 0 => hbmTy0_0 i
  | 1 => hbmTy0_1 i
  | _ => ⟨S1048576x16, .f32⟩

abbrev bufTy : (tb : Table) → Fin (tcTables nBuf tb) → BufTy
  | .hbm, ⟨i, _⟩ => hbmTy i
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_cst_13 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_cst_20 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_21 : Ref sig .tc := ⟨.hbm, 122, rfl⟩
abbrev main_v88 : Ref sig .tc := ⟨.hbm, 123, rfl⟩
abbrev main_v89 : Ref sig .tc := ⟨.hbm, 124, rfl⟩
abbrev main_cst_22 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_23 : Ref sig .tc := ⟨.hbm, 129, rfl⟩
abbrev main_v93 : Ref sig .tc := ⟨.hbm, 130, rfl⟩
abbrev main_v94 : Ref sig .tc := ⟨.hbm, 131, rfl⟩
abbrev main_cst_24 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_25 : Ref sig .tc := ⟨.hbm, 136, rfl⟩
abbrev main_v98 : Ref sig .tc := ⟨.hbm, 137, rfl⟩
abbrev main_v99 : Ref sig .tc := ⟨.hbm, 138, rfl⟩
abbrev main_cst_26 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call1_v0 : Ref sig .tc := ⟨.hbm, 145, rfl⟩
abbrev main_call1_cst : Ref sig .tc := ⟨.hbm, 146, rfl⟩
abbrev main_call1_v1 : Ref sig .tc := ⟨.hbm, 147, rfl⟩
abbrev main_call1_v2 : Ref sig .tc := ⟨.hbm, 148, rfl⟩
abbrev main_v105 : Ref sig .tc := ⟨.hbm, 149, rfl⟩
abbrev main_cst_27 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_28 : Ref sig .tc := ⟨.hbm, 157, rfl⟩
abbrev main_v112 : Ref sig .tc := ⟨.hbm, 158, rfl⟩
abbrev main_v113 : Ref sig .tc := ⟨.hbm, 159, rfl⟩
abbrev main_cst_29 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_30 : Ref sig .tc := ⟨.hbm, 171, rfl⟩
abbrev main_v124 : Ref sig .tc := ⟨.hbm, 172, rfl⟩
abbrev main_v125 : Ref sig .tc := ⟨.hbm, 173, rfl⟩
abbrev main_cst_31 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_32 : Ref sig .tc := ⟨.hbm, 185, rfl⟩
abbrev main_v136 : Ref sig .tc := ⟨.hbm, 186, rfl⟩
abbrev main_v137 : Ref sig .tc := ⟨.hbm, 187, rfl⟩
abbrev main_cst_33 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩

abbrev nD : Nat := 1
abbrev τ : Topo := Topo.v7x

variable {F : FTy → Type} [FloatOps F]

class Facts₀ : Prop where
  transposes_S16x16_S16x16_1_0 : S16x16.Transposes [1, 0] S16x16
  bcast_S_S1048576x16 : S_.BroadcastsInDim S1048576x16 (![] : Fin 0 → Fin S1048576x16.rank)
  reducesTo_S1048576x16_S1048576_d1 : S1048576x16.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x16_0_1 : S1048576x1.BroadcastsInDim S1048576x16 (![0, 1] : Fin 2 → Fin S1048576x16.rank)
  transposes_S32x16_S16x32_1_0 : S32x16.Transposes [1, 0] S16x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  transposes_S16x32_S32x16_1_0 : S16x32.Transposes [1, 0] S32x16
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  reducesTo_S1048576x16_S_d0_1 : S1048576x16.ReducesTo [0, 1] S_
  reducesTo_S1048576x16_S16_d0 : S1048576x16.ReducesTo [0] S16
  shapeCasts_S16_S1x16 : S16.ShapeCasts S1x16
  reducesTo_S1x16_S16_d0 : S1x16.ReducesTo [0] S16
  reducesTo_S1048576x32_S32_d0 : S1048576x32.ReducesTo [0] S32
  shapeCasts_S32_S1x32 : S32.ShapeCasts S1x32
  reducesTo_S1x32_S32_d0 : S1x32.ReducesTo [0] S32
  bcast_S_S32x16 : S_.BroadcastsInDim S32x16 (![] : Fin 0 → Fin S32x16.rank)
  bcast_S_S32 : S_.BroadcastsInDim S32 (![] : Fin 0 → Fin S32.rank)
  bcast_S_S16x32 : S_.BroadcastsInDim S16x32 (![] : Fin 0 → Fin S16x32.rank)
  bcast_S_S16 : S_.BroadcastsInDim S16 (![] : Fin 0 → Fin S16.rank)
  dot_S1048576x16_S16x16_S1048576x16_1_0_0_1_n_n_wf : DotDims.WF S1048576x16 S16x16 S1048576x16 [1] [0] [0] [1] [] []
  dot_S1048576x16_S16x32_S1048576x32_1_0_0_1_n_n_wf : DotDims.WF S1048576x16 S16x32 S1048576x32 [1] [0] [0] [1] [] []
  dot_S1048576x32_S32x16_S1048576x16_1_0_0_1_n_n_wf : DotDims.WF S1048576x32 S32x16 S1048576x16 [1] [0] [0] [1] [] []
  dot_S1048576x16_S1048576x32_S16x32_0_0_1_1_n_n_wf : DotDims.WF S1048576x16 S1048576x32 S16x32 [0] [0] [1] [1] [] []
  dot_S1048576x16_S32x16_S1048576x32_1_1_0_0_n_n_wf : DotDims.WF S1048576x16 S32x16 S1048576x32 [1] [1] [0] [0] [] []
  dot_S1048576x32_S1048576x16_S32x16_0_0_1_1_n_n_wf : DotDims.WF S1048576x32 S1048576x16 S32x16 [0] [0] [1] [1] [] []

variable [Facts₀]

def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf
def dot_S1048576x16_S16x32_S1048576x32_1_0_0_1_n_n : DotDims S1048576x16 S16x32 S1048576x32 where
  lhsContracting := [1]
  rhsContracting := [0]
  lhsNonContracting := [0]
  rhsNonContracting := [1]
  lhsBatch := []
  rhsBatch := []
  wf := dot_S1048576x16_S16x32_S1048576x32_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def dot_S1048576x16_S1048576x32_S16x32_0_0_1_1_n_n : DotDims S1048576x16 S1048576x32 S16x32 where
  lhsContracting := [0]
  rhsContracting := [0]
  lhsNonContracting := [1]
  rhsNonContracting := [1]
  lhsBatch := []
  rhsBatch := []
  wf := dot_S1048576x16_S1048576x32_S16x32_0_0_1_1_n_n_wf
def dot_S1048576x16_S32x16_S1048576x32_1_1_0_0_n_n : DotDims S1048576x16 S32x16 S1048576x32 where
  lhsContracting := [1]
  rhsContracting := [1]
  lhsNonContracting := [0]
  rhsNonContracting := [0]
  lhsBatch := []
  rhsBatch := []
  wf := dot_S1048576x16_S32x16_S1048576x32_1_1_0_0_n_n_wf
def dot_S1048576x32_S1048576x16_S32x16_0_0_1_1_n_n : DotDims S1048576x32 S1048576x16 S32x16 where
  lhsContracting := [0]
  rhsContracting := [0]
  lhsNonContracting := [1]
  rhsNonContracting := [1]
  lhsBatch := []
  rhsBatch := []
  wf := dot_S1048576x32_S1048576x16_S32x16_0_0_1_1_n_n_wf

class Facts : Prop extends Facts₀ where

variable [Facts]
-- ==== Proof.KRun.lean ====
/-
  The idealized kernel's run with its result named.  The program is two pipelined regions among two stretches of
  host operations; the buffers' contents at the four boundaries are a fold from the launch memory, and the last stage
  of the fold gives every unscoped buffer at the return.  Read at the result buffer this is the array the second
  region's write-backs leave; read at an argument it is the argument as launched.
-/
import proofs.«144527_j2001454760825_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the result buffer then holds
    the last stage of the boundary fold read at it, and the eight arguments are as launched. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Gen

end
-- ==== Proof.RefRun1.lean ====
/-
  The reference program's operations 0 to 47, cut into short lines: after each line, started from any contents at
  which the buffers written earlier hold their stages of the arguments, every buffer still to be read holds its stage.
-/
import proofs.«144527_j2001454760825_2_alg».proof.Proof.RefOps
import proofs.«144527_j2001454760825_2_alg».proof.Proof.RefRead

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 0 to 11 of @main. -/
abbrev ops00 : List (HloOp τ sig (Elt F)) :=
  [ unary main_arg6 main_v0 ((transpose S16x16 [1, 0] · transposes_S16x16_S16x16_1_0) : (⟨S16x16, .f32⟩ : BufTy).Contents (Elt F) → (⟨S16x16, .f32⟩ : BufTy).Contents (Elt F)),
    binary main_arg0 main_v0 main_v1 ((fun l r => Host.dotGeneral dot_S1048576x16_S16x16_S1048576x16_1_0_0_1_n_n none l r) : (⟨S1048576x16, .f32⟩ : BufTy).Contents (Elt F) → (⟨S16x16, .f32⟩ : BufTy).Contents (Elt F) → (⟨S1048576x16, .f32⟩ : BufTy).Contents (Elt F)),
    unary main_v1 main_v2 (Host.negf : (⟨S1048576x16, .f32⟩ : BufTy).Contents (Elt F) → (⟨S1048576x16, .f32⟩ : BufTy).Contents (Elt F)),
    unary main_v2 main_v3 (Host.exp : (⟨S1048576x16, .f32⟩ : BufTy).Contents (Elt F) → (⟨S1048576x16, .f32⟩ : BufTy).Contents (Elt F)),
    nullary main_cst (constant S_ .f32 0x3F800000#32),
    unary main_cst main_v4 (broadcastInDim S1048576x16 ![] bcast_S_S1048576x16 : (⟨S_, .f32⟩ : BufTy).Contents (Elt F) → (⟨S1048576x16, .f32⟩ : BufTy).Contents (Elt F)),
    binary main_v4 main_v3 main_v5 (addf : (⟨S1048576x16, .f32⟩ : BufTy).Contents (Elt F) → (⟨S1048576x16, .f32⟩ : BufTy).Contents (Elt F) → (⟨S1048576x16, .f32⟩ : BufTy).Contents (Elt F)),
    nullary main_cst_0 (constant S_ .f32 0x3F800000#32),
    unary main_cst_0 main_v6 (broadcastInDim S1048576x16 ![] bcast_S_S1048576x16 : (⟨S_, .f32⟩ : BufTy).Contents (Elt F) → (⟨S1048576x16, .f32⟩ : BufTy).Contents (Elt F)),
    binary main_v6 main_v5 main_v7 (Host.divf : (⟨S1048576x16, .f32⟩ : BufTy).Contents (Elt F) → (⟨S1048576x16, .f32⟩ : BufTy).Contents (Elt F) → (⟨S1048576x16, .f32⟩ : BufTy).Contents (Elt F)),
    binary main_v1 main_v7 main_v8 (mulf : (⟨S1048576x16, .f32⟩ : BufTy).Contents (Elt F) → (⟨S1048576x16, .f32⟩ : BufTy).Contents (Elt F) → (⟨S1048576x16, .f32⟩ : BufTy).Contents (Elt F)),
    unary main_arg7 main_v9 ((transpose S16x16 [1, 0] · transposes_S16x16_S16x16_1_0) : (⟨S16x16, .f32⟩ : BufTy).Contents (Elt F) → (⟨S16x16, .f32⟩ : BufTy).Contents (Elt F)) ]

set_option maxHeartbeats 1000000 in
/-- After operations 0 to 11, every buffer still to be read holds its stage of the arguments. -/
theorem step00 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7) :
    (after (ops00 (F := F)) W (Proc.devRef .tc main_arg0) = x0)
    ∧ (after (ops00 (F := F)) W (Proc.devRef .tc main_arg1) = x1)
    ∧ (after (ops00 (F := F)) W (Proc.devRef .tc main_arg2) = x2)
    ∧ (after (ops00 (F := F)) W (Proc.devRef .tc main_arg3) = x3)
    ∧ (after (ops00 (F := F)) W (Proc.devRef .tc main_arg4) = x4)
    ∧ (after (ops00 (F := F)) W (Proc.devRef .tc main_arg5) = x5)
    ∧ (after (ops00 (F := F)) W (Proc.devRef .tc main_arg6) = x6)
    ∧ (after (ops00 (F := F)) W (Proc.devRef .tc main_arg7) = x7)
    ∧ (after (ops00 (F := F)) W (Proc.devRef .tc main_v8) = val_main_v8 (F := F) x0 x6)
    ∧ (after (ops00 (F := F)) W (Proc.devRef .tc main_v9) = val_main_v9 (F := F) x7) := by
  refine ⟨?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    try simp only [h_arg0, h_arg1, h_arg2, h_arg3, h_arg4, h_arg5, h_arg6, h_arg7]
    rfl
  · after_results_simp
    try simp only [h_arg0, h_arg1, h_arg2, h_arg3, h_arg4, h_arg5, h_arg6, h_arg7]
    rfl

/-- Operations 12 to 23 of @main. -/
abbrev ops01 : List (HloOp τ sig (Elt F)) :=
  [ binary main_arg0 main_v9 main_v10 ((fun l r => Host.dotGeneral dot_S1048576x16_S16x16_S1048576x16_1_0_0_1_n_n none l r) : (⟨S1048576x16, .f32⟩ : BufTy).Contents (Elt F) → (⟨S16x16, .f32⟩ : BufTy).Contents (Elt F) → (⟨S1048576x16, .f32⟩ : BufTy).Contents (Elt F)),
    unary main_v10 main_v11 (Host.negf : (⟨S1048576x16, .f32⟩ : BufTy).Contents (Elt F) → (⟨S1048576x16, .f32⟩ : BufTy).Contents (Elt F)),
    unary main_v11 main_v12 (Host.exp : (⟨S1048576x16, .f32⟩ : BufTy).Contents (Elt F) → (⟨S1048576x16, .f32⟩ : BufTy).Contents (Elt F)),
    nullary main_cst_1 (constant S_ .f32 0x3F800000#32),
    unary main_cst_1 main_v13 (broadcastInDim S1048576x16 ![] bcast_S_S1048576x16 : (⟨S_, .f32⟩ : BufTy).Contents (Elt F) → (⟨S1048576x16, .f32⟩ : BufTy).Contents (Elt F)),
    binary main_v13 main_v12 main_v14 (addf : (⟨S1048576x16, .f32⟩ : BufTy).Contents (Elt F) → (⟨S1048576x16, .f32⟩ : BufTy).Contents (Elt F) → (⟨S1048576x16, .f32⟩ : BufTy).Contents (Elt F)),
    nullary main_cst_2 (constant S_ .f32 0x3F800000#32),
    unary main_cst_2 main_v15 (broadcastInDim S1048576x16 ![] bcast_S_S1048576x16 : (⟨S_, .f32⟩ : BufTy).Contents (Elt F) → (⟨S1048576x16, .f32⟩ : BufTy).Contents (Elt F)),
    binary main_v15 main_v14 main_v16 (Host.divf : (⟨S1048576x16, .f32⟩ : BufTy).Contents (Elt F) → (⟨S1048576x16, .f32⟩ : BufTy).Contents (Elt F) → (⟨S1048576x16, .f32⟩ : BufTy).Contents (Elt F)),
    binary main_v10 main_v16 main_v17 (mulf : (⟨S1048576x16, .f32⟩ : BufTy).Contents (Elt F) → (⟨S1048576x16, .f32⟩ : BufTy).Contents (Elt F) → (⟨S1048576x16, .f32⟩ : BufTy).Contents (Elt F)),
    TRef.binary (TRef.of (T := ⟨S1048576x16, .f32⟩) main_v17) (TRef.of (T := ⟨S1048576x16, .f32⟩) main_v17) (TRef.of (T := ⟨S1048576x16, .f32⟩) main_call0_v0) mulf,
    TRef.nullary (TRef.of (T := ⟨S_, .f32⟩) main_call0_cst) (constant S_ .f32 0x00000000#32) ]

set_option maxHeartbeats 1000000 in
/-- After operations 12 to 23, every buffer still to be read holds its stage of the arguments. -/
theorem step01 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v8 : W (Proc.devRef .tc main_v8) = val_main_v8 (F := F) x0 x6)
    (h_v9 : W (Proc.devRef .tc main_v9) = val_main_v9 (F := F) x7) :
    (after (ops01 (F := F)) W (Proc.devRef .tc main_arg0) = x0)
    ∧ (after (ops01 (F := F)) W (Proc.devRef .tc main_arg1) = x1)
    ∧ (after (ops01 (F := F)) W (Proc.devRef .tc main_arg2) = x2)
    ∧ (after (ops01 (F := F)) W (Proc.devRef .tc main_arg3) = x3)
    ∧ (after (ops01 (F := F)) W (Proc.devRef .tc main_arg4) = x4)
    ∧ (after (ops01 (F := F)) W (Proc.devRef .tc main_arg5) = x5)
    ∧ (after (ops01 (F := F)) W (Proc.devRef .tc main_arg6) = x6)
    ∧ (after (ops01 (F := F)) W (Proc.devRef .tc main_arg7) = x7)
    ∧ (after (ops01 (F := F)) W (Proc.devRef .tc main_v8) = val_main_v8 (F := F) x0 x6)
    ∧ (after (ops01 (F := F)) W (Proc.devRef .tc main_v17) = val_main_v17 (F := F) x0 x7)
    ∧ (after (ops01 (F := F)) W (Proc.devRef .tc main_call0_v0) = val_main_call0_v0 (F := F) x0 x7)
    ∧ (after (ops01 (F := F)) W (Proc.devRef .tc main_call0_cst) = val_main_call0_cst (F := F)) := by
  refine ⟨?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v8
  · after_results_simp
    try simp only [h_arg0, h_arg1, h_arg2, h_arg3, h_arg4, h_arg5, h_arg6, h_arg7, h_v8, h_v9]
    rfl
  · after_results_simp
    try simp only [h_arg0, h_arg1, h_arg2, h_arg3, h_arg4, h_arg5, h_arg6, h_arg7, h_v8, h_v9]
    rfl
  · after_results_simp
    try simp only [h_arg0, h_arg1, h_arg2, h_arg3, h_arg4, h_arg5, h_arg6, h_arg7, h_v8, h_v9]
    rfl

/-- Operations 24 to 35 of @main. -/
abbrev ops02 : List (HloOp τ sig (Elt F)) :=
  [ TRef.binary (TRef.of (T := ⟨S1048576x16, .f32⟩) main_call0_v0) (TRef.of (T := ⟨S_, .f32⟩) main_call0_cst) (TRef.of (T := ⟨S1048576, .f32⟩) main_call0_v1) (fun x v => Host.reduceAdd x v reducesTo_S1048576x16_S1048576_d1 h_S_),
    TRef.unary (TRef.of (T := ⟨S1048576, .f32⟩) main_call0_v1) (TRef.of (T := ⟨S1048576x1, .f32⟩) main_call0_v2) (broadcastInDim S1048576x1 ![0] bcast_S1048576_S1048576x1_0),
    TRef.unary (TRef.of (T := ⟨S1048576x1, .f32⟩) main_call0_v2) (TRef.of (T := ⟨S1048576x1, .f32⟩) main_v18) Host.sqrt,
    nullary main_cst_3 (constant S_ .f32 0x2B8CBCCC#32),
    unary main_cst_3 main_v19 (broadcastInDim S1048576x1 ![] bcast_S_S1048576x1 : (⟨S_, .f32⟩ : BufTy).Contents (Elt F) → (⟨S1048576x1, .f32⟩ : BufTy).Contents (Elt F)),
    binary main_v18 main_v19 main_v20 (maximumf : (⟨S1048576x1, .f32⟩ : BufTy).Contents (Elt F) → (⟨S1048576x1, .f32⟩ : BufTy).Contents (Elt F) → (⟨S1048576x1, .f32⟩ : BufTy).Contents (Elt F)),
    unary main_v20 main_v21 (broadcastInDim S1048576x16 ![0, 1] bcast_S1048576x1_S1048576x16_0_1 : (⟨S1048576x1, .f32⟩ : BufTy).Contents (Elt F) → (⟨S1048576x16, .f32⟩ : BufTy).Contents (Elt F)),
    binary main_v17 main_v21 main_v22 (Host.divf : (⟨S1048576x16, .f32⟩ : BufTy).Contents (Elt F) → (⟨S1048576x16, .f32⟩ : BufTy).Contents (Elt F) → (⟨S1048576x16, .f32⟩ : BufTy).Contents (Elt F)),
    unary main_arg1 main_v23 ((transpose S16x32 [1, 0] · transposes_S32x16_S16x32_1_0) : (⟨S32x16, .f32⟩ : BufTy).Contents (Elt F) → (⟨S16x32, .f32⟩ : BufTy).Contents (Elt F)),
    binary main_v22 main_v23 main_v24 ((fun l r => Host.dotGeneral dot_S1048576x16_S16x32_S1048576x32_1_0_0_1_n_n none l r) : (⟨S1048576x16, .f32⟩ : BufTy).Contents (Elt F) → (⟨S16x32, .f32⟩ : BufTy).Contents (Elt F) → (⟨S1048576x32, .f32⟩ : BufTy).Contents (Elt F)),
    unary main_arg2 main_v25 (broadcastInDim S1x32 ![1] bcast_S32_S1x32_1 : (⟨S32, .f32⟩ : BufTy).Contents (Elt F) → (⟨S1x32, .f32⟩ : BufTy).Contents (Elt F)),
    unary main_v25 main_v26 (broadcastInDim S1048576x32 ![0, 1] bcast_S1x32_S1048576x32_0_1 : (⟨S1x32, .f32⟩ : BufTy).Contents (Elt F) → (⟨S1048576x32, .f32⟩ : BufTy).Contents (Elt F)) ]

set_option maxHeartbeats 1000000 in
/-- After operations 24 to 35, every buffer still to be read holds its stage of the arguments. -/
theorem step02 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v8 : W (Proc.devRef .tc main_v8) = val_main_v8 (F := F) x0 x6)
    (h_v17 : W (Proc.devRef .tc main_v17) = val_main_v17 (F := F) x0 x7)
    (h_call0_v0 : W (Proc.devRef .tc main_call0_v0) = val_main_call0_v0 (F := F) x0 x7)
    (h_call0_cst : W (Proc.devRef .tc main_call0_cst) = val_main_call0_cst (F := F)) :
    (after (ops02 (F := F)) W (Proc.devRef .tc main_arg0) = x0)
    ∧ (after (ops02 (F := F)) W (Proc.devRef .tc main_arg1) = x1)
    ∧ (after (ops02 (F := F)) W (Proc.devRef .tc main_arg2) = x2)
    ∧ (after (ops02 (F := F)) W (Proc.devRef .tc main_arg3) = x3)
    ∧ (after (ops02 (F := F)) W (Proc.devRef .tc main_arg4) = x4)
    ∧ (after (ops02 (F := F)) W (Proc.devRef .tc main_arg5) = x5)
    ∧ (after (ops02 (F := F)) W (Proc.devRef .tc main_arg6) = x6)
    ∧ (after (ops02 (F := F)) W (Proc.devRef .tc main_arg7) = x7)
    ∧ (after (ops02 (F := F)) W (Proc.devRef .tc main_v8) = val_main_v8 (F := F) x0 x6)
    ∧ (after (ops02 (F := F)) W (Proc.devRef .tc main_v22) = val_main_v22 (F := F) x0 x7)
    ∧ (after (ops02 (F := F)) W (Proc.devRef .tc main_v24) = val_main_v24 (F := F) x0 x1 x7)
    ∧ (after (ops02 (F := F)) W (Proc.devRef .tc main_v26) = val_main_v26 (F := F) x2) := by
  refine ⟨?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v8
  · after_results_simp
    try simp only [h_arg0, h_arg1, h_arg2, h_arg3, h_arg4, h_arg5, h_arg6, h_arg7, h_v8, h_v17, h_call0_v0, h_call0_cst]
    rfl
  · after_results_simp
    try simp only [h_arg0, h_arg1, h_arg2, h_arg3, h_arg4, h_arg5, h_arg6, h_arg7, h_v8, h_v17, h_call0_v0, h_call0_cst]
    rfl
  · after_results_simp
    try simp only [h_arg0, h_arg1, h_arg2, h_arg3, h_arg4, h_arg5, h_arg6, h_arg7, h_v8, h_v17, h_call0_v0, h_call0_cst]
    rfl

/-- Operations 36 to 47 of @main. -/
abbrev ops03 : List (HloOp τ sig (Elt F)) :=
  [ binary main_v24 main_v26 main_v27 (addf : (⟨S1048576x32, .f32⟩ : BufTy).Contents (Elt F) → (⟨S1048576x32, .f32⟩ : BufTy).Contents (Elt F) → (⟨S1048576x32, .f32⟩ : BufTy).Contents (Elt F)),
    unary main_v27 main_v28 (Host.negf : (⟨S1048576x32, .f32⟩ : BufTy).Contents (Elt F) → (⟨S1048576x32, .f32⟩ : BufTy).Contents (Elt F)),
    unary main_v28 main_v29 (Host.exp : (⟨S1048576x32, .f32⟩ : BufTy).Contents (Elt F) → (⟨S1048576x32, .f32⟩ : BufTy).Contents (Elt F)),
    nullary main_cst_4 (constant S_ .f32 0x3F800000#32),
    unary main_cst_4 main_v30 (broadcastInDim S1048576x32 ![] bcast_S_S1048576x32 : (⟨S_, .f32⟩ : BufTy).Contents (Elt F) → (⟨S1048576x32, .f32⟩ : BufTy).Contents (Elt F)),
    binary main_v30 main_v29 main_v31 (addf : (⟨S1048576x32, .f32⟩ : BufTy).Contents (Elt F) → (⟨S1048576x32, .f32⟩ : BufTy).Contents (Elt F) → (⟨S1048576x32, .f32⟩ : BufTy).Contents (Elt F)),
    nullary main_cst_5 (constant S_ .f32 0x3F800000#32),
    unary main_cst_5 main_v32 (broadcastInDim S1048576x32 ![] bcast_S_S1048576x32 : (⟨S_, .f32⟩ : BufTy).Contents (Elt F) → (⟨S1048576x32, .f32⟩ : BufTy).Contents (Elt F)),
    binary main_v32 main_v31 main_v33 (Host.divf : (⟨S1048576x32, .f32⟩ : BufTy).Contents (Elt F) → (⟨S1048576x32, .f32⟩ : BufTy).Contents (Elt F) → (⟨S1048576x32, .f32⟩ : BufTy).Contents (Elt F)),
    nullary main_cst_6 (constant S_ .f32 0x3F800000#32),
    unary main_cst_6 main_v34 (broadcastInDim S1048576x32 ![] bcast_S_S1048576x32 : (⟨S_, .f32⟩ : BufTy).Contents (Elt F) → (⟨S1048576x32, .f32⟩ : BufTy).Contents (Elt F)),
    binary main_v34 main_v33 main_v35 (subf : (⟨S1048576x32, .f32⟩ : BufTy).Contents (Elt F) → (⟨S1048576x32, .f32⟩ : BufTy).Contents (Elt F) → (⟨S1048576x32, .f32⟩ : BufTy).Contents (Elt F)) ]

set_option maxHeartbeats 1000000 in
/-- After operations 36 to 47, every buffer still to be read holds its stage of the arguments. -/
theorem step03 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v8 : W (Proc.devRef .tc main_v8) = val_main_v8 (F := F) x0 x6)
    (h_v22 : W (Proc.devRef .tc main_v22) = val_main_v22 (F := F) x0 x7)
    (h_v24 : W (Proc.devRef .tc main_v24) = val_main_v24 (F := F) x0 x1 x7)
    (h_v26 : W (Proc.devRef .tc main_v26) = val_main_v26 (F := F) x2) :
    (after (ops03 (F := F)) W (Proc.devRef .tc main_arg0) = x0)
    ∧ (after (ops03 (F := F)) W (Proc.devRef .tc main_arg1) = x1)
    ∧ (after (ops03 (F := F)) W (Proc.devRef .tc main_arg2) = x2)
    ∧ (after (ops03 (F := F)) W (Proc.devRef .tc main_arg3) = x3)
    ∧ (after (ops03 (F := F)) W (Proc.devRef .tc main_arg4) = x4)
    ∧ (after (ops03 (F := F)) W (Proc.devRef .tc main_arg5) = x5)
    ∧ (after (ops03 (F := F)) W (Proc.devRef .tc main_arg6) = x6)
    ∧ (after (ops03 (F := F)) W (Proc.devRef .tc main_arg7) = x7)
    ∧ (after (ops03 (F := F)) W (Proc.devRef .tc main_v8) = val_main_v8 (F := F) x0 x6)
    ∧ (after (ops03 (F := F)) W (Proc.devRef .tc main_v22) = val_main_v22 (F := F) x0 x7)
    ∧ (after (ops03 (F := F)) W (Proc.devRef .tc main_v27) = val_main_v27 (F := F) x0 x1 x2 x7)
    ∧ (after (ops03 (F := F)) W (Proc.devRef .tc main_v33) = val_main_v33 (F := F) x0 x1 x2 x7)
    ∧ (after (ops03 (F := F)) W (Proc.devRef .tc main_v35) = val_main_v35 (F := F) x0 x1 x2 x7) := by
  refine ⟨?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v8
  · after_results_simp
    exact h_v22
  · after_results_simp
    try simp only [h_arg0, h_arg1, h_arg2, h_arg3, h_arg4, h_arg5, h_arg6, h_arg7, h_v8, h_v22, h_v24, h_v26]
    rfl
  · after_results_simp
    try simp only [h_arg0, h_arg1, h_arg2, h_arg3, h_arg4, h_arg5, h_arg6, h_arg7, h_v8, h_v22, h_v24, h_v26]
    rfl
  · after_results_simp
    try simp only [h_arg0, h_arg1, h_arg2, h_arg3, h_arg4, h_arg5, h_arg6, h_arg7, h_v8, h_v22, h_v24, h_v26]
    rfl

end Cert.RefSide

end
-- ==== Proof.RefRun2.lean ====
/-
  The reference program's operations 48 to 95, cut into short lines: after each line, started from any contents at
  which the buffers written earlier hold their stages of the arguments, every buffer still to be read holds its stage.
-/
import proofs.«144527_j2001454760825_2_alg».proof.Proof.RefOps
import proofs.«144527_j2001454760825_2_alg».proof.Proof.RefRead

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 48 to 59 of @main. -/
abbrev ops04 : List (HloOp τ sig (Elt F)) :=
  [ binary main_v33 main_v35 main_v36 (mulf : (⟨S1048576x32, .f32⟩ : BufTy).Contents (Elt F) → (⟨S1048576x32, .f32⟩ : BufTy).Contents (Elt F) → (⟨S1048576x32, .f32⟩ : BufTy).Contents (Elt F)),
    binary main_v27 main_v33 main_v37 (mulf : (⟨S1048576x32, .f32⟩ : BufTy).Contents (Elt F) → (⟨S1048576x32, .f32⟩ : BufTy).Contents (Elt F) → (⟨S1048576x32, .f32⟩ : BufTy).Contents (Elt F)),
    unary main_arg3 main_v38 ((transpose S32x16 [1, 0] · transposes_S16x32_S32x16_1_0) : (⟨S16x32, .f32⟩ : BufTy).Contents (Elt F) → (⟨S32x16, .f32⟩ : BufTy).Contents (Elt F)),
    binary main_v37 main_v38 main_v39 ((fun l r => Host.dotGeneral dot_S1048576x32_S32x16_S1048576x16_1_0_0_1_n_n none l r) : (⟨S1048576x32, .f32⟩ : BufTy).Contents (Elt F) → (⟨S32x16, .f32⟩ : BufTy).Contents (Elt F) → (⟨S1048576x16, .f32⟩ : BufTy).Contents (Elt F)),
    unary main_arg4 main_v40 (broadcastInDim S1x16 ![1] bcast_S16_S1x16_1 : (⟨S16, .f32⟩ : BufTy).Contents (Elt F) → (⟨S1x16, .f32⟩ : BufTy).Contents (Elt F)),
    unary main_v40 main_v41 (broadcastInDim S1048576x16 ![0, 1] bcast_S1x16_S1048576x16_0_1 : (⟨S1x16, .f32⟩ : BufTy).Contents (Elt F) → (⟨S1048576x16, .f32⟩ : BufTy).Contents (Elt F)),
    binary main_v39 main_v41 main_v42 (addf : (⟨S1048576x16, .f32⟩ : BufTy).Contents (Elt F) → (⟨S1048576x16, .f32⟩ : BufTy).Contents (Elt F) → (⟨S1048576x16, .f32⟩ : BufTy).Contents (Elt F)),
    unary main_v42 main_v43 (Host.negf : (⟨S1048576x16, .f32⟩ : BufTy).Contents (Elt F) → (⟨S1048576x16, .f32⟩ : BufTy).Contents (Elt F)),
    unary main_v43 main_v44 (Host.exp : (⟨S1048576x16, .f32⟩ : BufTy).Contents (Elt F) → (⟨S1048576x16, .f32⟩ : BufTy).Contents (Elt F)),
    nullary main_cst_7 (constant S_ .f32 0x3F800000#32),
    unary main_cst_7 main_v45 (broadcastInDim S1048576x16 ![] bcast_S_S1048576x16 : (⟨S_, .f32⟩ : BufTy).Contents (Elt F) → (⟨S1048576x16, .f32⟩ : BufTy).Contents (Elt F)),
    binary main_v45 main_v44 main_v46 (addf : (⟨S1048576x16, .f32⟩ : BufTy).Contents (Elt F) → (⟨S1048576x16, .f32⟩ : BufTy).Contents (Elt F) → (⟨S1048576x16, .f32⟩ : BufTy).Contents (Elt F)) ]

set_option maxHeartbeats 1000000 in
/-- After operations 48 to 59, every buffer still to be read holds its stage of the arguments. -/
theorem step04 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v8 : W (Proc.devRef .tc main_v8) = val_main_v8 (F := F) x0 x6)
    (h_v22 : W (Proc.devRef .tc main_v22) = val_main_v22 (F := F) x0 x7)
    (h_v27 : W (Proc.devRef .tc main_v27) = val_main_v27 (F := F) x0 x1 x2 x7)
    (h_v33 : W (Proc.devRef .tc main_v33) = val_main_v33 (F := F) x0 x1 x2 x7)
    (h_v35 : W (Proc.devRef .tc main_v35) = val_main_v35 (F := F) x0 x1 x2 x7) :
    (after (ops04 (F := F)) W (Proc.devRef .tc main_arg0) = x0)
    ∧ (after (ops04 (F := F)) W (Proc.devRef .tc main_arg1) = x1)
    ∧ (after (ops04 (F := F)) W (Proc.devRef .tc main_arg2) = x2)
    ∧ (after (ops04 (F := F)) W (Proc.devRef .tc main_arg3) = x3)
    ∧ (after (ops04 (F := F)) W (Proc.devRef .tc main_arg4) = x4)
    ∧ (after (ops04 (F := F)) W (Proc.devRef .tc main_arg5) = x5)
    ∧ (after (ops04 (F := F)) W (Proc.devRef .tc main_arg6) = x6)
    ∧ (after (ops04 (F := F)) W (Proc.devRef .tc main_arg7) = x7)
    ∧ (after (ops04 (F := F)) W (Proc.devRef .tc main_v8) = val_main_v8 (F := F) x0 x6)
    ∧ (after (ops04 (F := F)) W (Proc.devRef .tc main_v22) = val_main_v22 (F := F) x0 x7)
    ∧ (after (ops04 (F := F)) W (Proc.devRef .tc main_v27) = val_main_v27 (F := F) x0 x1 x2 x7)
    ∧ (after (ops04 (F := F)) W (Proc.devRef .tc main_v33) = val_main_v33 (F := F) x0 x1 x2 x7)
    ∧ (after (ops04 (F := F)) W (Proc.devRef .tc main_v36) = val_main_v36 (F := F) x0 x1 x2 x7)
    ∧ (after (ops04 (F := F)) W (Proc.devRef .tc main_v37) = val_main_v37 (F := F) x0 x1 x2 x7)
    ∧ (after (ops04 (F := F)) W (Proc.devRef .tc main_v38) = val_main_v38 (F := F) x3)
    ∧ (after (ops04 (F := F)) W (Proc.devRef .tc main_v42) = val_main_v42 (F := F) x0 x1 x2 x3 x4 x7)
    ∧ (after (ops04 (F := F)) W (Proc.devRef .tc main_v46) = val_main_v46 (F := F) x0 x1 x2 x3 x4 x7) := by
  refine ⟨?_, ?_, ?_, ?_, ?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v8
  · after_results_simp
    exact h_v22
  · after_results_simp
    exact h_v27
  · after_results_simp
    exact h_v33
  · after_results_simp
    try simp only [h_arg0, h_arg1, h_arg2, h_arg3, h_arg4, h_arg5, h_arg6, h_arg7, h_v8, h_v22, h_v27, h_v33, h_v35]
    rfl
  · after_results_simp
    try simp only [h_arg0, h_arg1, h_arg2, h_arg3, h_arg4, h_arg5, h_arg6, h_arg7, h_v8, h_v22, h_v27, h_v33, h_v35]
    rfl
  · after_results_simp
    try simp only [h_arg0, h_arg1, h_arg2, h_arg3, h_arg4, h_arg5, h_arg6, h_arg7, h_v8, h_v22, h_v27, h_v33, h_v35]
    rfl
  · after_results_simp
    try simp only [h_arg0, h_arg1, h_arg2, h_arg3, h_arg4, h_arg5, h_arg6, h_arg7, h_v8, h_v22, h_v27, h_v33, h_v35]
    rfl
  · after_results_simp
    try simp only [h_arg0, h_arg1, h_arg2, h_arg3, h_arg4, h_arg5, h_arg6, h_arg7, h_v8, h_v22, h_v27, h_v33, h_v35]
    rfl

/-- Operations 60 to 71 of @main. -/
abbrev ops05 : List (HloOp τ sig (Elt F)) :=
  [ nullary main_cst_8 (constant S_ .f32 0x3F800000#32),
    unary main_cst_8 main_v47 (broadcastInDim S1048576x16 ![] bcast_S_S1048576x16 : (⟨S_, .f32⟩ : BufTy).Contents (Elt F) → (⟨S1048576x16, .f32⟩ : BufTy).Contents (Elt F)),
    binary main_v47 main_v46 main_v48 (Host.divf : (⟨S1048576x16, .f32⟩ : BufTy).Contents (Elt F) → (⟨S1048576x16, .f32⟩ : BufTy).Contents (Elt F) → (⟨S1048576x16, .f32⟩ : BufTy).Contents (Elt F)),
    nullary main_cst_9 (constant S_ .f32 0x3F800000#32),
    unary main_cst_9 main_v49 (broadcastInDim S1048576x16 ![] bcast_S_S1048576x16 : (⟨S_, .f32⟩ : BufTy).Contents (Elt F) → (⟨S1048576x16, .f32⟩ : BufTy).Contents (Elt F)),
    binary main_v49 main_v48 main_v50 (subf : (⟨S1048576x16, .f32⟩ : BufTy).Contents (Elt F) → (⟨S1048576x16, .f32⟩ : BufTy).Contents (Elt F) → (⟨S1048576x16, .f32⟩ : BufTy).Contents (Elt F)),
    binary main_v48 main_v50 main_v51 (mulf : (⟨S1048576x16, .f32⟩ : BufTy).Contents (Elt F) → (⟨S1048576x16, .f32⟩ : BufTy).Contents (Elt F) → (⟨S1048576x16, .f32⟩ : BufTy).Contents (Elt F)),
    binary main_v42 main_v48 main_v52 (mulf : (⟨S1048576x16, .f32⟩ : BufTy).Contents (Elt F) → (⟨S1048576x16, .f32⟩ : BufTy).Contents (Elt F) → (⟨S1048576x16, .f32⟩ : BufTy).Contents (Elt F)),
    binary main_v52 main_v8 main_v53 (subf : (⟨S1048576x16, .f32⟩ : BufTy).Contents (Elt F) → (⟨S1048576x16, .f32⟩ : BufTy).Contents (Elt F) → (⟨S1048576x16, .f32⟩ : BufTy).Contents (Elt F)),
    binary main_v53 main_v53 main_v54 (mulf : (⟨S1048576x16, .f32⟩ : BufTy).Contents (Elt F) → (⟨S1048576x16, .f32⟩ : BufTy).Contents (Elt F) → (⟨S1048576x16, .f32⟩ : BufTy).Contents (Elt F)),
    nullary main_cst_10 (constant S_ .f32 0x40000000#32),
    unary main_cst_10 main_v55 (broadcastInDim S1048576x16 ![] bcast_S_S1048576x16 : (⟨S_, .f32⟩ : BufTy).Contents (Elt F) → (⟨S1048576x16, .f32⟩ : BufTy).Contents (Elt F)) ]

set_option maxHeartbeats 1000000 in
/-- After operations 60 to 71, every buffer still to be read holds its stage of the arguments. -/
theorem step05 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v8 : W (Proc.devRef .tc main_v8) = val_main_v8 (F := F) x0 x6)
    (h_v22 : W (Proc.devRef .tc main_v22) = val_main_v22 (F := F) x0 x7)
    (h_v27 : W (Proc.devRef .tc main_v27) = val_main_v27 (F := F) x0 x1 x2 x7)
    (h_v33 : W (Proc.devRef .tc main_v33) = val_main_v33 (F := F) x0 x1 x2 x7)
    (h_v36 : W (Proc.devRef .tc main_v36) = val_main_v36 (F := F) x0 x1 x2 x7)
    (h_v37 : W (Proc.devRef .tc main_v37) = val_main_v37 (F := F) x0 x1 x2 x7)
    (h_v38 : W (Proc.devRef .tc main_v38) = val_main_v38 (F := F) x3)
    (h_v42 : W (Proc.devRef .tc main_v42) = val_main_v42 (F := F) x0 x1 x2 x3 x4 x7)
    (h_v46 : W (Proc.devRef .tc main_v46) = val_main_v46 (F := F) x0 x1 x2 x3 x4 x7) :
    (after (ops05 (F := F)) W (Proc.devRef .tc main_arg0) = x0)
    ∧ (after (ops05 (F := F)) W (Proc.devRef .tc main_arg1) = x1)
    ∧ (after (ops05 (F := F)) W (Proc.devRef .tc main_arg2) = x2)
    ∧ (after (ops05 (F := F)) W (Proc.devRef .tc main_arg3) = x3)
    ∧ (after (ops05 (F := F)) W (Proc.devRef .tc main_arg4) = x4)
    ∧ (after (ops05 (F := F)) W (Proc.devRef .tc main_arg5) = x5)
    ∧ (after (ops05 (F := F)) W (Proc.devRef .tc main_arg6) = x6)
    ∧ (after (ops05 (F := F)) W (Proc.devRef .tc main_arg7) = x7)
    ∧ (after (ops05 (F := F)) W (Proc.devRef .tc main_v22) = val_main_v22 (F := F) x0 x7)
    ∧ (after (ops05 (F := F)) W (Proc.devRef .tc main_v27) = val_main_v27 (F := F) x0 x1 x2 x7)
    ∧ (after (ops05 (F := F)) W (Proc.devRef .tc main_v33) = val_main_v33 (F := F) x0 x1 x2 x7)
    ∧ (after (ops05 (F := F)) W (Proc.devRef .tc main_v36) = val_main_v36 (F := F) x0 x1 x2 x7)
    ∧ (after (ops05 (F := F)) W (Proc.devRef .tc main_v37) = val_main_v37 (F := F) x0 x1 x2 x7)
    ∧ (after (ops05 (F := F)) W (Proc.devRef .tc main_v38) = val_main_v38 (F := F) x3)
    ∧ (after (ops05 (F := F)) W (Proc.devRef .tc main_v42) = val_main_v42 (F := F) x0 x1 x2 x3 x4 x7)
    ∧ (after (ops05 (F := F)) W (Proc.devRef .tc main_v48) = val_main_v48 (F := F) x0 x1 x2 x3 x4 x7)
    ∧ (after (ops05 (F := F)) W (Proc.devRef .tc main_v51) = val_main_v51 (F := F) x0 x1 x2 x3 x4 x7)
    ∧ (after (ops05 (F := F)) W (Proc.devRef .tc main_v53) = val_main_v53 (F := F) x0 x1 x2 x3 x4 x6 x7)
    ∧ (after (ops05 (F := F)) W (Proc.devRef .tc main_v54) = val_main_v54 (F := F) x0 x1 x2 x3 x4 x6 x7)
    ∧ (after (ops05 (F := F)) W (Proc.devRef .tc main_v55) = val_main_v55 (F := F)) := by
  refine ⟨?_, ?_, ?_, ?_, ?_, ?_, ?_, ?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v22
  · after_results_simp
    exact h_v27
  · after_results_simp
    exact h_v33
  · after_results_simp
    exact h_v36
  · after_results_simp
    exact h_v37
  · after_results_simp
    exact h_v38
  · after_results_simp
    exact h_v42
  · after_results_simp
    try simp only [h_arg0, h_arg1, h_arg2, h_arg3, h_arg4, h_arg5, h_arg6, h_arg7, h_v8, h_v22, h_v27, h_v33, h_v36, h_v37, h_v38, h_v42, h_v46]
    rfl
  · after_results_simp
    try simp only [h_arg0, h_arg1, h_arg2, h_arg3, h_arg4, h_arg5, h_arg6, h_arg7, h_v8, h_v22, h_v27, h_v33, h_v36, h_v37, h_v38, h_v42, h_v46]
    rfl
  · after_results_simp
    try simp only [h_arg0, h_arg1, h_arg2, h_arg3, h_arg4, h_arg5, h_arg6, h_arg7, h_v8, h_v22, h_v27, h_v33, h_v36, h_v37, h_v38, h_v42, h_v46]
    rfl
  · after_results_simp
    try simp only [h_arg0, h_arg1, h_arg2, h_arg3, h_arg4, h_arg5, h_arg6, h_arg7, h_v8, h_v22, h_v27, h_v33, h_v36, h_v37, h_v38, h_v42, h_v46]
    rfl
  · after_results_simp
    try simp only [h_arg0, h_arg1, h_arg2, h_arg3, h_arg4, h_arg5, h_arg6, h_arg7, h_v8, h_v22, h_v27, h_v33, h_v36, h_v37, h_v38, h_v42, h_v46]
    rfl

/-- Operations 72 to 83 of @main. -/
abbrev ops06 : List (HloOp τ sig (Elt F)) :=
  [ binary main_v55 main_v53 main_v56 (mulf : (⟨S1048576x16, .f32⟩ : BufTy).Contents (Elt F) → (⟨S1048576x16, .f32⟩ : BufTy).Contents (Elt F) → (⟨S1048576x16, .f32⟩ : BufTy).Contents (Elt F)),
    nullary main_cst_11 (constant S_ .f32 0x00000000#32),
    binary main_v54 main_cst_11 main_v57 ((fun x v => Host.reduceAdd x v reducesTo_S1048576x16_S_d0_1 h_S_) : (⟨S1048576x16, .f32⟩ : BufTy).Contents (Elt F) → (⟨S_, .f32⟩ : BufTy).Contents (Elt F) → (⟨S_, .f32⟩ : BufTy).Contents (Elt F)),
    nullary main_cst_12 (constant S_ .f32 0x4B800000#32),
    binary main_v57 main_cst_12 main_v58 (Host.divf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    nullary main_cst_14 (constant S_ .f32 0x4B800000#32),
    binary main_cst_13 main_cst_14 main_v59 (Host.divf : (⟨S_, .f32⟩ : BufTy).Contents (Elt F) → (⟨S_, .f32⟩ : BufTy).Contents (Elt F) → (⟨S_, .f32⟩ : BufTy).Contents (Elt F)),
    unary main_v59 main_v60 (broadcastInDim S1048576x16 ![] bcast_S_S1048576x16 : (⟨S_, .f32⟩ : BufTy).Contents (Elt F) → (⟨S1048576x16, .f32⟩ : BufTy).Contents (Elt F)),
    binary main_v60 main_v56 main_v61 (mulf : (⟨S1048576x16, .f32⟩ : BufTy).Contents (Elt F) → (⟨S1048576x16, .f32⟩ : BufTy).Contents (Elt F) → (⟨S1048576x16, .f32⟩ : BufTy).Contents (Elt F)),
    binary main_v42 main_v61 main_v62 (mulf : (⟨S1048576x16, .f32⟩ : BufTy).Contents (Elt F) → (⟨S1048576x16, .f32⟩ : BufTy).Contents (Elt F) → (⟨S1048576x16, .f32⟩ : BufTy).Contents (Elt F)),
    binary main_v61 main_v48 main_v63 (mulf : (⟨S1048576x16, .f32⟩ : BufTy).Contents (Elt F) → (⟨S1048576x16, .f32⟩ : BufTy).Contents (Elt F) → (⟨S1048576x16, .f32⟩ : BufTy).Contents (Elt F)) ]

set_option maxHeartbeats 1000000 in
/-- After operations 72 to 83, every buffer still to be read holds its stage of the arguments. -/
theorem step06 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v22 : W (Proc.devRef .tc main_v22) = val_main_v22 (F := F) x0 x7)
    (h_v27 : W (Proc.devRef .tc main_v27) = val_main_v27 (F := F) x0 x1 x2 x7)
    (h_v33 : W (Proc.devRef .tc main_v33) = val_main_v33 (F := F) x0 x1 x2 x7)
    (h_v36 : W (Proc.devRef .tc main_v36) = val_main_v36 (F := F) x0 x1 x2 x7)
    (h_v37 : W (Proc.devRef .tc main_v37) = val_main_v37 (F := F) x0 x1 x2 x7)
    (h_v38 : W (Proc.devRef .tc main_v38) = val_main_v38 (F := F) x3)
    (h_v42 : W (Proc.devRef .tc main_v42) = val_main_v42 (F := F) x0 x1 x2 x3 x4 x7)
    (h_v48 : W (Proc.devRef .tc main_v48) = val_main_v48 (F := F) x0 x1 x2 x3 x4 x7)
    (h_v51 : W (Proc.devRef .tc main_v51) = val_main_v51 (F := F) x0 x1 x2 x3 x4 x7)
    (h_v53 : W (Proc.devRef .tc main_v53) = val_main_v53 (F := F) x0 x1 x2 x3 x4 x6 x7)
    (h_v54 : W (Proc.devRef .tc main_v54) = val_main_v54 (F := F) x0 x1 x2 x3 x4 x6 x7)
    (h_v55 : W (Proc.devRef .tc main_v55) = val_main_v55 (F := F)) :
    (after (ops06 (F := F)) W (Proc.devRef .tc main_arg0) = x0)
    ∧ (after (ops06 (F := F)) W (Proc.devRef .tc main_arg1) = x1)
    ∧ (after (ops06 (F := F)) W (Proc.devRef .tc main_arg2) = x2)
    ∧ (after (ops06 (F := F)) W (Proc.devRef .tc main_arg3) = x3)
    ∧ (after (ops06 (F := F)) W (Proc.devRef .tc main_arg4) = x4)
    ∧ (after (ops06 (F := F)) W (Proc.devRef .tc main_arg5) = x5)
    ∧ (after (ops06 (F := F)) W (Proc.devRef .tc main_arg6) = x6)
    ∧ (after (ops06 (F := F)) W (Proc.devRef .tc main_arg7) = x7)
    ∧ (after (ops06 (F := F)) W (Proc.devRef .tc main_v22) = val_main_v22 (F := F) x0 x7)
    ∧ (after (ops06 (F := F)) W (Proc.devRef .tc main_v27) = val_main_v27 (F := F) x0 x1 x2 x7)
    ∧ (after (ops06 (F := F)) W (Proc.devRef .tc main_v33) = val_main_v33 (F := F) x0 x1 x2 x7)
    ∧ (after (ops06 (F := F)) W (Proc.devRef .tc main_v36) = val_main_v36 (F := F) x0 x1 x2 x7)
    ∧ (after (ops06 (F := F)) W (Proc.devRef .tc main_v37) = val_main_v37 (F := F) x0 x1 x2 x7)
    ∧ (after (ops06 (F := F)) W (Proc.devRef .tc main_v38) = val_main_v38 (F := F) x3)
    ∧ (after (ops06 (F := F)) W (Proc.devRef .tc main_v51) = val_main_v51 (F := F) x0 x1 x2 x3 x4 x7)
    ∧ (after (ops06 (F := F)) W (Proc.devRef .tc main_v62) = val_main_v62 (F := F) x0 x1 x2 x3 x4 x6 x7)
    ∧ (after (ops06 (F := F)) W (Proc.devRef .tc main_v63) = val_main_v63 (F := F) x0 x1 x2 x3 x4 x6 x7) := by
  refine ⟨?_, ?_, ?_, ?_, ?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v22
  · after_results_simp
    exact h_v27
  · after_results_simp
    exact h_v33
  · after_results_simp
    exact h_v36
  · after_results_simp
    exact h_v37
  · after_results_simp
    exact h_v38
  · after_results_simp
    exact h_v51
  · after_results_simp
    try simp only [h_arg0, h_arg1, h_arg2, h_arg3, h_arg4, h_arg5, h_arg6, h_arg7, h_v22, h_v27, h_v33, h_v36, h_v37, h_v38, h_v42, h_v48, h_v51, h_v53, h_v54, h_v55]
    rfl
  · after_results_simp
    try simp only [h_arg0, h_arg1, h_arg2, h_arg3, h_arg4, h_arg5, h_arg6, h_arg7, h_v22, h_v27, h_v33, h_v36, h_v37, h_v38, h_v42, h_v48, h_v51, h_v53, h_v54, h_v55]
    rfl

/-- Operations 84 to 95 of @main. -/
abbrev ops07 : List (HloOp τ sig (Elt F)) :=
  [ binary main_v62 main_v51 main_v64 (mulf : (⟨S1048576x16, .f32⟩ : BufTy).Contents (Elt F) → (⟨S1048576x16, .f32⟩ : BufTy).Contents (Elt F) → (⟨S1048576x16, .f32⟩ : BufTy).Contents (Elt F)),
    binary main_v63 main_v64 main_v65 (addf : (⟨S1048576x16, .f32⟩ : BufTy).Contents (Elt F) → (⟨S1048576x16, .f32⟩ : BufTy).Contents (Elt F) → (⟨S1048576x16, .f32⟩ : BufTy).Contents (Elt F)),
    nullary main_cst_15 (constant S_ .f32 0x00000000#32),
    binary main_v65 main_cst_15 main_v66 ((fun x v => Host.reduceAdd x v reducesTo_S1048576x16_S16_d0 h_S_) : (⟨S1048576x16, .f32⟩ : BufTy).Contents (Elt F) → (⟨S_, .f32⟩ : BufTy).Contents (Elt F) → (⟨S16, .f32⟩ : BufTy).Contents (Elt F)),
    reshape main_v66 main_v67 rfl shapeCasts_S16_S1x16,
    nullary main_cst_16 (constant S_ .f32 0x00000000#32),
    binary main_v67 main_cst_16 main_v68 ((fun x v => Host.reduceAdd x v reducesTo_S1x16_S16_d0 h_S_) : (⟨S1x16, .f32⟩ : BufTy).Contents (Elt F) → (⟨S_, .f32⟩ : BufTy).Contents (Elt F) → (⟨S16, .f32⟩ : BufTy).Contents (Elt F)),
    binary main_v65 main_v37 main_v69 ((fun l r => Host.dotGeneral dot_S1048576x16_S1048576x32_S16x32_0_0_1_1_n_n none l r) : (⟨S1048576x16, .f32⟩ : BufTy).Contents (Elt F) → (⟨S1048576x32, .f32⟩ : BufTy).Contents (Elt F) → (⟨S16x32, .f32⟩ : BufTy).Contents (Elt F)),
    unary main_v69 main_v70 ((transpose S32x16 [1, 0] · transposes_S16x32_S32x16_1_0) : (⟨S16x32, .f32⟩ : BufTy).Contents (Elt F) → (⟨S32x16, .f32⟩ : BufTy).Contents (Elt F)),
    binary main_v65 main_v38 main_v71 ((fun l r => Host.dotGeneral dot_S1048576x16_S32x16_S1048576x32_1_1_0_0_n_n none l r) : (⟨S1048576x16, .f32⟩ : BufTy).Contents (Elt F) → (⟨S32x16, .f32⟩ : BufTy).Contents (Elt F) → (⟨S1048576x32, .f32⟩ : BufTy).Contents (Elt F)),
    unary main_v70 main_v72 ((transpose S16x32 [1, 0] · transposes_S32x16_S16x32_1_0) : (⟨S32x16, .f32⟩ : BufTy).Contents (Elt F) → (⟨S16x32, .f32⟩ : BufTy).Contents (Elt F)),
    binary main_v27 main_v71 main_v73 (mulf : (⟨S1048576x32, .f32⟩ : BufTy).Contents (Elt F) → (⟨S1048576x32, .f32⟩ : BufTy).Contents (Elt F) → (⟨S1048576x32, .f32⟩ : BufTy).Contents (Elt F)) ]

set_option maxHeartbeats 1000000 in
/-- After operations 84 to 95, every buffer still to be read holds its stage of the arguments. -/
theorem step07 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v22 : W (Proc.devRef .tc main_v22) = val_main_v22 (F := F) x0 x7)
    (h_v27 : W (Proc.devRef .tc main_v27) = val_main_v27 (F := F) x0 x1 x2 x7)
    (h_v33 : W (Proc.devRef .tc main_v33) = val_main_v33 (F := F) x0 x1 x2 x7)
    (h_v36 : W (Proc.devRef .tc main_v36) = val_main_v36 (F := F) x0 x1 x2 x7)
    (h_v37 : W (Proc.devRef .tc main_v37) = val_main_v37 (F := F) x0 x1 x2 x7)
    (h_v38 : W (Proc.devRef .tc main_v38) = val_main_v38 (F := F) x3)
    (h_v51 : W (Proc.devRef .tc main_v51) = val_main_v51 (F := F) x0 x1 x2 x3 x4 x7)
    (h_v62 : W (Proc.devRef .tc main_v62) = val_main_v62 (F := F) x0 x1 x2 x3 x4 x6 x7)
    (h_v63 : W (Proc.devRef .tc main_v63) = val_main_v63 (F := F) x0 x1 x2 x3 x4 x6 x7) :
    (after (ops07 (F := F)) W (Proc.devRef .tc main_arg0) = x0)
    ∧ (after (ops07 (F := F)) W (Proc.devRef .tc main_arg1) = x1)
    ∧ (after (ops07 (F := F)) W (Proc.devRef .tc main_arg2) = x2)
    ∧ (after (ops07 (F := F)) W (Proc.devRef .tc main_arg3) = x3)
    ∧ (after (ops07 (F := F)) W (Proc.devRef .tc main_arg4) = x4)
    ∧ (after (ops07 (F := F)) W (Proc.devRef .tc main_arg5) = x5)
    ∧ (after (ops07 (F := F)) W (Proc.devRef .tc main_arg6) = x6)
    ∧ (after (ops07 (F := F)) W (Proc.devRef .tc main_arg7) = x7)
    ∧ (after (ops07 (F := F)) W (Proc.devRef .tc main_v22) = val_main_v22 (F := F) x0 x7)
    ∧ (after (ops07 (F := F)) W (Proc.devRef .tc main_v33) = val_main_v33 (F := F) x0 x1 x2 x7)
    ∧ (after (ops07 (F := F)) W (Proc.devRef .tc main_v36) = val_main_v36 (F := F) x0 x1 x2 x7)
    ∧ (after (ops07 (F := F)) W (Proc.devRef .tc main_v68) = val_main_v68 (F := F) x0 x1 x2 x3 x4 x6 x7)
    ∧ (after (ops07 (F := F)) W (Proc.devRef .tc main_v71) = val_main_v71 (F := F) x0 x1 x2 x3 x4 x6 x7)
    ∧ (after (ops07 (F := F)) W (Proc.devRef .tc main_v72) = val_main_v72 (F := F) x0 x1 x2 x3 x4 x6 x7)
    ∧ (after (ops07 (F := F)) W (Proc.devRef .tc main_v73) = val_main_v73 (F := F) x0 x1 x2 x3 x4 x6 x7) := by
  refine ⟨?_, ?_, ?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v22
  · after_results_simp
    exact h_v33
  · after_results_simp
    exact h_v36
  · after_results_simp
    try simp only [h_arg0, h_arg1, h_arg2, h_arg3, h_arg4, h_arg5, h_arg6, h_arg7, h_v22, h_v27, h_v33, h_v36, h_v37, h_v38, h_v51, h_v62, h_v63]
    rfl
  · after_results_simp
    try simp only [h_arg0, h_arg1, h_arg2, h_arg3, h_arg4, h_arg5, h_arg6, h_arg7, h_v22, h_v27, h_v33, h_v36, h_v37, h_v38, h_v51, h_v62, h_v63]
    rfl
  · after_results_simp
    try simp only [h_arg0, h_arg1, h_arg2, h_arg3, h_arg4, h_arg5, h_arg6, h_arg7, h_v22, h_v27, h_v33, h_v36, h_v37, h_v38, h_v51, h_v62, h_v63]
    rfl
  · after_results_simp
    try simp only [h_arg0, h_arg1, h_arg2, h_arg3, h_arg4, h_arg5, h_arg6, h_arg7, h_v22, h_v27, h_v33, h_v36, h_v37, h_v38, h_v51, h_v62, h_v63]
    rfl

end Cert.RefSide

end
-- ==== Proof.RefRun3.lean ====
/-
  The reference program's operations 96 to 143, cut into short lines: after each line, started from any contents at
  which the buffers written earlier hold their stages of the arguments, every buffer still to be read holds its stage.
-/
import proofs.«144527_j2001454760825_2_alg».proof.Proof.RefOps
import proofs.«144527_j2001454760825_2_alg».proof.Proof.RefRead

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 96 to 107 of @main. -/
abbrev ops08 : List (HloOp τ sig (Elt F)) :=
  [ binary main_v71 main_v33 main_v74 (mulf : (⟨S1048576x32, .f32⟩ : BufTy).Contents (Elt F) → (⟨S1048576x32, .f32⟩ : BufTy).Contents (Elt F) → (⟨S1048576x32, .f32⟩ : BufTy).Contents (Elt F)),
    binary main_v73 main_v36 main_v75 (mulf : (⟨S1048576x32, .f32⟩ : BufTy).Contents (Elt F) → (⟨S1048576x32, .f32⟩ : BufTy).Contents (Elt F) → (⟨S1048576x32, .f32⟩ : BufTy).Contents (Elt F)),
    binary main_v74 main_v75 main_v76 (addf : (⟨S1048576x32, .f32⟩ : BufTy).Contents (Elt F) → (⟨S1048576x32, .f32⟩ : BufTy).Contents (Elt F) → (⟨S1048576x32, .f32⟩ : BufTy).Contents (Elt F)),
    nullary main_cst_17 (constant S_ .f32 0x00000000#32),
    binary main_v76 main_cst_17 main_v77 ((fun x v => Host.reduceAdd x v reducesTo_S1048576x32_S32_d0 h_S_) : (⟨S1048576x32, .f32⟩ : BufTy).Contents (Elt F) → (⟨S_, .f32⟩ : BufTy).Contents (Elt F) → (⟨S32, .f32⟩ : BufTy).Contents (Elt F)),
    reshape main_v77 main_v78 rfl shapeCasts_S32_S1x32,
    nullary main_cst_18 (constant S_ .f32 0x00000000#32),
    binary main_v78 main_cst_18 main_v79 ((fun x v => Host.reduceAdd x v reducesTo_S1x32_S32_d0 h_S_) : (⟨S1x32, .f32⟩ : BufTy).Contents (Elt F) → (⟨S_, .f32⟩ : BufTy).Contents (Elt F) → (⟨S32, .f32⟩ : BufTy).Contents (Elt F)),
    binary main_v76 main_v22 main_v80 ((fun l r => Host.dotGeneral dot_S1048576x32_S1048576x16_S32x16_0_0_1_1_n_n none l r) : (⟨S1048576x32, .f32⟩ : BufTy).Contents (Elt F) → (⟨S1048576x16, .f32⟩ : BufTy).Contents (Elt F) → (⟨S32x16, .f32⟩ : BufTy).Contents (Elt F)),
    unary main_v80 main_v81 ((transpose S16x32 [1, 0] · transposes_S32x16_S16x32_1_0) : (⟨S32x16, .f32⟩ : BufTy).Contents (Elt F) → (⟨S16x32, .f32⟩ : BufTy).Contents (Elt F)),
    unary main_v81 main_v82 ((transpose S32x16 [1, 0] · transposes_S16x32_S32x16_1_0) : (⟨S16x32, .f32⟩ : BufTy).Contents (Elt F) → (⟨S32x16, .f32⟩ : BufTy).Contents (Elt F)),
    nullary main_cst_19 (constant S_ .f32 0x3F7FBE77#32) ]

set_option maxHeartbeats 1000000 in
/-- After operations 96 to 107, every buffer still to be read holds its stage of the arguments. -/
theorem step08 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v22 : W (Proc.devRef .tc main_v22) = val_main_v22 (F := F) x0 x7)
    (h_v33 : W (Proc.devRef .tc main_v33) = val_main_v33 (F := F) x0 x1 x2 x7)
    (h_v36 : W (Proc.devRef .tc main_v36) = val_main_v36 (F := F) x0 x1 x2 x7)
    (h_v68 : W (Proc.devRef .tc main_v68) = val_main_v68 (F := F) x0 x1 x2 x3 x4 x6 x7)
    (h_v71 : W (Proc.devRef .tc main_v71) = val_main_v71 (F := F) x0 x1 x2 x3 x4 x6 x7)
    (h_v72 : W (Proc.devRef .tc main_v72) = val_main_v72 (F := F) x0 x1 x2 x3 x4 x6 x7)
    (h_v73 : W (Proc.devRef .tc main_v73) = val_main_v73 (F := F) x0 x1 x2 x3 x4 x6 x7) :
    (after (ops08 (F := F)) W (Proc.devRef .tc main_arg0) = x0)
    ∧ (after (ops08 (F := F)) W (Proc.devRef .tc main_arg1) = x1)
    ∧ (after (ops08 (F := F)) W (Proc.devRef .tc main_arg2) = x2)
    ∧ (after (ops08 (F := F)) W (Proc.devRef .tc main_arg3) = x3)
    ∧ (after (ops08 (F := F)) W (Proc.devRef .tc main_arg4) = x4)
    ∧ (after (ops08 (F := F)) W (Proc.devRef .tc main_arg5) = x5)
    ∧ (after (ops08 (F := F)) W (Proc.devRef .tc main_arg6) = x6)
    ∧ (after (ops08 (F := F)) W (Proc.devRef .tc main_arg7) = x7)
    ∧ (after (ops08 (F := F)) W (Proc.devRef .tc main_v68) = val_main_v68 (F := F) x0 x1 x2 x3 x4 x6 x7)
    ∧ (after (ops08 (F := F)) W (Proc.devRef .tc main_v72) = val_main_v72 (F := F) x0 x1 x2 x3 x4 x6 x7)
    ∧ (after (ops08 (F := F)) W (Proc.devRef .tc main_v79) = val_main_v79 (F := F) x0 x1 x2 x3 x4 x6 x7)
    ∧ (after (ops08 (F := F)) W (Proc.devRef .tc main_v82) = val_main_v82 (F := F) x0 x1 x2 x3 x4 x6 x7)
    ∧ (after (ops08 (F := F)) W (Proc.devRef .tc main_cst_19) = val_main_cst_19 (F := F)) := by
  refine ⟨?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v68
  · after_results_simp
    exact h_v72
  · after_results_simp
    try simp only [h_arg0, h_arg1, h_arg2, h_arg3, h_arg4, h_arg5, h_arg6, h_arg7, h_v22, h_v33, h_v36, h_v68, h_v71, h_v72, h_v73]
    rfl
  · after_results_simp
    try simp only [h_arg0, h_arg1, h_arg2, h_arg3, h_arg4, h_arg5, h_arg6, h_arg7, h_v22, h_v33, h_v36, h_v68, h_v71, h_v72, h_v73]
    rfl
  · after_results_simp
    try simp only [h_arg0, h_arg1, h_arg2, h_arg3, h_arg4, h_arg5, h_arg6, h_arg7, h_v22, h_v33, h_v36, h_v68, h_v71, h_v72, h_v73]
    rfl

/-- Operations 108 to 119 of @main. -/
abbrev ops09 : List (HloOp τ sig (Elt F)) :=
  [ unary main_cst_19 main_v83 (broadcastInDim S32x16 ![] bcast_S_S32x16 : (⟨S_, .f32⟩ : BufTy).Contents (Elt F) → (⟨S32x16, .f32⟩ : BufTy).Contents (Elt F)),
    binary main_v83 main_arg1 main_v84 (mulf : (⟨S32x16, .f32⟩ : BufTy).Contents (Elt F) → (⟨S32x16, .f32⟩ : BufTy).Contents (Elt F) → (⟨S32x16, .f32⟩ : BufTy).Contents (Elt F)),
    nullary main_cst_20 (constant S_ .f32 0x3D4CCCCD#32),
    unary main_cst_20 main_v85 (broadcastInDim S32x16 ![] bcast_S_S32x16 : (⟨S_, .f32⟩ : BufTy).Contents (Elt F) → (⟨S32x16, .f32⟩ : BufTy).Contents (Elt F)),
    binary main_v85 main_v82 main_v86 (mulf : (⟨S32x16, .f32⟩ : BufTy).Contents (Elt F) → (⟨S32x16, .f32⟩ : BufTy).Contents (Elt F) → (⟨S32x16, .f32⟩ : BufTy).Contents (Elt F)),
    binary main_v84 main_v86 main_v87 (subf : (⟨S32x16, .f32⟩ : BufTy).Contents (Elt F) → (⟨S32x16, .f32⟩ : BufTy).Contents (Elt F) → (⟨S32x16, .f32⟩ : BufTy).Contents (Elt F)),
    nullary main_cst_21 (constant S_ .f32 0x3F7FBE77#32),
    unary main_cst_21 main_v88 (broadcastInDim S32 ![] bcast_S_S32 : (⟨S_, .f32⟩ : BufTy).Contents (Elt F) → (⟨S32, .f32⟩ : BufTy).Contents (Elt F)),
    binary main_v88 main_arg2 main_v89 (mulf : (⟨S32, .f32⟩ : BufTy).Contents (Elt F) → (⟨S32, .f32⟩ : BufTy).Contents (Elt F) → (⟨S32, .f32⟩ : BufTy).Contents (Elt F)),
    nullary main_cst_22 (constant S_ .f32 0x3D4CCCCD#32),
    unary main_cst_22 main_v90 (broadcastInDim S32 ![] bcast_S_S32 : (⟨S_, .f32⟩ : BufTy).Contents (Elt F) → (⟨S32, .f32⟩ : BufTy).Contents (Elt F)),
    binary main_v90 main_v79 main_v91 (mulf : (⟨S32, .f32⟩ : BufTy).Contents (Elt F) → (⟨S32, .f32⟩ : BufTy).Contents (Elt F) → (⟨S32, .f32⟩ : BufTy).Contents (Elt F)) ]

set_option maxHeartbeats 1000000 in
/-- After operations 108 to 119, every buffer still to be read holds its stage of the arguments. -/
theorem step09 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v68 : W (Proc.devRef .tc main_v68) = val_main_v68 (F := F) x0 x1 x2 x3 x4 x6 x7)
    (h_v72 : W (Proc.devRef .tc main_v72) = val_main_v72 (F := F) x0 x1 x2 x3 x4 x6 x7)
    (h_v79 : W (Proc.devRef .tc main_v79) = val_main_v79 (F := F) x0 x1 x2 x3 x4 x6 x7)
    (h_v82 : W (Proc.devRef .tc main_v82) = val_main_v82 (F := F) x0 x1 x2 x3 x4 x6 x7)
    (h_cst_19 : W (Proc.devRef .tc main_cst_19) = val_main_cst_19 (F := F)) :
    (after (ops09 (F := F)) W (Proc.devRef .tc main_arg0) = x0)
    ∧ (after (ops09 (F := F)) W (Proc.devRef .tc main_arg1) = x1)
    ∧ (after (ops09 (F := F)) W (Proc.devRef .tc main_arg2) = x2)
    ∧ (after (ops09 (F := F)) W (Proc.devRef .tc main_arg3) = x3)
    ∧ (after (ops09 (F := F)) W (Proc.devRef .tc main_arg4) = x4)
    ∧ (after (ops09 (F := F)) W (Proc.devRef .tc main_arg5) = x5)
    ∧ (after (ops09 (F := F)) W (Proc.devRef .tc main_arg6) = x6)
    ∧ (after (ops09 (F := F)) W (Proc.devRef .tc main_arg7) = x7)
    ∧ (after (ops09 (F := F)) W (Proc.devRef .tc main_v68) = val_main_v68 (F := F) x0 x1 x2 x3 x4 x6 x7)
    ∧ (after (ops09 (F := F)) W (Proc.devRef .tc main_v72) = val_main_v72 (F := F) x0 x1 x2 x3 x4 x6 x7)
    ∧ (after (ops09 (F := F)) W (Proc.devRef .tc main_v87) = val_main_v87 (F := F) x0 x1 x2 x3 x4 x6 x7)
    ∧ (after (ops09 (F := F)) W (Proc.devRef .tc main_v89) = val_main_v89 (F := F) x2)
    ∧ (after (ops09 (F := F)) W (Proc.devRef .tc main_v91) = val_main_v91 (F := F) x0 x1 x2 x3 x4 x6 x7) := by
  refine ⟨?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v68
  · after_results_simp
    exact h_v72
  · after_results_simp
    try simp only [h_arg0, h_arg1, h_arg2, h_arg3, h_arg4, h_arg5, h_arg6, h_arg7, h_v68, h_v72, h_v79, h_v82, h_cst_19]
    rfl
  · after_results_simp
    try simp only [h_arg0, h_arg1, h_arg2, h_arg3, h_arg4, h_arg5, h_arg6, h_arg7, h_v68, h_v72, h_v79, h_v82, h_cst_19]
    rfl
  · after_results_simp
    try simp only [h_arg0, h_arg1, h_arg2, h_arg3, h_arg4, h_arg5, h_arg6, h_arg7, h_v68, h_v72, h_v79, h_v82, h_cst_19]
    rfl

/-- Operations 120 to 131 of @main. -/
abbrev ops10 : List (HloOp τ sig (Elt F)) :=
  [ binary main_v89 main_v91 main_v92 (subf : (⟨S32, .f32⟩ : BufTy).Contents (Elt F) → (⟨S32, .f32⟩ : BufTy).Contents (Elt F) → (⟨S32, .f32⟩ : BufTy).Contents (Elt F)),
    nullary main_cst_23 (constant S_ .f32 0x3F7FBE77#32),
    unary main_cst_23 main_v93 (broadcastInDim S16x32 ![] bcast_S_S16x32 : (⟨S_, .f32⟩ : BufTy).Contents (Elt F) → (⟨S16x32, .f32⟩ : BufTy).Contents (Elt F)),
    binary main_v93 main_arg3 main_v94 (mulf : (⟨S16x32, .f32⟩ : BufTy).Contents (Elt F) → (⟨S16x32, .f32⟩ : BufTy).Contents (Elt F) → (⟨S16x32, .f32⟩ : BufTy).Contents (Elt F)),
    nullary main_cst_24 (constant S_ .f32 0x3D4CCCCD#32),
    unary main_cst_24 main_v95 (broadcastInDim S16x32 ![] bcast_S_S16x32 : (⟨S_, .f32⟩ : BufTy).Contents (Elt F) → (⟨S16x32, .f32⟩ : BufTy).Contents (Elt F)),
    binary main_v95 main_v72 main_v96 (mulf : (⟨S16x32, .f32⟩ : BufTy).Contents (Elt F) → (⟨S16x32, .f32⟩ : BufTy).Contents (Elt F) → (⟨S16x32, .f32⟩ : BufTy).Contents (Elt F)),
    binary main_v94 main_v96 main_v97 (subf : (⟨S16x32, .f32⟩ : BufTy).Contents (Elt F) → (⟨S16x32, .f32⟩ : BufTy).Contents (Elt F) → (⟨S16x32, .f32⟩ : BufTy).Contents (Elt F)),
    nullary main_cst_25 (constant S_ .f32 0x3F7FBE77#32),
    unary main_cst_25 main_v98 (broadcastInDim S16 ![] bcast_S_S16 : (⟨S_, .f32⟩ : BufTy).Contents (Elt F) → (⟨S16, .f32⟩ : BufTy).Contents (Elt F)),
    binary main_v98 main_arg4 main_v99 (mulf : (⟨S16, .f32⟩ : BufTy).Contents (Elt F) → (⟨S16, .f32⟩ : BufTy).Contents (Elt F) → (⟨S16, .f32⟩ : BufTy).Contents (Elt F)),
    nullary main_cst_26 (constant S_ .f32 0x3D4CCCCD#32) ]

set_option maxHeartbeats 1000000 in
/-- After operations 120 to 131, every buffer still to be read holds its stage of the arguments. -/
theorem step10 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v68 : W (Proc.devRef .tc main_v68) = val_main_v68 (F := F) x0 x1 x2 x3 x4 x6 x7)
    (h_v72 : W (Proc.devRef .tc main_v72) = val_main_v72 (F := F) x0 x1 x2 x3 x4 x6 x7)
    (h_v87 : W (Proc.devRef .tc main_v87) = val_main_v87 (F := F) x0 x1 x2 x3 x4 x6 x7)
    (h_v89 : W (Proc.devRef .tc main_v89) = val_main_v89 (F := F) x2)
    (h_v91 : W (Proc.devRef .tc main_v91) = val_main_v91 (F := F) x0 x1 x2 x3 x4 x6 x7) :
    (after (ops10 (F := F)) W (Proc.devRef .tc main_arg0) = x0)
    ∧ (after (ops10 (F := F)) W (Proc.devRef .tc main_arg1) = x1)
    ∧ (after (ops10 (F := F)) W (Proc.devRef .tc main_arg2) = x2)
    ∧ (after (ops10 (F := F)) W (Proc.devRef .tc main_arg3) = x3)
    ∧ (after (ops10 (F := F)) W (Proc.devRef .tc main_arg4) = x4)
    ∧ (after (ops10 (F := F)) W (Proc.devRef .tc main_arg5) = x5)
    ∧ (after (ops10 (F := F)) W (Proc.devRef .tc main_arg6) = x6)
    ∧ (after (ops10 (F := F)) W (Proc.devRef .tc main_arg7) = x7)
    ∧ (after (ops10 (F := F)) W (Proc.devRef .tc main_v68) = val_main_v68 (F := F) x0 x1 x2 x3 x4 x6 x7)
    ∧ (after (ops10 (F := F)) W (Proc.devRef .tc main_v87) = val_main_v87 (F := F) x0 x1 x2 x3 x4 x6 x7)
    ∧ (after (ops10 (F := F)) W (Proc.devRef .tc main_v92) = val_main_v92 (F := F) x0 x1 x2 x3 x4 x6 x7)
    ∧ (after (ops10 (F := F)) W (Proc.devRef .tc main_v97) = val_main_v97 (F := F) x0 x1 x2 x3 x4 x6 x7)
    ∧ (after (ops10 (F := F)) W (Proc.devRef .tc main_v99) = val_main_v99 (F := F) x4)
    ∧ (after (ops10 (F := F)) W (Proc.devRef .tc main_cst_26) = val_main_cst_26 (F := F)) := by
  refine ⟨?_, ?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v68
  · after_results_simp
    exact h_v87
  · after_results_simp
    try simp only [h_arg0, h_arg1, h_arg2, h_arg3, h_arg4, h_arg5, h_arg6, h_arg7, h_v68, h_v72, h_v87, h_v89, h_v91]
    rfl
  · after_results_simp
    try simp only [h_arg0, h_arg1, h_arg2, h_arg3, h_arg4, h_arg5, h_arg6, h_arg7, h_v68, h_v72, h_v87, h_v89, h_v91]
    rfl
  · after_results_simp
    try simp only [h_arg0, h_arg1, h_arg2, h_arg3, h_arg4, h_arg5, h_arg6, h_arg7, h_v68, h_v72, h_v87, h_v89, h_v91]
    rfl
  · after_results_simp
    try simp only [h_arg0, h_arg1, h_arg2, h_arg3, h_arg4, h_arg5, h_arg6, h_arg7, h_v68, h_v72, h_v87, h_v89, h_v91]
    rfl

/-- Operations 132 to 143 of @main. -/
abbrev ops11 : List (HloOp τ sig (Elt F)) :=
  [ unary main_cst_26 main_v100 (broadcastInDim S16 ![] bcast_S_S16 : (⟨S_, .f32⟩ : BufTy).Contents (Elt F) → (⟨S16, .f32⟩ : BufTy).Contents (Elt F)),
    binary main_v100 main_v68 main_v101 (mulf : (⟨S16, .f32⟩ : BufTy).Contents (Elt F) → (⟨S16, .f32⟩ : BufTy).Contents (Elt F) → (⟨S16, .f32⟩ : BufTy).Contents (Elt F)),
    binary main_v99 main_v101 main_v102 (subf : (⟨S16, .f32⟩ : BufTy).Contents (Elt F) → (⟨S16, .f32⟩ : BufTy).Contents (Elt F) → (⟨S16, .f32⟩ : BufTy).Contents (Elt F)),
    unary main_arg7 main_v103 ((transpose S16x16 [1, 0] · transposes_S16x16_S16x16_1_0) : (⟨S16x16, .f32⟩ : BufTy).Contents (Elt F) → (⟨S16x16, .f32⟩ : BufTy).Contents (Elt F)),
    binary main_arg0 main_v103 main_v104 ((fun l r => Host.dotGeneral dot_S1048576x16_S16x16_S1048576x16_1_0_0_1_n_n none l r) : (⟨S1048576x16, .f32⟩ : BufTy).Contents (Elt F) → (⟨S16x16, .f32⟩ : BufTy).Contents (Elt F) → (⟨S1048576x16, .f32⟩ : BufTy).Contents (Elt F)),
    TRef.binary (TRef.of (T := ⟨S1048576x16, .f32⟩) main_v104) (TRef.of (T := ⟨S1048576x16, .f32⟩) main_v104) (TRef.of (T := ⟨S1048576x16, .f32⟩) main_call1_v0) mulf,
    TRef.nullary (TRef.of (T := ⟨S_, .f32⟩) main_call1_cst) (constant S_ .f32 0x00000000#32),
    TRef.binary (TRef.of (T := ⟨S1048576x16, .f32⟩) main_call1_v0) (TRef.of (T := ⟨S_, .f32⟩) main_call1_cst) (TRef.of (T := ⟨S1048576, .f32⟩) main_call1_v1) (fun x v => Host.reduceAdd x v reducesTo_S1048576x16_S1048576_d1 h_S_),
    TRef.unary (TRef.of (T := ⟨S1048576, .f32⟩) main_call1_v1) (TRef.of (T := ⟨S1048576x1, .f32⟩) main_call1_v2) (broadcastInDim S1048576x1 ![0] bcast_S1048576_S1048576x1_0),
    TRef.unary (TRef.of (T := ⟨S1048576x1, .f32⟩) main_call1_v2) (TRef.of (T := ⟨S1048576x1, .f32⟩) main_v105) Host.sqrt,
    nullary main_cst_27 (constant S_ .f32 0x2B8CBCCC#32),
    unary main_cst_27 main_v106 (broadcastInDim S1048576x1 ![] bcast_S_S1048576x1 : (⟨S_, .f32⟩ : BufTy).Contents (Elt F) → (⟨S1048576x1, .f32⟩ : BufTy).Contents (Elt F)) ]

set_option maxHeartbeats 1000000 in
/-- After operations 132 to 143, every buffer still to be read holds its stage of the arguments. -/
theorem step11 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v68 : W (Proc.devRef .tc main_v68) = val_main_v68 (F := F) x0 x1 x2 x3 x4 x6 x7)
    (h_v87 : W (Proc.devRef .tc main_v87) = val_main_v87 (F := F) x0 x1 x2 x3 x4 x6 x7)
    (h_v92 : W (Proc.devRef .tc main_v92) = val_main_v92 (F := F) x0 x1 x2 x3 x4 x6 x7)
    (h_v97 : W (Proc.devRef .tc main_v97) = val_main_v97 (F := F) x0 x1 x2 x3 x4 x6 x7)
    (h_v99 : W (Proc.devRef .tc main_v99) = val_main_v99 (F := F) x4)
    (h_cst_26 : W (Proc.devRef .tc main_cst_26) = val_main_cst_26 (F := F)) :
    (after (ops11 (F := F)) W (Proc.devRef .tc main_arg0) = x0)
    ∧ (after (ops11 (F := F)) W (Proc.devRef .tc main_arg1) = x1)
    ∧ (after (ops11 (F := F)) W (Proc.devRef .tc main_arg2) = x2)
    ∧ (after (ops11 (F := F)) W (Proc.devRef .tc main_arg3) = x3)
    ∧ (after (ops11 (F := F)) W (Proc.devRef .tc main_arg4) = x4)
    ∧ (after (ops11 (F := F)) W (Proc.devRef .tc main_arg5) = x5)
    ∧ (after (ops11 (F := F)) W (Proc.devRef .tc main_arg6) = x6)
    ∧ (after (ops11 (F := F)) W (Proc.devRef .tc main_arg7) = x7)
    ∧ (after (ops11 (F := F)) W (Proc.devRef .tc main_v87) = val_main_v87 (F := F) x0 x1 x2 x3 x4 x6 x7)
    ∧ (after (ops11 (F := F)) W (Proc.devRef .tc main_v92) = val_main_v92 (F := F) x0 x1 x2 x3 x4 x6 x7)
    ∧ (after (ops11 (F := F)) W (Proc.devRef .tc main_v97) = val_main_v97 (F := F) x0 x1 x2 x3 x4 x6 x7)
    ∧ (after (ops11 (F := F)) W (Proc.devRef .tc main_v102) = val_main_v102 (F := F) x0 x1 x2 x3 x4 x6 x7)
    ∧ (after (ops11 (F := F)) W (Proc.devRef .tc main_v104) = val_main_v104 (F := F) x0 x7)
    ∧ (after (ops11 (F := F)) W (Proc.devRef .tc main_v105) = val_main_v105 (F := F) x0 x7)
    ∧ (after (ops11 (F := F)) W (Proc.devRef .tc main_v106) = val_main_v106 (F := F)) := by
  refine ⟨?_, ?_, ?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v87
  · after_results_simp
    exact h_v92
  · after_results_simp
    exact h_v97
  · after_results_simp
    try simp only [h_arg0, h_arg1, h_arg2, h_arg3, h_arg4, h_arg5, h_arg6, h_arg7, h_v68, h_v87, h_v92, h_v97, h_v99, h_cst_26]
    rfl
  · after_results_simp
    try simp only [h_arg0, h_arg1, h_arg2, h_arg3, h_arg4, h_arg5, h_arg6, h_arg7, h_v68, h_v87, h_v92, h_v97, h_v99, h_cst_26]
    rfl
  · after_results_simp
    try simp only [h_arg0, h_arg1, h_arg2, h_arg3, h_arg4, h_arg5, h_arg6, h_arg7, h_v68, h_v87, h_v92, h_v97, h_v99, h_cst_26]
    rfl
  · after_results_simp
    try simp only [h_arg0, h_arg1, h_arg2, h_arg3, h_arg4, h_arg5, h_arg6, h_arg7, h_v68, h_v87, h_v92, h_v97, h_v99, h_cst_26]
    rfl

end Cert.RefSide

end
-- ==== Proof.RefRun4.lean ====
/-
  The reference program's operations 144 to 183, cut into short lines: after each line, started from any contents at
  which the buffers written earlier hold their stages of the arguments, every buffer still to be read holds its stage.
-/
import proofs.«144527_j2001454760825_2_alg».proof.Proof.RefOps
import proofs.«144527_j2001454760825_2_alg».proof.Proof.RefRead

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 144 to 155 of @main. -/
abbrev ops12 : List (HloOp τ sig (Elt F)) :=
  [ binary main_v105 main_v106 main_v107 (maximumf : (⟨S1048576x1, .f32⟩ : BufTy).Contents (Elt F) → (⟨S1048576x1, .f32⟩ : BufTy).Contents (Elt F) → (⟨S1048576x1, .f32⟩ : BufTy).Contents (Elt F)),
    unary main_v107 main_v108 (broadcastInDim S1048576x16 ![0, 1] bcast_S1048576x1_S1048576x16_0_1 : (⟨S1048576x1, .f32⟩ : BufTy).Contents (Elt F) → (⟨S1048576x16, .f32⟩ : BufTy).Contents (Elt F)),
    binary main_v104 main_v108 main_v109 (Host.divf : (⟨S1048576x16, .f32⟩ : BufTy).Contents (Elt F) → (⟨S1048576x16, .f32⟩ : BufTy).Contents (Elt F) → (⟨S1048576x16, .f32⟩ : BufTy).Contents (Elt F)),
    unary main_v109 main_v110 (Host.negf : (⟨S1048576x16, .f32⟩ : BufTy).Contents (Elt F) → (⟨S1048576x16, .f32⟩ : BufTy).Contents (Elt F)),
    unary main_v110 main_v111 (Host.exp : (⟨S1048576x16, .f32⟩ : BufTy).Contents (Elt F) → (⟨S1048576x16, .f32⟩ : BufTy).Contents (Elt F)),
    nullary main_cst_28 (constant S_ .f32 0x3F800000#32),
    unary main_cst_28 main_v112 (broadcastInDim S1048576x16 ![] bcast_S_S1048576x16 : (⟨S_, .f32⟩ : BufTy).Contents (Elt F) → (⟨S1048576x16, .f32⟩ : BufTy).Contents (Elt F)),
    binary main_v112 main_v111 main_v113 (addf : (⟨S1048576x16, .f32⟩ : BufTy).Contents (Elt F) → (⟨S1048576x16, .f32⟩ : BufTy).Contents (Elt F) → (⟨S1048576x16, .f32⟩ : BufTy).Contents (Elt F)),
    nullary main_cst_29 (constant S_ .f32 0x3F800000#32),
    unary main_cst_29 main_v114 (broadcastInDim S1048576x16 ![] bcast_S_S1048576x16 : (⟨S_, .f32⟩ : BufTy).Contents (Elt F) → (⟨S1048576x16, .f32⟩ : BufTy).Contents (Elt F)),
    binary main_v114 main_v113 main_v115 (Host.divf : (⟨S1048576x16, .f32⟩ : BufTy).Contents (Elt F) → (⟨S1048576x16, .f32⟩ : BufTy).Contents (Elt F) → (⟨S1048576x16, .f32⟩ : BufTy).Contents (Elt F)),
    binary main_v109 main_v115 main_v116 (mulf : (⟨S1048576x16, .f32⟩ : BufTy).Contents (Elt F) → (⟨S1048576x16, .f32⟩ : BufTy).Contents (Elt F) → (⟨S1048576x16, .f32⟩ : BufTy).Contents (Elt F)) ]

set_option maxHeartbeats 1000000 in
/-- After operations 144 to 155, every buffer still to be read holds its stage of the arguments. -/
theorem step12 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v87 : W (Proc.devRef .tc main_v87) = val_main_v87 (F := F) x0 x1 x2 x3 x4 x6 x7)
    (h_v92 : W (Proc.devRef .tc main_v92) = val_main_v92 (F := F) x0 x1 x2 x3 x4 x6 x7)
    (h_v97 : W (Proc.devRef .tc main_v97) = val_main_v97 (F := F) x0 x1 x2 x3 x4 x6 x7)
    (h_v102 : W (Proc.devRef .tc main_v102) = val_main_v102 (F := F) x0 x1 x2 x3 x4 x6 x7)
    (h_v104 : W (Proc.devRef .tc main_v104) = val_main_v104 (F := F) x0 x7)
    (h_v105 : W (Proc.devRef .tc main_v105) = val_main_v105 (F := F) x0 x7)
    (h_v106 : W (Proc.devRef .tc main_v106) = val_main_v106 (F := F)) :
    (after (ops12 (F := F)) W (Proc.devRef .tc main_arg0) = x0)
    ∧ (after (ops12 (F := F)) W (Proc.devRef .tc main_arg1) = x1)
    ∧ (after (ops12 (F := F)) W (Proc.devRef .tc main_arg2) = x2)
    ∧ (after (ops12 (F := F)) W (Proc.devRef .tc main_arg3) = x3)
    ∧ (after (ops12 (F := F)) W (Proc.devRef .tc main_arg4) = x4)
    ∧ (after (ops12 (F := F)) W (Proc.devRef .tc main_arg5) = x5)
    ∧ (after (ops12 (F := F)) W (Proc.devRef .tc main_arg6) = x6)
    ∧ (after (ops12 (F := F)) W (Proc.devRef .tc main_arg7) = x7)
    ∧ (after (ops12 (F := F)) W (Proc.devRef .tc main_v87) = val_main_v87 (F := F) x0 x1 x2 x3 x4 x6 x7)
    ∧ (after (ops12 (F := F)) W (Proc.devRef .tc main_v92) = val_main_v92 (F := F) x0 x1 x2 x3 x4 x6 x7)
    ∧ (after (ops12 (F := F)) W (Proc.devRef .tc main_v97) = val_main_v97 (F := F) x0 x1 x2 x3 x4 x6 x7)
    ∧ (after (ops12 (F := F)) W (Proc.devRef .tc main_v102) = val_main_v102 (F := F) x0 x1 x2 x3 x4 x6 x7)
    ∧ (after (ops12 (F := F)) W (Proc.devRef .tc main_v116) = val_main_v116 (F := F) x0 x7) := by
  refine ⟨?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v87
  · after_results_simp
    exact h_v92
  · after_results_simp
    exact h_v97
  · after_results_simp
    exact h_v102
  · after_results_simp
    try simp only [h_arg0, h_arg1, h_arg2, h_arg3, h_arg4, h_arg5, h_arg6, h_arg7, h_v87, h_v92, h_v97, h_v102, h_v104, h_v105, h_v106]
    rfl

/-- Operations 156 to 167 of @main. -/
abbrev ops13 : List (HloOp τ sig (Elt F)) :=
  [ unary main_v87 main_v117 ((transpose S16x32 [1, 0] · transposes_S32x16_S16x32_1_0) : (⟨S32x16, .f32⟩ : BufTy).Contents (Elt F) → (⟨S16x32, .f32⟩ : BufTy).Contents (Elt F)),
    binary main_v116 main_v117 main_v118 ((fun l r => Host.dotGeneral dot_S1048576x16_S16x32_S1048576x32_1_0_0_1_n_n none l r) : (⟨S1048576x16, .f32⟩ : BufTy).Contents (Elt F) → (⟨S16x32, .f32⟩ : BufTy).Contents (Elt F) → (⟨S1048576x32, .f32⟩ : BufTy).Contents (Elt F)),
    unary main_v92 main_v119 (broadcastInDim S1x32 ![1] bcast_S32_S1x32_1 : (⟨S32, .f32⟩ : BufTy).Contents (Elt F) → (⟨S1x32, .f32⟩ : BufTy).Contents (Elt F)),
    unary main_v119 main_v120 (broadcastInDim S1048576x32 ![0, 1] bcast_S1x32_S1048576x32_0_1 : (⟨S1x32, .f32⟩ : BufTy).Contents (Elt F) → (⟨S1048576x32, .f32⟩ : BufTy).Contents (Elt F)),
    binary main_v118 main_v120 main_v121 (addf : (⟨S1048576x32, .f32⟩ : BufTy).Contents (Elt F) → (⟨S1048576x32, .f32⟩ : BufTy).Contents (Elt F) → (⟨S1048576x32, .f32⟩ : BufTy).Contents (Elt F)),
    unary main_v121 main_v122 (Host.negf : (⟨S1048576x32, .f32⟩ : BufTy).Contents (Elt F) → (⟨S1048576x32, .f32⟩ : BufTy).Contents (Elt F)),
    unary main_v122 main_v123 (Host.exp : (⟨S1048576x32, .f32⟩ : BufTy).Contents (Elt F) → (⟨S1048576x32, .f32⟩ : BufTy).Contents (Elt F)),
    nullary main_cst_30 (constant S_ .f32 0x3F800000#32),
    unary main_cst_30 main_v124 (broadcastInDim S1048576x32 ![] bcast_S_S1048576x32 : (⟨S_, .f32⟩ : BufTy).Contents (Elt F) → (⟨S1048576x32, .f32⟩ : BufTy).Contents (Elt F)),
    binary main_v124 main_v123 main_v125 (addf : (⟨S1048576x32, .f32⟩ : BufTy).Contents (Elt F) → (⟨S1048576x32, .f32⟩ : BufTy).Contents (Elt F) → (⟨S1048576x32, .f32⟩ : BufTy).Contents (Elt F)),
    nullary main_cst_31 (constant S_ .f32 0x3F800000#32),
    unary main_cst_31 main_v126 (broadcastInDim S1048576x32 ![] bcast_S_S1048576x32 : (⟨S_, .f32⟩ : BufTy).Contents (Elt F) → (⟨S1048576x32, .f32⟩ : BufTy).Contents (Elt F)) ]

set_option maxHeartbeats 1000000 in
/-- After operations 156 to 167, every buffer still to be read holds its stage of the arguments. -/
theorem step13 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v87 : W (Proc.devRef .tc main_v87) = val_main_v87 (F := F) x0 x1 x2 x3 x4 x6 x7)
    (h_v92 : W (Proc.devRef .tc main_v92) = val_main_v92 (F := F) x0 x1 x2 x3 x4 x6 x7)
    (h_v97 : W (Proc.devRef .tc main_v97) = val_main_v97 (F := F) x0 x1 x2 x3 x4 x6 x7)
    (h_v102 : W (Proc.devRef .tc main_v102) = val_main_v102 (F := F) x0 x1 x2 x3 x4 x6 x7)
    (h_v116 : W (Proc.devRef .tc main_v116) = val_main_v116 (F := F) x0 x7) :
    (after (ops13 (F := F)) W (Proc.devRef .tc main_arg0) = x0)
    ∧ (after (ops13 (F := F)) W (Proc.devRef .tc main_arg1) = x1)
    ∧ (after (ops13 (F := F)) W (Proc.devRef .tc main_arg2) = x2)
    ∧ (after (ops13 (F := F)) W (Proc.devRef .tc main_arg3) = x3)
    ∧ (after (ops13 (F := F)) W (Proc.devRef .tc main_arg4) = x4)
    ∧ (after (ops13 (F := F)) W (Proc.devRef .tc main_arg5) = x5)
    ∧ (after (ops13 (F := F)) W (Proc.devRef .tc main_arg6) = x6)
    ∧ (after (ops13 (F := F)) W (Proc.devRef .tc main_arg7) = x7)
    ∧ (after (ops13 (F := F)) W (Proc.devRef .tc main_v97) = val_main_v97 (F := F) x0 x1 x2 x3 x4 x6 x7)
    ∧ (after (ops13 (F := F)) W (Proc.devRef .tc main_v102) = val_main_v102 (F := F) x0 x1 x2 x3 x4 x6 x7)
    ∧ (after (ops13 (F := F)) W (Proc.devRef .tc main_v121) = val_main_v121 (F := F) x0 x1 x2 x3 x4 x6 x7)
    ∧ (after (ops13 (F := F)) W (Proc.devRef .tc main_v125) = val_main_v125 (F := F) x0 x1 x2 x3 x4 x6 x7)
    ∧ (after (ops13 (F := F)) W (Proc.devRef .tc main_v126) = val_main_v126 (F := F)) := by
  refine ⟨?_, ?_, ?_, ?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    exact h_v97
  · after_results_simp
    exact h_v102
  · after_results_simp
    try simp only [h_arg0, h_arg1, h_arg2, h_arg3, h_arg4, h_arg5, h_arg6, h_arg7, h_v87, h_v92, h_v97, h_v102, h_v116]
    rfl
  · after_results_simp
    try simp only [h_arg0, h_arg1, h_arg2, h_arg3, h_arg4, h_arg5, h_arg6, h_arg7, h_v87, h_v92, h_v97, h_v102, h_v116]
    rfl
  · after_results_simp
    try simp only [h_arg0, h_arg1, h_arg2, h_arg3, h_arg4, h_arg5, h_arg6, h_arg7, h_v87, h_v92, h_v97, h_v102, h_v116]
    rfl

/-- Operations 168 to 179 of @main. -/
abbrev ops14 : List (HloOp τ sig (Elt F)) :=
  [ binary main_v126 main_v125 main_v127 (Host.divf : (⟨S1048576x32, .f32⟩ : BufTy).Contents (Elt F) → (⟨S1048576x32, .f32⟩ : BufTy).Contents (Elt F) → (⟨S1048576x32, .f32⟩ : BufTy).Contents (Elt F)),
    binary main_v121 main_v127 main_v128 (mulf : (⟨S1048576x32, .f32⟩ : BufTy).Contents (Elt F) → (⟨S1048576x32, .f32⟩ : BufTy).Contents (Elt F) → (⟨S1048576x32, .f32⟩ : BufTy).Contents (Elt F)),
    unary main_v97 main_v129 ((transpose S32x16 [1, 0] · transposes_S16x32_S32x16_1_0) : (⟨S16x32, .f32⟩ : BufTy).Contents (Elt F) → (⟨S32x16, .f32⟩ : BufTy).Contents (Elt F)),
    binary main_v128 main_v129 main_v130 ((fun l r => Host.dotGeneral dot_S1048576x32_S32x16_S1048576x16_1_0_0_1_n_n none l r) : (⟨S1048576x32, .f32⟩ : BufTy).Contents (Elt F) → (⟨S32x16, .f32⟩ : BufTy).Contents (Elt F) → (⟨S1048576x16, .f32⟩ : BufTy).Contents (Elt F)),
    unary main_v102 main_v131 (broadcastInDim S1x16 ![1] bcast_S16_S1x16_1 : (⟨S16, .f32⟩ : BufTy).Contents (Elt F) → (⟨S1x16, .f32⟩ : BufTy).Contents (Elt F)),
    unary main_v131 main_v132 (broadcastInDim S1048576x16 ![0, 1] bcast_S1x16_S1048576x16_0_1 : (⟨S1x16, .f32⟩ : BufTy).Contents (Elt F) → (⟨S1048576x16, .f32⟩ : BufTy).Contents (Elt F)),
    binary main_v130 main_v132 main_v133 (addf : (⟨S1048576x16, .f32⟩ : BufTy).Contents (Elt F) → (⟨S1048576x16, .f32⟩ : BufTy).Contents (Elt F) → (⟨S1048576x16, .f32⟩ : BufTy).Contents (Elt F)),
    unary main_v133 main_v134 (Host.negf : (⟨S1048576x16, .f32⟩ : BufTy).Contents (Elt F) → (⟨S1048576x16, .f32⟩ : BufTy).Contents (Elt F)),
    unary main_v134 main_v135 (Host.exp : (⟨S1048576x16, .f32⟩ : BufTy).Contents (Elt F) → (⟨S1048576x16, .f32⟩ : BufTy).Contents (Elt F)),
    nullary main_cst_32 (constant S_ .f32 0x3F800000#32),
    unary main_cst_32 main_v136 (broadcastInDim S1048576x16 ![] bcast_S_S1048576x16 : (⟨S_, .f32⟩ : BufTy).Contents (Elt F) → (⟨S1048576x16, .f32⟩ : BufTy).Contents (Elt F)),
    binary main_v136 main_v135 main_v137 (addf : (⟨S1048576x16, .f32⟩ : BufTy).Contents (Elt F) → (⟨S1048576x16, .f32⟩ : BufTy).Contents (Elt F) → (⟨S1048576x16, .f32⟩ : BufTy).Contents (Elt F)) ]

set_option maxHeartbeats 1000000 in
/-- After operations 168 to 179, every buffer still to be read holds its stage of the arguments. -/
theorem step14 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v97 : W (Proc.devRef .tc main_v97) = val_main_v97 (F := F) x0 x1 x2 x3 x4 x6 x7)
    (h_v102 : W (Proc.devRef .tc main_v102) = val_main_v102 (F := F) x0 x1 x2 x3 x4 x6 x7)
    (h_v121 : W (Proc.devRef .tc main_v121) = val_main_v121 (F := F) x0 x1 x2 x3 x4 x6 x7)
    (h_v125 : W (Proc.devRef .tc main_v125) = val_main_v125 (F := F) x0 x1 x2 x3 x4 x6 x7)
    (h_v126 : W (Proc.devRef .tc main_v126) = val_main_v126 (F := F)) :
    (after (ops14 (F := F)) W (Proc.devRef .tc main_arg0) = x0)
    ∧ (after (ops14 (F := F)) W (Proc.devRef .tc main_arg1) = x1)
    ∧ (after (ops14 (F := F)) W (Proc.devRef .tc main_arg2) = x2)
    ∧ (after (ops14 (F := F)) W (Proc.devRef .tc main_arg3) = x3)
    ∧ (after (ops14 (F := F)) W (Proc.devRef .tc main_arg4) = x4)
    ∧ (after (ops14 (F := F)) W (Proc.devRef .tc main_arg5) = x5)
    ∧ (after (ops14 (F := F)) W (Proc.devRef .tc main_arg6) = x6)
    ∧ (after (ops14 (F := F)) W (Proc.devRef .tc main_arg7) = x7)
    ∧ (after (ops14 (F := F)) W (Proc.devRef .tc main_v133) = val_main_v133 (F := F) x0 x1 x2 x3 x4 x6 x7)
    ∧ (after (ops14 (F := F)) W (Proc.devRef .tc main_v137) = val_main_v137 (F := F) x0 x1 x2 x3 x4 x6 x7) := by
  refine ⟨?_, ?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    try simp only [h_arg0, h_arg1, h_arg2, h_arg3, h_arg4, h_arg5, h_arg6, h_arg7, h_v97, h_v102, h_v121, h_v125, h_v126]
    rfl
  · after_results_simp
    try simp only [h_arg0, h_arg1, h_arg2, h_arg3, h_arg4, h_arg5, h_arg6, h_arg7, h_v97, h_v102, h_v121, h_v125, h_v126]
    rfl

/-- Operations 180 to 183 of @main. -/
abbrev ops15 : List (HloOp τ sig (Elt F)) :=
  [ nullary main_cst_33 (constant S_ .f32 0x3F800000#32),
    unary main_cst_33 main_v138 (broadcastInDim S1048576x16 ![] bcast_S_S1048576x16 : (⟨S_, .f32⟩ : BufTy).Contents (Elt F) → (⟨S1048576x16, .f32⟩ : BufTy).Contents (Elt F)),
    binary main_v138 main_v137 main_v139 (Host.divf : (⟨S1048576x16, .f32⟩ : BufTy).Contents (Elt F) → (⟨S1048576x16, .f32⟩ : BufTy).Contents (Elt F) → (⟨S1048576x16, .f32⟩ : BufTy).Contents (Elt F)),
    binary main_v133 main_v139 main_v140 (mulf : (⟨S1048576x16, .f32⟩ : BufTy).Contents (Elt F) → (⟨S1048576x16, .f32⟩ : BufTy).Contents (Elt F) → (⟨S1048576x16, .f32⟩ : BufTy).Contents (Elt F)) ]

set_option maxHeartbeats 1000000 in
/-- After operations 180 to 183, every buffer still to be read holds its stage of the arguments. -/
theorem step15 (W : Valuation τ sig (Elt F)) (x0 : (⟨S1048576x16, .f32⟩ : BufTy).Contents (Elt F)) (x1 : (⟨S32x16, .f32⟩ : BufTy).Contents (Elt F)) (x2 : (⟨S32, .f32⟩ : BufTy).Contents (Elt F)) (x3 : (⟨S16x32, .f32⟩ : BufTy).Contents (Elt F)) (x4 : (⟨S16, .f32⟩ : BufTy).Contents (Elt F)) (x5 : (⟨S16x16, .f32⟩ : BufTy).Contents (Elt F)) (x6 : (⟨S16x16, .f32⟩ : BufTy).Contents (Elt F)) (x7 : (⟨S16x16, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_v133 : W (Proc.devRef .tc main_v133) = val_main_v133 (F := F) x0 x1 x2 x3 x4 x6 x7)
    (h_v137 : W (Proc.devRef .tc main_v137) = val_main_v137 (F := F) x0 x1 x2 x3 x4 x6 x7) :
    (after (ops15 (F := F)) W (Proc.devRef .tc main_arg0) = x0)
    ∧ (after (ops15 (F := F)) W (Proc.devRef .tc main_arg1) = x1)
    ∧ (after (ops15 (F := F)) W (Proc.devRef .tc main_arg2) = x2)
    ∧ (after (ops15 (F := F)) W (Proc.devRef .tc main_arg3) = x3)
    ∧ (after (ops15 (F := F)) W (Proc.devRef .tc main_arg4) = x4)
    ∧ (after (ops15 (F := F)) W (Proc.devRef .tc main_arg5) = x5)
    ∧ (after (ops15 (F := F)) W (Proc.devRef .tc main_arg6) = x6)
    ∧ (after (ops15 (F := F)) W (Proc.devRef .tc main_arg7) = x7)
    ∧ (after (ops15 (F := F)) W (Proc.devRef .tc main_v140) = val_main_v140 (F := F) x0 x1 x2 x3 x4 x6 x7) := by
  refine ⟨?_, ?_, ?_, ?_, ?_, ?_, ?_, ?_, ?_⟩
  · after_results_simp
    exact h_arg0
  · after_results_simp
    exact h_arg1
  · after_results_simp
    exact h_arg2
  · after_results_simp
    exact h_arg3
  · after_results_simp
    exact h_arg4
  · after_results_simp
    exact h_arg5
  · after_results_simp
    exact h_arg6
  · after_results_simp
    exact h_arg7
  · after_results_simp
    try simp only [h_arg0, h_arg1, h_arg2, h_arg3, h_arg4, h_arg5, h_arg6, h_arg7, h_v133, h_v137]
    rfl

end Cert.RefSide

end
-- ==== Proof.RefRun.lean ====
/-
  The reference program's run: its 184 operations are the concatenation of sixteen short lines, the contents after the
  whole are the contents after the lines one by one, and so the result buffer ends at the last stage of the arguments
  with the arguments unchanged.
-/
import proofs.«144527_j2001454760825_2_alg».proof.Proof.RefRun1
import proofs.«144527_j2001454760825_2_alg».proof.Proof.RefRun2
import proofs.«144527_j2001454760825_2_alg».proof.Proof.RefRun3
import proofs.«144527_j2001454760825_2_alg».proof.Proof.RefRun4

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The contents after a concatenation are the contents after the second line from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The program's operations are the sixteen lines in order. -/
theorem ops_eq : (Value.ops (F := F)) = ops00 ++ (ops01 ++ (ops02 ++ (ops03 ++ (ops04 ++ (ops05 ++ (ops06 ++ (ops07 ++ (ops08 ++ (ops09 ++ (ops10 ++ (ops11 ++ (ops12 ++ (ops13 ++ (ops14 ++ (ops15))))))))))))))) := rfl

/-- After all the operations, from any contents: the result buffer holds the last stage of the arguments, and the
    arguments are unchanged. -/
theorem ref_after (V : Valuation τ sig (Elt F)) :
    after (Value.ops (F := F)) V (Proc.devRef .tc main_v140)
        = val_main_v140 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7))
    ∧ after (Value.ops (F := F)) V (Proc.devRef .tc main_arg0) = V (Proc.devRef .tc main_arg0)
    ∧ after (Value.ops (F := F)) V (Proc.devRef .tc main_arg1) = V (Proc.devRef .tc main_arg1)
    ∧ after (Value.ops (F := F)) V (Proc.devRef .tc main_arg2) = V (Proc.devRef .tc main_arg2)
    ∧ after (Value.ops (F := F)) V (Proc.devRef .tc main_arg3) = V (Proc.devRef .tc main_arg3)
    ∧ after (Value.ops (F := F)) V (Proc.devRef .tc main_arg4) = V (Proc.devRef .tc main_arg4)
    ∧ after (Value.ops (F := F)) V (Proc.devRef .tc main_arg5) = V (Proc.devRef .tc main_arg5)
    ∧ after (Value.ops (F := F)) V (Proc.devRef .tc main_arg6) = V (Proc.devRef .tc main_arg6)
    ∧ after (Value.ops (F := F)) V (Proc.devRef .tc main_arg7) = V (Proc.devRef .tc main_arg7) := by
  rw [ops_eq]
  simp only [after_append]
  obtain ⟨s0_arg0, s0_arg1, s0_arg2, s0_arg3, s0_arg4, s0_arg5, s0_arg6, s0_arg7, s0_v8, s0_v9⟩ :=
    step00 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) rfl rfl rfl rfl rfl rfl rfl rfl
  obtain ⟨s1_arg0, s1_arg1, s1_arg2, s1_arg3, s1_arg4, s1_arg5, s1_arg6, s1_arg7, s1_v8, s1_v17, s1_call0_v0, s1_call0_cst⟩ :=
    step01 _ _ _ _ _ _ _ _ _ s0_arg0 s0_arg1 s0_arg2 s0_arg3 s0_arg4 s0_arg5 s0_arg6 s0_arg7 s0_v8 s0_v9
  obtain ⟨s2_arg0, s2_arg1, s2_arg2, s2_arg3, s2_arg4, s2_arg5, s2_arg6, s2_arg7, s2_v8, s2_v22, s2_v24, s2_v26⟩ :=
    step02 _ _ _ _ _ _ _ _ _ s1_arg0 s1_arg1 s1_arg2 s1_arg3 s1_arg4 s1_arg5 s1_arg6 s1_arg7 s1_v8 s1_v17 s1_call0_v0 s1_call0_cst
  obtain ⟨s3_arg0, s3_arg1, s3_arg2, s3_arg3, s3_arg4, s3_arg5, s3_arg6, s3_arg7, s3_v8, s3_v22, s3_v27, s3_v33, s3_v35⟩ :=
    step03 _ _ _ _ _ _ _ _ _ s2_arg0 s2_arg1 s2_arg2 s2_arg3 s2_arg4 s2_arg5 s2_arg6 s2_arg7 s2_v8 s2_v22 s2_v24 s2_v26
  obtain ⟨s4_arg0, s4_arg1, s4_arg2, s4_arg3, s4_arg4, s4_arg5, s4_arg6, s4_arg7, s4_v8, s4_v22, s4_v27, s4_v33, s4_v36, s4_v37, s4_v38, s4_v42, s4_v46⟩ :=
    step04 _ _ _ _ _ _ _ _ _ s3_arg0 s3_arg1 s3_arg2 s3_arg3 s3_arg4 s3_arg5 s3_arg6 s3_arg7 s3_v8 s3_v22 s3_v27 s3_v33 s3_v35
  obtain ⟨s5_arg0, s5_arg1, s5_arg2, s5_arg3, s5_arg4, s5_arg5, s5_arg6, s5_arg7, s5_v22, s5_v27, s5_v33, s5_v36, s5_v37, s5_v38, s5_v42, s5_v48, s5_v51, s5_v53, s5_v54, s5_v55⟩ :=
    step05 _ _ _ _ _ _ _ _ _ s4_arg0 s4_arg1 s4_arg2 s4_arg3 s4_arg4 s4_arg5 s4_arg6 s4_arg7 s4_v8 s4_v22 s4_v27 s4_v33 s4_v36 s4_v37 s4_v38 s4_v42 s4_v46
  obtain ⟨s6_arg0, s6_arg1, s6_arg2, s6_arg3, s6_arg4, s6_arg5, s6_arg6, s6_arg7, s6_v22, s6_v27, s6_v33, s6_v36, s6_v37, s6_v38, s6_v51, s6_v62, s6_v63⟩ :=
    step06 _ _ _ _ _ _ _ _ _ s5_arg0 s5_arg1 s5_arg2 s5_arg3 s5_arg4 s5_arg5 s5_arg6 s5_arg7 s5_v22 s5_v27 s5_v33 s5_v36 s5_v37 s5_v38 s5_v42 s5_v48 s5_v51 s5_v53 s5_v54 s5_v55
  obtain ⟨s7_arg0, s7_arg1, s7_arg2, s7_arg3, s7_arg4, s7_arg5, s7_arg6, s7_arg7, s7_v22, s7_v33, s7_v36, s7_v68, s7_v71, s7_v72, s7_v73⟩ :=
    step07 _ _ _ _ _ _ _ _ _ s6_arg0 s6_arg1 s6_arg2 s6_arg3 s6_arg4 s6_arg5 s6_arg6 s6_arg7 s6_v22 s6_v27 s6_v33 s6_v36 s6_v37 s6_v38 s6_v51 s6_v62 s6_v63
  obtain ⟨s8_arg0, s8_arg1, s8_arg2, s8_arg3, s8_arg4, s8_arg5, s8_arg6, s8_arg7, s8_v68, s8_v72, s8_v79, s8_v82, s8_cst_19⟩ :=
    step08 _ _ _ _ _ _ _ _ _ s7_arg0 s7_arg1 s7_arg2 s7_arg3 s7_arg4 s7_arg5 s7_arg6 s7_arg7 s7_v22 s7_v33 s7_v36 s7_v68 s7_v71 s7_v72 s7_v73
  obtain ⟨s9_arg0, s9_arg1, s9_arg2, s9_arg3, s9_arg4, s9_arg5, s9_arg6, s9_arg7, s9_v68, s9_v72, s9_v87, s9_v89, s9_v91⟩ :=
    step09 _ _ _ _ _ _ _ _ _ s8_arg0 s8_arg1 s8_arg2 s8_arg3 s8_arg4 s8_arg5 s8_arg6 s8_arg7 s8_v68 s8_v72 s8_v79 s8_v82 s8_cst_19
  obtain ⟨s10_arg0, s10_arg1, s10_arg2, s10_arg3, s10_arg4, s10_arg5, s10_arg6, s10_arg7, s10_v68, s10_v87, s10_v92, s10_v97, s10_v99, s10_cst_26⟩ :=
    step10 _ _ _ _ _ _ _ _ _ s9_arg0 s9_arg1 s9_arg2 s9_arg3 s9_arg4 s9_arg5 s9_arg6 s9_arg7 s9_v68 s9_v72 s9_v87 s9_v89 s9_v91
  obtain ⟨s11_arg0, s11_arg1, s11_arg2, s11_arg3, s11_arg4, s11_arg5, s11_arg6, s11_arg7, s11_v87, s11_v92, s11_v97, s11_v102, s11_v104, s11_v105, s11_v106⟩ :=
    step11 _ _ _ _ _ _ _ _ _ s10_arg0 s10_arg1 s10_arg2 s10_arg3 s10_arg4 s10_arg5 s10_arg6 s10_arg7 s10_v68 s10_v87 s10_v92 s10_v97 s10_v99 s10_cst_26
  obtain ⟨s12_arg0, s12_arg1, s12_arg2, s12_arg3, s12_arg4, s12_arg5, s12_arg6, s12_arg7, s12_v87, s12_v92, s12_v97, s12_v102, s12_v116⟩ :=
    step12 _ _ _ _ _ _ _ _ _ s11_arg0 s11_arg1 s11_arg2 s11_arg3 s11_arg4 s11_arg5 s11_arg6 s11_arg7 s11_v87 s11_v92 s11_v97 s11_v102 s11_v104 s11_v105 s11_v106
  obtain ⟨s13_arg0, s13_arg1, s13_arg2, s13_arg3, s13_arg4, s13_arg5, s13_arg6, s13_arg7, s13_v97, s13_v102, s13_v121, s13_v125, s13_v126⟩ :=
    step13 _ _ _ _ _ _ _ _ _ s12_arg0 s12_arg1 s12_arg2 s12_arg3 s12_arg4 s12_arg5 s12_arg6 s12_arg7 s12_v87 s12_v92 s12_v97 s12_v102 s12_v116
  obtain ⟨s14_arg0, s14_arg1, s14_arg2, s14_arg3, s14_arg4, s14_arg5, s14_arg6, s14_arg7, s14_v133, s14_v137⟩ :=
    step14 _ _ _ _ _ _ _ _ _ s13_arg0 s13_arg1 s13_arg2 s13_arg3 s13_arg4 s13_arg5 s13_arg6 s13_arg7 s13_v97 s13_v102 s13_v121 s13_v125 s13_v126
  obtain ⟨s15_arg0, s15_arg1, s15_arg2, s15_arg3, s15_arg4, s15_arg5, s15_arg6, s15_arg7, s15_v140⟩ :=
    step15 _ _ _ _ _ _ _ _ _ s14_arg0 s14_arg1 s14_arg2 s14_arg3 s14_arg4 s14_arg5 s14_arg6 s14_arg7 s14_v133 s14_v137
  exact ⟨s15_v140, s15_arg0, s15_arg1, s15_arg2, s15_arg3, s15_arg4, s15_arg5, s15_arg6, s15_arg7⟩

/-- On every device, from any memory with zero counters: every weakly fair execution of @main terminates with the result
    buffer at the last stage of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140)
          = val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have k := ref_after (F := F) (launchContents m c)
      ⟨(h c main_v140).trans k.1, (h c main_arg0).trans k.2.1, (h c main_arg1).trans k.2.2.1, (h c main_arg2).trans k.2.2.2.1, (h c main_arg3).trans k.2.2.2.2.1, (h c main_arg4).trans k.2.2.2.2.2.1, (h c main_arg5).trans k.2.2.2.2.2.2.1, (h c main_arg6).trans k.2.2.2.2.2.2.2.1, (h c main_arg7).trans k.2.2.2.2.2.2.2.2⟩)
    (run_seq Value.scopedRefs_eq Value.scopedSems_eq defs main (fun _ => Value.ops) Value.main_eq (fun _ => Value.ops_sub) m ρ)

end Cert.RefSide

end
-- ==== Proof.K0Chunk.lean ====
/-
  The gradient kernel's body, one chunk of 512 rows at a time.

  A trip of the body's loop reads a chunk `x` of 512 rows of the block and adds to each of four accumulators the
  chunk's contribution to a gradient: `dz0ᵀ · q` ([32,16]), the column sums of `dz0` ([1,32]), `dz1ᵀ · u` ([16,32])
  and the column sums of `dz1` ([1,16]), all functions of the seven weight blocks the body loaded before the loop
  and of `x`.  They are named here, in the body's own operations, so that the run of the loop and the arithmetic of a
  chunk can be stated separately.
-/
import proofs.«144527_j2001454760825_2_alg».proof.Proof.Gen.KernelIdeal.Skeleton
import Idealize.ShloMosaic.Lib.Pipeline.Value

noncomputable section

namespace Cert.KernelIdeal.Region0

open Cert.KernelIdeal Cert.KernelIdeal.Gen Idealize.ShloMosaic Idealize.ShloMosaic.TcCoe

variable {F : FTy → Type} [FloatOps F]

/-- The seven weight blocks as the loop finds them: `WVᵀ`, `WQᵀ`, `W0ᵀ`, `b0`, `W1`, `W1ᵀ`, `b1`. -/
structure Weights (F : FTy → Type) [FloatOps F] where
  wvT : FVec F S16x16 .bf16
  wqT : FVec F S16x16 .bf16
  w0T : FVec F S16x32 .bf16
  b0 : FVec F S1x32 .f32
  w1 : FVec F S16x32 .bf16
  w1T : FVec F S32x16 .bf16
  b1 : FVec F S1x16 .f32

variable (w : Weights F) (x : Vec F S512x16 .f32)

/-- `dz0` of the chunk: the first layer's pre-activation error, [512,32]. -/
def chunkDz0 : FVec F S512x32 .f32 :=
  k0_pay28 (k0_pay5 w.wqT w.w0T w.b0 x) (k0_pay6 w.wqT w.w0T w.b0 x) (k0_pay12 w.wvT w.wqT w.w0T w.b0 w.w1 w.w1T w.b1 x)
/-- The chunk's contribution `dz0ᵀ · q` to the first weight's gradient, [32,16]. -/
def chunkW0 : FVec F S32x16 .f32 :=
  matmul dot_S512x32_S512x16_S32x16_0_0_1_1_n_n none (truncf .bf16 (chunkDz0 w x) bitsLt_bf16_f32) (k0_pay4 w.wqT x) (constant S32x16 .f32 0x00000000#32)
/-- The chunk's contribution to the first bias's gradient: the column sums of `dz0`, as a one-row matrix [1,32]. -/
def chunkB0 : FVec F S1x32 .f32 :=
  shapeCast S1x32 (multiReduction .add [0] S32 (chunkDz0 w x) 0x00000000#32 reduces_S512x32_S32 (.inl rfl) rfl) shapeCasts_S32_S1x32
/-- The chunk's contribution `dz1ᵀ · u` to the second weight's gradient, [16,32]. -/
def chunkW1 : FVec F S16x32 .f32 := k0_pay10 w.wvT w.wqT w.w0T w.b0 w.w1T w.b1 x
/-- The chunk's contribution to the second bias's gradient: the column sums of `dz1`, [1,16]. -/
def chunkB1 : FVec F S1x16 .f32 := k0_pay11 w.wvT w.wqT w.w0T w.b0 w.w1T w.b1 x

/-- The trip's four stores are the accumulators found plus the chunk's contributions. -/
theorem pay29_eq (a : Vec F S32x16 .f32) :
    k0_pay29 (k0_pay4 w.wqT x) (k0_pay5 w.wqT w.w0T w.b0 x) (k0_pay6 w.wqT w.w0T w.b0 x) (k0_pay12 w.wvT w.wqT w.w0T w.b0 w.w1 w.w1T w.b1 x) a
      = addf a (chunkW0 w x) := by
  unfold k0_pay29 chunkW0 chunkDz0; simp only [shapeCast_self]
theorem pay30_eq (a : Vec F S1x32 .f32) :
    k0_pay30 (k0_pay5 w.wqT w.w0T w.b0 x) (k0_pay6 w.wqT w.w0T w.b0 x) (k0_pay12 w.wvT w.wqT w.w0T w.b0 w.w1 w.w1T w.b1 x) a
      = addf a (chunkB0 w x) := by
  unfold k0_pay30 chunkB0 chunkDz0; simp only [shapeCast_self]
theorem pay31_eq (a : Vec F S16x32 .f32) : k0_pay31 (chunkW1 w x) a = addf a (chunkW1 w x) := by
  unfold k0_pay31; simp only [shapeCast_self]
theorem pay32_eq (a : Vec F S1x16 .f32) : k0_pay32 (chunkB1 w x) a = addf a (chunkB1 w x) := by
  unfold k0_pay32; simp only [shapeCast_self]

end Cert.KernelIdeal.Region0

end
-- ==== Proof.K0Loop.lean ====
/-
  The gradient kernel's loop over the sixteen chunks of a block, read as an accumulation.

  Before the loop the four accumulators hold what the body stored there (zeros); trip `k` reads rows
  `[512k, 512k + 512)` of the block and stores, into each accumulator whole, what it found there plus the chunk's
  contribution.  So after `n` trips each accumulator reads as its entry contents plus the contributions of the chunks
  `0 … n − 1`, added in that order.
-/
import proofs.«144527_j2001454760825_2_alg».proof.Proof.Gen.KernelIdeal.Frame
import proofs.«144527_j2001454760825_2_alg».proof.Proof.K0Chunk
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.Sem

variable {F : FTy → Type} [FloatOps F]

/-- A store through the whole buffer, made last, is what a read of the buffer returns, whatever was stored before. -/
theorem read_writes_cons_whole {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- A load through the whole buffer reads its contents. -/
theorem readAt_whole {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) :
    View.readAt (Elt F) v (Rect.unit off S.size inb).toLoadRect f = v.read (Elt F) f := by
  rw [View.readAt_eq_ld, View.ld_unit_zero h inb]

theorem hz2 : (![0, 0] : Fin 2 → Nat) = fun _ => 0 := funext fun a => by fin_cases a <;> rfl
theorem hz3 : (![0, 0, 0] : Fin 3 → Nat) = fun _ => 0 := funext fun a => by fin_cases a <;> rfl

section Loop

variable (𝒱 : Variants) (c : Dev nD) (bd : Option 𝒱.V) (i : grid0.Coords) (arg2 : Memref sig .tc .vmem S8192x16 .f32) (harg2 : arg2.IsWhole) (arg3 : Memref sig .tc .vmem S16x16 .bf16) (harg3 : arg3.IsWhole) (arg4 : Memref sig .tc .vmem S16x16 .bf16) (harg4 : arg4.IsWhole) (arg5 : Memref sig .tc .vmem S16x32 .bf16) (harg5 : arg5.IsWhole) (arg6 : Memref sig .tc .vmem S1x32 .f32) (harg6 : arg6.IsWhole) (arg7 : Memref sig .tc .vmem S16x32 .bf16) (harg7 : arg7.IsWhole) (arg8 : Memref sig .tc .vmem S32x16 .bf16) (harg8 : arg8.IsWhole) (arg9 : Memref sig .tc .vmem S1x16 .f32) (harg9 : arg9.IsWhole) (arg10 : Memref sig .tc .vmem S1x32x16 .f32) (harg10 : arg10.IsWhole) (arg11 : Memref sig .tc .vmem S1x1x32 .f32) (harg11 : arg11.IsWhole) (arg12 : Memref sig .tc .vmem S1x16x32 .f32) (harg12 : arg12.IsWhole) (arg13 : Memref sig .tc .vmem S1x1x16 .f32) (harg13 : arg13.IsWhole) (arg14 : Memref sig .tc .vmem S32x16 .f32) (harg14 : arg14.IsWhole) (arg15 : Memref sig .tc .vmem S1x32 .f32) (harg15 : arg15.IsWhole) (arg16 : Memref sig .tc .vmem S16x32 .f32) (harg16 : arg16.IsWhole) (arg17 : Memref sig .tc .vmem S1x16 .f32) (harg17 : arg17.IsWhole) (v20 : FVec F S16x16 .bf16) (v22 : FVec F S16x16 .bf16) (v24 : FVec F S16x32 .bf16) (v26 : FVec F S1x32 .f32) (v28 : FVec F S16x32 .bf16) (v29 : Vec F S32x16 .bf16) (v31 : Vec F S1x16 .f32) (X_arg2 : BufTy.Contents (Elt F) arg2.view.ty)

/-- The weight blocks as the loop finds them. -/
abbrev wts : Weights F := ⟨v20, v22, v24, v26, v28, k0_pay26 v29, k0_pay27 v31⟩

/-- Chunk `k` of the block: its rows `[512k, 512k + 512)`. -/
abbrev chunk (k : Fin k0_t1_loop.trips) : Vec F S512x16 .f32 :=
  View.readAt (Elt F) arg2.view (Rect.unit (s := S8192x16) (k0_off1 k) S512x16.size (k0_off1_inb k)).toLoadRect X_arg2

variable (f14 : BufTy.Contents (Elt F) arg14.view.ty) (f15 : BufTy.Contents (Elt F) arg15.view.ty)
  (f16 : BufTy.Contents (Elt F) arg16.view.ty) (f17 : BufTy.Contents (Elt F) arg17.view.ty)

/-- Trip `k` stores, into the first accumulator whole, what it found plus the chunk's `dz0ᵀ · q`. -/
theorem trip_piece14 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 k).1 f14 f15 f16 f17
      = [⟨Rect.unit ![0, 0] S32x16.size inb_S32x16_S32x16_0_0,
          addf (arg14.view.read (Elt F) f14) (chunkW0 (wts v20 v22 v24 v26 v28 v29 v31) (chunk arg2 X_arg2 k))⟩] := by
  rw [← pay29_eq, ← readAt_whole arg14.view f14 hz2 inb_S32x16_S32x16_0_0]
  unfold trip_k0_t1
  dsimp only
  sl_unfold_words
  rfl
/-- … into the second, what it found plus the column sums of `dz0`. -/
theorem trip_piece15 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 k).2.1 f14 f15 f16 f17
      = [⟨Rect.unit ![0, 0] S1x32.size inb_S1x32_S1x32_0_0,
          addf (arg15.view.read (Elt F) f15) (chunkB0 (wts v20 v22 v24 v26 v28 v29 v31) (chunk arg2 X_arg2 k))⟩] := by
  rw [← pay30_eq, ← readAt_whole arg15.view f15 hz2 inb_S1x32_S1x32_0_0]
  unfold trip_k0_t1
  dsimp only
  sl_unfold_words
  rfl
/-- … into the third, what it found plus the chunk's `dz1ᵀ · u`. -/
theorem trip_piece16 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 k).2.2.1 f14 f15 f16 f17
      = [⟨Rect.unit ![0, 0] S16x32.size inb_S16x32_S16x32_0_0,
          addf (arg16.view.read (Elt F) f16) (chunkW1 (wts v20 v22 v24 v26 v28 v29 v31) (chunk arg2 X_arg2 k))⟩] := by
  rw [← pay31_eq, ← readAt_whole arg16.view f16 hz2 inb_S16x32_S16x32_0_0]
  unfold trip_k0_t1
  dsimp only
  sl_unfold_words
  rfl
/-- … into the fourth, what it found plus the column sums of `dz1`. -/
theorem trip_piece17 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 k).2.2.2.1 f14 f15 f16 f17
      = [⟨Rect.unit ![0, 0] S1x16.size inb_S1x16_S1x16_0_0,
          addf (arg17.view.read (Elt F) f17) (chunkB1 (wts v20 v22 v24 v26 v28 v29 v31) (chunk arg2 X_arg2 k))⟩] := by
  rw [← pay32_eq, ← readAt_whole arg17.view f17 hz2 inb_S1x16_S1x16_0_0]
  unfold trip_k0_t1
  dsimp only
  sl_unfold_words
  rfl

variable (G14 : BufTy.Contents (Elt F) arg14.view.ty) (G15 : BufTy.Contents (Elt F) arg15.view.ty)
  (G16 : BufTy.Contents (Elt F) arg16.view.ty) (G17 : BufTy.Contents (Elt F) arg17.view.ty)

/-- The first accumulator as a read finds it after `n` trips (entry contents `G14`). -/
def acc14 (n : ℕ) : Vec F S32x16 .f32 := arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n).1)
/-- The second accumulator after `n` trips. -/
def acc15 (n : ℕ) : Vec F S1x32 .f32 := arg15.view.read (Elt F) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n).2.1)
/-- The third accumulator after `n` trips. -/
def acc16 (n : ℕ) : Vec F S16x32 .f32 := arg16.view.read (Elt F) (arg16.view.writes (Elt F) G16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n).2.2.1)
/-- The fourth accumulator after `n` trips. -/
def acc17 (n : ℕ) : Vec F S1x16 .f32 := arg17.view.read (Elt F) (arg17.view.writes (Elt F) G17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n).2.2.2)

theorem acc14_zero : acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 0 = arg14.view.read (Elt F) G14 := rfl
theorem acc15_zero : acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 0 = arg15.view.read (Elt F) G15 := rfl
theorem acc16_zero : acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 0 = arg16.view.read (Elt F) G16 := rfl
theorem acc17_zero : acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 0 = arg17.view.read (Elt F) G17 := rfl

/-- One more trip adds the chunk's contribution to what the accumulator read before. -/
theorem acc14_succ (k : Fin k0_t1_loop.trips) :
    acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 (k.val + 1)
      = addf (acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k.val) (chunkW0 (wts v20 v22 v24 v26 v28 v29 v31) (chunk arg2 X_arg2 k)) := by
  unfold acc14
  rw [pb_k0_t1_succ]
  dsimp only [tripL_k0_t1]
  rw [trip_piece14, List.singleton_append]
  exact read_writes_cons_whole _ _ hz2 _ _ _
theorem acc15_succ (k : Fin k0_t1_loop.trips) :
    acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 (k.val + 1)
      = addf (acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k.val) (chunkB0 (wts v20 v22 v24 v26 v28 v29 v31) (chunk arg2 X_arg2 k)) := by
  unfold acc15
  rw [pb_k0_t1_succ]
  dsimp only [tripL_k0_t1]
  rw [trip_piece15, List.singleton_append]
  exact read_writes_cons_whole _ _ hz2 _ _ _
theorem acc16_succ (k : Fin k0_t1_loop.trips) :
    acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 (k.val + 1)
      = addf (acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k.val) (chunkW1 (wts v20 v22 v24 v26 v28 v29 v31) (chunk arg2 X_arg2 k)) := by
  unfold acc16
  rw [pb_k0_t1_succ]
  dsimp only [tripL_k0_t1]
  rw [trip_piece16, List.singleton_append]
  exact read_writes_cons_whole _ _ hz2 _ _ _
theorem acc17_succ (k : Fin k0_t1_loop.trips) :
    acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 (k.val + 1)
      = addf (acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k.val) (chunkB1 (wts v20 v22 v24 v26 v28 v29 v31) (chunk arg2 X_arg2 k)) := by
  unfold acc17
  rw [pb_k0_t1_succ]
  dsimp only [tripL_k0_t1]
  rw [trip_piece17, List.singleton_append]
  exact read_writes_cons_whole _ _ hz2 _ _ _

end Loop

end Cert.KernelIdeal.Region0

end
-- ==== Proof.K0Case.lean ====
/-
  What a grid point of the gradient kernel leaves in its four output blocks.

  At a point that opens a core's run of blocks the body first stores zeros into the outputs; at every other point
  the outputs hold what the point before left.  Either way the body zeroes the four accumulators, runs the loop over
  the block's sixteen chunks, and stores into each output what it held plus the accumulator.
-/
import proofs.«144527_j2001454760825_2_alg».proof.Proof.K0Loop

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.Sem

variable {F : FTy → Type} [FloatOps F]

section Point

variable (c : Dev nD) (i : grid0.Coords) (arg2 : Memref sig .tc .vmem S8192x16 .f32) (harg2 : arg2.IsWhole) (arg3 : Memref sig .tc .vmem S16x16 .bf16) (harg3 : arg3.IsWhole) (arg4 : Memref sig .tc .vmem S16x16 .bf16) (harg4 : arg4.IsWhole) (arg5 : Memref sig .tc .vmem S16x32 .bf16) (harg5 : arg5.IsWhole) (arg6 : Memref sig .tc .vmem S1x32 .f32) (harg6 : arg6.IsWhole) (arg7 : Memref sig .tc .vmem S16x32 .bf16) (harg7 : arg7.IsWhole) (arg8 : Memref sig .tc .vmem S32x16 .bf16) (harg8 : arg8.IsWhole) (arg9 : Memref sig .tc .vmem S1x16 .f32) (harg9 : arg9.IsWhole) (arg10 : Memref sig .tc .vmem S1x32x16 .f32) (harg10 : arg10.IsWhole) (arg11 : Memref sig .tc .vmem S1x1x32 .f32) (harg11 : arg11.IsWhole) (arg12 : Memref sig .tc .vmem S1x16x32 .f32) (harg12 : arg12.IsWhole) (arg13 : Memref sig .tc .vmem S1x1x16 .f32) (harg13 : arg13.IsWhole) (arg14 : Memref sig .tc .vmem S32x16 .f32) (harg14 : arg14.IsWhole) (arg15 : Memref sig .tc .vmem S1x32 .f32) (harg15 : arg15.IsWhole) (arg16 : Memref sig .tc .vmem S16x32 .f32) (harg16 : arg16.IsWhole) (arg17 : Memref sig .tc .vmem S1x16 .f32) (harg17 : arg17.IsWhole) (x0 : Vec F S8192x16 .f32) (x1 : Vec F S16x16 .bf16) (x2 : Vec F S16x16 .bf16) (x3 : Vec F S16x32 .bf16) (x4 : Vec F S1x32 .f32) (x5 : Vec F S16x32 .bf16) (x6 : Vec F S32x16 .bf16) (x7 : Vec F S1x16 .f32)

/-- The accumulators at loop entry: the body's zero stores over whatever the scratch buffers held. -/
abbrev Z14 : BufTy.Contents (Elt F) arg14.view.ty := arg14.view.writes (Elt F) arg14.view.junk [⟨Rect.unit ![0, 0] S32x16.size inb_S32x16_S32x16_0_0, k0_pay17⟩]
abbrev Z15 : BufTy.Contents (Elt F) arg15.view.ty := arg15.view.writes (Elt F) arg15.view.junk [⟨Rect.unit ![0, 0] S1x32.size inb_S1x32_S1x32_0_0, k0_pay18⟩]
abbrev Z16 : BufTy.Contents (Elt F) arg16.view.ty := arg16.view.writes (Elt F) arg16.view.junk [⟨Rect.unit ![0, 0] S16x32.size inb_S16x32_S16x32_0_0, k0_pay19⟩]
abbrev Z17 : BufTy.Contents (Elt F) arg17.view.ty := arg17.view.writes (Elt F) arg17.view.junk [⟨Rect.unit ![0, 0] S1x16.size inb_S1x16_S1x16_0_0, k0_pay20⟩]

/-- The four accumulators after the loop over the block `x0`. -/
def tot14 : Vec F S32x16 .f32 := acc14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay21 x1) (k0_pay22 x2) (k0_pay23 x3) (k0_pay24 x4) (k0_pay25 x5) x6 x7 (harg2.unread x0) (Z14 arg14) (Z15 arg15) (Z16 arg16) (Z17 arg17) (Scf.trips k0_t1_loop.lb k0_t1_loop.ub k0_t1_loop.st)
def tot15 : Vec F S1x32 .f32 := acc15 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay21 x1) (k0_pay22 x2) (k0_pay23 x3) (k0_pay24 x4) (k0_pay25 x5) x6 x7 (harg2.unread x0) (Z14 arg14) (Z15 arg15) (Z16 arg16) (Z17 arg17) (Scf.trips k0_t1_loop.lb k0_t1_loop.ub k0_t1_loop.st)
def tot16 : Vec F S16x32 .f32 := acc16 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay21 x1) (k0_pay22 x2) (k0_pay23 x3) (k0_pay24 x4) (k0_pay25 x5) x6 x7 (harg2.unread x0) (Z14 arg14) (Z15 arg15) (Z16 arg16) (Z17 arg17) (Scf.trips k0_t1_loop.lb k0_t1_loop.ub k0_t1_loop.st)
def tot17 : Vec F S1x16 .f32 := acc17 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay21 x1) (k0_pay22 x2) (k0_pay23 x3) (k0_pay24 x4) (k0_pay25 x5) x6 x7 (harg2.unread x0) (Z14 arg14) (Z15 arg15) (Z16 arg16) (Z17 arg17) (Scf.trips k0_t1_loop.lb k0_t1_loop.ub k0_t1_loop.st)

/-- The opening case: the first output block is the zero block plus the first accumulator. -/
theorem out_A_8 (hc0 : cond0_0 i) :
    out0_A_8 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
      = k0_pay33 k0_pay13 (tot14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x32x16) hz3, View.readCov_unit_zero (S := S1x32x16) _ hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

/-- The opening case: the second output block is the zero block plus the second accumulator. -/
theorem out_A_9 (hc0 : cond0_0 i) :
    out0_A_9 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
      = k0_pay34 k0_pay14 (tot15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x1x32) hz3, View.readCov_unit_zero (S := S1x1x32) _ hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

/-- The opening case: the third output block is the zero block plus the third accumulator. -/
theorem out_A_10 (hc0 : cond0_0 i) :
    out0_A_10 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
      = k0_pay1 (k0_pay35 k0_pay15 (tot16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x16x32) hz3, View.readCov_unit_zero (S := S1x16x32) _ hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

/-- The opening case: the fourth output block is the zero block plus the fourth accumulator. -/
theorem out_A_11 (hc0 : cond0_0 i) :
    out0_A_11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
      = k0_pay2 k0_pay16 (tot17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x1x16) hz3, View.readCov_unit_zero (S := S1x1x16) _ hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

/-- Every other point: the first output block is what it held plus the first accumulator. -/
theorem out_B_8 (hc0 : ¬cond0_0 i) (xo8 : Vec F S1x32x16 .f32) (xo9 : Vec F S1x1x32 .f32) (xo10 : Vec F S1x16x32 .f32) (xo11 : Vec F S1x1x16 .f32) :
    out0_B_8 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11
      = k0_pay33 xo8 (tot14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11)]
  unfold kernelRun0_B
  dsimp only
  sl_unfold_words
  rw [View.canon_unit_zero (S := S1x32x16) hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

/-- Every other point: the second output block is what it held plus the second accumulator. -/
theorem out_B_9 (hc0 : ¬cond0_0 i) (xo8 : Vec F S1x32x16 .f32) (xo9 : Vec F S1x1x32 .f32) (xo10 : Vec F S1x16x32 .f32) (xo11 : Vec F S1x1x16 .f32) :
    out0_B_9 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11
      = k0_pay34 xo9 (tot15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11)]
  unfold kernelRun0_B
  dsimp only
  sl_unfold_words
  rw [View.canon_unit_zero (S := S1x1x32) hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

/-- Every other point: the third output block is what it held plus the third accumulator. -/
theorem out_B_10 (hc0 : ¬cond0_0 i) (xo8 : Vec F S1x32x16 .f32) (xo9 : Vec F S1x1x32 .f32) (xo10 : Vec F S1x16x32 .f32) (xo11 : Vec F S1x1x16 .f32) :
    out0_B_10 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11
      = k0_pay1 (k0_pay35 xo10 (tot16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11)]
  unfold kernelRun0_B
  dsimp only
  sl_unfold_words
  rw [View.canon_unit_zero (S := S1x16x32) hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

/-- Every other point: the fourth output block is what it held plus the fourth accumulator. -/
theorem out_B_11 (hc0 : ¬cond0_0 i) (xo8 : Vec F S1x32x16 .f32) (xo9 : Vec F S1x1x32 .f32) (xo10 : Vec F S1x16x32 .f32) (xo11 : Vec F S1x1x16 .f32) :
    out0_B_11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11
      = k0_pay2 xo11 (tot17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11)]
  unfold kernelRun0_B
  dsimp only
  sl_unfold_words
  rw [View.canon_unit_zero (S := S1x1x16) hz3]
  simp only [View.writes_append, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x16) hz2, View.ld_unit_zero (S := S16x32) hz2, View.ld_unit_zero (S := S1x32) hz2, View.ld_unit_zero (S := S32x16) hz2, View.ld_unit_zero (S := S1x16) hz2, View.ld_unit_zero (S := S1x32x16) hz3, View.ld_unit_zero (S := S1x1x32) hz3, View.ld_unit_zero (S := S1x16x32) hz3, View.ld_unit_zero (S := S1x1x16) hz3]
  rfl

end Point

end Cert.KernelIdeal.Region0

end
-- ==== Proof.K0Points.lean ====
/-
  The gradient kernel's four output blocks from one grid point to the next.

  The grid is two cores' runs of 64 points.  With `T14 … T17` the four accumulators after the loop at a point, the
  outputs after a run's opening point are the zero blocks plus the accumulators, and after any other point what the
  point before left plus the accumulators.
-/
import proofs.«144527_j2001454760825_2_alg».proof.Proof.K0Case

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.Sem

variable {F : FTy → Type} [FloatOps F]
variable (V : (c : Dev nD) → (b : Ref sig .tc) → Buf (Elt F) ((c : Thread nD τ).loc b))

/-- The first accumulator after the loop at point `t`: over the point's block of `x` and the seven weight blocks. -/
def T14 (c : Dev nD) (t : Fin cfg0.N) : Vec F S32x16 .f32 := tot14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t)
/-- The second accumulator after the loop at point `t`. -/
def T15 (c : Dev nD) (t : Fin cfg0.N) : Vec F S1x32 .f32 := tot15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t)
/-- The third accumulator after the loop at point `t`. -/
def T16 (c : Dev nD) (t : Fin cfg0.N) : Vec F S16x32 .f32 := tot16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t)
/-- The fourth accumulator after the loop at point `t`. -/
def T17 (c : Dev nD) (t : Fin cfg0.N) : Vec F S1x16 .f32 := tot17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t)

/-- After a run's opening point the outputs are the zero blocks plus the accumulators. -/
theorem outs_open (c : Dev nD) (t : Fin cfg0.N) (h0 : t.val % 64 = 0) :
    outsAt0 V c t.val t.isLt
      = (k0_pay33 k0_pay13 (T14 V c t), k0_pay34 k0_pay14 (T15 V c t), k0_pay1 (k0_pay35 k0_pay15 (T16 V c t)), k0_pay2 k0_pay16 (T17 V c t)) := by
  refine (outsAt0_A V c t h0).trans ?_
  rw [out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) ((hcond0_0 t).mpr h0), out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) ((hcond0_0 t).mpr h0),
    out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) ((hcond0_0 t).mpr h0), out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) ((hcond0_0 t).mpr h0)]
  rfl

/-- After any other point the outputs are what the point before left plus the accumulators. -/
theorem outs_next (c : Dev nD) (t : Fin cfg0.N) (h0 : ¬t.val % 64 = 0) :
    outsAt0 V c t.val t.isLt
      = (k0_pay33 (outsAt0 V c (t.val - 1) (Nat.lt_of_le_of_lt (Nat.sub_le _ _) t.isLt)).1 (T14 V c t), k0_pay34 (outsAt0 V c (t.val - 1) (Nat.lt_of_le_of_lt (Nat.sub_le _ _) t.isLt)).2.1 (T15 V c t),
         k0_pay1 (k0_pay35 (outsAt0 V c (t.val - 1) (Nat.lt_of_le_of_lt (Nat.sub_le _ _) t.isLt)).2.2.1 (T16 V c t)), k0_pay2 (outsAt0 V c (t.val - 1) (Nat.lt_of_le_of_lt (Nat.sub_le _ _) t.isLt)).2.2.2 (T17 V c t)) := by
  refine (outsAt0_B V c t h0).trans ?_
  rw [out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t) (iblk0 V c 5 t) (iblk0 V c 6 t) (iblk0 V c 7 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  rfl

end Cert.KernelIdeal.Region0

end
-- ==== Proof.K0AccSum.lean ====
/-
  The gradient kernel's loop over the sixteen chunks of a block, summed.

  Each of the four accumulators starts at its entry contents and every trip adds, entry by entry, the contribution of
  the trip's chunk to what it held.  A sequence that grows this way is, after `n` steps, its start plus the sum of the
  first `n` increments; after all sixteen trips it is the entry contents plus the sum of the sixteen chunks'
  contributions.
-/
import proofs.«144527_j2001454760825_2_alg».proof.Proof.K0Loop
import proofs.«144527_j2001454760825_2_alg».proof.Proof.K0Chunk
import Idealize.ShloMosaic.PureOps.Ideal.Laws
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe
open Idealize.SL Idealize.SL.Sem

/-! ## A sequence that grows by entrywise increments -/

/-- The indices below `n + 1` are `n` and the indices below `n`. -/
theorem filter_lt_succ {T : ℕ} (n : ℕ) (hn : n < T) :
    Finset.univ.filter (fun k : Fin T => k.val < n + 1)
      = insert (⟨n, hn⟩ : Fin T) (Finset.univ.filter (fun k : Fin T => k.val < n)) := by
  ext k
  simp only [Finset.mem_filter, Finset.mem_univ, true_and, Finset.mem_insert, Fin.ext_iff]
  omega

/-- A sequence of arrays whose step `k + 1` is step `k` plus `g k`, entry by entry, for the `T` steps `k < T`, is
    after `n ≤ T` steps its start plus the sum of the `g k` with `k < n`. -/
theorem acc_eq_add_sum {ι : Type*} {M : Type*} [AddCommMonoid M] {T : ℕ} (A : ℕ → ι → M) (g : Fin T → ι → M)
    (hs : ∀ k : Fin T, A (k.val + 1) = fun i => A k.val i + g k i) :
    ∀ n, n ≤ T → ∀ i, A n i = A 0 i + ∑ k ∈ Finset.univ.filter (fun k : Fin T => k.val < n), g k i := by
  intro n
  induction n with
  | zero => intro _ i; simp
  | succ n ih =>
    intro hn i
    have hlt : n < T := hn
    have hstep : A (n + 1) i = A n i + g ⟨n, hlt⟩ i := congrFun (hs ⟨n, hlt⟩) i
    rw [filter_lt_succ n hlt, Finset.sum_insert (by simp), hstep, ih (Nat.le_of_lt hlt) i, add_assoc,
      add_comm (g ⟨n, hlt⟩ i)]

/-- After all `T` steps: the start plus the sum of all the increments. -/
theorem acc_total {ι : Type*} {M : Type*} [AddCommMonoid M] {T : ℕ} (A : ℕ → ι → M) (g : Fin T → ι → M)
    (hs : ∀ k : Fin T, A (k.val + 1) = fun i => A k.val i + g k i) (i : ι) :
    A T i = A 0 i + ∑ k : Fin T, g k i := by
  have h := acc_eq_add_sum A g hs T le_rfl i
  rwa [Finset.filter_true_of_mem (fun k _ => k.isLt)] at h

/-! ## The loop makes sixteen trips -/

theorem trips_eq_16 : k0_t1_loop.trips = 16 := by decide

/-- Trip `k` of the sixteen. -/
abbrev trip16 (k : Fin 16) : Fin k0_t1_loop.trips := ⟨k.val, lt_of_lt_of_eq k.isLt trips_eq_16.symm⟩

/-- A sum over the trips is the sum over `Fin 16`. -/
theorem sum_trips16 {M : Type*} [AddCommMonoid M] (f : Fin k0_t1_loop.trips → M) :
    ∑ k, f k = ∑ k : Fin 16, f (trip16 k) :=
  (Equiv.sum_comp (finCongr trips_eq_16.symm) f).symm

/-! ## The four accumulators -/

section Loop

variable (𝒱 : Variants) (c : Dev nD) (bd : Option 𝒱.V) (i : grid0.Coords) (arg2 : Memref sig .tc .vmem S8192x16 .f32) (harg2 : arg2.IsWhole) (arg3 : Memref sig .tc .vmem S16x16 .bf16) (harg3 : arg3.IsWhole) (arg4 : Memref sig .tc .vmem S16x16 .bf16) (harg4 : arg4.IsWhole) (arg5 : Memref sig .tc .vmem S16x32 .bf16) (harg5 : arg5.IsWhole) (arg6 : Memref sig .tc .vmem S1x32 .f32) (harg6 : arg6.IsWhole) (arg7 : Memref sig .tc .vmem S16x32 .bf16) (harg7 : arg7.IsWhole) (arg8 : Memref sig .tc .vmem S32x16 .bf16) (harg8 : arg8.IsWhole) (arg9 : Memref sig .tc .vmem S1x16 .f32) (harg9 : arg9.IsWhole) (arg10 : Memref sig .tc .vmem S1x32x16 .f32) (harg10 : arg10.IsWhole) (arg11 : Memref sig .tc .vmem S1x1x32 .f32) (harg11 : arg11.IsWhole) (arg12 : Memref sig .tc .vmem S1x16x32 .f32) (harg12 : arg12.IsWhole) (arg13 : Memref sig .tc .vmem S1x1x16 .f32) (harg13 : arg13.IsWhole) (arg14 : Memref sig .tc .vmem S32x16 .f32) (harg14 : arg14.IsWhole) (arg15 : Memref sig .tc .vmem S1x32 .f32) (harg15 : arg15.IsWhole) (arg16 : Memref sig .tc .vmem S16x32 .f32) (harg16 : arg16.IsWhole) (arg17 : Memref sig .tc .vmem S1x16 .f32) (harg17 : arg17.IsWhole) (v20 : FVec Ideal S16x16 .bf16) (v22 : FVec Ideal S16x16 .bf16) (v24 : FVec Ideal S16x32 .bf16) (v26 : FVec Ideal S1x32 .f32) (v28 : FVec Ideal S16x32 .bf16) (v29 : Vec Ideal S32x16 .bf16) (v31 : Vec Ideal S1x16 .f32) (X_arg2 : BufTy.Contents (Elt Ideal) arg2.view.ty) (G14 : BufTy.Contents (Elt Ideal) arg14.view.ty) (G15 : BufTy.Contents (Elt Ideal) arg15.view.ty) (G16 : BufTy.Contents (Elt Ideal) arg16.view.ty) (G17 : BufTy.Contents (Elt Ideal) arg17.view.ty)

/-- The accumulator of the first weight's gradient after `n` trips: its entry contents plus the first `n` chunks' contributions. -/
theorem acc14_partial (n : ℕ) (hn : n ≤ k0_t1_loop.trips) (idx : S32x16.Idx) :
    acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n idx
      = (arg14.view.read (Elt Ideal) G14 : Vec Ideal S32x16 .f32) idx
        + ∑ k ∈ Finset.univ.filter (fun k : Fin k0_t1_loop.trips => k.val < n), chunkW0 (wts v20 v22 v24 v26 v28 v29 v31) (chunk arg2 X_arg2 k) idx :=
  acc_eq_add_sum (ι := S32x16.Idx) (M := EReal) (fun n => acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkW0 (wts v20 v22 v24 v26 v28 v29 v31) (chunk arg2 X_arg2 k)) (fun k => acc14_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) n hn idx

/-- … and after all the trips: plus every chunk's contribution. -/
theorem acc14_total (idx : S32x16.Idx) :
    acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg14.view.read (Elt Ideal) G14 : Vec Ideal S32x16 .f32) idx
        + ∑ k : Fin k0_t1_loop.trips, chunkW0 (wts v20 v22 v24 v26 v28 v29 v31) (chunk arg2 X_arg2 k) idx :=
  acc_total (ι := S32x16.Idx) (M := EReal) (fun n => acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkW0 (wts v20 v22 v24 v26 v28 v29 v31) (chunk arg2 X_arg2 k)) (fun k => acc14_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) idx

/-- … the sixteen chunks numbered by `Fin 16`. -/
theorem acc14_total16 (idx : S32x16.Idx) :
    acc14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg14.view.read (Elt Ideal) G14 : Vec Ideal S32x16 .f32) idx
        + ∑ k : Fin 16, chunkW0 (wts v20 v22 v24 v26 v28 v29 v31) (chunk arg2 X_arg2 (trip16 k)) idx :=
  (acc14_total 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 idx).trans
    (congrArg (fun s => (arg14.view.read (Elt Ideal) G14 : Vec Ideal S32x16 .f32) idx + s)
      (sum_trips16 fun k => chunkW0 (wts v20 v22 v24 v26 v28 v29 v31) (chunk arg2 X_arg2 k) idx))

/-- The accumulator of the first bias's gradient after `n` trips: its entry contents plus the first `n` chunks' contributions. -/
theorem acc15_partial (n : ℕ) (hn : n ≤ k0_t1_loop.trips) (idx : S1x32.Idx) :
    acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n idx
      = (arg15.view.read (Elt Ideal) G15 : Vec Ideal S1x32 .f32) idx
        + ∑ k ∈ Finset.univ.filter (fun k : Fin k0_t1_loop.trips => k.val < n), chunkB0 (wts v20 v22 v24 v26 v28 v29 v31) (chunk arg2 X_arg2 k) idx :=
  acc_eq_add_sum (ι := S1x32.Idx) (M := EReal) (fun n => acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkB0 (wts v20 v22 v24 v26 v28 v29 v31) (chunk arg2 X_arg2 k)) (fun k => acc15_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) n hn idx

/-- … and after all the trips: plus every chunk's contribution. -/
theorem acc15_total (idx : S1x32.Idx) :
    acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg15.view.read (Elt Ideal) G15 : Vec Ideal S1x32 .f32) idx
        + ∑ k : Fin k0_t1_loop.trips, chunkB0 (wts v20 v22 v24 v26 v28 v29 v31) (chunk arg2 X_arg2 k) idx :=
  acc_total (ι := S1x32.Idx) (M := EReal) (fun n => acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkB0 (wts v20 v22 v24 v26 v28 v29 v31) (chunk arg2 X_arg2 k)) (fun k => acc15_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) idx

/-- … the sixteen chunks numbered by `Fin 16`. -/
theorem acc15_total16 (idx : S1x32.Idx) :
    acc15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg15.view.read (Elt Ideal) G15 : Vec Ideal S1x32 .f32) idx
        + ∑ k : Fin 16, chunkB0 (wts v20 v22 v24 v26 v28 v29 v31) (chunk arg2 X_arg2 (trip16 k)) idx :=
  (acc15_total 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 idx).trans
    (congrArg (fun s => (arg15.view.read (Elt Ideal) G15 : Vec Ideal S1x32 .f32) idx + s)
      (sum_trips16 fun k => chunkB0 (wts v20 v22 v24 v26 v28 v29 v31) (chunk arg2 X_arg2 k) idx))

/-- The accumulator of the second weight's gradient after `n` trips: its entry contents plus the first `n` chunks' contributions. -/
theorem acc16_partial (n : ℕ) (hn : n ≤ k0_t1_loop.trips) (idx : S16x32.Idx) :
    acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n idx
      = (arg16.view.read (Elt Ideal) G16 : Vec Ideal S16x32 .f32) idx
        + ∑ k ∈ Finset.univ.filter (fun k : Fin k0_t1_loop.trips => k.val < n), chunkW1 (wts v20 v22 v24 v26 v28 v29 v31) (chunk arg2 X_arg2 k) idx :=
  acc_eq_add_sum (ι := S16x32.Idx) (M := EReal) (fun n => acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkW1 (wts v20 v22 v24 v26 v28 v29 v31) (chunk arg2 X_arg2 k)) (fun k => acc16_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) n hn idx

/-- … and after all the trips: plus every chunk's contribution. -/
theorem acc16_total (idx : S16x32.Idx) :
    acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg16.view.read (Elt Ideal) G16 : Vec Ideal S16x32 .f32) idx
        + ∑ k : Fin k0_t1_loop.trips, chunkW1 (wts v20 v22 v24 v26 v28 v29 v31) (chunk arg2 X_arg2 k) idx :=
  acc_total (ι := S16x32.Idx) (M := EReal) (fun n => acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkW1 (wts v20 v22 v24 v26 v28 v29 v31) (chunk arg2 X_arg2 k)) (fun k => acc16_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) idx

/-- … the sixteen chunks numbered by `Fin 16`. -/
theorem acc16_total16 (idx : S16x32.Idx) :
    acc16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg16.view.read (Elt Ideal) G16 : Vec Ideal S16x32 .f32) idx
        + ∑ k : Fin 16, chunkW1 (wts v20 v22 v24 v26 v28 v29 v31) (chunk arg2 X_arg2 (trip16 k)) idx :=
  (acc16_total 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 idx).trans
    (congrArg (fun s => (arg16.view.read (Elt Ideal) G16 : Vec Ideal S16x32 .f32) idx + s)
      (sum_trips16 fun k => chunkW1 (wts v20 v22 v24 v26 v28 v29 v31) (chunk arg2 X_arg2 k) idx))

/-- The accumulator of the second bias's gradient after `n` trips: its entry contents plus the first `n` chunks' contributions. -/
theorem acc17_partial (n : ℕ) (hn : n ≤ k0_t1_loop.trips) (idx : S1x16.Idx) :
    acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n idx
      = (arg17.view.read (Elt Ideal) G17 : Vec Ideal S1x16 .f32) idx
        + ∑ k ∈ Finset.univ.filter (fun k : Fin k0_t1_loop.trips => k.val < n), chunkB1 (wts v20 v22 v24 v26 v28 v29 v31) (chunk arg2 X_arg2 k) idx :=
  acc_eq_add_sum (ι := S1x16.Idx) (M := EReal) (fun n => acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkB1 (wts v20 v22 v24 v26 v28 v29 v31) (chunk arg2 X_arg2 k)) (fun k => acc17_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) n hn idx

/-- … and after all the trips: plus every chunk's contribution. -/
theorem acc17_total (idx : S1x16.Idx) :
    acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg17.view.read (Elt Ideal) G17 : Vec Ideal S1x16 .f32) idx
        + ∑ k : Fin k0_t1_loop.trips, chunkB1 (wts v20 v22 v24 v26 v28 v29 v31) (chunk arg2 X_arg2 k) idx :=
  acc_total (ι := S1x16.Idx) (M := EReal) (fun n => acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 n)
    (fun k => chunkB1 (wts v20 v22 v24 v26 v28 v29 v31) (chunk arg2 X_arg2 k)) (fun k => acc17_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k) idx

/-- … the sixteen chunks numbered by `Fin 16`. -/
theorem acc17_total16 (idx : S1x16.Idx) :
    acc17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 k0_t1_loop.trips idx
      = (arg17.view.read (Elt Ideal) G17 : Vec Ideal S1x16 .f32) idx
        + ∑ k : Fin 16, chunkB1 (wts v20 v22 v24 v26 v28 v29 v31) (chunk arg2 X_arg2 (trip16 k)) idx :=
  (acc17_total 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v22 v24 v26 v28 v29 v31 X_arg2 G14 G15 G16 G17 idx).trans
    (congrArg (fun s => (arg17.view.read (Elt Ideal) G17 : Vec Ideal S1x16 .f32) idx + s)
      (sum_trips16 fun k => chunkB1 (wts v20 v22 v24 v26 v28 v29 v31) (chunk arg2 X_arg2 k) idx))

end Loop

end Cert.KernelIdeal.Region0

end
-- ==== Proof.Spec.lean ====
/-
  The two programs as mathematics, on the extended reals, index by index.

  Rows are indexed by `n`, the model width by `Fin 16`, the hidden width by `Fin 32`.  `sig x = 1 / (1 + e^(-x))`,
  `silu x = x · sig x`.  A row is normalised by `max (sqrt (∑ⱼ aⱼ²)) ε`.

  * `retrieve`: the read-out.  `silu (normalise (X · WQᵀ))` is pushed through the two-layer network
    `silu (silu (r · W0ᵀ + b0) · W1ᵀ + b1)`.  Both programs compute it with the same operations, so it is stated once.
  * The write: one gradient step of the mean squared error `mean ((mlp q − v)²)` in the network's parameters, at
    `q = normalise (silu (X · WQᵀ))`, `v = silu (X · WVᵀ)`, from which the new parameters are `a · p − θ · ∂p`.
    The derivative of `silu` at `z` is `sig z + z · sig z · (1 − sig z)`.
    The reference differentiates the mean itself, so every row's error enters as `(1 / 2²⁴) · (2 · (y − v))` and the
    step is `θ · ∂p` (`Ref`).  The kernel sums the unscaled products and multiplies the sum by the one constant
    `θ · 2⁻²³` (`Ker`).  These agree on real entries because a constant factor passes through every sum and product
    of the backward pass: `Ref.dz1 = 2⁻²³ · Ker.dz1`, hence `Ref.dz0 = 2⁻²³ · Ker.dz0`, hence each gradient likewise.
-/
import Idealize.ShloMosaic.PureOps.Ideal

noncomputable section

namespace Cert.Spec

open Idealize.ShloMosaic

/-- The logistic function `1 / (1 + e^(-x))`. -/
abbrev sig (x : EReal) : EReal := Ideal.logistic x
/-- `x · sig x`. -/
def silu (x : EReal) : EReal := x * sig x
/-- The derivative of `silu` at `z`, written with `s = sig z`. -/
def dsilu (z s : EReal) : EReal := s + z * s * (1 - s)

/-- The lower bound `ε` of a row's norm: the single-precision number nearest `10⁻¹²`. -/
abbrev eps : EReal := Ideal.ofBits .f32 0x2B8CBCCC#32
/-- The decay `a`: the single-precision number nearest `0.999`. -/
abbrev decay : EReal := Ideal.ofBits .f32 0x3F7FBE77#32
/-- The step `θ` of the reference: the single-precision number nearest `0.05`. -/
abbrev theta : EReal := Ideal.ofBits .f32 0x3D4CCCCD#32
/-- The kernel's step: the single-precision number `θ · 2⁻²³` (the same significand, the exponent lowered by 23). -/
abbrev thetaScaled : EReal := Ideal.ofBits .f32 0x31CCCCCD#32
/-- The number of entries of the error, `2²⁴`. -/
abbrev count : EReal := Ideal.ofBits .f32 0x4B800000#32
/-- `2`. -/
abbrev two : EReal := Ideal.ofBits .f32 0x40000000#32
/-- `1`. -/
abbrev one : EReal := Ideal.ofBits .f32 0x3F800000#32

variable {N : ℕ}

/-- `X · Wᵀ` for a square weight of width 16. -/
def proj (X : Fin N → Fin 16 → EReal) (W : Fin 16 → Fin 16 → EReal) (n : Fin N) (j : Fin 16) : EReal :=
  ∑ k, X n k * W j k
/-- A row's norm, bounded below by `ε`. -/
def rowNorm (a : Fin N → Fin 16 → EReal) (n : Fin N) : EReal :=
  max (Ideal.sqrt (∑ j, a n j * a n j)) eps
/-- A row divided by its norm. -/
def normalize (a : Fin N → Fin 16 → EReal) (n : Fin N) (j : Fin 16) : EReal :=
  Ideal.div (a n j) (rowNorm a n)
/-- The first layer before its activation, `r · W0ᵀ + b0`. -/
def pre0 (r : Fin N → Fin 16 → EReal) (W0 : Fin 32 → Fin 16 → EReal) (b0 : Fin 32 → EReal) (n : Fin N) (h : Fin 32) : EReal :=
  (∑ j, r n j * W0 h j) + b0 h
/-- The second layer before its activation, `u · W1ᵀ + b1`. -/
def pre1 (u : Fin N → Fin 32 → EReal) (W1 : Fin 16 → Fin 32 → EReal) (b1 : Fin 16 → EReal) (n : Fin N) (j : Fin 16) : EReal :=
  (∑ h, u n h * W1 j h) + b1 j
/-- The hidden activations of the network at input `r`. -/
def hidden (r : Fin N → Fin 16 → EReal) (W0 : Fin 32 → Fin 16 → EReal) (b0 : Fin 32 → EReal) (n : Fin N) (h : Fin 32) : EReal :=
  silu (pre0 r W0 b0 n h)
/-- The network `silu (silu (r · W0ᵀ + b0) · W1ᵀ + b1)`. -/
def mlp (r : Fin N → Fin 16 → EReal) (W0 : Fin 32 → Fin 16 → EReal) (b0 : Fin 32 → EReal)
    (W1 : Fin 16 → Fin 32 → EReal) (b1 : Fin 16 → EReal) (n : Fin N) (j : Fin 16) : EReal :=
  silu (pre1 (hidden r W0 b0) W1 b1 n j)

/-- The read-out: the network at `silu (normalise (X · WQᵀ))`. -/
def retrieve (X : Fin N → Fin 16 → EReal) (WQ : Fin 16 → Fin 16 → EReal) (W0 : Fin 32 → Fin 16 → EReal) (b0 : Fin 32 → EReal)
    (W1 : Fin 16 → Fin 32 → EReal) (b1 : Fin 16 → EReal) : Fin N → Fin 16 → EReal :=
  mlp (fun n j => silu (normalize (proj X WQ) n j)) W0 b0 W1 b1

/-- The query the write is made at: `normalise (silu (X · WQᵀ))`. -/
def query (X : Fin N → Fin 16 → EReal) (WQ : Fin 16 → Fin 16 → EReal) : Fin N → Fin 16 → EReal :=
  normalize (fun n j => silu (proj X WQ n j))
/-- The value the write aims at: `silu (X · WVᵀ)`. -/
def value (X : Fin N → Fin 16 → EReal) (WV : Fin 16 → Fin 16 → EReal) (n : Fin N) (j : Fin 16) : EReal :=
  silu (proj X WV n j)

/-- What both backward passes share: the query `q`, the target `v`, and the forward pass at `q`. -/
structure Fwd (N : ℕ) where
  q : Fin N → Fin 16 → EReal
  v : Fin N → Fin 16 → EReal
  W1 : Fin 16 → Fin 32 → EReal
  z0 : Fin N → Fin 32 → EReal
  z1 : Fin N → Fin 16 → EReal

/-- The forward pass of the write. -/
def fwd (X : Fin N → Fin 16 → EReal) (W0 : Fin 32 → Fin 16 → EReal) (b0 : Fin 32 → EReal)
    (W1 : Fin 16 → Fin 32 → EReal) (b1 : Fin 16 → EReal) (WV WQ : Fin 16 → Fin 16 → EReal) : Fwd N where
  q := query X WQ
  v := value X WV
  W1 := W1
  z0 := pre0 (query X WQ) W0 b0
  z1 := pre1 (hidden (query X WQ) W0 b0) W1 b1

namespace Fwd
variable (f : Fwd N)
/-- The hidden activations `silu z0`. -/
def u (n : Fin N) (h : Fin 32) : EReal := silu (f.z0 n h)
/-- The error `silu z1 − v`. -/
def err (n : Fin N) (j : Fin 16) : EReal := silu (f.z1 n j) - f.v n j
end Fwd

/-! ### The backward pass as the kernel computes it: no scale inside -/
namespace Ker
variable (f : Fwd N)
def dz1 (n : Fin N) (j : Fin 16) : EReal := f.err n j * dsilu (f.z1 n j) (sig (f.z1 n j))
def dh (n : Fin N) (h : Fin 32) : EReal := ∑ j, dz1 f n j * f.W1 j h
def dz0 (n : Fin N) (h : Fin 32) : EReal := dh f n h * dsilu (f.z0 n h) (sig (f.z0 n h))
def gW1 (j : Fin 16) (h : Fin 32) : EReal := ∑ n, dz1 f n j * f.u n h
def gb1 (j : Fin 16) : EReal := ∑ n, dz1 f n j
def gW0 (h : Fin 32) (j : Fin 16) : EReal := ∑ n, dz0 f n h * f.q n j
def gb0 (h : Fin 32) : EReal := ∑ n, dz0 f n h
end Ker

/-! ### The backward pass as the reference's differentiation of the mean computes it -/
namespace Ref
variable (f : Fwd N)
/-- A row's error as it enters: `(1 / 2²⁴) · (2 · (y − v))`. -/
def g (n : Fin N) (j : Fin 16) : EReal := Ideal.div one count * (two * f.err n j)
def dz1 (n : Fin N) (j : Fin 16) : EReal :=
  g f n j * sig (f.z1 n j) + f.z1 n j * g f n j * (sig (f.z1 n j) * (one - sig (f.z1 n j)))
def dh (n : Fin N) (h : Fin 32) : EReal := ∑ j, dz1 f n j * f.W1 j h
def dz0 (n : Fin N) (h : Fin 32) : EReal :=
  dh f n h * sig (f.z0 n h) + f.z0 n h * dh f n h * (sig (f.z0 n h) * (one - sig (f.z0 n h)))
def gW1 (j : Fin 16) (h : Fin 32) : EReal := ∑ n, dz1 f n j * f.u n h
def gb1 (j : Fin 16) : EReal := ∑ n, dz1 f n j
def gW0 (h : Fin 32) (j : Fin 16) : EReal := ∑ n, dz0 f n h * f.q n j
def gb0 (h : Fin 32) : EReal := ∑ n, dz0 f n h
end Ref

end Cert.Spec

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.K0Fwd.lean ====
/-
  The gradient body's forward pass on a chunk, at an index.

  A chunk x of 512 rows and the weight blocks give, on the extended reals: the query
  q = normalise (silu (x · WQᵀ)), the target v = silu (x · WVᵀ), the first layer z0 = q · W0ᵀ + b0 with
  s0 = sig z0 and u = z0 · s0, and the second layer z1 = u · W1ᵀ + b1.  Each matrix product into the zero
  accumulator is the plain sum over the shared coordinate, the lane sum of squares is the sum over the row, the kept
  column of norms is read at its row, a bias row broadcast over the rows is read at its column, and a change of float
  format is the identity.  Read at row r and a column, every stage is the corresponding entry of the
  specification's forward pass of the chunk.
-/
import proofs.«144527_j2001454760825_2_alg».proof.Proof.K0Chunk
import proofs.«144527_j2001454760825_2_alg».proof.Proof.Spec
import proofs.«144527_j2001454760825_2_alg».proof.Proof.LibContract
import proofs.«144527_j2001454760825_2_alg».proof.Proof.LibRowSum
import proofs.«144527_j2001454760825_2_alg».proof.Proof.LibColumn
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Idealize.ShloMosaic Idealize.ShloMosaic.ValueIdx
open Cert.KernelIdeal.Gen

/-! ## The blocks read by coordinates, and the specification's forward pass of a chunk -/

/-- The chunk's rows. -/
abbrev rdX (x : Vec Ideal S512x16 .f32) : Fin 512 → Fin 16 → EReal := fun n k => x (ix2 n k)
/-- `WV`, read from the block holding its transpose. -/
abbrev rdWV (w : Weights Ideal) : Fin 16 → Fin 16 → EReal := fun j k => w.wvT (ix2 k j)
/-- `WQ`, read from the block holding its transpose. -/
abbrev rdWQ (w : Weights Ideal) : Fin 16 → Fin 16 → EReal := fun j k => w.wqT (ix2 k j)
/-- `W0`, read from the block holding its transpose. -/
abbrev rdW0 (w : Weights Ideal) : Fin 32 → Fin 16 → EReal := fun h j => w.w0T (ix2 j h)
/-- `b0`, read from its one-row block. -/
abbrev rdB0 (w : Weights Ideal) : Fin 32 → EReal := fun h => w.b0 (ix2 (0 : Fin 1) h)
/-- `W1`, read from the block holding it. -/
abbrev rdW1 (w : Weights Ideal) : Fin 16 → Fin 32 → EReal := fun j h => w.w1 (ix2 j h)
/-- `W1`, read from the block holding its transpose. -/
abbrev rdW1T (w : Weights Ideal) : Fin 16 → Fin 32 → EReal := fun j h => w.w1T (ix2 h j)
/-- `b1`, read from its one-row block. -/
abbrev rdB1 (w : Weights Ideal) : Fin 16 → EReal := fun j => w.b1 (ix2 (0 : Fin 1) j)

/-- The forward pass of the write at a chunk: the backward pass reads `W1` from one block and the second layer reads
    it from the block of its transpose. -/
def chunkFwd (w : Weights Ideal) (x : Vec Ideal S512x16 .f32) : Cert.Spec.Fwd 512 where
  q := Cert.Spec.query (rdX x) (rdWQ w)
  v := Cert.Spec.value (rdX x) (rdWV w)
  W1 := rdW1 w
  z0 := Cert.Spec.pre0 (Cert.Spec.query (rdX x) (rdWQ w)) (rdW0 w) (rdB0 w)
  z1 := Cert.Spec.pre1 (Cert.Spec.hidden (Cert.Spec.query (rdX x) (rdWQ w)) (rdW0 w) (rdB0 w)) (rdW1T w) (rdB1 w)

/-! ## A matrix product into the zero accumulator, at (p, q) -/

/-- A product of an [n0, K] by a [K, n1] matrix into the zero accumulator is, at (p, q), the sum over the shared
    coordinate of the operands' products. -/
theorem mm_ix2 {n0 n1 K : ℕ} {φ₁ φ₂ : FTy}
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : FVec Ideal (⟨2, ![n0, K]⟩ : Shape) φ₁) (r : FVec Ideal (⟨2, ![K, n1]⟩ : Shape) φ₂) (p : Fin n0) (q : Fin n1) :
    matmul D none l r (constant (F := Ideal) (⟨2, ![n0, n1]⟩ : Shape) .f32 0x00000000#32) (ix2 p q)
      = ∑ k : Fin K, l (ix2 p k) * r (ix2 k q) :=
  (Ideal.matmul_constant_zero_apply D none l r (ix2 p q)).trans
    (Contract2.sum_contr_eq_sum_fin D hr hs hlc hrc hl0 hr1 l r (ix2 p q))

/-! ## The three products' free coordinates -/

theorem lhs0_a (j : S512x16.Idx) (q : dot_S512x16_S16x16_S512x16_1_0_0_1_n_n.contr.Idx) : (dot_S512x16_S16x16_S512x16_1_0_0_1_n_n.lhsIdx j q 0).val = (j 0).val := by
  unfold DotDims.lhsIdx
  rw [dif_neg (show ¬(0 : Fin S512x16.rank) ∈ dot_S512x16_S16x16_S512x16_1_0_0_1_n_n.lhsBatch by decide), dif_pos (show (0 : Fin S512x16.rank) ∈ dot_S512x16_S16x16_S512x16_1_0_0_1_n_n.lhsNonContracting by decide)]
  rfl
theorem rhs1_a (j : S512x16.Idx) (q : dot_S512x16_S16x16_S512x16_1_0_0_1_n_n.contr.Idx) : (dot_S512x16_S16x16_S512x16_1_0_0_1_n_n.rhsIdx j q 1).val = (j 1).val := by
  unfold DotDims.rhsIdx
  rw [dif_neg (show ¬(1 : Fin S16x16.rank) ∈ dot_S512x16_S16x16_S512x16_1_0_0_1_n_n.rhsBatch by decide), dif_pos (show (1 : Fin S16x16.rank) ∈ dot_S512x16_S16x16_S512x16_1_0_0_1_n_n.rhsNonContracting by decide)]
  rfl

theorem lhs0_b (j : S512x32.Idx) (q : dot_S512x16_S16x32_S512x32_1_0_0_1_n_n.contr.Idx) : (dot_S512x16_S16x32_S512x32_1_0_0_1_n_n.lhsIdx j q 0).val = (j 0).val := by
  unfold DotDims.lhsIdx
  rw [dif_neg (show ¬(0 : Fin S512x16.rank) ∈ dot_S512x16_S16x32_S512x32_1_0_0_1_n_n.lhsBatch by decide), dif_pos (show (0 : Fin S512x16.rank) ∈ dot_S512x16_S16x32_S512x32_1_0_0_1_n_n.lhsNonContracting by decide)]
  rfl
theorem rhs1_b (j : S512x32.Idx) (q : dot_S512x16_S16x32_S512x32_1_0_0_1_n_n.contr.Idx) : (dot_S512x16_S16x32_S512x32_1_0_0_1_n_n.rhsIdx j q 1).val = (j 1).val := by
  unfold DotDims.rhsIdx
  rw [dif_neg (show ¬(1 : Fin S16x32.rank) ∈ dot_S512x16_S16x32_S512x32_1_0_0_1_n_n.rhsBatch by decide), dif_pos (show (1 : Fin S16x32.rank) ∈ dot_S512x16_S16x32_S512x32_1_0_0_1_n_n.rhsNonContracting by decide)]
  rfl

theorem lhs0_c (j : S512x16.Idx) (q : dot_S512x32_S32x16_S512x16_1_0_0_1_n_n.contr.Idx) : (dot_S512x32_S32x16_S512x16_1_0_0_1_n_n.lhsIdx j q 0).val = (j 0).val := by
  unfold DotDims.lhsIdx
  rw [dif_neg (show ¬(0 : Fin S512x32.rank) ∈ dot_S512x32_S32x16_S512x16_1_0_0_1_n_n.lhsBatch by decide), dif_pos (show (0 : Fin S512x32.rank) ∈ dot_S512x32_S32x16_S512x16_1_0_0_1_n_n.lhsNonContracting by decide)]
  rfl
theorem rhs1_c (j : S512x16.Idx) (q : dot_S512x32_S32x16_S512x16_1_0_0_1_n_n.contr.Idx) : (dot_S512x32_S32x16_S512x16_1_0_0_1_n_n.rhsIdx j q 1).val = (j 1).val := by
  unfold DotDims.rhsIdx
  rw [dif_neg (show ¬(1 : Fin S32x16.rank) ∈ dot_S512x32_S32x16_S512x16_1_0_0_1_n_n.rhsBatch by decide), dif_pos (show (1 : Fin S32x16.rank) ∈ dot_S512x32_S32x16_S512x16_1_0_0_1_n_n.rhsNonContracting by decide)]
  rfl

/-! ## The stages -/

/-- silu of every entry. -/
def silV {s : Shape} (a : FVec Ideal s .f32) : FVec Ideal s .f32 := mulf a (logistic a)

theorem silV_apply {s : Shape} (a : FVec Ideal s .f32) (i : s.Idx) : silV a i = Cert.Spec.silu (a i) := rfl

/-- x · Wᵀ for a square weight held transposed. -/
def projV (wt : FVec Ideal S16x16 .bf16) (x : Vec Ideal S512x16 .f32) : FVec Ideal S512x16 .f32 :=
  matmul dot_S512x16_S16x16_S512x16_1_0_0_1_n_n none (k0_pay3 x) wt (constant S512x16 .f32 0x00000000#32)

theorem projV_apply (wt : FVec Ideal S16x16 .bf16) (x : Vec Ideal S512x16 .f32) (r : Fin 512) (j : Fin 16) :
    projV wt x (ix2 r j) = Cert.Spec.proj (rdX x) (fun j k => wt (ix2 k j)) r j :=
  mm_ix2 dot_S512x16_S16x16_S512x16_1_0_0_1_n_n rfl rfl rfl rfl lhs0_a rhs1_a (k0_pay3 x) wt r j

/-- Every row's norm, bounded below by ε, along the row. -/
def rowNormV (a : FVec Ideal S512x16 .f32) : FVec Ideal S512x16 .f32 :=
  broadcastTo S512x16
    (maximumf
      (sqrt (shapeCast S512x1 (multiReduction .add [1] S512 (mulf a a) 0x00000000#32 reduces_S512x16_S512 (.inl rfl) rfl) shapeCasts_S512_S512x1))
      (broadcast S512x1 (Scalar.ofBits .f32 0x2B8CBCCC#32)))
    broadcasts_S512x1_S512x16

theorem rowNormV_apply (a : FVec Ideal S512x16 .f32) (p : Fin 512) (q : Fin 16) :
    rowNormV a (ix2 p q) = Cert.Spec.rowNorm (fun n j => a (ix2 n j)) p := by
  refine (broadcastTo_a1_ab_apply _ broadcasts_S512x1_S512x16 p q).trans ?_
  refine congrArg (fun s => max (Ideal.sqrt s) Cert.Spec.eps) ?_
  refine (shapeCast_a_a1_apply _ shapeCasts_S512_S512x1 p 0).trans ?_
  exact multiReduction_add_rows_apply (mulf a a) reduces_S512x16_S512 (.inl rfl) rfl p

/-- The query is silu (x · WQᵀ) divided by its rows' norms. -/
theorem k0_pay4_eq (wq : FVec Ideal S16x16 .bf16) (x : Vec Ideal S512x16 .f32) :
    k0_pay4 (F := Ideal) wq x
      = truncf .bf16 (divf (silV (projV wq x)) (rowNormV (silV (projV wq x)))) bitsLt_bf16_f32 := rfl

/-- The query at (r, j). -/
theorem pay4_apply (w : Weights Ideal) (x : Vec Ideal S512x16 .f32) (r : Fin 512) (j : Fin 16) :
    k0_pay4 (F := Ideal) w.wqT x (ix2 r j) = (chunkFwd w x).q r j := by
  have hs : (fun n j => silV (projV w.wqT x) (ix2 n j)) = fun n j => Cert.Spec.silu (Cert.Spec.proj (rdX x) (rdWQ w) n j) :=
    funext fun n => funext fun j => congrArg Cert.Spec.silu (projV_apply w.wqT x n j)
  rw [k0_pay4_eq]
  refine (congrArg (Ideal.div (silV (projV w.wqT x) (ix2 r j))) (rowNormV_apply (silV (projV w.wqT x)) r j)).trans ?_
  show Cert.Spec.normalize (fun n j => silV (projV w.wqT x) (ix2 n j)) r j = _
  rw [hs]
  rfl

theorem pay4_fun (w : Weights Ideal) (x : Vec Ideal S512x16 .f32) :
    (fun n j => k0_pay4 (F := Ideal) w.wqT x (ix2 n j)) = (chunkFwd w x).q :=
  funext fun n => funext fun j => pay4_apply w x n j

/-- The first layer before its activation at (r, h). -/
theorem pay5_apply (w : Weights Ideal) (x : Vec Ideal S512x16 .f32) (r : Fin 512) (h : Fin 32) :
    k0_pay5 (F := Ideal) w.wqT w.w0T w.b0 x (ix2 r h) = (chunkFwd w x).z0 r h := by
  refine (congrArg₂ (· + ·)
    (mm_ix2 dot_S512x16_S16x32_S512x32_1_0_0_1_n_n rfl rfl rfl rfl lhs0_b rhs1_b (k0_pay4 (F := Ideal) w.wqT x) w.w0T r h)
    (broadcastTo_1b_ab_apply w.b0 broadcasts_S1x32_S512x32 r h)).trans ?_
  show Cert.Spec.pre0 (fun n j => k0_pay4 (F := Ideal) w.wqT x (ix2 n j)) (rdW0 w) (rdB0 w) r h = _
  rw [pay4_fun]
  rfl

/-- The first layer's logistic at (r, h). -/
theorem pay6_apply (w : Weights Ideal) (x : Vec Ideal S512x16 .f32) (r : Fin 512) (h : Fin 32) :
    k0_pay6 (F := Ideal) w.wqT w.w0T w.b0 x (ix2 r h) = Cert.Spec.sig ((chunkFwd w x).z0 r h) :=
  congrArg Ideal.logistic (pay5_apply w x r h)

/-- The hidden activations at (r, h). -/
theorem pay7_apply (w : Weights Ideal) (x : Vec Ideal S512x16 .f32) (r : Fin 512) (h : Fin 32) :
    k0_pay7 (F := Ideal) w.wqT w.w0T w.b0 x (ix2 r h) = (chunkFwd w x).u r h :=
  congrArg Cert.Spec.silu (pay5_apply w x r h)

theorem pay7_fun (w : Weights Ideal) (x : Vec Ideal S512x16 .f32) :
    (fun n h => k0_pay7 (F := Ideal) w.wqT w.w0T w.b0 x (ix2 n h))
      = Cert.Spec.hidden (Cert.Spec.query (rdX x) (rdWQ w)) (rdW0 w) (rdB0 w) :=
  funext fun n => funext fun h => pay7_apply w x n h

/-- The target silu (x · WVᵀ). -/
def valV (w : Weights Ideal) (x : Vec Ideal S512x16 .f32) : FVec Ideal S512x16 .f32 := silV (projV w.wvT x)

theorem valV_apply (w : Weights Ideal) (x : Vec Ideal S512x16 .f32) (r : Fin 512) (j : Fin 16) :
    valV w x (ix2 r j) = (chunkFwd w x).v r j :=
  congrArg Cert.Spec.silu (projV_apply w.wvT x r j)

/-- The second layer before its activation, u · W1ᵀ + b1. -/
def pre1V (w : Weights Ideal) (x : Vec Ideal S512x16 .f32) : FVec Ideal S512x16 .f32 :=
  addf (matmul dot_S512x32_S32x16_S512x16_1_0_0_1_n_n none (k0_pay7 w.wqT w.w0T w.b0 x) w.w1T (constant S512x16 .f32 0x00000000#32))
    (broadcastTo S512x16 w.b1 broadcasts_S1x16_S512x16)

theorem pre1V_apply (w : Weights Ideal) (x : Vec Ideal S512x16 .f32) (r : Fin 512) (j : Fin 16) :
    pre1V w x (ix2 r j) = (chunkFwd w x).z1 r j := by
  refine (congrArg₂ (· + ·)
    (mm_ix2 dot_S512x32_S32x16_S512x16_1_0_0_1_n_n rfl rfl rfl rfl lhs0_c rhs1_c (k0_pay7 (F := Ideal) w.wqT w.w0T w.b0 x) w.w1T r j)
    (broadcastTo_1b_ab_apply w.b1 broadcasts_S1x16_S512x16 r j)).trans ?_
  show Cert.Spec.pre1 (fun n h => k0_pay7 (F := Ideal) w.wqT w.w0T w.b0 x (ix2 n h)) (rdW1T w) (rdB1 w) r j = _
  rw [pay7_fun]
  rfl

end Cert.KernelIdeal.Region0

end
-- ==== Proof.LibContract0.lean ====
/-
  A product of a transposed matrix with a matrix: the contraction over the rows as a plain sum.

  A product of a [K, n0] matrix with a [K, n1] matrix whose dimension numbers contract the FIRST axis of both
  operands is the matrix lᵀ · r of shape [n0, n1]. At the result index (a, b) it sums over the positions of a
  one-axis contraction shape; re-indexed by that axis' coordinate it is the textbook sum
  ∑ k < K, l (k, a) · r (k, b). The statement is for any dimension record of those shapes: what the record owes is
  that it has one contracting axis of extent K (axis 0 on both sides) and that the two free axes (axis 1 on both
  sides) read the result's coordinates. The second statement is the same for a product taken into the zero
  accumulator on the extended reals.
-/
import Idealize.ShloMosaic.Lib.ValueIdx
import Idealize.ShloMosaic.PureOps.Ideal.Laws

noncomputable section

open scoped BigOperators

namespace Idealize.ShloMosaic.Contract2

open Idealize.ShloMosaic Idealize.ShloMosaic.ValueIdx

/-- The contraction sum of lᵀ · r at a result index is the sum over the shared row coordinate. -/
theorem sum_contr0_eq_sum_fin {n0 n1 K : ℕ} {M : Type*} [AddCommMonoid M] [Mul M]
    (D : DotDims (⟨2, ![K, n0]⟩ : Shape) (⟨2, ![K, n1]⟩ : Shape) (⟨2, ![n0, n1]⟩ : Shape))
    (hr : D.contr.rank = 1) (hs : D.contr.size ⟨0, by omega⟩ = K)
    (hlc : D.lhsContracting = [0]) (hrc : D.rhsContracting = [0])
    (hl1 : ∀ j q, (D.lhsIdx j q 1).val = (j 0).val) (hr1 : ∀ j q, (D.rhsIdx j q 1).val = (j 1).val)
    (l : (⟨2, ![K, n0]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 k (j 0)) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 k (j 0) := funext fun a => Fin.ext (by
    match a with
    | ⟨0, _⟩ => exact h1.trans hk
    | ⟨1, _⟩ => exact hl1 _ _)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

/-- On the extended reals, lᵀ · r into the zero accumulator is, at (a, b), the sum over the rows of the operands'
    products. -/
theorem matmul_zero_contr0_ix2 {n0 n1 K : ℕ} {φ₁ φ₂ : FTy}
    (D : DotDims (⟨2, ![K, n0]⟩ : Shape) (⟨2, ![K, n1]⟩ : Shape) (⟨2, ![n0, n1]⟩ : Shape))
    (hr : D.contr.rank = 1) (hs : D.contr.size ⟨0, by omega⟩ = K)
    (hlc : D.lhsContracting = [0]) (hrc : D.rhsContracting = [0])
    (hl1 : ∀ j q, (D.lhsIdx j q 1).val = (j 0).val) (hr1 : ∀ j q, (D.rhsIdx j q 1).val = (j 1).val)
    (l : FVec Ideal (⟨2, ![K, n0]⟩ : Shape) φ₁) (r : FVec Ideal (⟨2, ![K, n1]⟩ : Shape) φ₂) (a : Fin n0) (b : Fin n1) :
    matmul D none l r (constant (F := Ideal) (⟨2, ![n0, n1]⟩ : Shape) .f32 0x00000000#32) (ix2 a b)
      = ∑ k : Fin K, l (ix2 k a) * r (ix2 k b) :=
  (Ideal.matmul_constant_zero_apply D none l r (ix2 a b)).trans
    (sum_contr0_eq_sum_fin D hr hs hlc hrc hl1 hr1 l r (ix2 a b))

end Idealize.ShloMosaic.Contract2

end
-- ==== Proof.K0Math.lean ====
/-
  The gradient body's backward pass on a chunk, at an index.

  With the forward pass of the chunk (q, v, z0, z1 and u = silu z0) the body forms
  dz1 = (silu z1 − v) · silu' z1, the contribution dz1ᵀ · u to the second weight's gradient and the column sums of
  dz1 to the second bias's, then dh = dz1 · W1, dz0 = dh · silu' z0, the contribution dz0ᵀ · q to the first
  weight's gradient and the column sums of dz0 to the first bias's, where silu' z = s + z · s · (1 − s) at s = sig z.
  A product of a transposed matrix with a matrix into the zero accumulator is the plain sum over the rows, a sum
  over the rows of a matrix is the sum of a column's entries, the single-precision word of one is the number one,
  and a change of float format is the identity.  Read at an index, each of the four contributions is the
  specification's unscaled gradient of the chunk.
-/
import proofs.«144527_j2001454760825_2_alg».proof.Proof.K0Fwd
import proofs.«144527_j2001454760825_2_alg».proof.Proof.LibContract0
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Idealize.ShloMosaic Idealize.ShloMosaic.ValueIdx
open Cert.KernelIdeal.Gen

/-! ## The two transposed products' free coordinates -/

theorem lhs1_d (j : S16x32.Idx) (q : dot_S512x16_S512x32_S16x32_0_0_1_1_n_n.contr.Idx) : (dot_S512x16_S512x32_S16x32_0_0_1_1_n_n.lhsIdx j q 1).val = (j 0).val := by
  unfold DotDims.lhsIdx
  rw [dif_neg (show ¬(1 : Fin S512x16.rank) ∈ dot_S512x16_S512x32_S16x32_0_0_1_1_n_n.lhsBatch by decide), dif_pos (show (1 : Fin S512x16.rank) ∈ dot_S512x16_S512x32_S16x32_0_0_1_1_n_n.lhsNonContracting by decide)]
  rfl
theorem rhs1_d (j : S16x32.Idx) (q : dot_S512x16_S512x32_S16x32_0_0_1_1_n_n.contr.Idx) : (dot_S512x16_S512x32_S16x32_0_0_1_1_n_n.rhsIdx j q 1).val = (j 1).val := by
  unfold DotDims.rhsIdx
  rw [dif_neg (show ¬(1 : Fin S512x32.rank) ∈ dot_S512x16_S512x32_S16x32_0_0_1_1_n_n.rhsBatch by decide), dif_pos (show (1 : Fin S512x32.rank) ∈ dot_S512x16_S512x32_S16x32_0_0_1_1_n_n.rhsNonContracting by decide)]
  rfl

theorem lhs1_e (j : S32x16.Idx) (q : dot_S512x32_S512x16_S32x16_0_0_1_1_n_n.contr.Idx) : (dot_S512x32_S512x16_S32x16_0_0_1_1_n_n.lhsIdx j q 1).val = (j 0).val := by
  unfold DotDims.lhsIdx
  rw [dif_neg (show ¬(1 : Fin S512x32.rank) ∈ dot_S512x32_S512x16_S32x16_0_0_1_1_n_n.lhsBatch by decide), dif_pos (show (1 : Fin S512x32.rank) ∈ dot_S512x32_S512x16_S32x16_0_0_1_1_n_n.lhsNonContracting by decide)]
  rfl
theorem rhs1_e (j : S32x16.Idx) (q : dot_S512x32_S512x16_S32x16_0_0_1_1_n_n.contr.Idx) : (dot_S512x32_S512x16_S32x16_0_0_1_1_n_n.rhsIdx j q 1).val = (j 1).val := by
  unfold DotDims.rhsIdx
  rw [dif_neg (show ¬(1 : Fin S512x16.rank) ∈ dot_S512x32_S512x16_S32x16_0_0_1_1_n_n.rhsBatch by decide), dif_pos (show (1 : Fin S512x16.rank) ∈ dot_S512x32_S512x16_S32x16_0_0_1_1_n_n.rhsNonContracting by decide)]
  rfl

/-! ## Column sums -/

/-- The reduced index `c` with the row `d` put back is the matrix index `(d, c)`. -/
theorem lift_cols {n k : ℕ} (h : (⟨2, ![n, k]⟩ : Shape).Reduces [0] ⟨1, ![k]⟩) (c : Fin k) (d : Fin n) :
    h.lift (ix1 c) d = ix2 d c :=
  funext fun a => Fin.ext (by match a with | ⟨0, _⟩ => rfl | ⟨1, _⟩ => rfl)

/-- A float sum over the rows of an `[n, k]` matrix, at column `c`, is the sum of the column's `n` entries. -/
theorem multiReduction_add_cols_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = FKind.add.neutral .f32 hφ) (c : Fin k) :
    multiReduction .add [0] ⟨1, ![k]⟩ src 0x00000000#32 h hφ hacc (ix1 c) = ∑ d : Fin n, src (ix2 d c) :=
  (Ideal.multiReduction_add_single src 0x00000000#32 h hφ hacc (ix1 c)).trans
    (Finset.sum_congr rfl fun d _ => congrArg src (lift_cols h c d))

/-- The single-precision word of one is the number one. -/
theorem ofBits_one_f32 : Ideal.ofBits .f32 0x3F800000#32 = (1 : EReal) := by
  simp [Ideal.ofBits, Ideal.ieee, -EReal.coe_mul]; norm_num

/-! ## The derivative of silu -/

/-- `s + z · s · (1 − s)` of every entry. -/
def dsilV {s : Shape} (z sg : FVec Ideal s .f32) : FVec Ideal s .f32 :=
  addf sg (mulf (mulf z sg) (subf (broadcast s (Scalar.ofBits .f32 0x3F800000#32)) sg))

theorem dsilV_apply {s : Shape} (z sg : FVec Ideal s .f32) (i : s.Idx) :
    dsilV z sg i = Cert.Spec.dsilu (z i) (sg i) := by
  show sg i + z i * sg i * (Ideal.ofBits .f32 0x3F800000#32 - sg i) = sg i + z i * sg i * (1 - sg i)
  rw [ofBits_one_f32]

/-! ## The second layer's error -/

/-- `dz1` is the error times the derivative of silu at `z1`. -/
theorem k0_pay8_eq (w : Weights Ideal) (x : Vec Ideal S512x16 .f32) :
    k0_pay8 (F := Ideal) w.wvT w.wqT w.w0T w.b0 w.w1T w.b1 x
      = mulf (subf (silV (pre1V w x)) (valV w x)) (dsilV (pre1V w x) (logistic (pre1V w x))) := rfl

/-- `dz1` at (r, j). -/
theorem pay8_apply (w : Weights Ideal) (x : Vec Ideal S512x16 .f32) (r : Fin 512) (j : Fin 16) :
    k0_pay8 (F := Ideal) w.wvT w.wqT w.w0T w.b0 w.w1T w.b1 x (ix2 r j) = Cert.Spec.Ker.dz1 (chunkFwd w x) r j := by
  have e : k0_pay8 (F := Ideal) w.wvT w.wqT w.w0T w.b0 w.w1T w.b1 x (ix2 r j)
      = (Cert.Spec.silu (pre1V w x (ix2 r j)) - valV w x (ix2 r j))
          * dsilV (pre1V w x) (logistic (pre1V w x)) (ix2 r j) := rfl
  rw [e, dsilV_apply]
  show (Cert.Spec.silu (pre1V w x (ix2 r j)) - valV w x (ix2 r j))
      * Cert.Spec.dsilu (pre1V w x (ix2 r j)) (Cert.Spec.sig (pre1V w x (ix2 r j))) = _
  rw [pre1V_apply, valV_apply]
  rfl

/-- The contribution to the second weight's gradient at (j, h). -/
theorem chunkW1_apply (w : Weights Ideal) (x : Vec Ideal S512x16 .f32) (j : Fin 16) (h : Fin 32) :
    chunkW1 w x (ix2 j h) = ∑ r : Fin 512, Cert.Spec.Ker.dz1 (chunkFwd w x) r j * (chunkFwd w x).u r h := by
  refine (Contract2.matmul_zero_contr0_ix2 dot_S512x16_S512x32_S16x32_0_0_1_1_n_n rfl rfl rfl rfl lhs1_d rhs1_d
    (k0_pay9 (F := Ideal) w.wvT w.wqT w.w0T w.b0 w.w1T w.b1 x) (k0_pay7 (F := Ideal) w.wqT w.w0T w.b0 x) j h).trans ?_
  exact Finset.sum_congr rfl fun r _ => congrArg₂ (· * ·) (pay8_apply w x r j) (pay7_apply w x r h)

/-- The contribution to the second bias's gradient at column j. -/
theorem chunkB1_apply (w : Weights Ideal) (x : Vec Ideal S512x16 .f32) (j : Fin 16) :
    chunkB1 w x (ix2 (0 : Fin 1) j) = ∑ r : Fin 512, Cert.Spec.Ker.dz1 (chunkFwd w x) r j := by
  refine (shapeCast_a_1a_apply
    (multiReduction (F := Ideal) .add [0] S16 (k0_pay8 (F := Ideal) w.wvT w.wqT w.w0T w.b0 w.w1T w.b1 x) 0x00000000#32 reduces_S512x16_S16 (.inl rfl) rfl)
    shapeCasts_S16_S1x16 0 j).trans ?_
  refine (multiReduction_add_cols_apply (k0_pay8 (F := Ideal) w.wvT w.wqT w.w0T w.b0 w.w1T w.b1 x) reduces_S512x16_S16 (.inl rfl) rfl j).trans ?_
  exact Finset.sum_congr rfl fun r _ => pay8_apply w x r j

/-! ## The first layer's error -/

/-- `dh = dz1 · W1` at (r, h). -/
theorem pay12_apply (w : Weights Ideal) (x : Vec Ideal S512x16 .f32) (r : Fin 512) (h : Fin 32) :
    k0_pay12 (F := Ideal) w.wvT w.wqT w.w0T w.b0 w.w1 w.w1T w.b1 x (ix2 r h) = Cert.Spec.Ker.dh (chunkFwd w x) r h := by
  refine (mm_ix2 dot_S512x16_S16x32_S512x32_1_0_0_1_n_n rfl rfl rfl rfl lhs0_b rhs1_b
    (k0_pay9 (F := Ideal) w.wvT w.wqT w.w0T w.b0 w.w1T w.b1 x) w.w1 r h).trans ?_
  exact Finset.sum_congr rfl fun j _ => congrArg (· * w.w1 (ix2 j h)) (pay8_apply w x r j)

/-- `dz0` is `dh` times the derivative of silu at `z0`. -/
theorem chunkDz0_eq (w : Weights Ideal) (x : Vec Ideal S512x16 .f32) :
    chunkDz0 w x = mulf (k0_pay12 (F := Ideal) w.wvT w.wqT w.w0T w.b0 w.w1 w.w1T w.b1 x)
      (dsilV (k0_pay5 (F := Ideal) w.wqT w.w0T w.b0 x) (k0_pay6 (F := Ideal) w.wqT w.w0T w.b0 x)) := rfl

/-- `dz0` at (r, h). -/
theorem chunkDz0_apply (w : Weights Ideal) (x : Vec Ideal S512x16 .f32) (r : Fin 512) (h : Fin 32) :
    chunkDz0 w x (ix2 r h) = Cert.Spec.Ker.dz0 (chunkFwd w x) r h := by
  have e : chunkDz0 w x (ix2 r h) = k0_pay12 (F := Ideal) w.wvT w.wqT w.w0T w.b0 w.w1 w.w1T w.b1 x (ix2 r h)
      * dsilV (k0_pay5 (F := Ideal) w.wqT w.w0T w.b0 x) (k0_pay6 (F := Ideal) w.wqT w.w0T w.b0 x) (ix2 r h) := rfl
  rw [e, dsilV_apply, pay12_apply, pay5_apply, pay6_apply]
  rfl

/-- The contribution to the first weight's gradient at (h, j). -/
theorem chunkW0_apply (w : Weights Ideal) (x : Vec Ideal S512x16 .f32) (h : Fin 32) (j : Fin 16) :
    chunkW0 w x (ix2 h j) = ∑ r : Fin 512, Cert.Spec.Ker.dz0 (chunkFwd w x) r h * (chunkFwd w x).q r j := by
  refine (Contract2.matmul_zero_contr0_ix2 dot_S512x32_S512x16_S32x16_0_0_1_1_n_n rfl rfl rfl rfl lhs1_e rhs1_e
    (truncf .bf16 (chunkDz0 w x) bitsLt_bf16_f32 : FVec Ideal S512x32 .bf16) (k0_pay4 (F := Ideal) w.wqT x) h j).trans ?_
  exact Finset.sum_congr rfl fun r _ => congrArg₂ (· * ·) (chunkDz0_apply w x r h) (pay4_apply w x r j)

/-- The contribution to the first bias's gradient at column h. -/
theorem chunkB0_apply (w : Weights Ideal) (x : Vec Ideal S512x16 .f32) (h : Fin 32) :
    chunkB0 w x (ix2 (0 : Fin 1) h) = ∑ r : Fin 512, Cert.Spec.Ker.dz0 (chunkFwd w x) r h := by
  refine (shapeCast_a_1a_apply _ shapeCasts_S32_S1x32 0 h).trans ?_
  refine (multiReduction_add_cols_apply (chunkDz0 w x) reduces_S512x32_S32 (.inl rfl) rfl h).trans ?_
  exact Finset.sum_congr rfl fun r _ => chunkDz0_apply w x r h

/-! ## The four contributions are the specification's unscaled gradients of the chunk -/

theorem chunkW0_eq_gW0 (w : Weights Ideal) (x : Vec Ideal S512x16 .f32) (h : Fin 32) (j : Fin 16) :
    chunkW0 w x (ix2 h j) = Cert.Spec.Ker.gW0 (chunkFwd w x) h j := chunkW0_apply w x h j
theorem chunkB0_eq_gb0 (w : Weights Ideal) (x : Vec Ideal S512x16 .f32) (h : Fin 32) :
    chunkB0 w x (ix2 (0 : Fin 1) h) = Cert.Spec.Ker.gb0 (chunkFwd w x) h := chunkB0_apply w x h
theorem chunkW1_eq_gW1 (w : Weights Ideal) (x : Vec Ideal S512x16 .f32) (j : Fin 16) (h : Fin 32) :
    chunkW1 w x (ix2 j h) = Cert.Spec.Ker.gW1 (chunkFwd w x) j h := chunkW1_apply w x j h
theorem chunkB1_eq_gb1 (w : Weights Ideal) (x : Vec Ideal S512x16 .f32) (j : Fin 16) :
    chunkB1 w x (ix2 (0 : Fin 1) j) = Cert.Spec.Ker.gb1 (chunkFwd w x) j := chunkB1_apply w x j

end Cert.KernelIdeal.Region0

end
-- ==== Proof.K0Epilogue.lean ====
/-
  The gradient kernel's small payloads, read at an index on the extended reals.

  The payloads that open and close an accumulation are two or three operations each: a shape cast that adds or
  drops a leading axis of extent one (the same elements in the same row-major order, so the entry at `(0, a, b)`
  of the rank-3 view is the entry at `(a, b)` of the rank-2 one), one addition, or the broadcast of the zero word.
  Read at an index they are: the sum of the two operands' entries, or `0`.
-/
import proofs.«144527_j2001454760825_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Region0

open Idealize.ShloMosaic Idealize.ShloMosaic.ValueIdx Cert.KernelIdeal Cert.KernelIdeal.Gen

/-! ### The two unit-axis casts at coordinates -/

section Casts
variable {α : Type} {n0 n1 : ℕ}

/-- A cast that adds a leading unit axis reads `(0, a, b)` at `(a, b)`. -/
theorem cast_add (v : (⟨2, ![n0, n1]⟩ : Shape).Idx → α)
    (hc : (⟨2, ![n0, n1]⟩ : Shape).ShapeCasts ⟨3, ![1, n0, n1]⟩) (a : Fin n0) (b : Fin n1) :
    shapeCast ⟨3, ![1, n0, n1]⟩ v hc (ix3 (0 : Fin 1) a b) = v (ix2 a b) :=
  shapeCast_apply v hc _ _ (by
    rw [Shape.rowMajor_val_two, Shape.rowMajor_val_three]
    show a.val * n1 + b.val = (0 * n0 + a.val) * n1 + b.val
    rw [Nat.zero_mul, Nat.zero_add])

/-- A cast that drops a leading unit axis reads `(a, b)` at `(0, a, b)`. -/
theorem cast_drop (v : (⟨3, ![1, n0, n1]⟩ : Shape).Idx → α)
    (hc : (⟨3, ![1, n0, n1]⟩ : Shape).ShapeCasts ⟨2, ![n0, n1]⟩) (a : Fin n0) (b : Fin n1) :
    shapeCast ⟨2, ![n0, n1]⟩ v hc (ix2 a b) = v (ix3 (0 : Fin 1) a b) :=
  shapeCast_apply v hc _ _ (by
    rw [Shape.rowMajor_val_two, Shape.rowMajor_val_three]
    show (0 * n0 + a.val) * n1 + b.val = a.val * n1 + b.val
    rw [Nat.zero_mul, Nat.zero_add])

/-- A cast of a constant array is the constant. -/
theorem cast_broadcast {s t : Shape} (x : α) (hc : s.ShapeCasts t) (i : t.Idx) :
    shapeCast t (broadcast s x) hc i = x := rfl

end Casts

/-- The zero word on the extended reals. -/
theorem zero_word : (Scalar.ofBits .f32 0x00000000#32 : Ideal .f32) = 0 := Ideal.ofBits_zero_f32

/-! ### The closing payloads: staged block plus accumulator -/

/-- The first weight's closing payload adds the accumulator to the staged block. -/
theorem pay33_apply (v34 : Vec Ideal S1x32x16 .f32) (v36 : Vec Ideal S32x16 .f32) (h : Fin 32) (j : Fin 16) :
    k0_pay33 (F := Ideal) v34 v36 (ix3 (0 : Fin 1) h j) = v34 (ix3 0 h j) + v36 (ix2 h j) := by
  unfold k0_pay33
  refine (cast_add _ _ h j).trans ?_
  rw [addf_apply, cast_drop]

/-- The first bias's closing payload. -/
theorem pay34_apply (v41 : Vec Ideal S1x1x32 .f32) (v43 : Vec Ideal S1x32 .f32) (h : Fin 32) :
    k0_pay34 (F := Ideal) v41 v43 (ix3 (0 : Fin 1) (0 : Fin 1) h) = v41 (ix3 0 0 h) + v43 (ix2 0 h) := by
  unfold k0_pay34
  refine (cast_add _ _ (0 : Fin 1) h).trans ?_
  rw [addf_apply, cast_drop]

/-- The second weight's closing payload. -/
theorem pay1_pay35_apply (v48 : Vec Ideal S1x16x32 .f32) (v50 : Vec Ideal S16x32 .f32) (j : Fin 16) (h : Fin 32) :
    k0_pay1 (F := Ideal) (k0_pay35 (F := Ideal) v48 v50) (ix3 (0 : Fin 1) j h) = v48 (ix3 0 j h) + v50 (ix2 j h) := by
  unfold k0_pay1 k0_pay35
  refine (cast_add _ _ j h).trans ?_
  rw [addf_apply, cast_drop]

/-- The second bias's closing payload. -/
theorem pay2_apply (v55 : Vec Ideal S1x1x16 .f32) (v57 : Vec Ideal S1x16 .f32) (j : Fin 16) :
    k0_pay2 (F := Ideal) v55 v57 (ix3 (0 : Fin 1) (0 : Fin 1) j) = v55 (ix3 0 0 j) + v57 (ix2 0 j) := by
  unfold k0_pay2
  refine (cast_add _ _ (0 : Fin 1) j).trans ?_
  rw [addf_apply, cast_drop]

/-! ### The opening payloads: zero everywhere -/

/-- The zero block of the first weight. -/
theorem pay13_apply (i : S1x32x16.Idx) : k0_pay13 (F := Ideal) i = 0 := zero_word
/-- The zero block of the first bias. -/
theorem pay14_apply (i : S1x1x32.Idx) : k0_pay14 (F := Ideal) i = 0 := zero_word
/-- The zero block of the second weight. -/
theorem pay15_apply (i : S1x16x32.Idx) : k0_pay15 (F := Ideal) i = 0 := zero_word
/-- The zero block of the second bias. -/
theorem pay16_apply (i : S1x1x16.Idx) : k0_pay16 (F := Ideal) i = 0 := zero_word
/-- The zeroed accumulator of the first weight. -/
theorem pay17_apply (i : S32x16.Idx) : k0_pay17 (F := Ideal) i = 0 := zero_word
/-- The zeroed accumulator of the first bias. -/
theorem pay18_apply (i : S1x32.Idx) : k0_pay18 (F := Ideal) i = 0 := zero_word
/-- The zeroed accumulator of the second weight. -/
theorem pay19_apply (i : S16x32.Idx) : k0_pay19 (F := Ideal) i = 0 := zero_word
/-- The zeroed accumulator of the second bias. -/
theorem pay20_apply (i : S1x16.Idx) : k0_pay20 (F := Ideal) i = 0 := zero_word

end Cert.KernelIdeal.Region0

end
-- ==== Proof.K0Tot.lean ====
/-
  The gradient kernel's accumulators at a grid point, as sums.

  At a point the loop runs over the sixteen chunks of the point's block; each accumulator starts from zero and
  collects the chunks' contributions.  Read at an entry, an accumulator after the loop is therefore the sum over the
  sixteen chunks of that chunk's gradient entry — the gradient of the 512 rows' own forward pass.
-/
import proofs.«144527_j2001454760825_2_alg».proof.Proof.K0Points
import proofs.«144527_j2001454760825_2_alg».proof.Proof.K0AccSum
import proofs.«144527_j2001454760825_2_alg».proof.Proof.K0Math
import proofs.«144527_j2001454760825_2_alg».proof.Proof.K0Epilogue

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.Sem

variable (V : (c : Dev nD) → (b : Ref sig .tc) → Buf (Elt Ideal) ((c : Thread nD τ).loc b))

/-- The seven weight blocks at point `t`, as the loop finds them. -/
abbrev wtsAt (c : Dev nD) (t : Fin cfg0.N) : Weights Ideal :=
  wts (k0_pay21 (iblk0 V c 1 t)) (k0_pay22 (iblk0 V c 2 t)) (k0_pay23 (iblk0 V c 3 t)) (k0_pay24 (iblk0 V c 4 t)) (k0_pay25 (iblk0 V c 5 t)) (iblk0 V c 6 t) (iblk0 V c 7 t)
/-- Chunk `k` of the block of `x` at point `t`. -/
abbrev chunkAt (c : Dev nD) (t : Fin cfg0.N) (k : Fin 16) : Vec Ideal S512x16 .f32 :=
  chunk (ms0_0 t) ((hs0_0 t).unread (iblk0 V c 0 t)) (trip16 k)

/-- The first accumulator after the loop: the sum over the chunks of `dz0ᵀ · q`. -/
theorem T14_apply (c : Dev nD) (t : Fin cfg0.N) (h : Fin 32) (j : Fin 16) :
    T14 V c t (ix2 h j) = 0 + ∑ k : Fin 16, Cert.Spec.Ker.gW0 (chunkFwd (wtsAt V c t) (chunkAt V c t k)) h j := by
  unfold T14 tot14
  refine (acc14_total16 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (k0_pay21 (iblk0 V c 1 t)) (k0_pay22 (iblk0 V c 2 t)) (k0_pay23 (iblk0 V c 3 t)) (k0_pay24 (iblk0 V c 4 t)) (k0_pay25 (iblk0 V c 5 t)) (iblk0 V c 6 t) (iblk0 V c 7 t) ((hs0_0 t).unread (iblk0 V c 0 t)) (Z14 scM0_0) (Z15 scM0_1) (Z16 scM0_2) (Z17 scM0_3) (ix2 h j)).trans ?_
  have hz : scM0_0.view.read (Elt Ideal) (Z14 scM0_0) = k0_pay17 (F := Ideal) :=
    read_writes_cons_whole (F := Ideal) scM0_0.view scM0_0.view.junk hz2 inb_S32x16_S32x16_0_0 (k0_pay17 (F := Ideal)) []
  rw [hz, pay17_apply]
  exact congrArg (0 + ·) (Finset.sum_congr rfl fun k _ => chunkW0_eq_gW0 (wtsAt V c t) (chunkAt V c t k) h j)

/-- The second accumulator after the loop: the sum over the chunks of the column sums of `dz0`. -/
theorem T15_apply (c : Dev nD) (t : Fin cfg0.N) (h : Fin 32) :
    T15 V c t (ix2 (0 : Fin 1) h) = 0 + ∑ k : Fin 16, Cert.Spec.Ker.gb0 (chunkFwd (wtsAt V c t) (chunkAt V c t k)) h := by
  unfold T15 tot15
  refine (acc15_total16 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (k0_pay21 (iblk0 V c 1 t)) (k0_pay22 (iblk0 V c 2 t)) (k0_pay23 (iblk0 V c 3 t)) (k0_pay24 (iblk0 V c 4 t)) (k0_pay25 (iblk0 V c 5 t)) (iblk0 V c 6 t) (iblk0 V c 7 t) ((hs0_0 t).unread (iblk0 V c 0 t)) (Z14 scM0_0) (Z15 scM0_1) (Z16 scM0_2) (Z17 scM0_3) (ix2 (0 : Fin 1) h)).trans ?_
  have hz : scM0_1.view.read (Elt Ideal) (Z15 scM0_1) = k0_pay18 (F := Ideal) :=
    read_writes_cons_whole (F := Ideal) scM0_1.view scM0_1.view.junk hz2 inb_S1x32_S1x32_0_0 (k0_pay18 (F := Ideal)) []
  rw [hz, pay18_apply]
  exact congrArg (0 + ·) (Finset.sum_congr rfl fun k _ => chunkB0_eq_gb0 (wtsAt V c t) (chunkAt V c t k) h)

/-- The third accumulator after the loop: the sum over the chunks of `dz1ᵀ · u`. -/
theorem T16_apply (c : Dev nD) (t : Fin cfg0.N) (j : Fin 16) (h : Fin 32) :
    T16 V c t (ix2 j h) = 0 + ∑ k : Fin 16, Cert.Spec.Ker.gW1 (chunkFwd (wtsAt V c t) (chunkAt V c t k)) j h := by
  unfold T16 tot16
  refine (acc16_total16 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (k0_pay21 (iblk0 V c 1 t)) (k0_pay22 (iblk0 V c 2 t)) (k0_pay23 (iblk0 V c 3 t)) (k0_pay24 (iblk0 V c 4 t)) (k0_pay25 (iblk0 V c 5 t)) (iblk0 V c 6 t) (iblk0 V c 7 t) ((hs0_0 t).unread (iblk0 V c 0 t)) (Z14 scM0_0) (Z15 scM0_1) (Z16 scM0_2) (Z17 scM0_3) (ix2 j h)).trans ?_
  have hz : scM0_2.view.read (Elt Ideal) (Z16 scM0_2) = k0_pay19 (F := Ideal) :=
    read_writes_cons_whole (F := Ideal) scM0_2.view scM0_2.view.junk hz2 inb_S16x32_S16x32_0_0 (k0_pay19 (F := Ideal)) []
  rw [hz, pay19_apply]
  exact congrArg (0 + ·) (Finset.sum_congr rfl fun k _ => chunkW1_eq_gW1 (wtsAt V c t) (chunkAt V c t k) j h)

/-- The fourth accumulator after the loop: the sum over the chunks of the column sums of `dz1`. -/
theorem T17_apply (c : Dev nD) (t : Fin cfg0.N) (j : Fin 16) :
    T17 V c t (ix2 (0 : Fin 1) j) = 0 + ∑ k : Fin 16, Cert.Spec.Ker.gb1 (chunkFwd (wtsAt V c t) (chunkAt V c t k)) j := by
  unfold T17 tot17
  refine (acc17_total16 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (k0_pay21 (iblk0 V c 1 t)) (k0_pay22 (iblk0 V c 2 t)) (k0_pay23 (iblk0 V c 3 t)) (k0_pay24 (iblk0 V c 4 t)) (k0_pay25 (iblk0 V c 5 t)) (iblk0 V c 6 t) (iblk0 V c 7 t) ((hs0_0 t).unread (iblk0 V c 0 t)) (Z14 scM0_0) (Z15 scM0_1) (Z16 scM0_2) (Z17 scM0_3) (ix2 (0 : Fin 1) j)).trans ?_
  have hz : scM0_3.view.read (Elt Ideal) (Z17 scM0_3) = k0_pay20 (F := Ideal) :=
    read_writes_cons_whole (F := Ideal) scM0_3.view scM0_3.view.junk hz2 inb_S1x16_S1x16_0_0 (k0_pay20 (F := Ideal)) []
  rw [hz, pay20_apply]
  exact congrArg (0 + ·) (Finset.sum_congr rfl fun k _ => chunkB1_eq_gb1 (wtsAt V c t) (chunkAt V c t k) j)

end Cert.KernelIdeal.Region0

end
-- ==== Proof.LibBlockRuns.lean ====
/-
  A running sum that restarts every `B` points.

  Let `o` and `T` be sequences in an additive commutative monoid, and suppose that at every point `n` below `N`
  the value `o n` is `0 + T n` when `n` is a multiple of `B`, and `o (n − 1) + T n` otherwise.  Then `o n` is
  the sum of `T` over the run of `n`: the points from the last multiple of `B` at or before `n` up to `n`.  In
  particular, at the last point `B · c + (B − 1)` of run `c` the value is the sum of `T` over the `B` points of
  the run.  The proof is an induction on `n`: a multiple of `B` starts a run of one point, and any other point
  extends the run of its predecessor, which has the same quotient by `B`.
-/
import Mathlib.Algebra.BigOperators.Intervals
import Mathlib.Algebra.BigOperators.Fin
import Mathlib.Order.Interval.Finset.Nat
import Mathlib.Algebra.Order.Interval.Finset.SuccPred

open scoped BigOperators

namespace Idealize.ShloMosaic.BlockRuns

variable {α : Type*} [AddCommMonoid α]

/-- A sequence that restarts at the multiples of `B` and otherwise adds to its predecessor is, at each point,
    the sum of the summands over the point's run. -/
theorem run_sum {B : ℕ} (N : ℕ) (o T : ℕ → α)
    (h0 : ∀ n < N, n % B = 0 → o n = 0 + T n)
    (hs : ∀ n < N, n % B ≠ 0 → o n = o (n - 1) + T n) :
    ∀ n < N, o n = ∑ i ∈ Finset.Icc (B * (n / B)) n, T i := by
  intro n
  induction n with
  | zero =>
    intro hn
    rw [h0 0 hn (Nat.zero_mod B), zero_add, Nat.zero_div, Nat.mul_zero, Finset.Icc_self, Finset.sum_singleton]
  | succ n ih =>
    intro hn
    by_cases hm : (n + 1) % B = 0
    · rw [h0 (n + 1) hn hm, zero_add, Nat.mul_div_cancel' (Nat.dvd_of_mod_eq_zero hm), Finset.Icc_self,
        Finset.sum_singleton]
    · have hdiv : (n + 1) / B = n / B := Nat.succ_div_of_not_dvd (fun hd => hm (Nat.mod_eq_zero_of_dvd hd))
      rw [hs (n + 1) hn hm, Nat.add_sub_cancel, ih (Nat.lt_of_succ_lt hn), hdiv,
        Finset.sum_Icc_succ_top (le_trans (Nat.mul_div_le n B) (Nat.le_succ n))]

/-- At the last point of run `c` the sequence is the sum of the summands over the `B` points of the run. -/
theorem run_end {B : ℕ} (hB : 0 < B) (N : ℕ) (o T : ℕ → α)
    (h0 : ∀ n < N, n % B = 0 → o n = 0 + T n)
    (hs : ∀ n < N, n % B ≠ 0 → o n = o (n - 1) + T n)
    (c : ℕ) (hc : B * c + (B - 1) < N) :
    o (B * c + (B - 1)) = ∑ i : Fin B, T (B * c + i.val) := by
  have hdiv : (B * c + (B - 1)) / B = c := by
    rw [Nat.mul_add_div hB, Nat.div_eq_of_lt (Nat.sub_lt hB Nat.one_pos), Nat.add_zero]
  have hlen : B * c + (B - 1) + 1 - B * c = B := by omega
  rw [run_sum N o T h0 hs _ hc, hdiv, ← Finset.Ico_add_one_right_eq_Icc, Finset.sum_Ico_eq_sum_range, hlen,
    Fin.sum_univ_eq_sum_range (fun i => T (B * c + i))]

end Idealize.ShloMosaic.BlockRuns
-- ==== Proof.K0Runs.lean ====
/-
  A core's run of 64 grid points, summed.

  Along a core's run every output entry starts from zero at the opening point and gains the matching accumulator's
  entry at each point; after the run's last point it is the sum of the 64 points' accumulator entries.
-/
import proofs.«144527_j2001454760825_2_alg».proof.Proof.K0Tot
import proofs.«144527_j2001454760825_2_alg».proof.Proof.LibBlockRuns

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.Sem

variable (V : (c : Dev nD) → (b : Ref sig .tc) → Buf (Elt Ideal) ((c : Thread nD τ).loc b))

section Out8
variable (c : Dev nD) (h : Fin 32) (j : Fin 16)

/-- Output 8's entry after point `n` (zero past the grid). -/
def o8 (n : ℕ) : EReal := if hn : n < cfg0.N then (outsAt0 V c n hn).1 (ix3 (0 : Fin 1) h j) else 0
/-- The matching accumulator's entry at point `n` (zero past the grid). -/
def t8 (n : ℕ) : EReal := if hn : n < cfg0.N then T14 V c ⟨n, hn⟩ (ix2 h j) else 0

theorem o8_open (n : ℕ) (hn : n < cfg0.N) (h0 : n % 64 = 0) : o8 V c h j n = 0 + t8 V c h j n := by
  unfold o8 t8
  rw [dif_pos hn, dif_pos hn, outs_open V c ⟨n, hn⟩ h0]
  dsimp only
  rw [pay33_apply, pay13_apply]
theorem o8_next (n : ℕ) (hn : n < cfg0.N) (h0 : n % 64 ≠ 0) :
    o8 V c h j n = o8 V c h j (n - 1) + t8 V c h j n := by
  have hn' : n - 1 < cfg0.N := Nat.lt_of_le_of_lt (Nat.sub_le _ _) hn
  unfold o8 t8
  rw [dif_pos hn, dif_pos hn', dif_pos hn, outs_next V c ⟨n, hn⟩ h0]
  dsimp only
  rw [pay33_apply]

/-- After a core's last point the first output's entry is the sum of the 64 points' first accumulators. -/
theorem run8 (cc : Fin 2) (hc : 64 * cc.val + 63 < cfg0.N) :
    (outsAt0 V c (64 * cc.val + 63) hc).1 (ix3 (0 : Fin 1) h j)
      = ∑ i : Fin 64, T14 V c ⟨64 * cc.val + i.val, lt_of_le_of_lt (by have := i.isLt; omega) hc⟩ (ix2 h j) := by
  have hrun := Idealize.ShloMosaic.BlockRuns.run_end (B := 64) (by decide) cfg0.N (o8 V c h j) (t8 V c h j)
    (fun n hn h0 => o8_open V c h j n hn h0) (fun n hn h0 => o8_next V c h j n hn h0) cc.val hc
  have hl : o8 V c h j (64 * cc.val + (64 - 1)) = (outsAt0 V c (64 * cc.val + 63) hc).1 (ix3 (0 : Fin 1) h j) := by
    unfold o8; exact dif_pos hc
  rw [← hl, hrun]
  refine Finset.sum_congr rfl fun i _ => ?_
  unfold t8
  exact dif_pos _
end Out8

section Out9
variable (c : Dev nD) (h : Fin 32)

/-- Output 9's entry after point `n` (zero past the grid). -/
def o9 (n : ℕ) : EReal := if hn : n < cfg0.N then (outsAt0 V c n hn).2.1 (ix3 (0 : Fin 1) (0 : Fin 1) h) else 0
/-- The matching accumulator's entry at point `n` (zero past the grid). -/
def t9 (n : ℕ) : EReal := if hn : n < cfg0.N then T15 V c ⟨n, hn⟩ (ix2 (0 : Fin 1) h) else 0

theorem o9_open (n : ℕ) (hn : n < cfg0.N) (h0 : n % 64 = 0) : o9 V c h n = 0 + t9 V c h n := by
  unfold o9 t9
  rw [dif_pos hn, dif_pos hn, outs_open V c ⟨n, hn⟩ h0]
  dsimp only
  rw [pay34_apply, pay14_apply]
theorem o9_next (n : ℕ) (hn : n < cfg0.N) (h0 : n % 64 ≠ 0) :
    o9 V c h n = o9 V c h (n - 1) + t9 V c h n := by
  have hn' : n - 1 < cfg0.N := Nat.lt_of_le_of_lt (Nat.sub_le _ _) hn
  unfold o9 t9
  rw [dif_pos hn, dif_pos hn', dif_pos hn, outs_next V c ⟨n, hn⟩ h0]
  dsimp only
  rw [pay34_apply]

/-- After a core's last point the second output's entry is the sum of the 64 points' second accumulators. -/
theorem run9 (cc : Fin 2) (hc : 64 * cc.val + 63 < cfg0.N) :
    (outsAt0 V c (64 * cc.val + 63) hc).2.1 (ix3 (0 : Fin 1) (0 : Fin 1) h)
      = ∑ i : Fin 64, T15 V c ⟨64 * cc.val + i.val, lt_of_le_of_lt (by have := i.isLt; omega) hc⟩ (ix2 (0 : Fin 1) h) := by
  have hrun := Idealize.ShloMosaic.BlockRuns.run_end (B := 64) (by decide) cfg0.N (o9 V c h) (t9 V c h)
    (fun n hn h0 => o9_open V c h n hn h0) (fun n hn h0 => o9_next V c h n hn h0) cc.val hc
  have hl : o9 V c h (64 * cc.val + (64 - 1)) = (outsAt0 V c (64 * cc.val + 63) hc).2.1 (ix3 (0 : Fin 1) (0 : Fin 1) h) := by
    unfold o9; exact dif_pos hc
  rw [← hl, hrun]
  refine Finset.sum_congr rfl fun i _ => ?_
  unfold t9
  exact dif_pos _
end Out9

section Out10
variable (c : Dev nD) (j : Fin 16) (h : Fin 32)

/-- Output 10's entry after point `n` (zero past the grid). -/
def o10 (n : ℕ) : EReal := if hn : n < cfg0.N then (outsAt0 V c n hn).2.2.1 (ix3 (0 : Fin 1) j h) else 0
/-- The matching accumulator's entry at point `n` (zero past the grid). -/
def t10 (n : ℕ) : EReal := if hn : n < cfg0.N then T16 V c ⟨n, hn⟩ (ix2 j h) else 0

theorem o10_open (n : ℕ) (hn : n < cfg0.N) (h0 : n % 64 = 0) : o10 V c j h n = 0 + t10 V c j h n := by
  unfold o10 t10
  rw [dif_pos hn, dif_pos hn, outs_open V c ⟨n, hn⟩ h0]
  dsimp only
  rw [pay1_pay35_apply, pay15_apply]
theorem o10_next (n : ℕ) (hn : n < cfg0.N) (h0 : n % 64 ≠ 0) :
    o10 V c j h n = o10 V c j h (n - 1) + t10 V c j h n := by
  have hn' : n - 1 < cfg0.N := Nat.lt_of_le_of_lt (Nat.sub_le _ _) hn
  unfold o10 t10
  rw [dif_pos hn, dif_pos hn', dif_pos hn, outs_next V c ⟨n, hn⟩ h0]
  dsimp only
  rw [pay1_pay35_apply]

/-- After a core's last point the third output's entry is the sum of the 64 points' third accumulators. -/
theorem run10 (cc : Fin 2) (hc : 64 * cc.val + 63 < cfg0.N) :
    (outsAt0 V c (64 * cc.val + 63) hc).2.2.1 (ix3 (0 : Fin 1) j h)
      = ∑ i : Fin 64, T16 V c ⟨64 * cc.val + i.val, lt_of_le_of_lt (by have := i.isLt; omega) hc⟩ (ix2 j h) := by
  have hrun := Idealize.ShloMosaic.BlockRuns.run_end (B := 64) (by decide) cfg0.N (o10 V c j h) (t10 V c j h)
    (fun n hn h0 => o10_open V c j h n hn h0) (fun n hn h0 => o10_next V c j h n hn h0) cc.val hc
  have hl : o10 V c j h (64 * cc.val + (64 - 1)) = (outsAt0 V c (64 * cc.val + 63) hc).2.2.1 (ix3 (0 : Fin 1) j h) := by
    unfold o10; exact dif_pos hc
  rw [← hl, hrun]
  refine Finset.sum_congr rfl fun i _ => ?_
  unfold t10
  exact dif_pos _
end Out10

section Out11
variable (c : Dev nD) (j : Fin 16)

/-- Output 11's entry after point `n` (zero past the grid). -/
def o11 (n : ℕ) : EReal := if hn : n < cfg0.N then (outsAt0 V c n hn).2.2.2 (ix3 (0 : Fin 1) (0 : Fin 1) j) else 0
/-- The matching accumulator's entry at point `n` (zero past the grid). -/
def t11 (n : ℕ) : EReal := if hn : n < cfg0.N then T17 V c ⟨n, hn⟩ (ix2 (0 : Fin 1) j) else 0

theorem o11_open (n : ℕ) (hn : n < cfg0.N) (h0 : n % 64 = 0) : o11 V c j n = 0 + t11 V c j n := by
  unfold o11 t11
  rw [dif_pos hn, dif_pos hn, outs_open V c ⟨n, hn⟩ h0]
  dsimp only
  rw [pay2_apply, pay16_apply]
theorem o11_next (n : ℕ) (hn : n < cfg0.N) (h0 : n % 64 ≠ 0) :
    o11 V c j n = o11 V c j (n - 1) + t11 V c j n := by
  have hn' : n - 1 < cfg0.N := Nat.lt_of_le_of_lt (Nat.sub_le _ _) hn
  unfold o11 t11
  rw [dif_pos hn, dif_pos hn', dif_pos hn, outs_next V c ⟨n, hn⟩ h0]
  dsimp only
  rw [pay2_apply]

/-- After a core's last point the fourth output's entry is the sum of the 64 points' fourth accumulators. -/
theorem run11 (cc : Fin 2) (hc : 64 * cc.val + 63 < cfg0.N) :
    (outsAt0 V c (64 * cc.val + 63) hc).2.2.2 (ix3 (0 : Fin 1) (0 : Fin 1) j)
      = ∑ i : Fin 64, T17 V c ⟨64 * cc.val + i.val, lt_of_le_of_lt (by have := i.isLt; omega) hc⟩ (ix2 (0 : Fin 1) j) := by
  have hrun := Idealize.ShloMosaic.BlockRuns.run_end (B := 64) (by decide) cfg0.N (o11 V c j) (t11 V c j)
    (fun n hn h0 => o11_open V c j n hn h0) (fun n hn h0 => o11_next V c j n hn h0) cc.val hc
  have hl : o11 V c j (64 * cc.val + (64 - 1)) = (outsAt0 V c (64 * cc.val + 63) hc).2.2.2 (ix3 (0 : Fin 1) (0 : Fin 1) j) := by
    unfold o11; exact dif_pos hc
  rw [← hl, hrun]
  refine Finset.sum_congr rfl fun i _ => ?_
  unfold t11
  exact dif_pos _
end Out11

end Cert.KernelIdeal.Region0

end
-- ==== Proof.K0Array.lean ====
/-
  The gradient kernel's four result arrays.

  The grid is 2 × 64: 128 points, point t on core t / 64.  Each output window's block index is (t / 64, 0, 0): a
  core's 64 points revisit one block, which is written back once, after the last of them (t ≡ 63 mod 64).  So each
  result array ends holding, core by core, what the staging buffer holds after the last point of the core's run; the
  two written-back blocks cover the array.
-/
import proofs.«144527_j2001454760825_2_alg».proof.Proof.Gen.KernelIdeal.Frame
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat)
open Cert.KernelIdeal.Gen

variable {F : FTy → Type} [FloatOps F]

/-! ## The output windows' index maps, decided once over the grid -/

/-- Every output block sits at (t / 64, 0, 0). -/
theorem idx_facts_out : ∀ t : Fin cfg0.N,
    win0_8.index t (0 : Fin 3) = t.val / 64 ∧ win0_8.index t (1 : Fin 3) = 0 ∧ win0_8.index t (2 : Fin 3) = 0
    ∧ win0_9.index t (0 : Fin 3) = t.val / 64 ∧ win0_9.index t (1 : Fin 3) = 0 ∧ win0_9.index t (2 : Fin 3) = 0
    ∧ win0_10.index t (0 : Fin 3) = t.val / 64 ∧ win0_10.index t (1 : Fin 3) = 0 ∧ win0_10.index t (2 : Fin 3) = 0
    ∧ win0_11.index t (0 : Fin 3) = t.val / 64 ∧ win0_11.index t (1 : Fin 3) = 0 ∧ win0_11.index t (2 : Fin 3) = 0 :=
  (by decide +kernel : ∀ t : Fin grid0.N, _)

variable (V : (c : Dev nD) → (b : Ref sig .tc) → Buf (Elt F) ((c : Thread nD τ).loc b))

/-! ## The last point of a core's run -/

/-- The last point of core cc's run is a point of the grid. -/
theorem last_lt (cc : Fin 2) : 64 * cc.val + 63 < cfg0.N := by
  rw [show cfg0.N = 128 from N_0]
  have := cc.isLt
  omega

/-- What the four staging buffers hold after the last point of core cc's run. -/
def lastOuts (c : Dev nD) (cc : Fin 2) : Vec F S1x32x16 .f32 × Vec F S1x1x32 .f32 × Vec F S1x16x32 .f32 × Vec F S1x1x16 .f32 :=
  outsAt0 V c (64 * cc.val + 63) (last_lt cc)

/-- The staged outputs depend on the point's number only. -/
theorem outsAt0_congr (c : Dev nD) {n n' : ℕ} (h : n = n') (hn : n < cfg0.N) (hn' : n' < cfg0.N) :
    outsAt0 V c n hn = outsAt0 V c n' hn' := by
  subst h
  rfl

/-! ## Output window 8: the first-layer weight gradient -/

/-- The result array: each core's block is what the core's last point leaves. -/
def res8 (c : Dev nD) : S2x32x16.Idx → Elt F .f32 := fun i =>
  (lastOuts V c (i 0)).1 (ix3 (0 : Fin 1) (i 1) (i 2))

/-- A point that writes the block back is the last of its core's run, and writes the result's block. -/
theorem flushed8_eq (c : Dev nD) (t : Fin cfg0.N) (hf : (cfg0.win 8).flush t = true) :
    (dat0 V c).flushed 8 t = ((cfg0.win 8).blk t).view.read (Elt F) (res8 V c) := by
  have hN : t.val < 128 := lt_of_lt_of_eq t.isLt (show cfg0.N = 128 from N_0)
  have h63 : t.val % 64 = 63 := (flush0_8 t).mp hf
  obtain ⟨o80, o81, o82, o90, o91, o92, oa0, oa1, oa2, ob0, ob1, ob2⟩ := idx_facts_out t
  show (cfg0.win 8).cut (grid0.coords t) ((dat0 V c).after 8 t) = _
  rw [after0_8]
  funext y
  rw [View.read_apply]
  show (outsAt0 V c t.val t.isLt).1 y = res8 V c (((cfg0.win 8).blk t).view.emb y)
  have hy0 : (y 0).val = 0 := by have : (y 0).val < 1 := (y 0).isLt; omega
  have hcc : ((((cfg0.win 8).blk t).view.emb y) 0).val = t.val / 64 := by
    show win0_8.index t (0 : Fin 3) * 1 + 1 * (y 0).val = t.val / 64
    omega
  have e1 := outsAt0_congr V c
    (show 64 * ((((cfg0.win 8).blk t).view.emb y) 0).val + 63 = t.val from by rw [hcc]; omega) (last_lt _) t.isLt
  have hidx : (ix3 (0 : Fin 1) ((((cfg0.win 8).blk t).view.emb y) 1) ((((cfg0.win 8).blk t).view.emb y) 2) : S1x32x16.Idx) = y := by
    funext a; apply Fin.ext
    match a with
    | ⟨0, _⟩ => exact hy0.symm
    | ⟨1, _⟩ => show win0_8.index t (1 : Fin 3) * 32 + 1 * (y 1).val = (y 1).val; omega
    | ⟨2, _⟩ => show win0_8.index t (2 : Fin 3) * 16 + 1 * (y 2).val = (y 2).val; omega
  unfold res8 lastOuts
  rw [e1, hidx]

/-- Core cc's block is written back by the last point of its run. -/
theorem cover8 (i : S2x32x16.Idx) :
    ∃ t : Fin cfg0.N, (cfg0.win 8).flush t = true ∧ i ∈ ((cfg0.win 8).blk t).view.set := by
  have hN : cfg0.N = 128 := N_0
  have h0 : (i 0).val < 2 := (i 0).isLt
  have h1 : (i 1).val < 32 := (i 1).isLt
  have h2 : (i 2).val < 16 := (i 2).isLt
  obtain ⟨t, ht⟩ : ∃ t : Fin cfg0.N, t.val = 64 * (i 0).val + 63 := ⟨⟨64 * (i 0).val + 63, by rw [hN]; omega⟩, rfl⟩
  obtain ⟨o80, o81, o82, o90, o91, o92, oa0, oa1, oa2, ob0, ob1, ob2⟩ := idx_facts_out t
  refine ⟨t, (flush0_8 t).mpr (by omega), ?_⟩
  show i ∈ ((View.whole main_v11_0).slice (win0_8.rect t)).set
  rw [View.set_slice_whole, Rect.mem_set_unit]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 32 ≤ (i 1).val ∧ (i 1).val < win0_8.index t (1 : Fin 3) * 32 + 32
    omega
  | ⟨2, _⟩ =>
    show win0_8.index t (2 : Fin 3) * 16 ≤ (i 2).val ∧ (i 2).val < win0_8.index t (2 : Fin 3) * 16 + 16
    omega

/-- After the last point the array holds, core by core, what the core's last point left. -/
theorem arrAt8_eq (c : Dev nD) : (dat0 V c).arrAt 8 cfg0.N = res8 V c :=
  (dat0 V c).arrAt_eq_of_cover 8 (res8 V c) (flushed8_eq V c) cover8

/-- The same, read at an index. -/
theorem arrAt8_apply (c : Dev nD) (cc : Fin 2) (a : Fin 32) (b : Fin 16) :
    ((dat0 V c).arrAt 8 cfg0.N : S2x32x16.Idx → Elt F .f32) (ix3 cc a b)
      = (outsAt0 V c (64 * cc.val + 63) (last_lt cc)).1 (ix3 (0 : Fin 1) a b) := by
  rw [arrAt8_eq]
  rfl

/-! ## Output window 9: the first-layer bias gradient -/

/-- The result array: each core's block is what the core's last point leaves. -/
def res9 (c : Dev nD) : S2x1x32.Idx → Elt F .f32 := fun i =>
  (lastOuts V c (i 0)).2.1 (ix3 (0 : Fin 1) (i 1) (i 2))

/-- A point that writes the block back is the last of its core's run, and writes the result's block. -/
theorem flushed9_eq (c : Dev nD) (t : Fin cfg0.N) (hf : (cfg0.win 9).flush t = true) :
    (dat0 V c).flushed 9 t = ((cfg0.win 9).blk t).view.read (Elt F) (res9 V c) := by
  have hN : t.val < 128 := lt_of_lt_of_eq t.isLt (show cfg0.N = 128 from N_0)
  have h63 : t.val % 64 = 63 := (flush0_9 t).mp hf
  obtain ⟨o80, o81, o82, o90, o91, o92, oa0, oa1, oa2, ob0, ob1, ob2⟩ := idx_facts_out t
  show (cfg0.win 9).cut (grid0.coords t) ((dat0 V c).after 9 t) = _
  rw [after0_9]
  funext y
  rw [View.read_apply]
  show (outsAt0 V c t.val t.isLt).2.1 y = res9 V c (((cfg0.win 9).blk t).view.emb y)
  have hy0 : (y 0).val = 0 := by have : (y 0).val < 1 := (y 0).isLt; omega
  have hcc : ((((cfg0.win 9).blk t).view.emb y) 0).val = t.val / 64 := by
    show win0_9.index t (0 : Fin 3) * 1 + 1 * (y 0).val = t.val / 64
    omega
  have e1 := outsAt0_congr V c
    (show 64 * ((((cfg0.win 9).blk t).view.emb y) 0).val + 63 = t.val from by rw [hcc]; omega) (last_lt _) t.isLt
  have hidx : (ix3 (0 : Fin 1) ((((cfg0.win 9).blk t).view.emb y) 1) ((((cfg0.win 9).blk t).view.emb y) 2) : S1x1x32.Idx) = y := by
    funext a; apply Fin.ext
    match a with
    | ⟨0, _⟩ => exact hy0.symm
    | ⟨1, _⟩ => show win0_9.index t (1 : Fin 3) * 1 + 1 * (y 1).val = (y 1).val; omega
    | ⟨2, _⟩ => show win0_9.index t (2 : Fin 3) * 32 + 1 * (y 2).val = (y 2).val; omega
  unfold res9 lastOuts
  rw [e1, hidx]

/-- Core cc's block is written back by the last point of its run. -/
theorem cover9 (i : S2x1x32.Idx) :
    ∃ t : Fin cfg0.N, (cfg0.win 9).flush t = true ∧ i ∈ ((cfg0.win 9).blk t).view.set := by
  have hN : cfg0.N = 128 := N_0
  have h0 : (i 0).val < 2 := (i 0).isLt
  have h1 : (i 1).val < 1 := (i 1).isLt
  have h2 : (i 2).val < 32 := (i 2).isLt
  obtain ⟨t, ht⟩ : ∃ t : Fin cfg0.N, t.val = 64 * (i 0).val + 63 := ⟨⟨64 * (i 0).val + 63, by rw [hN]; omega⟩, rfl⟩
  obtain ⟨o80, o81, o82, o90, o91, o92, oa0, oa1, oa2, ob0, ob1, ob2⟩ := idx_facts_out t
  refine ⟨t, (flush0_9 t).mpr (by omega), ?_⟩
  show i ∈ ((View.whole main_v11_1).slice (win0_9.rect t)).set
  rw [View.set_slice_whole, Rect.mem_set_unit]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 1 ≤ (i 1).val ∧ (i 1).val < win0_9.index t (1 : Fin 3) * 1 + 1
    omega
  | ⟨2, _⟩ =>
    show win0_9.index t (2 : Fin 3) * 32 ≤ (i 2).val ∧ (i 2).val < win0_9.index t (2 : Fin 3) * 32 + 32
    omega

/-- After the last point the array holds, core by core, what the core's last point left. -/
theorem arrAt9_eq (c : Dev nD) : (dat0 V c).arrAt 9 cfg0.N = res9 V c :=
  (dat0 V c).arrAt_eq_of_cover 9 (res9 V c) (flushed9_eq V c) cover9

/-- The same, read at an index. -/
theorem arrAt9_apply (c : Dev nD) (cc : Fin 2) (a : Fin 1) (b : Fin 32) :
    ((dat0 V c).arrAt 9 cfg0.N : S2x1x32.Idx → Elt F .f32) (ix3 cc a b)
      = (outsAt0 V c (64 * cc.val + 63) (last_lt cc)).2.1 (ix3 (0 : Fin 1) a b) := by
  rw [arrAt9_eq]
  rfl

/-! ## Output window 10: the second-layer weight gradient -/

/-- The result array: each core's block is what the core's last point leaves. -/
def res10 (c : Dev nD) : S2x16x32.Idx → Elt F .f32 := fun i =>
  (lastOuts V c (i 0)).2.2.1 (ix3 (0 : Fin 1) (i 1) (i 2))

/-- A point that writes the block back is the last of its core's run, and writes the result's block. -/
theorem flushed10_eq (c : Dev nD) (t : Fin cfg0.N) (hf : (cfg0.win 10).flush t = true) :
    (dat0 V c).flushed 10 t = ((cfg0.win 10).blk t).view.read (Elt F) (res10 V c) := by
  have hN : t.val < 128 := lt_of_lt_of_eq t.isLt (show cfg0.N = 128 from N_0)
  have h63 : t.val % 64 = 63 := (flush0_10 t).mp hf
  obtain ⟨o80, o81, o82, o90, o91, o92, oa0, oa1, oa2, ob0, ob1, ob2⟩ := idx_facts_out t
  show (cfg0.win 10).cut (grid0.coords t) ((dat0 V c).after 10 t) = _
  rw [after0_10]
  funext y
  rw [View.read_apply]
  show (outsAt0 V c t.val t.isLt).2.2.1 y = res10 V c (((cfg0.win 10).blk t).view.emb y)
  have hy0 : (y 0).val = 0 := by have : (y 0).val < 1 := (y 0).isLt; omega
  have hcc : ((((cfg0.win 10).blk t).view.emb y) 0).val = t.val / 64 := by
    show win0_10.index t (0 : Fin 3) * 1 + 1 * (y 0).val = t.val / 64
    omega
  have e1 := outsAt0_congr V c
    (show 64 * ((((cfg0.win 10).blk t).view.emb y) 0).val + 63 = t.val from by rw [hcc]; omega) (last_lt _) t.isLt
  have hidx : (ix3 (0 : Fin 1) ((((cfg0.win 10).blk t).view.emb y) 1) ((((cfg0.win 10).blk t).view.emb y) 2) : S1x16x32.Idx) = y := by
    funext a; apply Fin.ext
    match a with
    | ⟨0, _⟩ => exact hy0.symm
    | ⟨1, _⟩ => show win0_10.index t (1 : Fin 3) * 16 + 1 * (y 1).val = (y 1).val; omega
    | ⟨2, _⟩ => show win0_10.index t (2 : Fin 3) * 32 + 1 * (y 2).val = (y 2).val; omega
  unfold res10 lastOuts
  rw [e1, hidx]

/-- Core cc's block is written back by the last point of its run. -/
theorem cover10 (i : S2x16x32.Idx) :
    ∃ t : Fin cfg0.N, (cfg0.win 10).flush t = true ∧ i ∈ ((cfg0.win 10).blk t).view.set := by
  have hN : cfg0.N = 128 := N_0
  have h0 : (i 0).val < 2 := (i 0).isLt
  have h1 : (i 1).val < 16 := (i 1).isLt
  have h2 : (i 2).val < 32 := (i 2).isLt
  obtain ⟨t, ht⟩ : ∃ t : Fin cfg0.N, t.val = 64 * (i 0).val + 63 := ⟨⟨64 * (i 0).val + 63, by rw [hN]; omega⟩, rfl⟩
  obtain ⟨o80, o81, o82, o90, o91, o92, oa0, oa1, oa2, ob0, ob1, ob2⟩ := idx_facts_out t
  refine ⟨t, (flush0_10 t).mpr (by omega), ?_⟩
  show i ∈ ((View.whole main_v11_2).slice (win0_10.rect t)).set
  rw [View.set_slice_whole, Rect.mem_set_unit]
  intro a
  match a with
  | ⟨0, _⟩ =>
    show win0_10.index t (0 : Fin 3) * 1 ≤ (i 0).val ∧ (i 0).val < win0_10.index t (0 : Fin 3) * 1 + 1
    omega
  | ⟨1, _⟩ =>
    show win0_10.index t (1 : Fin 3) * 16 ≤ (i 1).val ∧ (i 1).val < win0_10.index t (1 : Fin 3) * 16 + 16
    omega
  | ⟨2, _⟩ =>
    show win0_10.index t (2 : Fin 3) * 32 ≤ (i 2).val ∧ (i 2).val < win0_10.index t (2 : Fin 3) * 32 + 32
    omega

/-- After the last point the array holds, core by core, what the core's last point left. -/
theorem arrAt10_eq (c : Dev nD) : (dat0 V c).arrAt 10 cfg0.N = res10 V c :=
  (dat0 V c).arrAt_eq_of_cover 10 (res10 V c) (flushed10_eq V c) cover10

/-- The same, read at an index. -/
theorem arrAt10_apply (c : Dev nD) (cc : Fin 2) (a : Fin 16) (b : Fin 32) :
    ((dat0 V c).arrAt 10 cfg0.N : S2x16x32.Idx → Elt F .f32) (ix3 cc a b)
      = (outsAt0 V c (64 * cc.val + 63) (last_lt cc)).2.2.1 (ix3 (0 : Fin 1) a b) := by
  rw [arrAt10_eq]
  rfl

/-! ## Output window 11: the second-layer bias gradient -/

/-- The result array: each core's block is what the core's last point leaves. -/
def res11 (c : Dev nD) : S2x1x16.Idx → Elt F .f32 := fun i =>
  (lastOuts V c (i 0)).2.2.2 (ix3 (0 : Fin 1) (i 1) (i 2))

/-- A point that writes the block back is the last of its core's run, and writes the result's block. -/
theorem flushed11_eq (c : Dev nD) (t : Fin cfg0.N) (hf : (cfg0.win 11).flush t = true) :
    (dat0 V c).flushed 11 t = ((cfg0.win 11).blk t).view.read (Elt F) (res11 V c) := by
  have hN : t.val < 128 := lt_of_lt_of_eq t.isLt (show cfg0.N = 128 from N_0)
  have h63 : t.val % 64 = 63 := (flush0_11 t).mp hf
  obtain ⟨o80, o81, o82, o90, o91, o92, oa0, oa1, oa2, ob0, ob1, ob2⟩ := idx_facts_out t
  show (cfg0.win 11).cut (grid0.coords t) ((dat0 V c).after 11 t) = _
  rw [after0_11]
  funext y
  rw [View.read_apply]
  show (outsAt0 V c t.val t.isLt).2.2.2 y = res11 V c (((cfg0.win 11).blk t).view.emb y)
  have hy0 : (y 0).val = 0 := by have : (y 0).val < 1 := (y 0).isLt; omega
  have hcc : ((((cfg0.win 11).blk t).view.emb y) 0).val = t.val / 64 := by
    show win0_11.index t (0 : Fin 3) * 1 + 1 * (y 0).val = t.val / 64
    omega
  have e1 := outsAt0_congr V c
    (show 64 * ((((cfg0.win 11).blk t).view.emb y) 0).val + 63 = t.val from by rw [hcc]; omega) (last_lt _) t.isLt
  have hidx : (ix3 (0 : Fin 1) ((((cfg0.win 11).blk t).view.emb y) 1) ((((cfg0.win 11).blk t).view.emb y) 2) : S1x1x16.Idx) = y := by
    funext a; apply Fin.ext
    match a with
    | ⟨0, _⟩ => exact hy0.symm
    | ⟨1, _⟩ => show win0_11.index t (1 : Fin 3) * 1 + 1 * (y 1).val = (y 1).val; omega
    | ⟨2, _⟩ => show win0_11.index t (2 : Fin 3) * 16 + 1 * (y 2).val = (y 2).val; omega
  unfold res11 lastOuts
  rw [e1, hidx]

/-- Core cc's block is written back by the last point of its run. -/
theorem cover11 (i : S2x1x16.Idx) :
    ∃ t : Fin cfg0.N, (cfg0.win 11).flush t = true ∧ i ∈ ((cfg0.win 11).blk t).view.set := by
  have hN : cfg0.N = 128 := N_0
  have h0 : (i 0).val < 2 := (i 0).isLt
  have h1 : (i 1).val < 1 := (i 1).isLt
  have h2 : (i 2).val < 16 := (i 2).isLt
  obtain ⟨t, ht⟩ : ∃ t : Fin cfg0.N, t.val = 64 * (i 0).val + 63 := ⟨⟨64 * (i 0).val + 63, by rw [hN]; omega⟩, rfl⟩
  obtain ⟨o80, o81, o82, o90, o91, o92, oa0, oa1, oa2, ob0, ob1, ob2⟩ := idx_facts_out t
  refine ⟨t, (flush0_11 t).mpr (by omega), ?_⟩
  show i ∈ ((View.whole main_v11_3).slice (win0_11.rect t)).set
  rw [View.set_slice_whole, Rect.mem_set_unit]
  intro a
  match a with
  | ⟨0, _⟩ =>
    show win0_11.index t (0 : Fin 3) * 1 ≤ (i 0).val ∧ (i 0).val < win0_11.index t (0 : Fin 3) * 1 + 1
    omega
  | ⟨1, _⟩ =>
    show win0_11.index t (1 : Fin 3) * 1 ≤ (i 1).val ∧ (i 1).val < win0_11.index t (1 : Fin 3) * 1 + 1
    omega
  | ⟨2, _⟩ =>
    show win0_11.index t (2 : Fin 3) * 16 ≤ (i 2).val ∧ (i 2).val < win0_11.index t (2 : Fin 3) * 16 + 16
    omega

/-- After the last point the array holds, core by core, what the core's last point left. -/
theorem arrAt11_eq (c : Dev nD) : (dat0 V c).arrAt 11 cfg0.N = res11 V c :=
  (dat0 V c).arrAt_eq_of_cover 11 (res11 V c) (flushed11_eq V c) cover11

/-- The same, read at an index. -/
theorem arrAt11_apply (c : Dev nD) (cc : Fin 2) (a : Fin 1) (b : Fin 16) :
    ((dat0 V c).arrAt 11 cfg0.N : S2x1x16.Idx → Elt F .f32) (ix3 cc a b)
      = (outsAt0 V c (64 * cc.val + 63) (last_lt cc)).2.2.2 (ix3 (0 : Fin 1) a b) := by
  rw [arrAt11_eq]
  rfl

end Cert.KernelIdeal.Region0

end
-- ==== Proof.K0Blocks.lean ====
/-
  The gradient kernel's staged input blocks, and a chunk of the block of x.

  The grid has 128 points.  Point t stages rows 8192t … 8192t + 8191 of x; each of the seven weight windows is its
  whole array at every point.  Inside the body, trip k of the loop reads rows 512k … 512k + 511 of the staged block.
-/
import proofs.«144527_j2001454760825_2_alg».proof.Proof.Gen.KernelIdeal.Frame
import proofs.«144527_j2001454760825_2_alg».proof.Proof.K0Loop
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL Idealize.SL.Sem
open Cert.KernelIdeal.Gen

variable {F : FTy → Type} [FloatOps F]

/-! ## The input windows' index maps, decided once over the grid -/

/-- x moves one block of rows per point; every weight stays at block (0, 0). -/
theorem idx_facts_in : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

variable (V : (c : Dev nD) → (b : Ref sig .tc) → Buf (Elt F) ((c : Thread nD τ).loc b))

/-! ## The weight windows -/

/-- Window 1 is its whole array at every point. -/
theorem iblk0_1 (c : Dev nD) (t : Fin cfg0.N) :
    (iblk0 V c 1 t : S16x16.Idx → Elt F .bf16) = (V c (Pipeline.arrRef spec0 1) : S16x16.Idx → Elt F .bf16) := by
  obtain ⟨e00, e01, e10, e11, e20, e21, e30, e31, e40, e41, e50, e51, e60, e61, e70, e71⟩ := idx_facts_in t
  funext z
  unfold iblk0
  rw [View.read_apply]
  show (V c (Pipeline.arrRef spec0 1) : S16x16.Idx → Elt F .bf16) _ = (V c (Pipeline.arrRef spec0 1) : S16x16.Idx → Elt F .bf16) z
  refine congrArg (V c (Pipeline.arrRef spec0 1) : S16x16.Idx → Elt F .bf16) ?_
  funext a; apply Fin.ext
  match a with
  | ⟨0, _⟩ => show win0_1.index t (0 : Fin 2) * 16 + 1 * (z 0).val = (z 0).val; omega
  | ⟨1, _⟩ => show win0_1.index t (1 : Fin 2) * 16 + 1 * (z 1).val = (z 1).val; omega

/-- Window 2 is its whole array at every point. -/
theorem iblk0_2 (c : Dev nD) (t : Fin cfg0.N) :
    (iblk0 V c 2 t : S16x16.Idx → Elt F .bf16) = (V c (Pipeline.arrRef spec0 2) : S16x16.Idx → Elt F .bf16) := by
  obtain ⟨e00, e01, e10, e11, e20, e21, e30, e31, e40, e41, e50, e51, e60, e61, e70, e71⟩ := idx_facts_in t
  funext z
  unfold iblk0
  rw [View.read_apply]
  show (V c (Pipeline.arrRef spec0 2) : S16x16.Idx → Elt F .bf16) _ = (V c (Pipeline.arrRef spec0 2) : S16x16.Idx → Elt F .bf16) z
  refine congrArg (V c (Pipeline.arrRef spec0 2) : S16x16.Idx → Elt F .bf16) ?_
  funext a; apply Fin.ext
  match a with
  | ⟨0, _⟩ => show win0_2.index t (0 : Fin 2) * 16 + 1 * (z 0).val = (z 0).val; omega
  | ⟨1, _⟩ => show win0_2.index t (1 : Fin 2) * 16 + 1 * (z 1).val = (z 1).val; omega

/-- Window 3 is its whole array at every point. -/
theorem iblk0_3 (c : Dev nD) (t : Fin cfg0.N) :
    (iblk0 V c 3 t : S16x32.Idx → Elt F .bf16) = (V c (Pipeline.arrRef spec0 3) : S16x32.Idx → Elt F .bf16) := by
  obtain ⟨e00, e01, e10, e11, e20, e21, e30, e31, e40, e41, e50, e51, e60, e61, e70, e71⟩ := idx_facts_in t
  funext z
  unfold iblk0
  rw [View.read_apply]
  show (V c (Pipeline.arrRef spec0 3) : S16x32.Idx → Elt F .bf16) _ = (V c (Pipeline.arrRef spec0 3) : S16x32.Idx → Elt F .bf16) z
  refine congrArg (V c (Pipeline.arrRef spec0 3) : S16x32.Idx → Elt F .bf16) ?_
  funext a; apply Fin.ext
  match a with
  | ⟨0, _⟩ => show win0_3.index t (0 : Fin 2) * 16 + 1 * (z 0).val = (z 0).val; omega
  | ⟨1, _⟩ => show win0_3.index t (1 : Fin 2) * 32 + 1 * (z 1).val = (z 1).val; omega

/-- Window 4 is its whole array at every point. -/
theorem iblk0_4 (c : Dev nD) (t : Fin cfg0.N) :
    (iblk0 V c 4 t : S1x32.Idx → Elt F .f32) = (V c (Pipeline.arrRef spec0 4) : S1x32.Idx → Elt F .f32) := by
  obtain ⟨e00, e01, e10, e11, e20, e21, e30, e31, e40, e41, e50, e51, e60, e61, e70, e71⟩ := idx_facts_in t
  funext z
  unfold iblk0
  rw [View.read_apply]
  show (V c (Pipeline.arrRef spec0 4) : S1x32.Idx → Elt F .f32) _ = (V c (Pipeline.arrRef spec0 4) : S1x32.Idx → Elt F .f32) z
  refine congrArg (V c (Pipeline.arrRef spec0 4) : S1x32.Idx → Elt F .f32) ?_
  funext a; apply Fin.ext
  match a with
  | ⟨0, _⟩ => show win0_4.index t (0 : Fin 2) * 1 + 1 * (z 0).val = (z 0).val; omega
  | ⟨1, _⟩ => show win0_4.index t (1 : Fin 2) * 32 + 1 * (z 1).val = (z 1).val; omega

/-- Window 5 is its whole array at every point. -/
theorem iblk0_5 (c : Dev nD) (t : Fin cfg0.N) :
    (iblk0 V c 5 t : S16x32.Idx → Elt F .bf16) = (V c (Pipeline.arrRef spec0 5) : S16x32.Idx → Elt F .bf16) := by
  obtain ⟨e00, e01, e10, e11, e20, e21, e30, e31, e40, e41, e50, e51, e60, e61, e70, e71⟩ := idx_facts_in t
  funext z
  unfold iblk0
  rw [View.read_apply]
  show (V c (Pipeline.arrRef spec0 5) : S16x32.Idx → Elt F .bf16) _ = (V c (Pipeline.arrRef spec0 5) : S16x32.Idx → Elt F .bf16) z
  refine congrArg (V c (Pipeline.arrRef spec0 5) : S16x32.Idx → Elt F .bf16) ?_
  funext a; apply Fin.ext
  match a with
  | ⟨0, _⟩ => show win0_5.index t (0 : Fin 2) * 16 + 1 * (z 0).val = (z 0).val; omega
  | ⟨1, _⟩ => show win0_5.index t (1 : Fin 2) * 32 + 1 * (z 1).val = (z 1).val; omega

/-- Window 6 is its whole array at every point. -/
theorem iblk0_6 (c : Dev nD) (t : Fin cfg0.N) :
    (iblk0 V c 6 t : S32x16.Idx → Elt F .bf16) = (V c (Pipeline.arrRef spec0 6) : S32x16.Idx → Elt F .bf16) := by
  obtain ⟨e00, e01, e10, e11, e20, e21, e30, e31, e40, e41, e50, e51, e60, e61, e70, e71⟩ := idx_facts_in t
  funext z
  unfold iblk0
  rw [View.read_apply]
  show (V c (Pipeline.arrRef spec0 6) : S32x16.Idx → Elt F .bf16) _ = (V c (Pipeline.arrRef spec0 6) : S32x16.Idx → Elt F .bf16) z
  refine congrArg (V c (Pipeline.arrRef spec0 6) : S32x16.Idx → Elt F .bf16) ?_
  funext a; apply Fin.ext
  match a with
  | ⟨0, _⟩ => show win0_6.index t (0 : Fin 2) * 32 + 1 * (z 0).val = (z 0).val; omega
  | ⟨1, _⟩ => show win0_6.index t (1 : Fin 2) * 16 + 1 * (z 1).val = (z 1).val; omega

/-- Window 7 is its whole array at every point. -/
theorem iblk0_7 (c : Dev nD) (t : Fin cfg0.N) :
    (iblk0 V c 7 t : S1x16.Idx → Elt F .f32) = (V c (Pipeline.arrRef spec0 7) : S1x16.Idx → Elt F .f32) := by
  obtain ⟨e00, e01, e10, e11, e20, e21, e30, e31, e40, e41, e50, e51, e60, e61, e70, e71⟩ := idx_facts_in t
  funext z
  unfold iblk0
  rw [View.read_apply]
  show (V c (Pipeline.arrRef spec0 7) : S1x16.Idx → Elt F .f32) _ = (V c (Pipeline.arrRef spec0 7) : S1x16.Idx → Elt F .f32) z
  refine congrArg (V c (Pipeline.arrRef spec0 7) : S1x16.Idx → Elt F .f32) ?_
  funext a; apply Fin.ext
  match a with
  | ⟨0, _⟩ => show win0_7.index t (0 : Fin 2) * 1 + 1 * (z 0).val = (z 0).val; omega
  | ⟨1, _⟩ => show win0_7.index t (1 : Fin 2) * 16 + 1 * (z 1).val = (z 1).val; omega

/-! ## The block of x -/

/-- Row y of the block of x staged at point t is row r of x, for r = 8192 t + y. -/
theorem iblk0_0_apply (c : Dev nD) (t : Fin cfg0.N) (y : Fin 8192) (k : Fin 16) (r : Fin 1048576)
    (hr : r.val = 8192 * t.val + y.val) :
    (iblk0 V c 0 t : S8192x16.Idx → Elt F .f32) (ix2 y k)
      = (V c (Pipeline.arrRef spec0 0) : S1048576x16.Idx → Elt F .f32) (ix2 r k) := by
  obtain ⟨e00, e01, e10, e11, e20, e21, e30, e31, e40, e41, e50, e51, e60, e61, e70, e71⟩ := idx_facts_in t
  unfold iblk0
  rw [View.read_apply]
  show (V c (Pipeline.arrRef spec0 0) : S1048576x16.Idx → Elt F .f32) _ = (V c (Pipeline.arrRef spec0 0) : S1048576x16.Idx → Elt F .f32) (ix2 r k)
  refine congrArg (V c (Pipeline.arrRef spec0 0) : S1048576x16.Idx → Elt F .f32) ?_
  funext a; apply Fin.ext
  match a with
  | ⟨0, _⟩ => show win0_0.index t (0 : Fin 2) * 8192 + 1 * y.val = r.val; omega
  | ⟨1, _⟩ => show win0_0.index t (1 : Fin 2) * 16 + 1 * k.val = k.val; omega

/-- The row of x that row y of point t's block is. -/
theorem row_lt (t : Fin cfg0.N) (y : Fin 8192) : 8192 * t.val + y.val < 1048576 := by
  have hN : t.val < 128 := lt_of_lt_of_eq t.isLt (show cfg0.N = 128 from N_0)
  have := y.isLt
  omega

/-- The same with the row written out. -/
theorem iblk0_0_row (c : Dev nD) (t : Fin cfg0.N) (y : Fin 8192) (k : Fin 16) :
    (iblk0 V c 0 t : S8192x16.Idx → Elt F .f32) (ix2 y k)
      = (V c (Pipeline.arrRef spec0 0) : S1048576x16.Idx → Elt F .f32) (ix2 (⟨8192 * t.val + y.val, row_lt t y⟩ : Fin 1048576) k) :=
  iblk0_0_apply V c t y k ⟨8192 * t.val + y.val, row_lt t y⟩ rfl

/-! ## A chunk of the block -/

/-- The row of the block that row r of chunk k is. -/
theorem chunk_row_lt (k : Fin k0_t1_loop.trips) (r : Fin 512) : 512 * k.val + r.val < 8192 := by
  have hk : k.val < 16 := Nat.lt_of_lt_of_le k.isLt k0_t1_abs.2.1
  have := r.isLt
  omega

/-- Row r of chunk k of a block is row 512 k + r of the block. -/
theorem chunk_apply (arg2 : Memref sig .tc .vmem S8192x16 .f32) (harg2 : arg2.IsWhole) (x0 : Vec F S8192x16 .f32)
    (k : Fin k0_t1_loop.trips) (r : Fin 512) (col : Fin 16) :
    chunk (F := F) arg2 (harg2.unread x0) k (ix2 r col)
      = x0 (ix2 (⟨512 * k.val + r.val, chunk_row_lt k r⟩ : Fin 8192) col) := by
  show (arg2.view.read (Elt F) (harg2.unread x0))
      ((Rect.unit (s := S8192x16) (k0_off1 k) S512x16.size (k0_off1_inb k)).idx (ix2 r col)) = _
  rw [harg2.read_unread]
  refine congrArg x0 ?_
  funext a; apply Fin.ext
  match a with
  | ⟨0, _⟩ =>
    show (k0_off1 k) 0 + 1 * r.val = 512 * k.val + r.val
    rw [k0_off1_eq k]
    show 512 * k.val + 1 * r.val = 512 * k.val + r.val
    omega
  | ⟨1, _⟩ =>
    show (k0_off1 k) 1 + 1 * col.val = col.val
    rw [k0_off1_eq k]
    show 0 + 1 * col.val = col.val
    omega

end Cert.KernelIdeal.Region0

end
-- ==== Proof.KHost.lean ====
/-
  The host operations around the two regions, read as functions.

  Before the first region the host transposes the square weights and the two layer weights and views the two biases as
  one-row matrices (a change of float format is the identity on the extended reals).  Between the regions it adds the
  two cores' partial gradients, forms the new parameters `a · p − (θ · 2⁻²³) · g`, transposes the two new weights and
  views the two new biases as one-row matrices.  Each window array of a region is therefore an explicit term of the
  launch memory and, for the second region, of the four arrays the first region's write-backs leave.
-/
import proofs.«144527_j2001454760825_2_alg».proof.Proof.KRun
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.Sem Idealize.ShloMosaic.StableHlo
open Idealize.ShloMosaic.Pipeline (Dat)

variable {F : FTy → Type} [FloatOps F]

variable (m : (ℓ : Loc nD τ sig) → Buf (Elt F) ℓ) (ρ : Dev nD → PrngReg)

/-! ## The new parameters, as the host forms them from a parameter and the two cores' partial gradients -/

/-- `a · W0 − (θ · 2⁻²³) · (g₀ + g₁)`, a [32,16] array. -/
def newW0 (p : (⟨S32x16, .f32⟩ : BufTy).Contents (Elt F)) (g : (⟨S2x32x16, .f32⟩ : BufTy).Contents (Elt F)) : (⟨S32x16, .f32⟩ : BufTy).Contents (Elt F) :=
  subf (mulf (broadcastInDim S32x16 ![] bcast_S_S32x16 (constant S_ .f32 0x3F7FBE77#32)) p)
    (mulf (broadcastInDim S32x16 ![] bcast_S_S32x16 (constant S_ .f32 0x31CCCCCD#32))
      (Host.reduceAdd g (constant S_ .f32 0x00000000#32) reducesTo_S2x32x16_S32x16_d0 h_S_))
/-- `a · b0 − (θ · 2⁻²³) · (g₀ + g₁)`, as the one-row matrix [1,32] the second region stages. -/
def newB0 (p : (⟨S32, .f32⟩ : BufTy).Contents (Elt F)) (g : (⟨S2x1x32, .f32⟩ : BufTy).Contents (Elt F)) : (⟨S1x32, .f32⟩ : BufTy).Contents (Elt F) :=
  shapeCast S1x32 (subf (mulf (broadcastInDim S32 ![] bcast_S_S32 (constant S_ .f32 0x3F7FBE77#32)) p)
    (mulf (broadcastInDim S32 ![] bcast_S_S32 (constant S_ .f32 0x31CCCCCD#32))
      (shapeCast S32 (Host.reduceAdd g (constant S_ .f32 0x00000000#32) reducesTo_S2x1x32_S1x32_d0 h_S_) shapeCasts_S1x32_S32))) shapeCasts_S32_S1x32
/-- `a · W1 − (θ · 2⁻²³) · (g₀ + g₁)`, a [16,32] array. -/
def newW1 (p : (⟨S16x32, .f32⟩ : BufTy).Contents (Elt F)) (g : (⟨S2x16x32, .f32⟩ : BufTy).Contents (Elt F)) : (⟨S16x32, .f32⟩ : BufTy).Contents (Elt F) :=
  subf (mulf (broadcastInDim S16x32 ![] bcast_S_S16x32 (constant S_ .f32 0x3F7FBE77#32)) p)
    (mulf (broadcastInDim S16x32 ![] bcast_S_S16x32 (constant S_ .f32 0x31CCCCCD#32))
      (Host.reduceAdd g (constant S_ .f32 0x00000000#32) reducesTo_S2x16x32_S16x32_d0 h_S_))
/-- `a · b1 − (θ · 2⁻²³) · (g₀ + g₁)`, as the one-row matrix [1,16]. -/
def newB1 (p : (⟨S16, .f32⟩ : BufTy).Contents (Elt F)) (g : (⟨S2x1x16, .f32⟩ : BufTy).Contents (Elt F)) : (⟨S1x16, .f32⟩ : BufTy).Contents (Elt F) :=
  shapeCast S1x16 (subf (mulf (broadcastInDim S16 ![] bcast_S_S16 (constant S_ .f32 0x3F7FBE77#32)) p)
    (mulf (broadcastInDim S16 ![] bcast_S_S16 (constant S_ .f32 0x31CCCCCD#32))
      (shapeCast S16 (Host.reduceAdd g (constant S_ .f32 0x00000000#32) reducesTo_S2x1x16_S1x16_d0 h_S_) shapeCasts_S1x16_S16))) shapeCasts_S16_S1x16

/-! ## The first region's window arrays -/

theorem V1_x (c : Dev nD) : V1 m ρ c main_arg0 = m ((c : Thread nD τ).loc main_arg0) := by
  show StableHlo.after hostOps0 (W0 m ρ c) (Proc.devRef .tc main_arg0) = _; after_results
theorem V1_wvT (c : Dev nD) : V1 m ρ c main_v1 = truncf .bf16 (transpose S16x16 [1, 0] (m ((c : Thread nD τ).loc main_arg6)) transposes_S16x16_S16x16_1_0) bitsLt_bf16_f32 := by
  show StableHlo.after hostOps0 (W0 m ρ c) (Proc.devRef .tc main_v1) = _; after_results
theorem V1_wqT (c : Dev nD) : V1 m ρ c main_v3 = truncf .bf16 (transpose S16x16 [1, 0] (m ((c : Thread nD τ).loc main_arg7)) transposes_S16x16_S16x16_1_0) bitsLt_bf16_f32 := by
  show StableHlo.after hostOps0 (W0 m ρ c) (Proc.devRef .tc main_v3) = _; after_results
theorem V1_w0T (c : Dev nD) : V1 m ρ c main_v5 = truncf .bf16 (transpose S16x32 [1, 0] (m ((c : Thread nD τ).loc main_arg1)) transposes_S32x16_S16x32_1_0) bitsLt_bf16_f32 := by
  show StableHlo.after hostOps0 (W0 m ρ c) (Proc.devRef .tc main_v5) = _; after_results
theorem V1_b0 (c : Dev nD) : V1 m ρ c main_v9 = shapeCast S1x32 (m ((c : Thread nD τ).loc main_arg2)) shapeCasts_S32_S1x32 := by
  show StableHlo.after hostOps0 (W0 m ρ c) (Proc.devRef .tc main_v9) = _; after_results <;> rfl
theorem V1_w1 (c : Dev nD) : V1 m ρ c main_v6 = truncf .bf16 (m ((c : Thread nD τ).loc main_arg3)) bitsLt_bf16_f32 := by
  show StableHlo.after hostOps0 (W0 m ρ c) (Proc.devRef .tc main_v6) = _; after_results
theorem V1_w1T (c : Dev nD) : V1 m ρ c main_v8 = truncf .bf16 (transpose S32x16 [1, 0] (m ((c : Thread nD τ).loc main_arg3)) transposes_S16x32_S32x16_1_0) bitsLt_bf16_f32 := by
  show StableHlo.after hostOps0 (W0 m ρ c) (Proc.devRef .tc main_v8) = _; after_results
theorem V1_b1 (c : Dev nD) : V1 m ρ c main_v10 = shapeCast S1x16 (m ((c : Thread nD τ).loc main_arg4)) shapeCasts_S16_S1x16 := by
  show StableHlo.after hostOps0 (W0 m ρ c) (Proc.devRef .tc main_v10) = _; after_results <;> rfl

/-! ## What the second host stretch finds: the launch memory again, and the first region's four outputs -/

theorem W2_x (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_x m ρ c)
theorem W2_wqT (c : Dev nD) : W2 m ρ c (Proc.devRef .tc main_v3) = truncf .bf16 (transpose S16x16 [1, 0] (m ((c : Thread nD τ).loc main_arg7)) transposes_S16x16_S16x16_1_0) bitsLt_bf16_f32 :=
  ((W2_arr m ρ c 2).trans (((dat0 (V1 m ρ) c).arrAt_in 2 rfl _).trans (A_eq0 (V1 m ρ) c 2))).trans (V1_wqT m ρ c)
theorem W2_arg (c : Dev nD) (b : Ref sig .tc) (hb : ∀ w, Pipeline.arrRef spec0 w ≠ b)
    (h0 : W1 m ρ c (Proc.devRef .tc b) = W0 m ρ c (Proc.devRef .tc b)) :
    W2 m ρ c (Proc.devRef .tc b) = W0 m ρ c (Proc.devRef .tc b) := (W2_of_ne m ρ c b hb).trans h0
theorem W2_W0 (c : Dev nD) : W2 m ρ c (Proc.devRef .tc main_arg1) = m ((c : Thread nD τ).loc main_arg1) :=
  W2_arg m ρ c main_arg1 (by decide) (by show StableHlo.after hostOps0 (W0 m ρ c) (Proc.devRef .tc main_arg1) = _; after_results)
theorem W2_B0 (c : Dev nD) : W2 m ρ c (Proc.devRef .tc main_arg2) = m ((c : Thread nD τ).loc main_arg2) :=
  W2_arg m ρ c main_arg2 (by decide) (by show StableHlo.after hostOps0 (W0 m ρ c) (Proc.devRef .tc main_arg2) = _; after_results)
theorem W2_W1 (c : Dev nD) : W2 m ρ c (Proc.devRef .tc main_arg3) = m ((c : Thread nD τ).loc main_arg3) :=
  W2_arg m ρ c main_arg3 (by decide) (by show StableHlo.after hostOps0 (W0 m ρ c) (Proc.devRef .tc main_arg3) = _; after_results)
theorem W2_B1 (c : Dev nD) : W2 m ρ c (Proc.devRef .tc main_arg4) = m ((c : Thread nD τ).loc main_arg4) :=
  W2_arg m ρ c main_arg4 (by decide) (by show StableHlo.after hostOps0 (W0 m ρ c) (Proc.devRef .tc main_arg4) = _; after_results)

/-! ## The second region's window arrays -/

theorem V3_x (c : Dev nD) : V3 m ρ c main_arg0 = m ((c : Thread nD τ).loc main_arg0) := by
  refine Eq.trans ?_ (W2_x m ρ c)
  show StableHlo.after hostOps1 (W2 m ρ c) (Proc.devRef .tc main_arg0) = _; after_results
theorem V3_wqT (c : Dev nD) : V3 m ρ c main_v3 = truncf .bf16 (transpose S16x16 [1, 0] (m ((c : Thread nD τ).loc main_arg7)) transposes_S16x16_S16x16_1_0) bitsLt_bf16_f32 := by
  refine Eq.trans ?_ (W2_wqT m ρ c)
  show StableHlo.after hostOps1 (W2 m ρ c) (Proc.devRef .tc main_v3) = _; after_results
theorem V3_w0T (c : Dev nD) : V3 m ρ c main_v41 = truncf .bf16 (transpose S16x32 [1, 0]
      (newW0 (m ((c : Thread nD τ).loc main_arg1)) ((dat0 (V1 m ρ) c).arrAt 8 cfg0.N)) transposes_S32x16_S16x32_1_0) bitsLt_bf16_f32 := by
  rw [← W2_W0 m ρ c, ← W2_arr m ρ c 8]
  show StableHlo.after hostOps1 (W2 m ρ c) (Proc.devRef .tc main_v41) = _; after_results <;> rfl
theorem V3_b0 (c : Dev nD) : V3 m ρ c main_v27 = newB0 (m ((c : Thread nD τ).loc main_arg2)) ((dat0 (V1 m ρ) c).arrAt 9 cfg0.N) := by
  rw [← W2_B0 m ρ c, ← W2_arr m ρ c 9]
  show StableHlo.after hostOps1 (W2 m ρ c) (Proc.devRef .tc main_v27) = _; after_results <;> rfl
theorem V3_w1T (c : Dev nD) : V3 m ρ c main_v43 = truncf .bf16 (transpose S32x16 [1, 0]
      (newW1 (m ((c : Thread nD τ).loc main_arg3)) ((dat0 (V1 m ρ) c).arrAt 10 cfg0.N)) transposes_S16x32_S32x16_1_0) bitsLt_bf16_f32 := by
  rw [← W2_W1 m ρ c, ← W2_arr m ρ c 10]
  show StableHlo.after hostOps1 (W2 m ρ c) (Proc.devRef .tc main_v43) = _; after_results <;> rfl
theorem V3_b1 (c : Dev nD) : V3 m ρ c main_v39 = newB1 (m ((c : Thread nD τ).loc main_arg4)) ((dat0 (V1 m ρ) c).arrAt 11 cfg0.N) := by
  rw [← W2_B1 m ρ c, ← W2_arr m ρ c 11]
  show StableHlo.after hostOps1 (W2 m ρ c) (Proc.devRef .tc main_v39) = _; after_results <;> rfl

/-- The result buffer at the return is the array the second region's write-backs leave. -/
theorem W4_result (c : Dev nD) : W4 m ρ c (Proc.devRef .tc main_v44) = (dat1 (V3 m ρ) c).arrAt 6 cfg1.N :=
  W4_arr m ρ c 6

end Cert.KernelIdeal.Gen

end
-- ==== Proof.KHostIdx.lean ====
/-
  The host operations around the two regions, read at an index on the extended reals.

  A new parameter is `a · p − (θ · 2⁻²³) · (g₀ + g₁)`: a scalar constant broadcast to an array reads the constant
  everywhere, the host's sum over the leading axis of the two cores' partial gradients, from the zero word, is the sum
  of the two entries, and a bias viewed as a one-row matrix reads the bias at the column.  The weight blocks the regions
  stage are transposes and one-row views of the parameters, a change of float format being the identity.
-/
import proofs.«144527_j2001454760825_2_alg».proof.Proof.KHost
import proofs.«144527_j2001454760825_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HostIdx

open Idealize.ShloMosaic Idealize.ShloMosaic.ValueIdx
open Cert.KernelIdeal Cert.KernelIdeal.Gen

/-! ## General readings -/

/-- A scalar constant broadcast to any shape reads, everywhere, the number its word encodes. -/
theorem bcast_scalar_apply {t : Shape} (dims : Fin 0 → Fin t.rank) (h : (⟨0, ![]⟩ : Shape).BroadcastsInDim t dims)
    (b : BitVec 32) (i : t.Idx) :
    broadcastInDim t dims h (constant (F := Ideal) (⟨0, ![]⟩ : Shape) .f32 b) i = Ideal.ofBits .f32 b :=
  broadcastInDim_apply (s := (⟨0, ![]⟩ : Shape)) dims h (constant (F := Ideal) (⟨0, ![]⟩ : Shape) .f32 b) i
    (fun a => a.elim0) (fun a => a.elim0)

/-- The index `(p, q)` of a sum over the leading axis with the coordinate `cc` put back is `(cc, p, q)`. -/
theorem lift0_ix3 {n a b : ℕ} (h : (⟨3, ![n, a, b]⟩ : Shape).Reduces [0] ⟨2, ![a, b]⟩) (p : Fin a) (q : Fin b) (cc : Fin n) :
    h.lift (ix2 p q) cc = ix3 cc p q :=
  funext fun c => Fin.ext (by match c with | ⟨0, _⟩ => rfl | ⟨1, _⟩ => rfl | ⟨2, _⟩ => rfl)

/-- The host's sum over the leading axis of an `[n, a, b]` array, from the zero word, is at `(p, q)` the sum of the `n`
    entries `(cc, p, q)`. -/
theorem hostSum0_ix2 {n a b : ℕ} (g : FVec Ideal ⟨3, ![n, a, b]⟩ .f32)
    (h' : (⟨3, ![n, a, b]⟩ : Shape).ReducesTo [0] ⟨2, ![a, b]⟩) (h : (⟨3, ![n, a, b]⟩ : Shape).Reduces [0] ⟨2, ![a, b]⟩)
    (hS : 0 < (⟨0, ![]⟩ : Shape).numel) (p : Fin a) (q : Fin b) :
    Host.reduceAdd g (constant (F := Ideal) (⟨0, ![]⟩ : Shape) .f32 0x00000000#32) h' hS (ix2 p q)
      = ∑ cc : Fin n, g (ix3 cc p q) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun cc _ => congrArg g (lift0_ix3 h p q cc)

/-! ## The new parameters at an index -/

/-- The new first weight at (h, j): the decayed entry minus the scaled step times the two cores' partial gradients' sum. -/
theorem newW0_apply (p : FVec Ideal S32x16 .f32) (g : FVec Ideal S2x32x16 .f32) (h : Fin 32) (j : Fin 16) :
    newW0 (F := Ideal) p g (ix2 h j)
      = Cert.Spec.decay * p (ix2 h j) - Cert.Spec.thetaScaled * ∑ cc : Fin 2, g (ix3 cc h j) := by
  have e : newW0 (F := Ideal) p g (ix2 h j)
      = (broadcastInDim S32x16 ![] bcast_S_S32x16 (constant (F := Ideal) S_ .f32 0x3F7FBE77#32)) (ix2 h j) * p (ix2 h j)
        - (broadcastInDim S32x16 ![] bcast_S_S32x16 (constant (F := Ideal) S_ .f32 0x31CCCCCD#32)) (ix2 h j) * (Host.reduceAdd g (constant (F := Ideal) S_ .f32 0x00000000#32) reducesTo_S2x32x16_S32x16_d0 h_S_) (ix2 h j) := rfl
  rw [e, bcast_scalar_apply, bcast_scalar_apply, hostSum0_ix2 g _ (by decide)]

/-- The new first bias, as a one-row matrix, at column h. -/
theorem newB0_apply (p : FVec Ideal S32 .f32) (g : FVec Ideal S2x1x32 .f32) (h : Fin 32) :
    newB0 (F := Ideal) p g (ix2 (0 : Fin 1) h)
      = Cert.Spec.decay * p (ix1 h) - Cert.Spec.thetaScaled * ∑ cc : Fin 2, g (ix3 cc (0 : Fin 1) h) := by
  unfold newB0
  refine (shapeCast_a_1a_apply _ shapeCasts_S32_S1x32 0 h).trans ?_
  show (broadcastInDim S32 ![] bcast_S_S32 (constant (F := Ideal) S_ .f32 0x3F7FBE77#32)) (ix1 h) * p (ix1 h)
        - (broadcastInDim S32 ![] bcast_S_S32 (constant (F := Ideal) S_ .f32 0x31CCCCCD#32)) (ix1 h) * shapeCast S32 (Host.reduceAdd g (constant (F := Ideal) S_ .f32 0x00000000#32) reducesTo_S2x1x32_S1x32_d0 h_S_) shapeCasts_S1x32_S32 (ix1 h) = _
  rw [bcast_scalar_apply, bcast_scalar_apply, shapeCast_1a_a_apply, hostSum0_ix2 g _ (by decide)]

/-- The new second weight at (j, h): the decayed entry minus the scaled step times the two cores' partial gradients' sum. -/
theorem newW1_apply (p : FVec Ideal S16x32 .f32) (g : FVec Ideal S2x16x32 .f32) (j : Fin 16) (h : Fin 32) :
    newW1 (F := Ideal) p g (ix2 j h)
      = Cert.Spec.decay * p (ix2 j h) - Cert.Spec.thetaScaled * ∑ cc : Fin 2, g (ix3 cc j h) := by
  have e : newW1 (F := Ideal) p g (ix2 j h)
      = (broadcastInDim S16x32 ![] bcast_S_S16x32 (constant (F := Ideal) S_ .f32 0x3F7FBE77#32)) (ix2 j h) * p (ix2 j h)
        - (broadcastInDim S16x32 ![] bcast_S_S16x32 (constant (F := Ideal) S_ .f32 0x31CCCCCD#32)) (ix2 j h) * (Host.reduceAdd g (constant (F := Ideal) S_ .f32 0x00000000#32) reducesTo_S2x16x32_S16x32_d0 h_S_) (ix2 j h) := rfl
  rw [e, bcast_scalar_apply, bcast_scalar_apply, hostSum0_ix2 g _ (by decide)]

/-- The new second bias, as a one-row matrix, at column j. -/
theorem newB1_apply (p : FVec Ideal S16 .f32) (g : FVec Ideal S2x1x16 .f32) (j : Fin 16) :
    newB1 (F := Ideal) p g (ix2 (0 : Fin 1) j)
      = Cert.Spec.decay * p (ix1 j) - Cert.Spec.thetaScaled * ∑ cc : Fin 2, g (ix3 cc (0 : Fin 1) j) := by
  unfold newB1
  refine (shapeCast_a_1a_apply _ shapeCasts_S16_S1x16 0 j).trans ?_
  show (broadcastInDim S16 ![] bcast_S_S16 (constant (F := Ideal) S_ .f32 0x3F7FBE77#32)) (ix1 j) * p (ix1 j)
        - (broadcastInDim S16 ![] bcast_S_S16 (constant (F := Ideal) S_ .f32 0x31CCCCCD#32)) (ix1 j) * shapeCast S16 (Host.reduceAdd g (constant (F := Ideal) S_ .f32 0x00000000#32) reducesTo_S2x1x16_S1x16_d0 h_S_) shapeCasts_S1x16_S16 (ix1 j) = _
  rw [bcast_scalar_apply, bcast_scalar_apply, shapeCast_1a_a_apply, hostSum0_ix2 g _ (by decide)]

/-! ## The staged weight blocks at an index -/

/-- A square weight transposed and narrowed reads, at (k, j), the weight at (j, k). -/
theorem stagedT_16x16_apply (a : FVec Ideal S16x16 .f32) (k j : Fin 16) :
    (truncf .bf16 (transpose S16x16 [1, 0] a transposes_S16x16_S16x16_1_0) bitsLt_bf16_f32 : FVec Ideal S16x16 .bf16) (ix2 k j)
      = a (ix2 j k) :=
  transpose_ix2_apply a transposes_S16x16_S16x16_1_0 k j

/-- The first layer's weight transposed and narrowed reads, at (j, h), the weight at (h, j). -/
theorem stagedT_32x16_apply (a : FVec Ideal S32x16 .f32) (j : Fin 16) (h : Fin 32) :
    (truncf .bf16 (transpose S16x32 [1, 0] a transposes_S32x16_S16x32_1_0) bitsLt_bf16_f32 : FVec Ideal S16x32 .bf16) (ix2 j h)
      = a (ix2 h j) :=
  transpose_ix2_apply a transposes_S32x16_S16x32_1_0 j h

/-- The second layer's weight transposed and narrowed reads, at (h, j), the weight at (j, h). -/
theorem stagedT_16x32_apply (a : FVec Ideal S16x32 .f32) (h : Fin 32) (j : Fin 16) :
    (truncf .bf16 (transpose S32x16 [1, 0] a transposes_S16x32_S32x16_1_0) bitsLt_bf16_f32 : FVec Ideal S32x16 .bf16) (ix2 h j)
      = a (ix2 j h) :=
  transpose_ix2_apply a transposes_S16x32_S32x16_1_0 h j

/-- A narrowing alone reads the operand. -/
theorem staged_apply {s : Shape} (a : FVec Ideal s .f32) (i : s.Idx) :
    (truncf .bf16 a bitsLt_bf16_f32 : FVec Ideal s .bf16) i = a i := rfl

/-- The first bias as a one-row matrix reads, at column h, the bias at h. -/
theorem stagedRow_32_apply (a : FVec Ideal S32 .f32) (h : Fin 32) :
    shapeCast S1x32 a shapeCasts_S32_S1x32 (ix2 (0 : Fin 1) h) = a (ix1 h) :=
  shapeCast_a_1a_apply a shapeCasts_S32_S1x32 0 h

/-- The second bias as a one-row matrix reads, at column j, the bias at j. -/
theorem stagedRow_16_apply (a : FVec Ideal S16 .f32) (j : Fin 16) :
    shapeCast S1x16 a shapeCasts_S16_S1x16 (ix2 (0 : Fin 1) j) = a (ix1 j) :=
  shapeCast_a_1a_apply a shapeCasts_S16_S1x16 0 j

end Cert.KernelIdeal.HostIdx

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.RowLocal.lean ====
/-
  Every quantity of `Cert.Spec` is computed row by row.

  Row `n` of the projection, of the query, of the target, of the two pre-activations, of the hidden activations, of
  the error, and of the per-row quantities `dz1`, `dh`, `dz0` of the backward pass is a function of row `n` of
  the input `X` and of the weights alone: no operation mixes rows (the only sums over rows are the four gradients).
  So if an array `X'` has at its row `r` the row `n` of `X`, everything computed from `X'` has at row `r` what the
  same computation from `X` has at row `n`.  No property of the entries is used; the statements hold on all
  extended reals.
-/
import Idealize.ShloMosaic.PureOps.Ideal
import proofs.«144527_j2001454760825_2_alg».proof.Proof.Spec

noncomputable section

open scoped BigOperators

namespace Cert.RowLocal

open Idealize.ShloMosaic Cert.Spec

variable {N M : ℕ}

/-- The forward pass of the write, written out field by field. -/
abbrev fwdLit (X' : Fin M → Fin 16 → EReal) (W0 : Fin 32 → Fin 16 → EReal) (b0 : Fin 32 → EReal)
    (W1 : Fin 16 → Fin 32 → EReal) (b1 : Fin 16 → EReal) (WV WQ : Fin 16 → Fin 16 → EReal) : Fwd M :=
  { q := query X' WQ
    v := value X' WV
    W1 := W1
    z0 := pre0 (query X' WQ) W0 b0
    z1 := pre1 (hidden (query X' WQ) W0 b0) W1 b1 }

/-- The forward pass written out field by field is `Cert.Spec.fwd`. -/
theorem fwd_literal (X' : Fin M → Fin 16 → EReal) (W0 : Fin 32 → Fin 16 → EReal) (b0 : Fin 32 → EReal)
    (W1 : Fin 16 → Fin 32 → EReal) (b1 : Fin 16 → EReal) (WV WQ : Fin 16 → Fin 16 → EReal) :
    fwdLit X' W0 b0 W1 b1 WV WQ = fwd X' W0 b0 W1 b1 WV WQ := rfl

/-! ### The stages, for arrays that share a row -/

section Stages
variable {a' : Fin M → Fin 16 → EReal} {a : Fin N → Fin 16 → EReal} {r : Fin M} {n : Fin N}

/-- A projection's row depends on the operand's row only. -/
theorem proj_row (W : Fin 16 → Fin 16 → EReal) (hrow : a' r = a n) : proj a' W r = proj a W n := by
  funext j
  unfold Spec.proj
  rw [hrow]

/-- A row's norm depends on the row only. -/
theorem rowNorm_row (hrow : a' r = a n) : rowNorm a' r = rowNorm a n := by
  unfold Spec.rowNorm
  rw [hrow]

/-- A normalised row depends on the row only. -/
theorem normalize_row (hrow : a' r = a n) : normalize a' r = normalize a n := by
  funext j
  unfold Spec.normalize
  rw [rowNorm_row hrow, hrow]

/-- The first pre-activation's row depends on the input's row only. -/
theorem pre0_row (W0 : Fin 32 → Fin 16 → EReal) (b0 : Fin 32 → EReal) (hrow : a' r = a n) :
    pre0 a' W0 b0 r = pre0 a W0 b0 n := by
  funext h
  unfold Spec.pre0
  rw [hrow]

/-- The hidden activations' row depends on the input's row only. -/
theorem hidden_row (W0 : Fin 32 → Fin 16 → EReal) (b0 : Fin 32 → EReal) (hrow : a' r = a n) :
    hidden a' W0 b0 r = hidden a W0 b0 n := by
  funext h
  unfold Spec.hidden
  rw [pre0_row W0 b0 hrow]

/-- The second pre-activation's row depends on the hidden activations' row only. -/
theorem pre1_row {u' : Fin M → Fin 32 → EReal} {u : Fin N → Fin 32 → EReal} (W1 : Fin 16 → Fin 32 → EReal)
    (b1 : Fin 16 → EReal) (hrow : u' r = u n) : pre1 u' W1 b1 r = pre1 u W1 b1 n := by
  funext j
  unfold Spec.pre1
  rw [hrow]

/-- The network's row depends on the input's row only. -/
theorem mlp_row (W0 : Fin 32 → Fin 16 → EReal) (b0 : Fin 32 → EReal) (W1 : Fin 16 → Fin 32 → EReal)
    (b1 : Fin 16 → EReal) (hrow : a' r = a n) : mlp a' W0 b0 W1 b1 r = mlp a W0 b0 W1 b1 n := by
  funext j
  unfold Spec.mlp
  rw [pre1_row W1 b1 (hidden_row W0 b0 hrow)]

/-- `silu` applied entrywise keeps rows. -/
theorem silu_row (hrow : a' r = a n) : (fun j => silu (a' r j)) = fun j => silu (a n j) := by
  rw [hrow]

end Stages

/-! ### Query, target and read-out of inputs that share a row -/

section Inputs
variable {X' : Fin M → Fin 16 → EReal} {X : Fin N → Fin 16 → EReal} {r : Fin M} {n : Fin N} (hrow : X' r = X n)
include hrow

/-- The query's row depends on the input's row only. -/
theorem query_row (WQ : Fin 16 → Fin 16 → EReal) : query X' WQ r = query X WQ n := by
  unfold Spec.query
  refine normalize_row ?_
  funext j
  show silu (proj X' WQ r j) = silu (proj X WQ n j)
  rw [proj_row WQ hrow]

/-- The target's row depends on the input's row only. -/
theorem value_row (WV : Fin 16 → Fin 16 → EReal) : value X' WV r = value X WV n := by
  funext j
  unfold Spec.value
  rw [proj_row WV hrow]

/-- The read-out's row depends on the input's row only. -/
theorem retrieve_row (WQ : Fin 16 → Fin 16 → EReal) (W0 : Fin 32 → Fin 16 → EReal) (b0 : Fin 32 → EReal)
    (W1 : Fin 16 → Fin 32 → EReal) (b1 : Fin 16 → EReal) :
    retrieve X' WQ W0 b0 W1 b1 r = retrieve X WQ W0 b0 W1 b1 n := by
  unfold Spec.retrieve
  refine mlp_row W0 b0 W1 b1 ?_
  funext j
  show silu (normalize (proj X' WQ) r j) = silu (normalize (proj X WQ) n j)
  rw [normalize_row (proj_row WQ hrow)]

end Inputs

/-! ### The per-row quantities of two forward passes that share a row -/

section Passes
variable {f' : Fwd M} {f : Fwd N} {r : Fin M} {n : Fin N}

/-- The hidden activations' row, from the first pre-activation's row. -/
theorem u_row_of (hz0 : f'.z0 r = f.z0 n) : f'.u r = f.u n := by
  funext h
  unfold Fwd.u
  rw [hz0]

/-- The error's row, from the rows of the second pre-activation and of the target. -/
theorem err_row_of (hz1 : f'.z1 r = f.z1 n) (hv : f'.v r = f.v n) : f'.err r = f.err n := by
  funext j
  unfold Fwd.err
  rw [hz1, hv]

/-- `dz1`'s row, from the rows of the second pre-activation and of the target. -/
theorem ker_dz1_row_of (hz1 : f'.z1 r = f.z1 n) (hv : f'.v r = f.v n) : Ker.dz1 f' r = Ker.dz1 f n := by
  funext j
  unfold Ker.dz1
  rw [err_row_of hz1 hv, hz1]

/-- `dh`'s row, for passes with the same second weight. -/
theorem ker_dh_row_of (hW1 : f'.W1 = f.W1) (hz1 : f'.z1 r = f.z1 n) (hv : f'.v r = f.v n) :
    Ker.dh f' r = Ker.dh f n := by
  funext h
  unfold Ker.dh
  rw [ker_dz1_row_of hz1 hv, hW1]

/-- `dz0`'s row. -/
theorem ker_dz0_row_of (hW1 : f'.W1 = f.W1) (hz0 : f'.z0 r = f.z0 n) (hz1 : f'.z1 r = f.z1 n)
    (hv : f'.v r = f.v n) : Ker.dz0 f' r = Ker.dz0 f n := by
  funext h
  unfold Ker.dz0
  rw [ker_dh_row_of hW1 hz1 hv, hz0]

end Passes

/-! ### The forward passes of two inputs that share a row -/

section Fwds
variable {X' : Fin M → Fin 16 → EReal} {X : Fin N → Fin 16 → EReal} {r : Fin M} {n : Fin N} (hrow : X' r = X n)
  (W0 : Fin 32 → Fin 16 → EReal) (b0 : Fin 32 → EReal) (W1 : Fin 16 → Fin 32 → EReal) (b1 : Fin 16 → EReal)
  (WV WQ : Fin 16 → Fin 16 → EReal)
include hrow

theorem q_row : (fwdLit X' W0 b0 W1 b1 WV WQ).q r = (fwd X W0 b0 W1 b1 WV WQ).q n := query_row hrow WQ

theorem v_row : (fwdLit X' W0 b0 W1 b1 WV WQ).v r = (fwd X W0 b0 W1 b1 WV WQ).v n := value_row hrow WV

theorem z0_row : (fwdLit X' W0 b0 W1 b1 WV WQ).z0 r = (fwd X W0 b0 W1 b1 WV WQ).z0 n :=
  pre0_row W0 b0 (query_row hrow WQ)

theorem z1_row : (fwdLit X' W0 b0 W1 b1 WV WQ).z1 r = (fwd X W0 b0 W1 b1 WV WQ).z1 n :=
  pre1_row W1 b1 (hidden_row W0 b0 (query_row hrow WQ))

theorem u_row : (fwdLit X' W0 b0 W1 b1 WV WQ).u r = (fwd X W0 b0 W1 b1 WV WQ).u n :=
  u_row_of (z0_row hrow W0 b0 W1 b1 WV WQ)

theorem err_row : (fwdLit X' W0 b0 W1 b1 WV WQ).err r = (fwd X W0 b0 W1 b1 WV WQ).err n :=
  err_row_of (z1_row hrow W0 b0 W1 b1 WV WQ) (v_row hrow W0 b0 W1 b1 WV WQ)

theorem ker_dz1_row : Ker.dz1 (fwdLit X' W0 b0 W1 b1 WV WQ) r = Ker.dz1 (fwd X W0 b0 W1 b1 WV WQ) n :=
  ker_dz1_row_of (z1_row hrow W0 b0 W1 b1 WV WQ) (v_row hrow W0 b0 W1 b1 WV WQ)

theorem ker_dh_row : Ker.dh (fwdLit X' W0 b0 W1 b1 WV WQ) r = Ker.dh (fwd X W0 b0 W1 b1 WV WQ) n :=
  ker_dh_row_of rfl (z1_row hrow W0 b0 W1 b1 WV WQ) (v_row hrow W0 b0 W1 b1 WV WQ)

theorem ker_dz0_row : Ker.dz0 (fwdLit X' W0 b0 W1 b1 WV WQ) r = Ker.dz0 (fwd X W0 b0 W1 b1 WV WQ) n :=
  ker_dz0_row_of rfl (z0_row hrow W0 b0 W1 b1 WV WQ) (z1_row hrow W0 b0 W1 b1 WV WQ)
    (v_row hrow W0 b0 W1 b1 WV WQ)

end Fwds

end Cert.RowLocal

end
-- ==== Proof.GradBlocks.lean ====
/-
  The four gradients, chunk by chunk.

  Each gradient of `Cert.Spec.Ker` is a sum over the `1048576 = 2 · 64 · 16 · 512` rows of a product of per-row
  quantities.  Cut the rows into `2 · 64 · 16` chunks of `512` consecutive rows.  The sum over all rows is the sum
  over the chunks of the sums over a chunk's rows (a regrouping of a finite sum), and since every per-row quantity
  depends on its own row of the input only, the sum over a chunk's rows is the same gradient computed from the chunk
  alone.  Hence each gradient of the whole input is the sum over the chunks of the chunks' gradients.
-/
import Idealize.ShloMosaic.PureOps.Ideal
import proofs.«144527_j2001454760825_2_alg».proof.Proof.Spec
import proofs.«144527_j2001454760825_2_alg».proof.Proof.LibSumBlocks
import proofs.«144527_j2001454760825_2_alg».proof.Proof.RowLocal

noncomputable section

open scoped BigOperators

namespace Cert.RowLocal

open Idealize.ShloMosaic Idealize.ShloMosaic.SumBlocks Cert.Spec

/-- Chunk `(c, i, k)` of the input: its `512` consecutive rows. -/
abbrev chunk (X : Fin 1048576 → Fin 16 → EReal) (c : Fin 2) (i : Fin 64) (k : Fin 16) : Fin 512 → Fin 16 → EReal :=
  fun r => X ⟨((c.val * 64 + i.val) * 16 + k.val) * 512 + r.val, idx_1048576_lt c i k r⟩

/-- The forward pass of chunk `(c, i, k)`, written out field by field. -/
abbrev fwdChunk (X : Fin 1048576 → Fin 16 → EReal) (W0 : Fin 32 → Fin 16 → EReal) (b0 : Fin 32 → EReal)
    (W1 : Fin 16 → Fin 32 → EReal) (b1 : Fin 16 → EReal) (WV WQ : Fin 16 → Fin 16 → EReal)
    (c : Fin 2) (i : Fin 64) (k : Fin 16) : Fwd 512 :=
  fwdLit (chunk X c i k) W0 b0 W1 b1 WV WQ

variable (X : Fin 1048576 → Fin 16 → EReal) (W0 : Fin 32 → Fin 16 → EReal) (b0 : Fin 32 → EReal)
  (W1 : Fin 16 → Fin 32 → EReal) (b1 : Fin 16 → EReal) (WV WQ : Fin 16 → Fin 16 → EReal)

/-- Row `r` of chunk `(c, i, k)` is the row of the input it was cut from. -/
theorem chunk_row (c : Fin 2) (i : Fin 64) (k : Fin 16) (r : Fin 512) :
    chunk X c i k r = X ⟨((c.val * 64 + i.val) * 16 + k.val) * 512 + r.val, idx_1048576_lt c i k r⟩ := rfl

/-- The gradient of the first weight is the sum of the chunks' gradients. -/
theorem gW0_blocks (h : Fin 32) (j : Fin 16) :
    Ker.gW0 (fwd X W0 b0 W1 b1 WV WQ) h j
      = ∑ c : Fin 2, ∑ i : Fin 64, ∑ k : Fin 16, Ker.gW0 (fwdChunk X W0 b0 W1 b1 WV WQ c i k) h j := by
  unfold Ker.gW0
  rw [sum_1048576]
  refine Finset.sum_congr rfl fun c _ => Finset.sum_congr rfl fun i _ => Finset.sum_congr rfl fun k _ =>
    Finset.sum_congr rfl fun r _ => ?_
  rw [ker_dz0_row (chunk_row X c i k r) W0 b0 W1 b1 WV WQ, q_row (chunk_row X c i k r) W0 b0 W1 b1 WV WQ]

/-- The gradient of the first bias is the sum of the chunks' gradients. -/
theorem gb0_blocks (h : Fin 32) :
    Ker.gb0 (fwd X W0 b0 W1 b1 WV WQ) h
      = ∑ c : Fin 2, ∑ i : Fin 64, ∑ k : Fin 16, Ker.gb0 (fwdChunk X W0 b0 W1 b1 WV WQ c i k) h := by
  unfold Ker.gb0
  rw [sum_1048576]
  refine Finset.sum_congr rfl fun c _ => Finset.sum_congr rfl fun i _ => Finset.sum_congr rfl fun k _ =>
    Finset.sum_congr rfl fun r _ => ?_
  rw [ker_dz0_row (chunk_row X c i k r) W0 b0 W1 b1 WV WQ]

/-- The gradient of the second weight is the sum of the chunks' gradients. -/
theorem gW1_blocks (j : Fin 16) (h : Fin 32) :
    Ker.gW1 (fwd X W0 b0 W1 b1 WV WQ) j h
      = ∑ c : Fin 2, ∑ i : Fin 64, ∑ k : Fin 16, Ker.gW1 (fwdChunk X W0 b0 W1 b1 WV WQ c i k) j h := by
  unfold Ker.gW1
  rw [sum_1048576]
  refine Finset.sum_congr rfl fun c _ => Finset.sum_congr rfl fun i _ => Finset.sum_congr rfl fun k _ =>
    Finset.sum_congr rfl fun r _ => ?_
  rw [ker_dz1_row (chunk_row X c i k r) W0 b0 W1 b1 WV WQ, u_row (chunk_row X c i k r) W0 b0 W1 b1 WV WQ]

/-- The gradient of the second bias is the sum of the chunks' gradients. -/
theorem gb1_blocks (j : Fin 16) :
    Ker.gb1 (fwd X W0 b0 W1 b1 WV WQ) j
      = ∑ c : Fin 2, ∑ i : Fin 64, ∑ k : Fin 16, Ker.gb1 (fwdChunk X W0 b0 W1 b1 WV WQ c i k) j := by
  unfold Ker.gb1
  rw [sum_1048576]
  refine Finset.sum_congr rfl fun c _ => Finset.sum_congr rfl fun i _ => Finset.sum_congr rfl fun k _ =>
    Finset.sum_congr rfl fun r _ => ?_
  rw [ker_dz1_row (chunk_row X c i k r) W0 b0 W1 b1 WV WQ]

end Cert.RowLocal

end
-- ==== Proof.RefFwd.lean ====
/-
  The reference program's forward pass, read index by index on the extended reals: the target `v`, the query `q`,
  and the two layers before and after their activations, each as the corresponding function of `Cert.Spec`.
-/
import proofs.«144527_j2001454760825_2_alg».proof.Proof.RefRead
import proofs.«144527_j2001454760825_2_alg».proof.Proof.Spec
import Idealize.ShloMosaic.Lib.IdealHost

noncomputable section

namespace Cert.RefSide

open Cert.ReferenceIdeal Cert.ReferenceIdeal.Read Idealize.ShloMosaic Idealize.ShloMosaic.ValueIdx

/-- An array of single-precision numbers of shape `s`, read on the extended reals. -/
abbrev Arr (s : Shape) : Type := (⟨s, .f32⟩ : BufTy).Contents (Elt Ideal)

/-- The rows `X` as a function of row and column. -/
abbrev Xc (x0 : Arr S1048576x16) : Fin 1048576 → Fin 16 → EReal := fun n k => x0 (ix2 n k)
/-- The first layer's weight as a function of hidden unit and input. -/
abbrev W0c (x1 : Arr S32x16) : Fin 32 → Fin 16 → EReal := fun h j => x1 (ix2 h j)
/-- The first layer's bias. -/
abbrev b0c (x2 : Arr S32) : Fin 32 → EReal := fun h => x2 (ix1 h)
/-- The second layer's weight as a function of output and hidden unit. -/
abbrev W1c (x3 : Arr S16x32) : Fin 16 → Fin 32 → EReal := fun j h => x3 (ix2 j h)
/-- The second layer's bias. -/
abbrev b1c (x4 : Arr S16) : Fin 16 → EReal := fun j => x4 (ix1 j)
/-- A square projection weight as a function of output and input. -/
abbrev Mc (x : Arr S16x16) : Fin 16 → Fin 16 → EReal := fun j k => x (ix2 j k)

/-- Two indices of rank two with the same coordinates are equal. -/
macro "idx2" : tactic => `(tactic| (funext a; match a with | ⟨0, _⟩ => rfl | ⟨1, _⟩ => rfl))
/-- Two indices of rank one with the same coordinate are equal. -/
macro "idx1" : tactic => `(tactic| (funext a; match a with | ⟨0, _⟩ => rfl))

/-- `1 / (1 + e^(-z))` with the literal one written as its single-precision word. -/
theorem sig_eq (z : EReal) :
    Ideal.div (Ideal.ofBits .f32 0x3F800000#32) (Ideal.ofBits .f32 0x3F800000#32 + Ideal.exp (-z)) = Spec.sig z := by
  rw [Ideal.ofBits_one_f32]; rfl

/-- `z · (1 / (1 + e^(-z)))` is `silu z`. -/
theorem silu_eq (z : EReal) :
    z * Ideal.div (Ideal.ofBits .f32 0x3F800000#32) (Ideal.ofBits .f32 0x3F800000#32 + Ideal.exp (-z)) = Spec.silu z := by
  rw [sig_eq]; rfl

/-! ### The target `v = silu (X · WVᵀ)` -/

theorem v0_eq (x6 : Arr S16x16) (i : S16x16.Idx) : val_main_v0 (F := Ideal) x6 i = Mc x6 (i 1) (i 0) := by
  rw [val_main_v0_apply]; exact congrArg x6 (by idx2)

theorem v1_eq (x0 : Arr S1048576x16) (x6 : Arr S16x16) (i : S1048576x16.Idx) :
    val_main_v1 (F := Ideal) x0 x6 i = Spec.proj (Xc x0) (Mc x6) (i 0) (i 1) := by
  rw [val_main_v1_apply]
  unfold Spec.proj
  refine Finset.sum_congr rfl fun k _ => ?_
  have el : lidx_main_v1 i k = ix2 (i 0) k := by idx2
  rw [v0_eq]
  exact congrArg (fun t => x0 t * Mc x6 (i 1) k) el

theorem v8_eq (x0 : Arr S1048576x16) (x6 : Arr S16x16) (i : S1048576x16.Idx) :
    val_main_v8 (F := Ideal) x0 x6 i = Spec.value (Xc x0) (Mc x6) (i 0) (i 1) := by
  rw [val_main_v8_apply, val_main_v7_apply, val_main_v6_apply, val_main_cst_0_apply, val_main_v5_apply,
    val_main_v4_apply, val_main_cst_apply, val_main_v3_apply, val_main_v2_apply, v1_eq]
  simp only [Ideal.mulf_def, Ideal.hostDivf_def, Ideal.ofBits_def, Ideal.addf_def, Ideal.hostUnary_exp_def,
    Ideal.hostNegf_def, Ideal.negf_def]
  exact silu_eq _

/-! ### The query `q = normalise (silu (X · WQᵀ))` -/

theorem v9_eq (x7 : Arr S16x16) (i : S16x16.Idx) : val_main_v9 (F := Ideal) x7 i = Mc x7 (i 1) (i 0) := by
  rw [val_main_v9_apply]; exact congrArg x7 (by idx2)

theorem v10_eq (x0 : Arr S1048576x16) (x7 : Arr S16x16) (i : S1048576x16.Idx) :
    val_main_v10 (F := Ideal) x0 x7 i = Spec.proj (Xc x0) (Mc x7) (i 0) (i 1) := by
  rw [val_main_v10_apply]
  unfold Spec.proj
  refine Finset.sum_congr rfl fun k _ => ?_
  have el : lidx_main_v10 i k = ix2 (i 0) k := by idx2
  rw [v9_eq]
  exact congrArg (fun t => x0 t * Mc x7 (i 1) k) el

theorem v17_eq (x0 : Arr S1048576x16) (x7 : Arr S16x16) (i : S1048576x16.Idx) :
    val_main_v17 (F := Ideal) x0 x7 i = Spec.silu (Spec.proj (Xc x0) (Mc x7) (i 0) (i 1)) := by
  rw [val_main_v17_apply, val_main_v16_apply, val_main_v15_apply, val_main_cst_2_apply, val_main_v14_apply,
    val_main_v13_apply, val_main_cst_1_apply, val_main_v12_apply, val_main_v11_apply, v10_eq]
  simp only [Ideal.mulf_def, Ideal.hostDivf_def, Ideal.ofBits_def, Ideal.addf_def, Ideal.hostUnary_exp_def,
    Ideal.hostNegf_def, Ideal.negf_def]
  exact silu_eq _

theorem v22_eq (x0 : Arr S1048576x16) (x7 : Arr S16x16) (i : S1048576x16.Idx) :
    val_main_v22 (F := Ideal) x0 x7 i = Spec.query (Xc x0) (Mc x7) (i 0) (i 1) := by
  rw [val_main_v22_apply, val_main_v21_apply, val_main_v20_apply, val_main_v19_apply, val_main_cst_3_apply,
    val_main_v18_apply, val_main_call0_v2_apply, val_main_call0_v1_apply, val_main_call0_cst_apply]
  simp only [val_main_call0_v0_apply, v17_eq, Ideal.hostDivf_def, Ideal.maximumf_def, Ideal.hostUnary_sqrt_def,
    Ideal.ofBits_def, Ideal.mulf_def, Ideal.ofBits_zero_f32, zero_add]
  rfl

/-! ### The first layer: `z0 = q · W0ᵀ + b0`, `sig z0`, `u = silu z0` -/

theorem v23_eq (x1 : Arr S32x16) (i : S16x32.Idx) : val_main_v23 (F := Ideal) x1 i = W0c x1 (i 1) (i 0) := by
  rw [val_main_v23_apply]; exact congrArg x1 (by idx2)

theorem v26_eq (x2 : Arr S32) (i : S1048576x32.Idx) : val_main_v26 (F := Ideal) x2 i = b0c x2 (i 1) := by
  rw [val_main_v26_apply, val_main_v25_apply]; exact congrArg x2 (by idx1)

theorem v27_eq (x0 : Arr S1048576x16) (x1 : Arr S32x16) (x2 : Arr S32) (x7 : Arr S16x16) (i : S1048576x32.Idx) :
    val_main_v27 (F := Ideal) x0 x1 x2 x7 i
      = Spec.pre0 (Spec.query (Xc x0) (Mc x7)) (W0c x1) (b0c x2) (i 0) (i 1) := by
  rw [val_main_v27_apply, val_main_v24_apply, v26_eq]
  simp only [v22_eq, v23_eq, Ideal.addf_def]
  rfl

theorem v33_eq (x0 : Arr S1048576x16) (x1 : Arr S32x16) (x2 : Arr S32) (x7 : Arr S16x16) (i : S1048576x32.Idx) :
    val_main_v33 (F := Ideal) x0 x1 x2 x7 i = Spec.sig (val_main_v27 (F := Ideal) x0 x1 x2 x7 i) := by
  rw [val_main_v33_apply, val_main_v32_apply, val_main_cst_5_apply, val_main_v31_apply, val_main_v30_apply,
    val_main_cst_4_apply, val_main_v29_apply, val_main_v28_apply]
  simp only [Ideal.hostDivf_def, Ideal.ofBits_def, Ideal.addf_def, Ideal.hostUnary_exp_def, Ideal.hostNegf_def,
    Ideal.negf_def]
  exact sig_eq _

theorem v36_eq (x0 : Arr S1048576x16) (x1 : Arr S32x16) (x2 : Arr S32) (x7 : Arr S16x16) (i : S1048576x32.Idx) :
    val_main_v36 (F := Ideal) x0 x1 x2 x7 i
      = Spec.sig (val_main_v27 (F := Ideal) x0 x1 x2 x7 i)
        * (Spec.one - Spec.sig (val_main_v27 (F := Ideal) x0 x1 x2 x7 i)) := by
  rw [val_main_v36_apply, val_main_v35_apply, val_main_v34_apply, val_main_cst_6_apply, v33_eq]
  rfl

theorem v37_eq (x0 : Arr S1048576x16) (x1 : Arr S32x16) (x2 : Arr S32) (x7 : Arr S16x16) (i : S1048576x32.Idx) :
    val_main_v37 (F := Ideal) x0 x1 x2 x7 i
      = Spec.hidden (Spec.query (Xc x0) (Mc x7)) (W0c x1) (b0c x2) (i 0) (i 1) := by
  rw [val_main_v37_apply, v33_eq, v27_eq]
  rfl

/-! ### The second layer: `z1 = u · W1ᵀ + b1`, `sig z1`, `silu z1` -/

theorem v38_eq (x3 : Arr S16x32) (i : S32x16.Idx) : val_main_v38 (F := Ideal) x3 i = W1c x3 (i 1) (i 0) := by
  rw [val_main_v38_apply]; exact congrArg x3 (by idx2)

theorem v41_eq (x4 : Arr S16) (i : S1048576x16.Idx) : val_main_v41 (F := Ideal) x4 i = b1c x4 (i 1) := by
  rw [val_main_v41_apply, val_main_v40_apply]; exact congrArg x4 (by idx1)

theorem v42_eq (x0 : Arr S1048576x16) (x1 : Arr S32x16) (x2 : Arr S32) (x3 : Arr S16x32) (x4 : Arr S16)
    (x7 : Arr S16x16) (i : S1048576x16.Idx) :
    val_main_v42 (F := Ideal) x0 x1 x2 x3 x4 x7 i
      = Spec.pre1 (Spec.hidden (Spec.query (Xc x0) (Mc x7)) (W0c x1) (b0c x2)) (W1c x3) (b1c x4) (i 0) (i 1) := by
  rw [val_main_v42_apply, val_main_v39_apply, v41_eq]
  simp only [v37_eq, v38_eq, Ideal.addf_def]
  rfl

theorem v48_eq (x0 : Arr S1048576x16) (x1 : Arr S32x16) (x2 : Arr S32) (x3 : Arr S16x32) (x4 : Arr S16)
    (x7 : Arr S16x16) (i : S1048576x16.Idx) :
    val_main_v48 (F := Ideal) x0 x1 x2 x3 x4 x7 i = Spec.sig (val_main_v42 (F := Ideal) x0 x1 x2 x3 x4 x7 i) := by
  rw [val_main_v48_apply, val_main_v47_apply, val_main_cst_8_apply, val_main_v46_apply, val_main_v45_apply,
    val_main_cst_7_apply, val_main_v44_apply, val_main_v43_apply]
  simp only [Ideal.hostDivf_def, Ideal.ofBits_def, Ideal.addf_def, Ideal.hostUnary_exp_def, Ideal.hostNegf_def,
    Ideal.negf_def]
  exact sig_eq _

theorem v51_eq (x0 : Arr S1048576x16) (x1 : Arr S32x16) (x2 : Arr S32) (x3 : Arr S16x32) (x4 : Arr S16)
    (x7 : Arr S16x16) (i : S1048576x16.Idx) :
    val_main_v51 (F := Ideal) x0 x1 x2 x3 x4 x7 i
      = Spec.sig (val_main_v42 (F := Ideal) x0 x1 x2 x3 x4 x7 i)
        * (Spec.one - Spec.sig (val_main_v42 (F := Ideal) x0 x1 x2 x3 x4 x7 i)) := by
  rw [val_main_v51_apply, val_main_v50_apply, val_main_v49_apply, val_main_cst_9_apply, v48_eq]
  rfl

theorem v52_eq (x0 : Arr S1048576x16) (x1 : Arr S32x16) (x2 : Arr S32) (x3 : Arr S16x32) (x4 : Arr S16)
    (x7 : Arr S16x16) (i : S1048576x16.Idx) :
    val_main_v52 (F := Ideal) x0 x1 x2 x3 x4 x7 i = Spec.silu (val_main_v42 (F := Ideal) x0 x1 x2 x3 x4 x7 i) := by
  rw [val_main_v52_apply, v48_eq]
  rfl

end Cert.RefSide

end
-- ==== Proof.K0Link.lean ====
/-
  A grid point's chunk of the gradient kernel, as a chunk of the whole input.

  Point t = 64 · cc + i of the grid stages rows 8192 t … 8192 t + 8191 of x, and trip k of its loop reads rows
  512 k … 512 k + 511 of that block: row r of the chunk is row ((cc · 64 + i) · 16 + k) · 512 + r of x.  The seven weight
  blocks are the host's transposes and one-row views of the parameters, a change of float format being the identity,
  so read by coordinates they are the parameters themselves; the block holding W1 and the block holding its transpose
  both read as W1.  Hence the forward pass of the point's chunk is the specification's forward pass of chunk
  (cc, i, k) of the input, and each accumulator of the point is the sum over its sixteen chunks of that chunk's
  gradient.
-/
import proofs.«144527_j2001454760825_2_alg».proof.Proof.K0Fwd
import proofs.«144527_j2001454760825_2_alg».proof.Proof.K0Blocks
import proofs.«144527_j2001454760825_2_alg».proof.Proof.KHost
import proofs.«144527_j2001454760825_2_alg».proof.Proof.KHostIdx
import proofs.«144527_j2001454760825_2_alg».proof.Proof.GradBlocks
import proofs.«144527_j2001454760825_2_alg».proof.Proof.RefFwd
import proofs.«144527_j2001454760825_2_alg».proof.Proof.K0Tot
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.SL Idealize.SL.Sem
open Cert.RefSide (Xc W0c b0c W1c b1c Mc)

variable (m : (ℓ : Loc nD τ sig) → Buf (Elt Ideal) ℓ) (ρ : Dev nD → PrngReg)

/-! ## The weight blocks read by coordinates -/

/-- The block of WVᵀ reads as WV. -/
theorem rdWV_wtsAt (c : Dev nD) (t : Fin cfg0.N) : rdWV (wtsAt (V1 m ρ) c t) = Mc (m ((c : Thread nD τ).loc main_arg6)) := by
  funext j k
  show k0_pay21 (iblk0 (V1 m ρ) c 1 t) (ix2 k j) = _
  unfold k0_pay21
  rw [shapeCast_self, iblk0_1]
  show (V1 m ρ c main_v1 : S16x16.Idx → Elt Ideal .bf16) (ix2 k j) = _
  rw [V1_wvT]
  exact HostIdx.stagedT_16x16_apply _ k j

/-- The block of WQᵀ reads as WQ. -/
theorem rdWQ_wtsAt (c : Dev nD) (t : Fin cfg0.N) : rdWQ (wtsAt (V1 m ρ) c t) = Mc (m ((c : Thread nD τ).loc main_arg7)) := by
  funext j k
  show k0_pay22 (iblk0 (V1 m ρ) c 2 t) (ix2 k j) = _
  unfold k0_pay22
  rw [shapeCast_self, iblk0_2]
  show (V1 m ρ c main_v3 : S16x16.Idx → Elt Ideal .bf16) (ix2 k j) = _
  rw [V1_wqT]
  exact HostIdx.stagedT_16x16_apply _ k j

/-- The block of W0ᵀ reads as W0. -/
theorem rdW0_wtsAt (c : Dev nD) (t : Fin cfg0.N) : rdW0 (wtsAt (V1 m ρ) c t) = W0c (m ((c : Thread nD τ).loc main_arg1)) := by
  funext h j
  show k0_pay23 (iblk0 (V1 m ρ) c 3 t) (ix2 j h) = _
  unfold k0_pay23
  rw [shapeCast_self, iblk0_3]
  show (V1 m ρ c main_v5 : S16x32.Idx → Elt Ideal .bf16) (ix2 j h) = _
  rw [V1_w0T]
  exact HostIdx.stagedT_32x16_apply _ j h

/-- The one-row block of b0 reads as b0. -/
theorem rdB0_wtsAt (c : Dev nD) (t : Fin cfg0.N) : rdB0 (wtsAt (V1 m ρ) c t) = b0c (m ((c : Thread nD τ).loc main_arg2)) := by
  funext h
  show k0_pay24 (iblk0 (V1 m ρ) c 4 t) (ix2 (0 : Fin 1) h) = _
  unfold k0_pay24
  rw [shapeCast_self, iblk0_4]
  show (V1 m ρ c main_v9 : S1x32.Idx → Elt Ideal .f32) (ix2 (0 : Fin 1) h) = _
  rw [V1_b0]
  exact HostIdx.stagedRow_32_apply _ h

/-- The block of W1 reads as W1. -/
theorem rdW1_wtsAt (c : Dev nD) (t : Fin cfg0.N) : rdW1 (wtsAt (V1 m ρ) c t) = W1c (m ((c : Thread nD τ).loc main_arg3)) := by
  funext j h
  show k0_pay25 (iblk0 (V1 m ρ) c 5 t) (ix2 j h) = _
  unfold k0_pay25
  rw [shapeCast_self, iblk0_5]
  show (V1 m ρ c main_v6 : S16x32.Idx → Elt Ideal .bf16) (ix2 j h) = _
  rw [V1_w1]
  exact rfl

/-- The block of W1ᵀ reads as W1 too. -/
theorem rdW1T_wtsAt (c : Dev nD) (t : Fin cfg0.N) : rdW1T (wtsAt (V1 m ρ) c t) = W1c (m ((c : Thread nD τ).loc main_arg3)) := by
  funext j h
  show k0_pay26 (iblk0 (V1 m ρ) c 6 t) (ix2 h j) = _
  unfold k0_pay26
  rw [shapeCast_self, iblk0_6]
  show (V1 m ρ c main_v8 : S32x16.Idx → Elt Ideal .bf16) (ix2 h j) = _
  rw [V1_w1T]
  exact HostIdx.stagedT_16x32_apply _ h j

/-- The one-row block of b1 reads as b1. -/
theorem rdB1_wtsAt (c : Dev nD) (t : Fin cfg0.N) : rdB1 (wtsAt (V1 m ρ) c t) = b1c (m ((c : Thread nD τ).loc main_arg4)) := by
  funext j
  show k0_pay27 (iblk0 (V1 m ρ) c 7 t) (ix2 (0 : Fin 1) j) = _
  unfold k0_pay27
  rw [shapeCast_self, iblk0_7]
  show (V1 m ρ c main_v10 : S1x16.Idx → Elt Ideal .f32) (ix2 (0 : Fin 1) j) = _
  rw [V1_b1]
  exact HostIdx.stagedRow_16_apply _ j

/-! ## A point's chunk of x -/

/-- Chunk k of point t = 64 · cc + i is chunk (cc, i, k) of x. -/
theorem rdX_chunkAt (c : Dev nD) (t : Fin cfg0.N) (cc : Fin 2) (i : Fin 64) (k : Fin 16)
    (ht : t.val = 64 * cc.val + i.val) :
    rdX (chunkAt (V1 m ρ) c t k) = Cert.RowLocal.chunk (Xc (m ((c : Thread nD τ).loc main_arg0))) cc i k := by
  funext r col
  show chunk (ms0_0 t) ((hs0_0 t).unread (iblk0 (V1 m ρ) c 0 t)) (trip16 k) (ix2 r col) = _
  rw [chunk_apply, iblk0_0_row]
  show (V1 m ρ c main_arg0 : S1048576x16.Idx → Elt Ideal .f32) (ix2 _ col) = _
  rw [V1_x]
  refine congrArg (fun n => ((m ((c : Thread nD τ).loc main_arg0)) : S1048576x16.Idx → Elt Ideal .f32) (ix2 n col)) (Fin.ext ?_)
  show 8192 * t.val + (512 * k.val + r.val) = ((cc.val * 64 + i.val) * 16 + k.val) * 512 + r.val
  omega

/-! ## The forward pass of a point's chunk -/

/-- The forward pass of chunk k of point t = 64 · cc + i is the specification's forward pass of chunk (cc, i, k). -/
theorem chunkFwd_link (c : Dev nD) (t : Fin cfg0.N) (cc : Fin 2) (i : Fin 64) (k : Fin 16)
    (ht : t.val = 64 * cc.val + i.val) :
    chunkFwd (wtsAt (V1 m ρ) c t) (chunkAt (V1 m ρ) c t k) = (Cert.RowLocal.fwdChunk (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) cc i k) := by
  unfold chunkFwd
  rw [rdX_chunkAt m ρ c t cc i k ht, rdWV_wtsAt, rdWQ_wtsAt, rdW0_wtsAt, rdB0_wtsAt, rdW1_wtsAt, rdW1T_wtsAt, rdB1_wtsAt]

/-! ## The accumulators of a point, over the input's chunks -/

theorem T14_link (c : Dev nD) (t : Fin cfg0.N) (cc : Fin 2) (i : Fin 64) (ht : t.val = 64 * cc.val + i.val)
    (h : Fin 32) (j : Fin 16) :
    T14 (V1 m ρ) c t (ix2 h j) = 0 + ∑ k : Fin 16, Cert.Spec.Ker.gW0 (Cert.RowLocal.fwdChunk (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) cc i k) h j := by
  rw [T14_apply]
  exact congrArg (0 + ·) (Finset.sum_congr rfl fun k _ => by rw [chunkFwd_link m ρ c t cc i k ht])

theorem T15_link (c : Dev nD) (t : Fin cfg0.N) (cc : Fin 2) (i : Fin 64) (ht : t.val = 64 * cc.val + i.val)
    (h : Fin 32) :
    T15 (V1 m ρ) c t (ix2 (0 : Fin 1) h) = 0 + ∑ k : Fin 16, Cert.Spec.Ker.gb0 (Cert.RowLocal.fwdChunk (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) cc i k) h := by
  rw [T15_apply]
  exact congrArg (0 + ·) (Finset.sum_congr rfl fun k _ => by rw [chunkFwd_link m ρ c t cc i k ht])

theorem T16_link (c : Dev nD) (t : Fin cfg0.N) (cc : Fin 2) (i : Fin 64) (ht : t.val = 64 * cc.val + i.val)
    (j : Fin 16) (h : Fin 32) :
    T16 (V1 m ρ) c t (ix2 j h) = 0 + ∑ k : Fin 16, Cert.Spec.Ker.gW1 (Cert.RowLocal.fwdChunk (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) cc i k) j h := by
  rw [T16_apply]
  exact congrArg (0 + ·) (Finset.sum_congr rfl fun k _ => by rw [chunkFwd_link m ρ c t cc i k ht])

theorem T17_link (c : Dev nD) (t : Fin cfg0.N) (cc : Fin 2) (i : Fin 64) (ht : t.val = 64 * cc.val + i.val)
    (j : Fin 16) :
    T17 (V1 m ρ) c t (ix2 (0 : Fin 1) j) = 0 + ∑ k : Fin 16, Cert.Spec.Ker.gb1 (Cert.RowLocal.fwdChunk (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) cc i k) j := by
  rw [T17_apply]
  exact congrArg (0 + ·) (Finset.sum_congr rfl fun k _ => by rw [chunkFwd_link m ρ c t cc i k ht])

end Cert.KernelIdeal.Region0

end
-- ==== Proof.RefBwd.lean ====
/-
  The reference program's backward pass, read index by index on the extended reals: every row's error as it enters,
  and the three derivatives `dz1`, `dh`, `dz0` of `Cert.Spec.Ref`.
-/
import proofs.«144527_j2001454760825_2_alg».proof.Proof.RefFwd

noncomputable section

namespace Cert.RefSide

open Cert.ReferenceIdeal Cert.ReferenceIdeal.Read Idealize.ShloMosaic Idealize.ShloMosaic.ValueIdx

/-- The forward pass of the write at the program's arguments. -/
abbrev Fw (x0 : Arr S1048576x16) (x1 : Arr S32x16) (x2 : Arr S32) (x3 : Arr S16x32) (x4 : Arr S16)
    (x6 x7 : Arr S16x16) : Spec.Fwd 1048576 :=
  Spec.fwd (Xc x0) (W0c x1) (b0c x2) (W1c x3) (b1c x4) (Mc x6) (Mc x7)

/-- The error `silu z1 − v`. -/
theorem v53_eq (x0 : Arr S1048576x16) (x1 : Arr S32x16) (x2 : Arr S32) (x3 : Arr S16x32) (x4 : Arr S16)
    (x6 x7 : Arr S16x16) (i : S1048576x16.Idx) :
    val_main_v53 (F := Ideal) x0 x1 x2 x3 x4 x6 x7 i = (Fw x0 x1 x2 x3 x4 x6 x7).err (i 0) (i 1) := by
  rw [val_main_v53_apply, v52_eq, v42_eq, v8_eq]
  rfl

/-- A row's error as it enters: `(1 / 2²⁴) · (2 · (silu z1 − v))`. -/
theorem v61_eq (x0 : Arr S1048576x16) (x1 : Arr S32x16) (x2 : Arr S32) (x3 : Arr S16x32) (x4 : Arr S16)
    (x6 x7 : Arr S16x16) (i : S1048576x16.Idx) :
    val_main_v61 (F := Ideal) x0 x1 x2 x3 x4 x6 x7 i = Spec.Ref.g (Fw x0 x1 x2 x3 x4 x6 x7) (i 0) (i 1) := by
  rw [val_main_v61_apply, val_main_v60_apply, val_main_v59_apply, val_main_cst_13_apply, val_main_cst_14_apply,
    val_main_v56_apply, val_main_v55_apply, val_main_cst_10_apply, v53_eq]
  rfl

/-- The derivative in `z1`. -/
theorem v65_eq (x0 : Arr S1048576x16) (x1 : Arr S32x16) (x2 : Arr S32) (x3 : Arr S16x32) (x4 : Arr S16)
    (x6 x7 : Arr S16x16) (i : S1048576x16.Idx) :
    val_main_v65 (F := Ideal) x0 x1 x2 x3 x4 x6 x7 i = Spec.Ref.dz1 (Fw x0 x1 x2 x3 x4 x6 x7) (i 0) (i 1) := by
  rw [val_main_v65_apply, val_main_v63_apply, val_main_v64_apply, val_main_v62_apply, v61_eq, v51_eq, v48_eq,
    v42_eq]
  rfl

/-- The derivative in the hidden activations, `dz1 · W1`. -/
theorem v71_eq (x0 : Arr S1048576x16) (x1 : Arr S32x16) (x2 : Arr S32) (x3 : Arr S16x32) (x4 : Arr S16)
    (x6 x7 : Arr S16x16) (i : S1048576x32.Idx) :
    val_main_v71 (F := Ideal) x0 x1 x2 x3 x4 x6 x7 i = Spec.Ref.dh (Fw x0 x1 x2 x3 x4 x6 x7) (i 0) (i 1) := by
  rw [val_main_v71_apply]
  simp only [v65_eq, v38_eq]
  rfl

/-- The derivative in `z0`. -/
theorem v76_eq (x0 : Arr S1048576x16) (x1 : Arr S32x16) (x2 : Arr S32) (x3 : Arr S16x32) (x4 : Arr S16)
    (x6 x7 : Arr S16x16) (i : S1048576x32.Idx) :
    val_main_v76 (F := Ideal) x0 x1 x2 x3 x4 x6 x7 i = Spec.Ref.dz0 (Fw x0 x1 x2 x3 x4 x6 x7) (i 0) (i 1) := by
  rw [val_main_v76_apply, val_main_v74_apply, val_main_v75_apply, val_main_v73_apply, v71_eq, v36_eq, v33_eq,
    v27_eq]
  rfl

end Cert.RefSide

end
-- ==== Proof.K0Grad.lean ====
/-
  The kernel's new parameters are one gradient step of the whole array.

  The host adds the two cores' output arrays and forms `a · p − (θ · 2⁻²³) · g`.  A core's output entry is the sum of
  its 64 points' accumulators, a point's accumulator the sum of its sixteen chunks' gradient entries, and a chunk's
  gradient the gradient of its 512 rows' own forward pass, which agrees row by row with the whole array's.  Summed
  over 2 × 64 × 16 chunks this is the whole array's gradient, each row counted once.
-/
import proofs.«144527_j2001454760825_2_alg».proof.Proof.K0Runs
import proofs.«144527_j2001454760825_2_alg».proof.Proof.K0Array
import proofs.«144527_j2001454760825_2_alg».proof.Proof.K0Link
import proofs.«144527_j2001454760825_2_alg».proof.Proof.GradBlocks
import proofs.«144527_j2001454760825_2_alg».proof.Proof.KHostIdx
import proofs.«144527_j2001454760825_2_alg».proof.Proof.RefBwd

set_option maxRecDepth 16384

noncomputable section

namespace Cert.Bridge

open Cert.KernelIdeal Cert.KernelIdeal.Gen Cert.KernelIdeal.Region0 Cert.RefSide
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The new first weight is `a · W0 − (θ · 2⁻²³) · ∂W0` of the whole array. -/
theorem newW0_kernel (h : Fin 32) (j : Fin 16) :
    newW0 (F := Ideal) (m ((c : Thread nD τ).loc main_arg1)) ((dat0 (V1 m ρ) c).arrAt 8 cfg0.N) (ix2 h j)
      = Cert.Spec.decay * W0c (m ((c : Thread nD τ).loc main_arg1)) h j - Cert.Spec.thetaScaled * Cert.Spec.Ker.gW0 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) h j := by
  refine (Cert.KernelIdeal.HostIdx.newW0_apply _ _ h j).trans ?_
  refine congrArg (fun x => Cert.Spec.decay * W0c (m ((c : Thread nD τ).loc main_arg1)) h j - Cert.Spec.thetaScaled * x) ?_
  refine Eq.trans ?_ (Cert.RowLocal.gW0_blocks (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) h j).symm
  refine Finset.sum_congr rfl fun cc _ => ?_
  refine (arrAt8_apply (F := Ideal) (V1 m ρ) c cc h j).trans ?_
  refine (run8 (V1 m ρ) c h j cc (last_lt cc)).trans ?_
  refine Finset.sum_congr rfl fun i _ => ?_
  exact (T14_link m ρ c _ cc i rfl h j).trans (zero_add _)

/-- The new first bias is `a · b0 − (θ · 2⁻²³) · ∂b0` of the whole array. -/
theorem newB0_kernel (h : Fin 32) :
    newB0 (F := Ideal) (m ((c : Thread nD τ).loc main_arg2)) ((dat0 (V1 m ρ) c).arrAt 9 cfg0.N) (ix2 (0 : Fin 1) h)
      = Cert.Spec.decay * b0c (m ((c : Thread nD τ).loc main_arg2)) h - Cert.Spec.thetaScaled * Cert.Spec.Ker.gb0 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) h := by
  refine (Cert.KernelIdeal.HostIdx.newB0_apply _ _ h).trans ?_
  refine congrArg (fun x => Cert.Spec.decay * b0c (m ((c : Thread nD τ).loc main_arg2)) h - Cert.Spec.thetaScaled * x) ?_
  refine Eq.trans ?_ (Cert.RowLocal.gb0_blocks (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) h).symm
  refine Finset.sum_congr rfl fun cc _ => ?_
  refine (arrAt9_apply (F := Ideal) (V1 m ρ) c cc (0 : Fin 1) h).trans ?_
  refine (run9 (V1 m ρ) c h cc (last_lt cc)).trans ?_
  refine Finset.sum_congr rfl fun i _ => ?_
  exact (T15_link m ρ c _ cc i rfl h).trans (zero_add _)

/-- The new second weight is `a · W1 − (θ · 2⁻²³) · ∂W1` of the whole array. -/
theorem newW1_kernel (j : Fin 16) (h : Fin 32) :
    newW1 (F := Ideal) (m ((c : Thread nD τ).loc main_arg3)) ((dat0 (V1 m ρ) c).arrAt 10 cfg0.N) (ix2 j h)
      = Cert.Spec.decay * W1c (m ((c : Thread nD τ).loc main_arg3)) j h - Cert.Spec.thetaScaled * Cert.Spec.Ker.gW1 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) j h := by
  refine (Cert.KernelIdeal.HostIdx.newW1_apply _ _ j h).trans ?_
  refine congrArg (fun x => Cert.Spec.decay * W1c (m ((c : Thread nD τ).loc main_arg3)) j h - Cert.Spec.thetaScaled * x) ?_
  refine Eq.trans ?_ (Cert.RowLocal.gW1_blocks (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) j h).symm
  refine Finset.sum_congr rfl fun cc _ => ?_
  refine (arrAt10_apply (F := Ideal) (V1 m ρ) c cc j h).trans ?_
  refine (run10 (V1 m ρ) c j h cc (last_lt cc)).trans ?_
  refine Finset.sum_congr rfl fun i _ => ?_
  exact (T16_link m ρ c _ cc i rfl j h).trans (zero_add _)

/-- The new second bias is `a · b1 − (θ · 2⁻²³) · ∂b1` of the whole array. -/
theorem newB1_kernel (j : Fin 16) :
    newB1 (F := Ideal) (m ((c : Thread nD τ).loc main_arg4)) ((dat0 (V1 m ρ) c).arrAt 11 cfg0.N) (ix2 (0 : Fin 1) j)
      = Cert.Spec.decay * b1c (m ((c : Thread nD τ).loc main_arg4)) j - Cert.Spec.thetaScaled * Cert.Spec.Ker.gb1 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) j := by
  refine (Cert.KernelIdeal.HostIdx.newB1_apply _ _ j).trans ?_
  refine congrArg (fun x => Cert.Spec.decay * b1c (m ((c : Thread nD τ).loc main_arg4)) j - Cert.Spec.thetaScaled * x) ?_
  refine Eq.trans ?_ (Cert.RowLocal.gb1_blocks (Xc (m ((c : Thread nD τ).loc main_arg0))) (W0c (m ((c : Thread nD τ).loc main_arg1))) (b0c (m ((c : Thread nD τ).loc main_arg2))) (W1c (m ((c : Thread nD τ).loc main_arg3))) (b1c (m ((c : Thread nD τ).loc main_arg4))) (Mc (m ((c : Thread nD τ).loc main_arg6))) (Mc (m ((c : Thread nD τ).loc main_arg7))) j).symm
  refine Finset.sum_congr rfl fun cc _ => ?_
  refine (arrAt11_apply (F := Ideal) (V1 m ρ) c cc (0 : Fin 1) j).trans ?_
  refine (run11 (V1 m ρ) c j cc (last_lt cc)).trans ?_
  refine Finset.sum_congr rfl fun i _ => ?_
  exact (T17_link m ρ c _ cc i rfl j).trans (zero_add _)

end Cert.Bridge

end
-- ==== Proof.K1Pay.lean ====
/-
  The read-out body's arithmetic at an index.

  One trip of the read-out kernel takes a chunk of 1024 rows of x and the five weights and stores
  silu (silu (silu (normalise (x · WQᵀ)) · W0ᵀ + b0) · W1ᵀ + b1).  Read at row p and column q, on the extended
  reals, this is the read-out of the specification at the chunk: the three matrix products into the zero
  accumulator are plain sums over the shared coordinate, the lane sum of squares is the sum over the row, the kept
  column of norms is read at its row, the row broadcasts of the biases are read at their column, and a change of
  float format is the identity.
-/
import proofs.«144527_j2001454760825_2_alg».proof.Proof.Gen.KernelIdeal.Skeleton
import proofs.«144527_j2001454760825_2_alg».proof.Proof.Spec
import proofs.«144527_j2001454760825_2_alg».proof.Proof.LibContract
import proofs.«144527_j2001454760825_2_alg».proof.Proof.LibRowSum
import proofs.«144527_j2001454760825_2_alg».proof.Proof.LibColumn
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.ValueIdx
open Cert.KernelIdeal.Gen

/-! ## A matrix product into the zero accumulator, at (p, q) -/

/-- A product of an [n0, K] by a [K, n1] matrix into the zero accumulator is, at (p, q), the sum over the shared
    coordinate of the operands' products. -/
theorem matmul_zero_ix2 {n0 n1 K : ℕ} {φ₁ φ₂ : FTy}
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : FVec Ideal (⟨2, ![n0, K]⟩ : Shape) φ₁) (r : FVec Ideal (⟨2, ![K, n1]⟩ : Shape) φ₂) (p : Fin n0) (q : Fin n1) :
    matmul D none l r (constant (F := Ideal) (⟨2, ![n0, n1]⟩ : Shape) .f32 0x00000000#32) (ix2 p q)
      = ∑ k : Fin K, l (ix2 p k) * r (ix2 k q) :=
  (Ideal.matmul_constant_zero_apply D none l r (ix2 p q)).trans
    (Contract2.sum_contr_eq_sum_fin D hr hs hlc hrc hl0 hr1 l r (ix2 p q))

/-! ## The three products' free coordinates -/

theorem lhs0_q (j : S1024x16.Idx) (q : dot_S1024x16_S16x16_S1024x16_1_0_0_1_n_n.contr.Idx) : (dot_S1024x16_S16x16_S1024x16_1_0_0_1_n_n.lhsIdx j q 0).val = (j 0).val := by
  unfold DotDims.lhsIdx
  rw [dif_neg (show ¬(0 : Fin S1024x16.rank) ∈ dot_S1024x16_S16x16_S1024x16_1_0_0_1_n_n.lhsBatch by decide), dif_pos (show (0 : Fin S1024x16.rank) ∈ dot_S1024x16_S16x16_S1024x16_1_0_0_1_n_n.lhsNonContracting by decide)]
  rfl
theorem rhs1_q (j : S1024x16.Idx) (q : dot_S1024x16_S16x16_S1024x16_1_0_0_1_n_n.contr.Idx) : (dot_S1024x16_S16x16_S1024x16_1_0_0_1_n_n.rhsIdx j q 1).val = (j 1).val := by
  unfold DotDims.rhsIdx
  rw [dif_neg (show ¬(1 : Fin S16x16.rank) ∈ dot_S1024x16_S16x16_S1024x16_1_0_0_1_n_n.rhsBatch by decide), dif_pos (show (1 : Fin S16x16.rank) ∈ dot_S1024x16_S16x16_S1024x16_1_0_0_1_n_n.rhsNonContracting by decide)]
  rfl

theorem lhs0_h (j : S1024x32.Idx) (q : dot_S1024x16_S16x32_S1024x32_1_0_0_1_n_n.contr.Idx) : (dot_S1024x16_S16x32_S1024x32_1_0_0_1_n_n.lhsIdx j q 0).val = (j 0).val := by
  unfold DotDims.lhsIdx
  rw [dif_neg (show ¬(0 : Fin S1024x16.rank) ∈ dot_S1024x16_S16x32_S1024x32_1_0_0_1_n_n.lhsBatch by decide), dif_pos (show (0 : Fin S1024x16.rank) ∈ dot_S1024x16_S16x32_S1024x32_1_0_0_1_n_n.lhsNonContracting by decide)]
  rfl
theorem rhs1_h (j : S1024x32.Idx) (q : dot_S1024x16_S16x32_S1024x32_1_0_0_1_n_n.contr.Idx) : (dot_S1024x16_S16x32_S1024x32_1_0_0_1_n_n.rhsIdx j q 1).val = (j 1).val := by
  unfold DotDims.rhsIdx
  rw [dif_neg (show ¬(1 : Fin S16x32.rank) ∈ dot_S1024x16_S16x32_S1024x32_1_0_0_1_n_n.rhsBatch by decide), dif_pos (show (1 : Fin S16x32.rank) ∈ dot_S1024x16_S16x32_S1024x32_1_0_0_1_n_n.rhsNonContracting by decide)]
  rfl

theorem lhs0_o (j : S1024x16.Idx) (q : dot_S1024x32_S32x16_S1024x16_1_0_0_1_n_n.contr.Idx) : (dot_S1024x32_S32x16_S1024x16_1_0_0_1_n_n.lhsIdx j q 0).val = (j 0).val := by
  unfold DotDims.lhsIdx
  rw [dif_neg (show ¬(0 : Fin S1024x32.rank) ∈ dot_S1024x32_S32x16_S1024x16_1_0_0_1_n_n.lhsBatch by decide), dif_pos (show (0 : Fin S1024x32.rank) ∈ dot_S1024x32_S32x16_S1024x16_1_0_0_1_n_n.lhsNonContracting by decide)]
  rfl
theorem rhs1_o (j : S1024x16.Idx) (q : dot_S1024x32_S32x16_S1024x16_1_0_0_1_n_n.contr.Idx) : (dot_S1024x32_S32x16_S1024x16_1_0_0_1_n_n.rhsIdx j q 1).val = (j 1).val := by
  unfold DotDims.rhsIdx
  rw [dif_neg (show ¬(1 : Fin S32x16.rank) ∈ dot_S1024x32_S32x16_S1024x16_1_0_0_1_n_n.rhsBatch by decide), dif_pos (show (1 : Fin S32x16.rank) ∈ dot_S1024x32_S32x16_S1024x16_1_0_0_1_n_n.rhsNonContracting by decide)]
  rfl

/-! ## The stages of the body -/

/-- silu of every entry. -/
def siluV {s : Shape} (x : FVec Ideal s .f32) : FVec Ideal s .f32 := mulf x (logistic x)

theorem siluV_apply {s : Shape} (x : FVec Ideal s .f32) (i : s.Idx) : siluV x i = Spec.silu (x i) := rfl

/-- Every row's norm, bounded below by ε, along the row. -/
def normCol (v18 : FVec Ideal S1024x16 .f32) : FVec Ideal S1024x16 .f32 :=
  have v19 : FVec Ideal S1024x16 .f32 := mulf v18 v18
  have v20 : FVec Ideal S1024 .f32 := multiReduction .add [1] S1024 v19 0x00000000#32 reduces_S1024x16_S1024 (.inl rfl) rfl
  have v21 : FVec Ideal S1024x1 .f32 := shapeCast S1024x1 v20 shapeCasts_S1024_S1024x1
  have v22 : FVec Ideal S1024x1 .f32 := sqrt v21
  have cst_14 : Ideal .f32 := Scalar.ofBits .f32 0x2B8CBCCC#32
  have v23 : FVec Ideal S1024x1 .f32 := broadcast S1024x1 cst_14
  have v24 : FVec Ideal S1024x1 .f32 := maximumf v22 v23
  broadcastTo S1024x16 v24 broadcasts_S1024x1_S1024x16

/-- x · WQᵀ. -/
def projV (v1 : FVec Ideal S16x16 .bf16) (v16 : FVec Ideal S1024x16 .f32) : FVec Ideal S1024x16 .f32 :=
  have v17 : FVec Ideal S1024x16 .bf16 := truncf .bf16 v16 bitsLt_bf16_f32
  have cst : FVec Ideal S1024x16 .f32 := constant S1024x16 .f32 0x00000000#32
  matmul dot_S1024x16_S16x16_S1024x16_1_0_0_1_n_n none v17 v1 cst

/-- x · WQᵀ, normalised along each row and passed through silu. -/
def stageQ (v1 : FVec Ideal S16x16 .bf16) (v16 : FVec Ideal S1024x16 .f32) : FVec Ideal S1024x16 .f32 :=
  siluV (divf (projV v1 v16) (normCol (projV v1 v16)))

/-- r · W0ᵀ + b0. -/
def pre0V (v3 : FVec Ideal S16x32 .bf16) (v5 : FVec Ideal S1x32 .f32) (v28 : FVec Ideal S1024x16 .f32) : FVec Ideal S1024x32 .f32 :=
  have v29 : FVec Ideal S1024x16 .bf16 := truncf .bf16 v28 bitsLt_bf16_f32
  have cst_15 : FVec Ideal S1024x32 .f32 := constant S1024x32 .f32 0x00000000#32
  have v30 : FVec Ideal S1024x32 .f32 := matmul dot_S1024x16_S16x32_S1024x32_1_0_0_1_n_n none v29 v3 cst_15
  have v31 : FVec Ideal S1024x32 .f32 := broadcastTo S1024x32 v5 broadcasts_S1x32_S1024x32
  addf v30 v31

/-- u · W1ᵀ + b1. -/
def pre1V (v7 : FVec Ideal S32x16 .bf16) (v9 : FVec Ideal S1x16 .f32) (v34 : FVec Ideal S1024x32 .f32) : FVec Ideal S1024x16 .f32 :=
  have v35 : FVec Ideal S1024x32 .bf16 := truncf .bf16 v34 bitsLt_bf16_f32
  have cst_16 : FVec Ideal S1024x16 .f32 := constant S1024x16 .f32 0x00000000#32
  have v36 : FVec Ideal S1024x16 .f32 := matmul dot_S1024x32_S32x16_S1024x16_1_0_0_1_n_n none v35 v7 cst_16
  have v37 : FVec Ideal S1024x16 .f32 := broadcastTo S1024x16 v9 broadcasts_S1x16_S1024x16
  addf v36 v37

/-- The body's arithmetic is the stages in turn, each weight passed through its identity cast. -/
theorem k1_pay1_eq_stages (v0 : Vec Ideal S16x16 .bf16) (v2 : Vec Ideal S16x32 .bf16) (v4 : Vec Ideal S1x32 .f32)
    (v6 : Vec Ideal S32x16 .bf16) (v8 : Vec Ideal S1x16 .f32) (v16 : Vec Ideal S1024x16 .f32) :
    k1_pay1 (F := Ideal) v0 v2 v4 v6 v8 v16
      = siluV (pre1V (shapeCast S32x16 v6 shapeCasts_S32x16_S32x16) (shapeCast S1x16 v8 shapeCasts_S1x16_S1x16)
          (siluV (pre0V (shapeCast S16x32 v2 shapeCasts_S16x32_S16x32) (shapeCast S1x32 v4 shapeCasts_S1x32_S1x32)
            (stageQ (shapeCast S16x16 v0 shapeCasts_S16x16_S16x16) v16)))) := rfl

/-! ## Each stage at an index -/

theorem projV_apply (v1 : FVec Ideal S16x16 .bf16) (v16 : FVec Ideal S1024x16 .f32) (p : Fin 1024) (j : Fin 16) :
    projV v1 v16 (ix2 p j) = Spec.proj (fun n k => v16 (ix2 n k)) (fun j k => v1 (ix2 k j)) p j :=
  matmul_zero_ix2 dot_S1024x16_S16x16_S1024x16_1_0_0_1_n_n rfl rfl rfl rfl lhs0_q rhs1_q
    (truncf .bf16 v16 bitsLt_bf16_f32 : FVec Ideal S1024x16 .bf16) v1 p j

theorem normCol_apply (a : FVec Ideal S1024x16 .f32) (p : Fin 1024) (q : Fin 16) :
    normCol a (ix2 p q) = Spec.rowNorm (fun n j => a (ix2 n j)) p := by
  unfold normCol
  dsimp only
  refine (broadcastTo_a1_ab_apply _ broadcasts_S1024x1_S1024x16 p q).trans ?_
  refine congrArg (fun s => max (Ideal.sqrt s) Spec.eps) ?_
  refine (shapeCast_a_a1_apply _ shapeCasts_S1024_S1024x1 p 0).trans ?_
  exact multiReduction_add_rows_apply (mulf a a) reduces_S1024x16_S1024 (.inl rfl) rfl p

theorem stageQ_apply (v1 : FVec Ideal S16x16 .bf16) (v16 : FVec Ideal S1024x16 .f32) (p : Fin 1024) (q : Fin 16) :
    stageQ v1 v16 (ix2 p q)
      = Spec.silu (Spec.normalize (Spec.proj (fun n k => v16 (ix2 n k)) (fun j k => v1 (ix2 k j))) p q) := by
  have hproj : (fun n j => projV v1 v16 (ix2 n j)) = Spec.proj (fun n k => v16 (ix2 n k)) (fun j k => v1 (ix2 k j)) :=
    funext fun n => funext fun j => projV_apply v1 v16 n j
  rw [← hproj]
  exact congrArg (fun d => Spec.silu (Ideal.div (projV v1 v16 (ix2 p q)) d)) (normCol_apply (projV v1 v16) p q)

theorem pre0V_apply (v3 : FVec Ideal S16x32 .bf16) (v5 : FVec Ideal S1x32 .f32) (r : FVec Ideal S1024x16 .f32)
    (p : Fin 1024) (h : Fin 32) :
    pre0V v3 v5 r (ix2 p h)
      = Spec.pre0 (fun n j => r (ix2 n j)) (fun h j => v3 (ix2 j h)) (fun h => v5 (ix2 (0 : Fin 1) h)) p h :=
  congrArg₂ (· + ·)
    (matmul_zero_ix2 dot_S1024x16_S16x32_S1024x32_1_0_0_1_n_n rfl rfl rfl rfl lhs0_h rhs1_h
      (truncf .bf16 r bitsLt_bf16_f32 : FVec Ideal S1024x16 .bf16) v3 p h)
    (broadcastTo_1b_ab_apply v5 broadcasts_S1x32_S1024x32 p h)

theorem pre1V_apply (v7 : FVec Ideal S32x16 .bf16) (v9 : FVec Ideal S1x16 .f32) (u : FVec Ideal S1024x32 .f32)
    (p : Fin 1024) (j : Fin 16) :
    pre1V v7 v9 u (ix2 p j)
      = Spec.pre1 (fun n h => u (ix2 n h)) (fun j h => v7 (ix2 h j)) (fun j => v9 (ix2 (0 : Fin 1) j)) p j :=
  congrArg₂ (· + ·)
    (matmul_zero_ix2 dot_S1024x32_S32x16_S1024x16_1_0_0_1_n_n rfl rfl rfl rfl lhs0_o rhs1_o
      (truncf .bf16 u bitsLt_bf16_f32 : FVec Ideal S1024x32 .bf16) v7 p j)
    (broadcastTo_1b_ab_apply v9 broadcasts_S1x16_S1024x16 p j)

/-! ## The body at an index is the specification's read-out of the chunk -/

/-- The stages over the weights as the body holds them (after the identity casts). -/
theorem stages_apply (v1 : FVec Ideal S16x16 .bf16) (v3 : FVec Ideal S16x32 .bf16) (v5 : FVec Ideal S1x32 .f32)
    (v7 : FVec Ideal S32x16 .bf16) (v9 : FVec Ideal S1x16 .f32) (v16 : FVec Ideal S1024x16 .f32) (p : Fin 1024) (q : Fin 16) :
    siluV (pre1V v7 v9 (siluV (pre0V v3 v5 (stageQ v1 v16)))) (ix2 p q)
      = Spec.retrieve (N := 1024) (fun n k => v16 (ix2 n k)) (fun j k => v1 (ix2 k j)) (fun h j => v3 (ix2 j h))
          (fun h => v5 (ix2 (0 : Fin 1) h)) (fun j h => v7 (ix2 h j)) (fun j => v9 (ix2 (0 : Fin 1) j)) p q := by
  have hq : (fun n j => stageQ v1 v16 (ix2 n j))
      = fun n j => Spec.silu (Spec.normalize (Spec.proj (fun n k => v16 (ix2 n k)) (fun j k => v1 (ix2 k j))) n j) :=
    funext fun n => funext fun j => stageQ_apply v1 v16 n j
  have hh : (fun n h => siluV (pre0V v3 v5 (stageQ v1 v16)) (ix2 n h))
      = Spec.hidden (fun n j => stageQ v1 v16 (ix2 n j)) (fun h j => v3 (ix2 j h)) (fun h => v5 (ix2 (0 : Fin 1) h)) :=
    funext fun n => funext fun h => congrArg Spec.silu (pre0V_apply v3 v5 (stageQ v1 v16) n h)
  refine (congrArg Spec.silu (pre1V_apply v7 v9 (siluV (pre0V v3 v5 (stageQ v1 v16))) p q)).trans ?_
  rw [hh, hq]
  rfl

/-- The body's arithmetic, read at row p and column q, is the read-out of the chunk. -/
theorem k1_pay1_apply (v0 : Vec Ideal S16x16 .bf16) (v2 : Vec Ideal S16x32 .bf16) (v4 : Vec Ideal S1x32 .f32)
    (v6 : Vec Ideal S32x16 .bf16) (v8 : Vec Ideal S1x16 .f32) (v16 : Vec Ideal S1024x16 .f32) (p : Fin 1024) (q : Fin 16) :
    k1_pay1 (F := Ideal) v0 v2 v4 v6 v8 v16 (ix2 p q)
      = Spec.retrieve (N := 1024) (fun n k => v16 (ix2 n k)) (fun j k => v0 (ix2 k j)) (fun h j => v2 (ix2 j h))
          (fun h => v4 (ix2 (0 : Fin 1) h)) (fun j h => v6 (ix2 h j)) (fun j => v8 (ix2 (0 : Fin 1) j)) p q := by
  rw [k1_pay1_eq_stages, shapeCast_self v0, shapeCast_self v2, shapeCast_self v4, shapeCast_self v6, shapeCast_self v8]
  exact stages_apply v0 v2 v4 v6 v8 v16 p q

end Cert.KernelIdeal.Region1

end
-- ==== Proof.K1Block.lean ====
/-
  The read-out kernel's block.

  At one grid point the body loads the five weights whole and runs eight trips; trip k reads rows 1024k … 1024k + 1023
  of the point's block of x, and stores the read-out of that chunk to the same rows of the output block.  The
  read-out of a row depends on that row of x only, so each trip's store is the restriction, to its rows, of ONE
  function of the block's index: the read-out of the whole block of x.  Eight such stores tile the block, hence the
  output block after the point is that function.
-/
import proofs.«144527_j2001454760825_2_alg».proof.Proof.Gen.KernelIdeal.Frame
import proofs.«144527_j2001454760825_2_alg».proof.Proof.K1Pay
import Idealize.ShloMosaic.Lib.Pipeline.Value
import Idealize.ShloMosaic.Lib.Writes

set_option maxRecDepth 16384

noncomputable section

namespace Cert.KernelIdeal.Region1

open Idealize.ShloMosaic Idealize.ShloMosaic.TcCoe Idealize.ShloMosaic.ValueIdx
open Idealize.SL Idealize.SL.Sem
open Cert.KernelIdeal.Gen

/-! ## The read-out is row-wise -/

section RowWise
variable {N N' : ℕ}

/-- The read-out at row n is the read-out of the one-row array holding row n. -/
theorem retrieve_row (X : Fin N → Fin 16 → EReal) (WQ : Fin 16 → Fin 16 → EReal) (W0 : Fin 32 → Fin 16 → EReal)
    (b0 : Fin 32 → EReal) (W1 : Fin 16 → Fin 32 → EReal) (b1 : Fin 16 → EReal) (n : Fin N) :
    Spec.retrieve X WQ W0 b0 W1 b1 n = Spec.retrieve (N := 1) (fun _ => X n) WQ W0 b0 W1 b1 0 := rfl

/-- So two arrays that agree on a row have the same read-out there. -/
theorem retrieve_congr_row (X : Fin N → Fin 16 → EReal) (X' : Fin N' → Fin 16 → EReal) (WQ : Fin 16 → Fin 16 → EReal)
    (W0 : Fin 32 → Fin 16 → EReal) (b0 : Fin 32 → EReal) (W1 : Fin 16 → Fin 32 → EReal) (b1 : Fin 16 → EReal)
    (n : Fin N) (n' : Fin N') (h : X n = X' n') :
    Spec.retrieve X WQ W0 b0 W1 b1 n = Spec.retrieve X' WQ W0 b0 W1 b1 n' :=
  (retrieve_row X WQ W0 b0 W1 b1 n).trans
    ((congrArg (fun r => Spec.retrieve (N := 1) (fun _ => r) WQ W0 b0 W1 b1 0) h).trans
      (retrieve_row X' WQ W0 b0 W1 b1 n').symm)

end RowWise

/-! ## The block function -/

/-- The read-out of a block of 8192 rows of x under the five weights, as a function of the block's index. -/
def blockG (x0 : Vec Ideal S8192x16 .f32) (x1 : Vec Ideal S16x16 .bf16) (x2 : Vec Ideal S16x32 .bf16) (x3 : Vec Ideal S1x32 .f32) (x4 : Vec Ideal S32x16 .bf16) (x5 : Vec Ideal S1x16 .f32) : S8192x16.Idx → EReal := fun y =>
  Spec.retrieve (N := 8192) (fun n k => x0 (ix2 n k)) (fun j k => x1 (ix2 k j)) (fun h j => x2 (ix2 j h))
    (fun h => x3 (ix2 (0 : Fin 1) h)) (fun j h => x4 (ix2 h j)) (fun j => x5 (ix2 (0 : Fin 1) j)) (y 0) (y 1)

theorem hz2 : (![0, 0] : Fin 2 → Nat) = fun _ => 0 := funext fun a => by fin_cases a <;> rfl

/-! ## One trip's store is the block function on its rows -/

/-- Trip k's rectangle: rows 1024k … 1024k + 1023, every column. -/
abbrev tripRect (k : Fin k1_t1_loop.trips) : Rect S8192x16 :=
  Rect.unit (s := S8192x16) (k1_off1 k) S1024x16.size (k1_off1_inb k)

/-- The rectangle's column is the chunk's column. -/
theorem tripRect_col (k : Fin k1_t1_loop.trips) (p : Fin 1024) (q : Fin 16) :
    ((tripRect k).idx (ix2 p q)) 1 = q := Fin.ext (by
  show (k1_off1 k) 1 + 1 * q.val = q.val
  rw [k1_off1_eq k]
  show 0 + 1 * q.val = q.val
  omega)

/-- Along a row of the chunk the rectangle stays in one row of the block. -/
theorem tripRect_row (k : Fin k1_t1_loop.trips) (p : Fin 1024) (q q' : Fin 16) :
    (tripRect k).idx (ix2 p q') = ix2 (((tripRect k).idx (ix2 p q)) 0) q' := funext fun a => Fin.ext (by
  match a with
  | ⟨0, _⟩ => rfl
  | ⟨1, _⟩ => exact congrArg Fin.val (tripRect_col k p q'))

/-- The trip's one piece. -/
theorem tripL_eq (𝒱 : Variants) (c : Dev nD) (bd : Option 𝒱.V) (i : grid1.Coords) (arg1 : Memref sig .tc .vmem S8192x16 .f32) (harg1 : arg1.IsWhole) (arg2 : Memref sig .tc .vmem S16x16 .bf16) (harg2 : arg2.IsWhole) (arg3 : Memref sig .tc .vmem S16x32 .bf16) (harg3 : arg3.IsWhole) (arg4 : Memref sig .tc .vmem S1x32 .f32) (harg4 : arg4.IsWhole) (arg5 : Memref sig .tc .vmem S32x16 .bf16) (harg5 : arg5.IsWhole) (arg6 : Memref sig .tc .vmem S1x16 .f32) (harg6 : arg6.IsWhole) (arg7 : Memref sig .tc .vmem S8192x16 .f32) (harg7 : arg7.IsWhole)
    (v0 : Vec Ideal S16x16 .bf16) (v2 : Vec Ideal S16x32 .bf16) (v4 : Vec Ideal S1x32 .f32) (v6 : Vec Ideal S32x16 .bf16) (v8 : Vec Ideal S1x16 .f32)
    (X_arg1 : BufTy.Contents (Elt Ideal) arg1.view.ty) (k : Fin k1_t1_loop.trips) :
    tripL_k1_t1 (F := Ideal) 𝒱 c bd i arg1 harg1 arg2 harg2 arg3 harg3 arg4 harg4 arg5 harg5 arg6 harg6 arg7 harg7 v0 v2 v4 v6 v8 X_arg1 k
      = [⟨tripRect k, k1_pay1 (F := Ideal) v0 v2 v4 v6 v8 (View.readAt (Elt Ideal) arg1.view (tripRect k).toLoadRect X_arg1)⟩] := by
  show (trip_k1_t1 (F := Ideal) 𝒱 c bd i arg1 harg1 arg2 harg2 arg3 harg3 arg4 harg4 arg5 harg5 arg6 harg6 arg7 harg7 v0 v2 v4 v6 v8 X_arg1 k).1 = _
  unfold trip_k1_t1
  rfl

/-- The trip's store, at the chunk's (p, q), is the block function at the rectangle's image of (p, q). -/
theorem trip_piece (𝒱 : Variants) (c : Dev nD) (bd : Option 𝒱.V) (i : grid1.Coords) (arg1 : Memref sig .tc .vmem S8192x16 .f32) (harg1 : arg1.IsWhole) (arg2 : Memref sig .tc .vmem S16x16 .bf16) (harg2 : arg2.IsWhole) (arg3 : Memref sig .tc .vmem S16x32 .bf16) (harg3 : arg3.IsWhole) (arg4 : Memref sig .tc .vmem S1x32 .f32) (harg4 : arg4.IsWhole) (arg5 : Memref sig .tc .vmem S32x16 .bf16) (harg5 : arg5.IsWhole) (arg6 : Memref sig .tc .vmem S1x16 .f32) (harg6 : arg6.IsWhole) (arg7 : Memref sig .tc .vmem S8192x16 .f32) (harg7 : arg7.IsWhole)
    (x0 : Vec Ideal S8192x16 .f32) (x1 : Vec Ideal S16x16 .bf16) (x2 : Vec Ideal S16x32 .bf16) (x3 : Vec Ideal S1x32 .f32) (x4 : Vec Ideal S32x16 .bf16) (x5 : Vec Ideal S1x16 .f32) (k : Fin k1_t1_loop.trips) :
    ∀ pc ∈ tripL_k1_t1 (F := Ideal) 𝒱 c bd i arg1 harg1 arg2 harg2 arg3 harg3 arg4 harg4 arg5 harg5 arg6 harg6 arg7 harg7 x1 x2 x3 x4 x5 (harg1.unread x0) k,
      ∀ x : pc.1.shape.Idx, pc.2 x = blockG x0 x1 x2 x3 x4 x5 (pc.1.emb x) := by
  intro pc hpc
  rw [tripL_eq] at hpc
  obtain rfl := List.mem_singleton.mp hpc
  intro x
  obtain ⟨p, q, rfl⟩ : ∃ (p : Fin 1024) (q : Fin 16), x = ix2 p q := ⟨x 0, x 1, eq_ix2 x⟩
  refine (k1_pay1_apply x1 x2 x3 x4 x5 _ p q).trans ?_
  show _ = Spec.retrieve (N := 8192) (fun n k => x0 (ix2 n k)) (fun j k => x1 (ix2 k j)) (fun h j => x2 (ix2 j h))
    (fun h => x3 (ix2 (0 : Fin 1) h)) (fun j h => x4 (ix2 h j)) (fun j => x5 (ix2 (0 : Fin 1) j))
    (((tripRect k).idx (ix2 p q)) 0) (((tripRect k).idx (ix2 p q)) 1)
  rw [tripRect_col k p q]
  refine congrFun (retrieve_congr_row _ _ _ _ _ _ _ p (((tripRect k).idx (ix2 p q)) 0) (funext fun q' => ?_)) q
  show (arg1.view.read (Elt Ideal) (harg1.unread x0)) ((tripRect k).idx (ix2 p q')) = _
  rw [harg1.read_unread, tripRect_row k p q q']
  rfl

/-! ## Every trip's store, by induction over the trips -/

/-- Every piece of the trips before n is the block function on its rectangle. -/
theorem pb_pieces (𝒱 : Variants) (c : Dev nD) (bd : Option 𝒱.V) (i : grid1.Coords) (arg1 : Memref sig .tc .vmem S8192x16 .f32) (harg1 : arg1.IsWhole) (arg2 : Memref sig .tc .vmem S16x16 .bf16) (harg2 : arg2.IsWhole) (arg3 : Memref sig .tc .vmem S16x32 .bf16) (harg3 : arg3.IsWhole) (arg4 : Memref sig .tc .vmem S1x32 .f32) (harg4 : arg4.IsWhole) (arg5 : Memref sig .tc .vmem S32x16 .bf16) (harg5 : arg5.IsWhole) (arg6 : Memref sig .tc .vmem S1x16 .f32) (harg6 : arg6.IsWhole) (arg7 : Memref sig .tc .vmem S8192x16 .f32) (harg7 : arg7.IsWhole)
    (x0 : Vec Ideal S8192x16 .f32) (x1 : Vec Ideal S16x16 .bf16) (x2 : Vec Ideal S16x32 .bf16) (x3 : Vec Ideal S1x32 .f32) (x4 : Vec Ideal S32x16 .bf16) (x5 : Vec Ideal S1x16 .f32) :
    ∀ n : ℕ, ∀ pc ∈ pb_k1_t1 (F := Ideal) 𝒱 c bd i arg1 harg1 arg2 harg2 arg3 harg3 arg4 harg4 arg5 harg5 arg6 harg6 arg7 harg7 x1 x2 x3 x4 x5 (harg1.unread x0) n,
      ∀ x : pc.1.shape.Idx, pc.2 x = blockG x0 x1 x2 x3 x4 x5 (pc.1.emb x)
  | 0 => fun pc hpc => absurd hpc List.not_mem_nil
  | n + 1 => by
    rw [pb_k1_t1.eq_2]
    unfold pb_k1_t1Step
    split
    · intro pc hpc
      rcases List.mem_append.mp hpc with h | h
      · exact trip_piece 𝒱 c bd i arg1 harg1 arg2 harg2 arg3 harg3 arg4 harg4 arg5 harg5 arg6 harg6 arg7 harg7 x0 x1 x2 x3 x4 x5 _ pc h
      · exact pb_pieces 𝒱 c bd i arg1 harg1 arg2 harg2 arg3 harg3 arg4 harg4 arg5 harg5 arg6 harg6 arg7 harg7 x0 x1 x2 x3 x4 x5 n pc h
    · exact pb_pieces 𝒱 c bd i arg1 harg1 arg2 harg2 arg3 harg3 arg4 harg4 arg5 harg5 arg6 harg6 arg7 harg7 x0 x1 x2 x3 x4 x5 n

/-! ## The body's output block -/

/-- A weight loaded whole is the weight. -/
theorem readWhole {S : Shape} {e : EltTy} (hS : S.rank = 2) (m : Memref sig .tc .vmem S e) (hm : m.IsWhole)
    {off : Fin S.rank → Nat} (hoff : off = fun _ => 0) (inb : ∀ a, off a + S.size a ≤ S.size a) (x : S.Idx → Elt Ideal e) :
    View.readAt (Elt Ideal) m.view (Rect.unit (s := S) off S.size inb).toLoadRect (hm.unread x) = x := by
  rw [View.readAt_eq_ld, hm.read_unread, View.ld_unit_zero (S := S) hoff]

/-- What the body leaves in the output's staging buffer is the block function. -/
theorem out1_A_6_apply (c : Dev nD) (i : grid1.Coords) (arg1 : Memref sig .tc .vmem S8192x16 .f32) (harg1 : arg1.IsWhole) (arg2 : Memref sig .tc .vmem S16x16 .bf16) (harg2 : arg2.IsWhole) (arg3 : Memref sig .tc .vmem S16x32 .bf16) (harg3 : arg3.IsWhole) (arg4 : Memref sig .tc .vmem S1x32 .f32) (harg4 : arg4.IsWhole) (arg5 : Memref sig .tc .vmem S32x16 .bf16) (harg5 : arg5.IsWhole) (arg6 : Memref sig .tc .vmem S1x16 .f32) (harg6 : arg6.IsWhole) (arg7 : Memref sig .tc .vmem S8192x16 .f32) (harg7 : arg7.IsWhole)
    (x0 : Vec Ideal S8192x16 .f32) (x1 : Vec Ideal S16x16 .bf16) (x2 : Vec Ideal S16x32 .bf16) (x3 : Vec Ideal S1x32 .f32) (x4 : Vec Ideal S32x16 .bf16) (x5 : Vec Ideal S1x16 .f32) (y : S8192x16.Idx) :
    out1_A_6 (F := Ideal) c i arg1 harg1 arg2 harg2 arg3 harg3 arg4 harg4 arg5 harg5 arg6 harg6 arg7 harg7 x0 x1 x2 x3 x4 x5 y = blockG x0 x1 x2 x3 x4 x5 y := by
  unfold out1_A_6
  refine View.read_writes_apply_of_pieces VO1_6 VO1_6.junk (blockG x0 x1 x2 x3 x4 x5) _ ?_ y
    (cover1_A_6 c i arg1 harg1 arg2 harg2 arg3 harg3 arg4 harg4 arg5 harg5 arg6 harg6 arg7 harg7 x0 x1 x2 x3 x4 x5 y)
  have hL : (kernelRun1_A (F := Ideal) c i arg1 harg1 arg2 harg2 arg3 harg3 arg4 harg4 arg5 harg5 arg6 harg6 arg7 harg7 x0 x1 x2 x3 x4 x5).1
      = pb_k1_t1 (F := Ideal) Variants.none c none i arg1 harg1 arg2 harg2 arg3 harg3 arg4 harg4 arg5 harg5 arg6 harg6 arg7 harg7
          (View.readAt (Elt Ideal) arg2.view (Rect.unit (s := S16x16) ![0, 0] S16x16.size inb_S16x16_S16x16_0_0).toLoadRect (harg2.unread x1))
          (View.readAt (Elt Ideal) arg3.view (Rect.unit (s := S16x32) ![0, 0] S16x32.size inb_S16x32_S16x32_0_0).toLoadRect (harg3.unread x2))
          (View.readAt (Elt Ideal) arg4.view (Rect.unit (s := S1x32) ![0, 0] S1x32.size inb_S1x32_S1x32_0_0).toLoadRect (harg4.unread x3))
          (View.readAt (Elt Ideal) arg5.view (Rect.unit (s := S32x16) ![0, 0] S32x16.size inb_S32x16_S32x16_0_0).toLoadRect (harg5.unread x4))
          (View.readAt (Elt Ideal) arg6.view (Rect.unit (s := S1x16) ![0, 0] S1x16.size inb_S1x16_S1x16_0_0).toLoadRect (harg6.unread x5))
          (harg1.unread x0) (Scf.trips (0#32) (Scalar.addi 0#32 8#32) 1#32) := by
    unfold kernelRun1_A
    rfl
  rw [hL, readWhole rfl arg2 harg2 hz2, readWhole rfl arg3 harg3 hz2, readWhole rfl arg4 harg4 hz2,
    readWhole rfl arg5 harg5 hz2, readWhole rfl arg6 harg6 hz2]
  exact pb_pieces Variants.none c none i arg1 harg1 arg2 harg2 arg3 harg3 arg4 harg4 arg5 harg5 arg6 harg6 arg7 harg7 x0 x1 x2 x3 x4 x5 _

/-! ## The staged block after a point -/

variable (V : (c : Dev nD) → (b : Ref sig .tc) → Buf (Elt Ideal) ((c : Thread nD τ).loc b))

/-- After point t the output's staging buffer holds the read-out of the point's block of x under the point's blocks
    of the weights. -/
theorem outsAt1_eq (c : Dev nD) (t : Fin cfg1.N) :
    outsAt1 (F := Ideal) V c t
      = blockG (iblk1 V c 0 t) (iblk1 V c 1 t) (iblk1 V c 2 t) (iblk1 V c 3 t) (iblk1 V c 4 t) (iblk1 V c 5 t) := by
  unfold outsAt1
  exact funext fun y => out1_A_6_apply c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t)
    (iblk1 V c 0 t) (iblk1 V c 1 t) (iblk1 V c 2 t) (iblk1 V c 3 t) (iblk1 V c 4 t) (iblk1 V c 5 t) y

/-- The same, read at row y and column j of the block. -/
theorem outsAt1_apply (c : Dev nD) (t : Fin cfg1.N) (y : Fin 8192) (j : Fin 16) :
    outsAt1 (F := Ideal) V c t (ix2 y j)
      = Spec.retrieve (N := 8192) (fun n k => iblk1 V c 0 t (ix2 n k)) (fun j k => iblk1 V c 1 t (ix2 k j))
          (fun h j => iblk1 V c 2 t (ix2 j h)) (fun h => iblk1 V c 3 t (ix2 (0 : Fin 1) h))
          (fun j h => iblk1 V c 4 t (ix2 h j)) (fun j => iblk1 V c 5 t (ix2 (0 : Fin 1) j)) y j := by
  rw [outsAt1_eq]
  rfl

end Cert.KernelIdeal.Region1

end
-- ==== Proof.K1Array.lean ====
/-
  The read-out kernel's result array.

  The grid has 128 points; point t stages rows 8192t … 8192t + 8191 of x and the five weights whole, and writes its
  output block back to the same rows of the result.  The output block after point t is the read-out of the staged
  block of x; the read-out is row-wise and the weights are the same at every point, so every written-back block is
  the restriction, to its rows, of ONE function of the array's index: the read-out of the whole of x.  The 128 blocks
  cover the array (row n lies in the block of point n / 8192), hence the array ends holding that function.
-/
import proofs.«144527_j2001454760825_2_alg».proof.Proof.Gen.KernelIdeal.Frame
import proofs.«144527_j2001454760825_2_alg».proof.Proof.K1Block
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat)
open Cert.KernelIdeal.Gen

/-! ## The array function, and a block of it -/

/-- The read-out of the whole of x under the five weights, as a function of the result array's index. -/
def arrG (a0 : S1048576x16.Idx → EReal) (a1 : S16x16.Idx → EReal) (a2 : S16x32.Idx → EReal) (a3 : S1x32.Idx → EReal)
    (a4 : S32x16.Idx → EReal) (a5 : S1x16.Idx → EReal) : S1048576x16.Idx → EReal := fun i =>
  Spec.retrieve (N := 1048576) (fun n k => a0 (ix2 n k)) (fun j k => a1 (ix2 k j)) (fun h j => a2 (ix2 j h))
    (fun h => a3 (ix2 (0 : Fin 1) h)) (fun j h => a4 (ix2 h j)) (fun j => a5 (ix2 (0 : Fin 1) j)) (i 0) (i 1)

/-- The block function at y is the array function at i when the weights are the same, the columns are the same, and
    row y of the block of x is row i of x. -/
theorem block_eq_array (x0 : Vec Ideal S8192x16 .f32) (x1 : Vec Ideal S16x16 .bf16) (x2 : Vec Ideal S16x32 .bf16)
    (x3 : Vec Ideal S1x32 .f32) (x4 : Vec Ideal S32x16 .bf16) (x5 : Vec Ideal S1x16 .f32)
    (a0 : S1048576x16.Idx → EReal) (a1 : S16x16.Idx → EReal) (a2 : S16x32.Idx → EReal) (a3 : S1x32.Idx → EReal)
    (a4 : S32x16.Idx → EReal) (a5 : S1x16.Idx → EReal) (y : S8192x16.Idx) (i : S1048576x16.Idx)
    (h1 : x1 = a1) (h2 : x2 = a2) (h3 : x3 = a3) (h4 : x4 = a4) (h5 : x5 = a5) (hcol : i 1 = y 1)
    (hrow : ∀ k : Fin 16, x0 (ix2 (y 0) k) = a0 (ix2 (i 0) k)) :
    blockG x0 x1 x2 x3 x4 x5 y = arrG a0 a1 a2 a3 a4 a5 i := by
  subst h1 h2 h3 h4 h5
  unfold blockG arrG
  rw [hcol]
  exact congrFun (retrieve_congr_row (fun n k => x0 (ix2 n k)) (fun n k => a0 (ix2 n k)) _ _ _ _ _ (y 0) (i 0) (funext hrow)) (y 1)

/-! ## The index maps, decided once over the grid -/

/-- x and the result move one block of rows per point; every weight stays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-! ## The staged blocks as parts of their arrays -/

/-- Window 1 is its whole array at every point. -/
theorem iblk1_1 (c : Dev nD) (t : Fin cfg1.N) :
    (iblk1 V c 1 t : S16x16.Idx → Elt Ideal .bf16) = (V c (Pipeline.arrRef spec1 1) : S16x16.Idx → Elt Ideal .bf16) := by
  obtain ⟨e00, e01, e10, e11, e20, e21, e30, e31, e40, e41, e50, e51, e60, e61⟩ := idx_facts t
  funext z
  unfold iblk1
  rw [View.read_apply]
  show (V c (Pipeline.arrRef spec1 1) : S16x16.Idx → Elt Ideal .bf16) _ = (V c (Pipeline.arrRef spec1 1) : S16x16.Idx → Elt Ideal .bf16) z
  refine congrArg (V c (Pipeline.arrRef spec1 1) : S16x16.Idx → Elt Ideal .bf16) ?_
  funext a; apply Fin.ext
  match a with
  | ⟨0, _⟩ => show win1_1.index t (0 : Fin 2) * 16 + 1 * (z 0).val = (z 0).val; omega
  | ⟨1, _⟩ => show win1_1.index t (1 : Fin 2) * 16 + 1 * (z 1).val = (z 1).val; omega

/-- Window 2 is its whole array at every point. -/
theorem iblk1_2 (c : Dev nD) (t : Fin cfg1.N) :
    (iblk1 V c 2 t : S16x32.Idx → Elt Ideal .bf16) = (V c (Pipeline.arrRef spec1 2) : S16x32.Idx → Elt Ideal .bf16) := by
  obtain ⟨e00, e01, e10, e11, e20, e21, e30, e31, e40, e41, e50, e51, e60, e61⟩ := idx_facts t
  funext z
  unfold iblk1
  rw [View.read_apply]
  show (V c (Pipeline.arrRef spec1 2) : S16x32.Idx → Elt Ideal .bf16) _ = (V c (Pipeline.arrRef spec1 2) : S16x32.Idx → Elt Ideal .bf16) z
  refine congrArg (V c (Pipeline.arrRef spec1 2) : S16x32.Idx → Elt Ideal .bf16) ?_
  funext a; apply Fin.ext
  match a with
  | ⟨0, _⟩ => show win1_2.index t (0 : Fin 2) * 16 + 1 * (z 0).val = (z 0).val; omega
  | ⟨1, _⟩ => show win1_2.index t (1 : Fin 2) * 32 + 1 * (z 1).val = (z 1).val; omega

/-- Window 3 is its whole array at every point. -/
theorem iblk1_3 (c : Dev nD) (t : Fin cfg1.N) :
    (iblk1 V c 3 t : S1x32.Idx → Elt Ideal .f32) = (V c (Pipeline.arrRef spec1 3) : S1x32.Idx → Elt Ideal .f32) := by
  obtain ⟨e00, e01, e10, e11, e20, e21, e30, e31, e40, e41, e50, e51, e60, e61⟩ := idx_facts t
  funext z
  unfold iblk1
  rw [View.read_apply]
  show (V c (Pipeline.arrRef spec1 3) : S1x32.Idx → Elt Ideal .f32) _ = (V c (Pipeline.arrRef spec1 3) : S1x32.Idx → Elt Ideal .f32) z
  refine congrArg (V c (Pipeline.arrRef spec1 3) : S1x32.Idx → Elt Ideal .f32) ?_
  funext a; apply Fin.ext
  match a with
  | ⟨0, _⟩ => show win1_3.index t (0 : Fin 2) * 1 + 1 * (z 0).val = (z 0).val; omega
  | ⟨1, _⟩ => show win1_3.index t (1 : Fin 2) * 32 + 1 * (z 1).val = (z 1).val; omega

/-- Window 4 is its whole array at every point. -/
theorem iblk1_4 (c : Dev nD) (t : Fin cfg1.N) :
    (iblk1 V c 4 t : S32x16.Idx → Elt Ideal .bf16) = (V c (Pipeline.arrRef spec1 4) : S32x16.Idx → Elt Ideal .bf16) := by
  obtain ⟨e00, e01, e10, e11, e20, e21, e30, e31, e40, e41, e50, e51, e60, e61⟩ := idx_facts t
  funext z
  unfold iblk1
  rw [View.read_apply]
  show (V c (Pipeline.arrRef spec1 4) : S32x16.Idx → Elt Ideal .bf16) _ = (V c (Pipeline.arrRef spec1 4) : S32x16.Idx → Elt Ideal .bf16) z
  refine congrArg (V c (Pipeline.arrRef spec1 4) : S32x16.Idx → Elt Ideal .bf16) ?_
  funext a; apply Fin.ext
  match a with
  | ⟨0, _⟩ => show win1_4.index t (0 : Fin 2) * 32 + 1 * (z 0).val = (z 0).val; omega
  | ⟨1, _⟩ => show win1_4.index t (1 : Fin 2) * 16 + 1 * (z 1).val = (z 1).val; omega

/-- Window 5 is its whole array at every point. -/
theorem iblk1_5 (c : Dev nD) (t : Fin cfg1.N) :
    (iblk1 V c 5 t : S1x16.Idx → Elt Ideal .f32) = (V c (Pipeline.arrRef spec1 5) : S1x16.Idx → Elt Ideal .f32) := by
  obtain ⟨e00, e01, e10, e11, e20, e21, e30, e31, e40, e41, e50, e51, e60, e61⟩ := idx_facts t
  funext z
  unfold iblk1
  rw [View.read_apply]
  show (V c (Pipeline.arrRef spec1 5) : S1x16.Idx → Elt Ideal .f32) _ = (V c (Pipeline.arrRef spec1 5) : S1x16.Idx → Elt Ideal .f32) z
  refine congrArg (V c (Pipeline.arrRef spec1 5) : S1x16.Idx → Elt Ideal .f32) ?_
  funext a; apply Fin.ext
  match a with
  | ⟨0, _⟩ => show win1_5.index t (0 : Fin 2) * 1 + 1 * (z 0).val = (z 0).val; omega
  | ⟨1, _⟩ => show win1_5.index t (1 : Fin 2) * 16 + 1 * (z 1).val = (z 1).val; omega

/-- Row y of the block of x staged at point t is row 8192 t + y of x. -/
theorem iblk1_0_apply (c : Dev nD) (t : Fin cfg1.N) (y : Fin 8192) (k : Fin 16) (r : Fin 1048576)
    (hr : r.val = t.val * 8192 + y.val) :
    (iblk1 V c 0 t : S8192x16.Idx → Elt Ideal .f32) (ix2 y k)
      = (V c (Pipeline.arrRef spec1 0) : S1048576x16.Idx → Elt Ideal .f32) (ix2 r k) := by
  obtain ⟨e00, e01, e10, e11, e20, e21, e30, e31, e40, e41, e50, e51, e60, e61⟩ := idx_facts t
  unfold iblk1
  rw [View.read_apply]
  show (V c (Pipeline.arrRef spec1 0) : S1048576x16.Idx → Elt Ideal .f32) _ = (V c (Pipeline.arrRef spec1 0) : S1048576x16.Idx → Elt Ideal .f32) (ix2 r k)
  refine congrArg (V c (Pipeline.arrRef spec1 0) : S1048576x16.Idx → Elt Ideal .f32) ?_
  funext a; apply Fin.ext
  match a with
  | ⟨0, _⟩ => show win1_0.index t (0 : Fin 2) * 8192 + 1 * y.val = r.val; omega
  | ⟨1, _⟩ => show win1_0.index t (1 : Fin 2) * 16 + 1 * k.val = k.val; omega

/-! ## What each point writes back -/

/-- Point t writes back block t of the array function. -/
theorem flushed_eq (c : Dev nD) (t : Fin cfg1.N) :
    (dat1 V c).flushed 6 t = ((cfg1.win 6).blk t).view.read (Elt Ideal) (arrG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  obtain ⟨e00, e01, e10, e11, e20, e21, e30, e31, e40, e41, e50, e51, e60, e61⟩ := idx_facts t
  show (cfg1.win 6).cut (grid1.coords t) ((dat1 V c).after 6 t) = _
  rw [after1_6, outsAt1_eq]
  funext y
  rw [View.read_apply]
  show blockG (iblk1 V c 0 t) (iblk1 V c 1 t) (iblk1 V c 2 t) (iblk1 V c 3 t) (iblk1 V c 4 t) (iblk1 V c 5 t) y = arrG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb y)
  refine block_eq_array (iblk1 V c 0 t) (iblk1 V c 1 t) (iblk1 V c 2 t) (iblk1 V c 3 t) (iblk1 V c 4 t) (iblk1 V c 5 t) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) y (((cfg1.win 6).blk t).view.emb y)
    (iblk1_1 V c t) (iblk1_2 V c t) (iblk1_3 V c t) (iblk1_4 V c t) (iblk1_5 V c t) ?_ ?_
  · apply Fin.ext
    show win1_6.index t (1 : Fin 2) * 16 + 1 * (y 1).val = (y 1).val
    omega
  · intro k
    refine iblk1_0_apply V c t (y 0) k _ ?_
    show win1_6.index t (0 : Fin 2) * 8192 + 1 * (y 0).val = t.val * 8192 + (y 0).val
    omega

/-! ## The blocks cover the array -/

/-- Row n of the result lies in the block of point n / 8192. -/
theorem cover (i : S1048576x16.Idx) :
    ∃ t : Fin cfg1.N, (cfg1.win 6).flush t = true ∧ i ∈ ((cfg1.win 6).blk t).view.set := by
  have hN : cfg1.N = 128 := N_1
  have hi0 : (i 0).val < 1048576 := (i 0).isLt
  have hi1 : (i 1).val < 16 := (i 1).isLt
  obtain ⟨t, ht⟩ : ∃ t : Fin cfg1.N, t.val = (i 0).val / 8192 := ⟨⟨(i 0).val / 8192, by rw [hN]; omega⟩, rfl⟩
  obtain ⟨e00, e01, e10, e11, e20, e21, e30, e31, e40, e41, e50, e51, e60, e61⟩ := idx_facts t
  refine ⟨t, flush1_6 t, ?_⟩
  show i ∈ ((View.whole main_v44).slice (win1_6.rect t)).set
  rw [View.set_slice_whole, Rect.mem_set_unit]
  intro a
  match a with
  | ⟨0, _⟩ =>
    show win1_6.index t (0 : Fin 2) * 8192 ≤ (i 0).val ∧ (i 0).val < win1_6.index t (0 : Fin 2) * 8192 + 8192
    omega
  | ⟨1, _⟩ =>
    show win1_6.index t (1 : Fin 2) * 16 ≤ (i 1).val ∧ (i 1).val < win1_6.index t (1 : Fin 2) * 16 + 16
    omega

/-! ## The result array -/

/-- After the last point the result array holds the read-out of the whole of x. -/
theorem arrAt_eq (c : Dev nD) : (dat1 V c).arrAt 6 cfg1.N = arrG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 (arrG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (fun t _ => flushed_eq V c t) cover

/-- The same, read at row n and column j. -/
theorem arrAt_apply (c : Dev nD) (n : Fin 1048576) (j : Fin 16) :
    ((dat1 V c).arrAt 6 cfg1.N : S1048576x16.Idx → Elt Ideal .f32) (ix2 n j)
      = Spec.retrieve (N := 1048576)
          (fun n k => (V c (Pipeline.arrRef spec1 0) : S1048576x16.Idx → Elt Ideal .f32) (ix2 n k))
          (fun j k => (V c (Pipeline.arrRef spec1 1) : S16x16.Idx → Elt Ideal .bf16) (ix2 k j))
          (fun h j => (V c (Pipeline.arrRef spec1 2) : S16x32.Idx → Elt Ideal .bf16) (ix2 j h))
          (fun h => (V c (Pipeline.arrRef spec1 3) : S1x32.Idx → Elt Ideal .f32) (ix2 (0 : Fin 1) h))
          (fun j h => (V c (Pipeline.arrRef spec1 4) : S32x16.Idx → Elt Ideal .bf16) (ix2 h j))
          (fun j => (V c (Pipeline.arrRef spec1 5) : S1x16.Idx → Elt Ideal .f32) (ix2 (0 : Fin 1) j)) n j := by
  rw [arrAt_eq]
  rfl

end Cert.KernelIdeal.Region1

end
-- ==== Proof.KResult.lean ====
/-
  The kernel's result, read at an index, as the read-out at the new parameters.

  The result buffer at the return is the array the second region's write-backs leave: the read-out of the whole of x
  under the second region's five window arrays.  Those arrays are the host's transposes and one-row views of the
  query weight and of the new parameters a · p − (θ · 2⁻²³) · g formed from the first region's four output arrays; a
  transposed weight read at the swapped index is the weight, and a change of float format is the identity.  So the
  result at (n, j) is the specification's read-out of x under the query weight and the four new parameters.
-/
import proofs.«144527_j2001454760825_2_alg».proof.Proof.KHost
import proofs.«144527_j2001454760825_2_alg».proof.Proof.KHostIdx
import proofs.«144527_j2001454760825_2_alg».proof.Proof.K1Array
import proofs.«144527_j2001454760825_2_alg».proof.Proof.RefFwd

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The read-out depends on its six arguments only through their values. -/
theorem retrieve_congr {N : ℕ} {X X' : Fin N → Fin 16 → EReal} {WQ WQ' : Fin 16 → Fin 16 → EReal}
    {W0 W0' : Fin 32 → Fin 16 → EReal} {b0 b0' : Fin 32 → EReal} {W1 W1' : Fin 16 → Fin 32 → EReal}
    {b1 b1' : Fin 16 → EReal} (hX : X = X') (hWQ : WQ = WQ') (hW0 : W0 = W0') (hb0 : b0 = b0') (hW1 : W1 = W1')
    (hb1 : b1 = b1') : Spec.retrieve X WQ W0 b0 W1 b1 = Spec.retrieve X' WQ' W0' b0' W1' b1' := by
  subst hX hWQ hW0 hb0 hW1 hb1
  rfl

variable (m : (ℓ : Loc nD τ sig) → Buf (Elt Ideal) ℓ) (ρ : Dev nD → PrngReg)

/-- The result buffer at the return, at row n and column j, is the read-out of x under the query weight and the new
    parameters. -/
theorem result_apply (c : Dev nD) (n : Fin 1048576) (j : Fin 16) :
    (W4 m ρ c (Proc.devRef .tc main_v44) : S1048576x16.Idx → Elt Ideal .f32) (ix2 n j)
      = Spec.retrieve (Cert.RefSide.Xc (m ((c : Thread nD τ).loc main_arg0))) (Cert.RefSide.Mc (m ((c : Thread nD τ).loc main_arg7)))
          (fun h j => newW0 (F := Ideal) (m ((c : Thread nD τ).loc main_arg1)) ((dat0 (V1 m ρ) c).arrAt 8 cfg0.N) (ix2 h j))
          (fun h => newB0 (F := Ideal) (m ((c : Thread nD τ).loc main_arg2)) ((dat0 (V1 m ρ) c).arrAt 9 cfg0.N) (ix2 (0 : Fin 1) h))
          (fun j h => newW1 (F := Ideal) (m ((c : Thread nD τ).loc main_arg3)) ((dat0 (V1 m ρ) c).arrAt 10 cfg0.N) (ix2 j h))
          (fun j => newB1 (F := Ideal) (m ((c : Thread nD τ).loc main_arg4)) ((dat0 (V1 m ρ) c).arrAt 11 cfg0.N) (ix2 (0 : Fin 1) j)) n j := by
  rw [W4_result m ρ c]
  refine (Region1.arrAt_apply (V3 m ρ) c n j).trans ?_
  have h0 : (fun n k => (V3 m ρ c (Pipeline.arrRef spec1 0) : S1048576x16.Idx → Elt Ideal .f32) (ix2 n k))
      = Cert.RefSide.Xc (m ((c : Thread nD τ).loc main_arg0)) := by
    funext n k
    show (V3 m ρ c main_arg0 : S1048576x16.Idx → Elt Ideal .f32) (ix2 n k) = _
    rw [V3_x m ρ c]
  have h1 : (fun j k => (V3 m ρ c (Pipeline.arrRef spec1 1) : S16x16.Idx → Elt Ideal .bf16) (ix2 k j))
      = Cert.RefSide.Mc (m ((c : Thread nD τ).loc main_arg7)) := by
    funext j k
    show (V3 m ρ c main_v3 : S16x16.Idx → Elt Ideal .bf16) (ix2 k j) = _
    rw [V3_wqT m ρ c]
    exact HostIdx.stagedT_16x16_apply (m ((c : Thread nD τ).loc main_arg7)) k j
  have h2 : (fun h j => (V3 m ρ c (Pipeline.arrRef spec1 2) : S16x32.Idx → Elt Ideal .bf16) (ix2 j h))
      = fun h j => newW0 (F := Ideal) (m ((c : Thread nD τ).loc main_arg1)) ((dat0 (V1 m ρ) c).arrAt 8 cfg0.N) (ix2 h j) := by
    funext h j
    show (V3 m ρ c main_v41 : S16x32.Idx → Elt Ideal .bf16) (ix2 j h) = _
    rw [V3_w0T m ρ c]
    exact HostIdx.stagedT_32x16_apply _ j h
  have h3 : (fun h => (V3 m ρ c (Pipeline.arrRef spec1 3) : S1x32.Idx → Elt Ideal .f32) (ix2 (0 : Fin 1) h))
      = fun h => newB0 (F := Ideal) (m ((c : Thread nD τ).loc main_arg2)) ((dat0 (V1 m ρ) c).arrAt 9 cfg0.N) (ix2 (0 : Fin 1) h) := by
    funext h
    show (V3 m ρ c main_v27 : S1x32.Idx → Elt Ideal .f32) (ix2 (0 : Fin 1) h) = _
    rw [V3_b0 m ρ c]
  have h4 : (fun j h => (V3 m ρ c (Pipeline.arrRef spec1 4) : S32x16.Idx → Elt Ideal .bf16) (ix2 h j))
      = fun j h => newW1 (F := Ideal) (m ((c : Thread nD τ).loc main_arg3)) ((dat0 (V1 m ρ) c).arrAt 10 cfg0.N) (ix2 j h) := by
    funext j h
    show (V3 m ρ c main_v43 : S32x16.Idx → Elt Ideal .bf16) (ix2 h j) = _
    rw [V3_w1T m ρ c]
    exact HostIdx.stagedT_16x32_apply _ h j
  have h5 : (fun j => (V3 m ρ c (Pipeline.arrRef spec1 5) : S1x16.Idx → Elt Ideal .f32) (ix2 (0 : Fin 1) j))
      = fun j => newB1 (F := Ideal) (m ((c : Thread nD τ).loc main_arg4)) ((dat0 (V1 m ρ) c).arrAt 11 cfg0.N) (ix2 (0 : Fin 1) j) := by
    funext j
    show (V3 m ρ c main_v39 : S1x16.Idx → Elt Ideal .f32) (ix2 (0 : Fin 1) j) = _
    rw [V3_b1 m ρ c]
  exact congrFun (congrFun (retrieve_congr h0 h1 h2 h3 h4 h5) n) j

end Cert.KernelIdeal.Result

end
-- ==== Proof.RefGrad.lean ====
/-
  The reference program's four gradients, sums over the rows of the derivatives of `Cert.Spec.Ref`, and the four new
  parameters `a · p − θ · ∂p`.
-/
import proofs.«144527_j2001454760825_2_alg».proof.Proof.RefBwd

noncomputable section

namespace Cert.RefSide

open Cert.ReferenceIdeal Cert.ReferenceIdeal.Read Idealize.ShloMosaic Idealize.ShloMosaic.ValueIdx

/-- The gradient in `b1`: the sum over the rows of `dz1`. -/
theorem v68_eq (x0 : Arr S1048576x16) (x1 : Arr S32x16) (x2 : Arr S32) (x3 : Arr S16x32) (x4 : Arr S16)
    (x6 x7 : Arr S16x16) (i : S16.Idx) :
    val_main_v68 (F := Ideal) x0 x1 x2 x3 x4 x6 x7 i = Spec.Ref.gb1 (Fw x0 x1 x2 x3 x4 x6 x7) (i 0) := by
  rw [val_main_v68_apply, val_main_cst_16_apply, Fin.sum_univ_one, val_main_v67_apply, val_main_v66_apply,
    val_main_cst_15_apply]
  simp only [Ideal.ofBits_def, Ideal.ofBits_zero_f32, zero_add]
  unfold Spec.Ref.gb1
  refine Finset.sum_congr rfl fun k _ => ?_
  have e : idx_main_v66 (idx_main_v67 (idx_main_v68 i 0)) k = ix2 (n1 := 16) k (i 0) := by
    funext a
    match a with
    | ⟨0, _⟩ => rfl
    | ⟨1, _⟩ => exact Fin.ext (by show 0 * 16 + (i 0).val = (i 0).val; omega)
  rw [e, v65_eq]
  try rfl

/-- The gradient in `W1`: `dz1ᵀ · u`. -/
theorem v72_eq (x0 : Arr S1048576x16) (x1 : Arr S32x16) (x2 : Arr S32) (x3 : Arr S16x32) (x4 : Arr S16)
    (x6 x7 : Arr S16x16) (i : S16x32.Idx) :
    val_main_v72 (F := Ideal) x0 x1 x2 x3 x4 x6 x7 i = Spec.Ref.gW1 (Fw x0 x1 x2 x3 x4 x6 x7) (i 0) (i 1) := by
  rw [val_main_v72_apply, val_main_v70_apply, val_main_v69_apply]
  simp only [v65_eq, v37_eq]
  rfl

/-- The gradient in `b0`: the sum over the rows of `dz0`. -/
theorem v79_eq (x0 : Arr S1048576x16) (x1 : Arr S32x16) (x2 : Arr S32) (x3 : Arr S16x32) (x4 : Arr S16)
    (x6 x7 : Arr S16x16) (i : S32.Idx) :
    val_main_v79 (F := Ideal) x0 x1 x2 x3 x4 x6 x7 i = Spec.Ref.gb0 (Fw x0 x1 x2 x3 x4 x6 x7) (i 0) := by
  rw [val_main_v79_apply, val_main_cst_18_apply, Fin.sum_univ_one, val_main_v78_apply, val_main_v77_apply,
    val_main_cst_17_apply]
  simp only [Ideal.ofBits_def, Ideal.ofBits_zero_f32, zero_add]
  unfold Spec.Ref.gb0
  refine Finset.sum_congr rfl fun k _ => ?_
  have e : idx_main_v77 (idx_main_v78 (idx_main_v79 i 0)) k = ix2 (n1 := 32) k (i 0) := by
    funext a
    match a with
    | ⟨0, _⟩ => rfl
    | ⟨1, _⟩ => exact Fin.ext (by show 0 * 32 + (i 0).val = (i 0).val; omega)
  rw [e, v76_eq]
  try rfl

/-- The gradient in `W0`: `dz0ᵀ · q`. -/
theorem v82_eq (x0 : Arr S1048576x16) (x1 : Arr S32x16) (x2 : Arr S32) (x3 : Arr S16x32) (x4 : Arr S16)
    (x6 x7 : Arr S16x16) (i : S32x16.Idx) :
    val_main_v82 (F := Ideal) x0 x1 x2 x3 x4 x6 x7 i = Spec.Ref.gW0 (Fw x0 x1 x2 x3 x4 x6 x7) (i 0) (i 1) := by
  rw [val_main_v82_apply, val_main_v81_apply, val_main_v80_apply]
  simp only [v76_eq, v22_eq]
  rfl

/-! ### The new parameters -/

theorem new_W0 (x0 : Arr S1048576x16) (x1 : Arr S32x16) (x2 : Arr S32) (x3 : Arr S16x32) (x4 : Arr S16)
    (x6 x7 : Arr S16x16) (h : Fin 32) (j : Fin 16) :
    val_main_v87 (F := Ideal) x0 x1 x2 x3 x4 x6 x7 (ix2 h j)
      = Spec.decay * W0c x1 h j - Spec.theta * Spec.Ref.gW0 (Fw x0 x1 x2 x3 x4 x6 x7) h j := by
  rw [val_main_v87_apply, val_main_v84_apply, val_main_v83_apply, val_main_cst_19_apply, val_main_v86_apply,
    val_main_v85_apply, val_main_cst_20_apply, v82_eq]
  rfl

theorem new_b0 (x0 : Arr S1048576x16) (x1 : Arr S32x16) (x2 : Arr S32) (x3 : Arr S16x32) (x4 : Arr S16)
    (x6 x7 : Arr S16x16) (h : Fin 32) :
    val_main_v92 (F := Ideal) x0 x1 x2 x3 x4 x6 x7 (ix1 h)
      = Spec.decay * b0c x2 h - Spec.theta * Spec.Ref.gb0 (Fw x0 x1 x2 x3 x4 x6 x7) h := by
  rw [val_main_v92_apply, val_main_v89_apply, val_main_v88_apply, val_main_cst_21_apply, val_main_v91_apply,
    val_main_v90_apply, val_main_cst_22_apply, v79_eq]
  rfl

theorem new_W1 (x0 : Arr S1048576x16) (x1 : Arr S32x16) (x2 : Arr S32) (x3 : Arr S16x32) (x4 : Arr S16)
    (x6 x7 : Arr S16x16) (j : Fin 16) (h : Fin 32) :
    val_main_v97 (F := Ideal) x0 x1 x2 x3 x4 x6 x7 (ix2 j h)
      = Spec.decay * W1c x3 j h - Spec.theta * Spec.Ref.gW1 (Fw x0 x1 x2 x3 x4 x6 x7) j h := by
  rw [val_main_v97_apply, val_main_v94_apply, val_main_v93_apply, val_main_cst_23_apply, val_main_v96_apply,
    val_main_v95_apply, val_main_cst_24_apply, v72_eq]
  rfl

theorem new_b1 (x0 : Arr S1048576x16) (x1 : Arr S32x16) (x2 : Arr S32) (x3 : Arr S16x32) (x4 : Arr S16)
    (x6 x7 : Arr S16x16) (j : Fin 16) :
    val_main_v102 (F := Ideal) x0 x1 x2 x3 x4 x6 x7 (ix1 j)
      = Spec.decay * b1c x4 j - Spec.theta * Spec.Ref.gb1 (Fw x0 x1 x2 x3 x4 x6 x7) j := by
  rw [val_main_v102_apply, val_main_v99_apply, val_main_v98_apply, val_main_cst_25_apply, val_main_v101_apply,
    val_main_v100_apply, val_main_cst_26_apply, v68_eq]
  rfl

end Cert.RefSide

end
-- ==== Proof.RefRetrieve.lean ====
/-
  The reference program's read-out: the network with the four new parameters at `silu (normalise (X · WQᵀ))`,
  read index by index as `Cert.Spec.retrieve`.
-/
import proofs.«144527_j2001454760825_2_alg».proof.Proof.RefFwd

noncomputable section

namespace Cert.RefSide

open Cert.ReferenceIdeal Cert.ReferenceIdeal.Read Idealize.ShloMosaic Idealize.ShloMosaic.ValueIdx

/-- The new first-layer weight as a function of hidden unit and input. -/
abbrev W0n (x0 : Arr S1048576x16) (x1 : Arr S32x16) (x2 : Arr S32) (x3 : Arr S16x32) (x4 : Arr S16)
    (x6 x7 : Arr S16x16) : Fin 32 → Fin 16 → EReal :=
  fun h j => val_main_v87 (F := Ideal) x0 x1 x2 x3 x4 x6 x7 (ix2 h j)
/-- The new first-layer bias. -/
abbrev b0n (x0 : Arr S1048576x16) (x1 : Arr S32x16) (x2 : Arr S32) (x3 : Arr S16x32) (x4 : Arr S16)
    (x6 x7 : Arr S16x16) : Fin 32 → EReal :=
  fun h => val_main_v92 (F := Ideal) x0 x1 x2 x3 x4 x6 x7 (ix1 h)
/-- The new second-layer weight as a function of output and hidden unit. -/
abbrev W1n (x0 : Arr S1048576x16) (x1 : Arr S32x16) (x2 : Arr S32) (x3 : Arr S16x32) (x4 : Arr S16)
    (x6 x7 : Arr S16x16) : Fin 16 → Fin 32 → EReal :=
  fun j h => val_main_v97 (F := Ideal) x0 x1 x2 x3 x4 x6 x7 (ix2 j h)
/-- The new second-layer bias. -/
abbrev b1n (x0 : Arr S1048576x16) (x1 : Arr S32x16) (x2 : Arr S32) (x3 : Arr S16x32) (x4 : Arr S16)
    (x6 x7 : Arr S16x16) : Fin 16 → EReal :=
  fun j => val_main_v102 (F := Ideal) x0 x1 x2 x3 x4 x6 x7 (ix1 j)

/-! ### The input of the network: `silu (normalise (X · WQᵀ))` -/

theorem v103_eq (x7 : Arr S16x16) (i : S16x16.Idx) : val_main_v103 (F := Ideal) x7 i = Mc x7 (i 1) (i 0) := by
  rw [val_main_v103_apply]; exact congrArg x7 (by idx2)

theorem v104_eq (x0 : Arr S1048576x16) (x7 : Arr S16x16) (i : S1048576x16.Idx) :
    val_main_v104 (F := Ideal) x0 x7 i = Spec.proj (Xc x0) (Mc x7) (i 0) (i 1) := by
  rw [val_main_v104_apply]
  unfold Spec.proj
  refine Finset.sum_congr rfl fun k _ => ?_
  have el : lidx_main_v104 i k = ix2 (i 0) k := by idx2
  rw [v103_eq]
  exact congrArg (fun t => x0 t * Mc x7 (i 1) k) el

theorem v109_eq (x0 : Arr S1048576x16) (x7 : Arr S16x16) (i : S1048576x16.Idx) :
    val_main_v109 (F := Ideal) x0 x7 i = Spec.normalize (Spec.proj (Xc x0) (Mc x7)) (i 0) (i 1) := by
  rw [val_main_v109_apply, val_main_v108_apply, val_main_v107_apply, val_main_v106_apply, val_main_cst_27_apply,
    val_main_v105_apply, val_main_call1_v2_apply, val_main_call1_v1_apply, val_main_call1_cst_apply]
  simp only [val_main_call1_v0_apply, v104_eq, Ideal.hostDivf_def, Ideal.maximumf_def, Ideal.hostUnary_sqrt_def,
    Ideal.ofBits_def, Ideal.mulf_def, Ideal.ofBits_zero_f32, zero_add]
  rfl

theorem v116_eq (x0 : Arr S1048576x16) (x7 : Arr S16x16) (i : S1048576x16.Idx) :
    val_main_v116 (F := Ideal) x0 x7 i = Spec.silu (Spec.normalize (Spec.proj (Xc x0) (Mc x7)) (i 0) (i 1)) := by
  rw [val_main_v116_apply, val_main_v115_apply, val_main_v114_apply, val_main_cst_29_apply, val_main_v113_apply,
    val_main_v112_apply, val_main_cst_28_apply, val_main_v111_apply, val_main_v110_apply, v109_eq]
  simp only [Ideal.mulf_def, Ideal.hostDivf_def, Ideal.ofBits_def, Ideal.addf_def, Ideal.hostUnary_exp_def,
    Ideal.hostNegf_def, Ideal.negf_def]
  exact silu_eq _

/-! ### The first layer with the new parameters -/

theorem v117_eq (x0 : Arr S1048576x16) (x1 : Arr S32x16) (x2 : Arr S32) (x3 : Arr S16x32) (x4 : Arr S16)
    (x6 x7 : Arr S16x16) (i : S16x32.Idx) :
    val_main_v117 (F := Ideal) x0 x1 x2 x3 x4 x6 x7 i = W0n x0 x1 x2 x3 x4 x6 x7 (i 1) (i 0) := by
  rw [val_main_v117_apply]; exact congrArg (val_main_v87 (F := Ideal) x0 x1 x2 x3 x4 x6 x7) (by idx2)

theorem v120_eq (x0 : Arr S1048576x16) (x1 : Arr S32x16) (x2 : Arr S32) (x3 : Arr S16x32) (x4 : Arr S16)
    (x6 x7 : Arr S16x16) (i : S1048576x32.Idx) :
    val_main_v120 (F := Ideal) x0 x1 x2 x3 x4 x6 x7 i = b0n x0 x1 x2 x3 x4 x6 x7 (i 1) := by
  rw [val_main_v120_apply, val_main_v119_apply]; exact congrArg (val_main_v92 (F := Ideal) x0 x1 x2 x3 x4 x6 x7) (by idx1)

theorem v121_eq (x0 : Arr S1048576x16) (x1 : Arr S32x16) (x2 : Arr S32) (x3 : Arr S16x32) (x4 : Arr S16)
    (x6 x7 : Arr S16x16) (i : S1048576x32.Idx) :
    val_main_v121 (F := Ideal) x0 x1 x2 x3 x4 x6 x7 i
      = Spec.pre0 (fun n j => Spec.silu (Spec.normalize (Spec.proj (Xc x0) (Mc x7)) n j))
          (W0n x0 x1 x2 x3 x4 x6 x7) (b0n x0 x1 x2 x3 x4 x6 x7) (i 0) (i 1) := by
  rw [val_main_v121_apply, val_main_v118_apply, v120_eq]
  simp only [v116_eq, v117_eq, Ideal.addf_def]
  rfl

theorem v127_eq (x0 : Arr S1048576x16) (x1 : Arr S32x16) (x2 : Arr S32) (x3 : Arr S16x32) (x4 : Arr S16)
    (x6 x7 : Arr S16x16) (i : S1048576x32.Idx) :
    val_main_v127 (F := Ideal) x0 x1 x2 x3 x4 x6 x7 i = Spec.sig (val_main_v121 (F := Ideal) x0 x1 x2 x3 x4 x6 x7 i) := by
  rw [val_main_v127_apply, val_main_v126_apply, val_main_cst_31_apply, val_main_v125_apply, val_main_v124_apply,
    val_main_cst_30_apply, val_main_v123_apply, val_main_v122_apply]
  simp only [Ideal.hostDivf_def, Ideal.ofBits_def, Ideal.addf_def, Ideal.hostUnary_exp_def, Ideal.hostNegf_def,
    Ideal.negf_def]
  exact sig_eq _

theorem v128_eq (x0 : Arr S1048576x16) (x1 : Arr S32x16) (x2 : Arr S32) (x3 : Arr S16x32) (x4 : Arr S16)
    (x6 x7 : Arr S16x16) (i : S1048576x32.Idx) :
    val_main_v128 (F := Ideal) x0 x1 x2 x3 x4 x6 x7 i
      = Spec.hidden (fun n j => Spec.silu (Spec.normalize (Spec.proj (Xc x0) (Mc x7)) n j))
          (W0n x0 x1 x2 x3 x4 x6 x7) (b0n x0 x1 x2 x3 x4 x6 x7) (i 0) (i 1) := by
  rw [val_main_v128_apply, v127_eq, v121_eq]
  rfl

/-! ### The second layer with the new parameters -/

theorem v129_eq (x0 : Arr S1048576x16) (x1 : Arr S32x16) (x2 : Arr S32) (x3 : Arr S16x32) (x4 : Arr S16)
    (x6 x7 : Arr S16x16) (i : S32x16.Idx) :
    val_main_v129 (F := Ideal) x0 x1 x2 x3 x4 x6 x7 i = W1n x0 x1 x2 x3 x4 x6 x7 (i 1) (i 0) := by
  rw [val_main_v129_apply]; exact congrArg (val_main_v97 (F := Ideal) x0 x1 x2 x3 x4 x6 x7) (by idx2)

theorem v132_eq (x0 : Arr S1048576x16) (x1 : Arr S32x16) (x2 : Arr S32) (x3 : Arr S16x32) (x4 : Arr S16)
    (x6 x7 : Arr S16x16) (i : S1048576x16.Idx) :
    val_main_v132 (F := Ideal) x0 x1 x2 x3 x4 x6 x7 i = b1n x0 x1 x2 x3 x4 x6 x7 (i 1) := by
  rw [val_main_v132_apply, val_main_v131_apply]; exact congrArg (val_main_v102 (F := Ideal) x0 x1 x2 x3 x4 x6 x7) (by idx1)

theorem v133_eq (x0 : Arr S1048576x16) (x1 : Arr S32x16) (x2 : Arr S32) (x3 : Arr S16x32) (x4 : Arr S16)
    (x6 x7 : Arr S16x16) (i : S1048576x16.Idx) :
    val_main_v133 (F := Ideal) x0 x1 x2 x3 x4 x6 x7 i
      = Spec.pre1 (Spec.hidden (fun n j => Spec.silu (Spec.normalize (Spec.proj (Xc x0) (Mc x7)) n j))
          (W0n x0 x1 x2 x3 x4 x6 x7) (b0n x0 x1 x2 x3 x4 x6 x7)) (W1n x0 x1 x2 x3 x4 x6 x7) (b1n x0 x1 x2 x3 x4 x6 x7) (i 0) (i 1) := by
  rw [val_main_v133_apply, val_main_v130_apply, v132_eq]
  simp only [v128_eq, v129_eq, Ideal.addf_def]
  rfl

theorem v139_eq (x0 : Arr S1048576x16) (x1 : Arr S32x16) (x2 : Arr S32) (x3 : Arr S16x32) (x4 : Arr S16)
    (x6 x7 : Arr S16x16) (i : S1048576x16.Idx) :
    val_main_v139 (F := Ideal) x0 x1 x2 x3 x4 x6 x7 i = Spec.sig (val_main_v133 (F := Ideal) x0 x1 x2 x3 x4 x6 x7 i) := by
  rw [val_main_v139_apply, val_main_v138_apply, val_main_cst_33_apply, val_main_v137_apply, val_main_v136_apply,
    val_main_cst_32_apply, val_main_v135_apply, val_main_v134_apply]
  simp only [Ideal.hostDivf_def, Ideal.ofBits_def, Ideal.addf_def, Ideal.hostUnary_exp_def, Ideal.hostNegf_def,
    Ideal.negf_def]
  exact sig_eq _

/-- The program's result is the read-out at the new parameters. -/
theorem result (x0 : Arr S1048576x16) (x1 : Arr S32x16) (x2 : Arr S32) (x3 : Arr S16x32) (x4 : Arr S16)
    (x6 x7 : Arr S16x16) (n : Fin 1048576) (j : Fin 16) :
    val_main_v140 (F := Ideal) x0 x1 x2 x3 x4 x6 x7 (ix2 n j)
      = Spec.retrieve (Xc x0) (Mc x7) (W0n x0 x1 x2 x3 x4 x6 x7) (b0n x0 x1 x2 x3 x4 x6 x7) (W1n x0 x1 x2 x3 x4 x6 x7) (b1n x0 x1 x2 x3 x4 x6 x7) n j := by
  rw [val_main_v140_apply, v139_eq, v133_eq]
  rfl

end Cert.RefSide

end
-- ==== Proof.RefResult.lean ====
/-
  The reference program's result in the specification's terms alone: the read-out at the parameters after one
  gradient step of the reference's backward pass.
-/
import proofs.«144527_j2001454760825_2_alg».proof.Proof.RefGrad
import proofs.«144527_j2001454760825_2_alg».proof.Proof.RefRetrieve

noncomputable section

namespace Cert.RefSide

open Cert.ReferenceIdeal Cert.ReferenceIdeal.Read Idealize.ShloMosaic Idealize.ShloMosaic.ValueIdx

theorem W0n_eq (x0 : Arr S1048576x16) (x1 : Arr S32x16) (x2 : Arr S32) (x3 : Arr S16x32) (x4 : Arr S16)
    (x6 x7 : Arr S16x16) :
    W0n x0 x1 x2 x3 x4 x6 x7 = fun h j => Spec.decay * W0c x1 h j - Spec.theta * Spec.Ref.gW0 (Fw x0 x1 x2 x3 x4 x6 x7) h j :=
  funext fun h => funext fun j => new_W0 x0 x1 x2 x3 x4 x6 x7 h j

theorem b0n_eq (x0 : Arr S1048576x16) (x1 : Arr S32x16) (x2 : Arr S32) (x3 : Arr S16x32) (x4 : Arr S16)
    (x6 x7 : Arr S16x16) :
    b0n x0 x1 x2 x3 x4 x6 x7 = fun h => Spec.decay * b0c x2 h - Spec.theta * Spec.Ref.gb0 (Fw x0 x1 x2 x3 x4 x6 x7) h :=
  funext fun h => new_b0 x0 x1 x2 x3 x4 x6 x7 h

theorem W1n_eq (x0 : Arr S1048576x16) (x1 : Arr S32x16) (x2 : Arr S32) (x3 : Arr S16x32) (x4 : Arr S16)
    (x6 x7 : Arr S16x16) :
    W1n x0 x1 x2 x3 x4 x6 x7 = fun j h => Spec.decay * W1c x3 j h - Spec.theta * Spec.Ref.gW1 (Fw x0 x1 x2 x3 x4 x6 x7) j h :=
  funext fun j => funext fun h => new_W1 x0 x1 x2 x3 x4 x6 x7 j h

theorem b1n_eq (x0 : Arr S1048576x16) (x1 : Arr S32x16) (x2 : Arr S32) (x3 : Arr S16x32) (x4 : Arr S16)
    (x6 x7 : Arr S16x16) :
    b1n x0 x1 x2 x3 x4 x6 x7 = fun j => Spec.decay * b1c x4 j - Spec.theta * Spec.Ref.gb1 (Fw x0 x1 x2 x3 x4 x6 x7) j :=
  funext fun j => new_b1 x0 x1 x2 x3 x4 x6 x7 j

/-- The program's result is the read-out at `a · p − θ · ∂p` for each of the four parameters `p`. -/
theorem result_spec (x0 : Arr S1048576x16) (x1 : Arr S32x16) (x2 : Arr S32) (x3 : Arr S16x32) (x4 : Arr S16)
    (x6 x7 : Arr S16x16) (n : Fin 1048576) (j : Fin 16) :
    val_main_v140 (F := Ideal) x0 x1 x2 x3 x4 x6 x7 (ix2 n j)
      = Spec.retrieve (Xc x0) (Mc x7)
          (fun h j => Spec.decay * W0c x1 h j - Spec.theta * Spec.Ref.gW0 (Fw x0 x1 x2 x3 x4 x6 x7) h j)
          (fun h => Spec.decay * b0c x2 h - Spec.theta * Spec.Ref.gb0 (Fw x0 x1 x2 x3 x4 x6 x7) h)
          (fun j h => Spec.decay * W1c x3 j h - Spec.theta * Spec.Ref.gW1 (Fw x0 x1 x2 x3 x4 x6 x7) j h)
          (fun j => Spec.decay * b1c x4 j - Spec.theta * Spec.Ref.gb1 (Fw x0 x1 x2 x3 x4 x6 x7) j) n j := by
  rw [result, W0n_eq, b0n_eq, W1n_eq, b1n_eq]

end Cert.RefSide

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«144527_j2001454760825_2_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.GradReal.lean ====
/-
  The two backward passes over the real numbers.

  A two-layer network `silu (silu (q · W0ᵀ + b0) · W1ᵀ + b1)` is differentiated at its parameters for the mean of
  the squared error.  Written with `s = sig z = (1 + e^(-z))⁻¹`, the derivative of `silu z = z · s` is
  `s + z · s · (1 − s)`.

  One order of evaluation (`Ker`) carries the plain error `y − v` through the backward pass and leaves every
  constant to the end.  The other (`Ref`) lets each row's error enter as `c · (2 · (y − v))` for a constant `c`
  (the reciprocal of the number of entries) and writes the derivative of `silu` as the sum of the two products of
  the product rule.  Over the reals a constant factor passes through every sum and product, so each quantity of the
  second order is `2 · c` times the same quantity of the first, and a step `θ` of the second equals a step
  `θ · (2 · c)` of the first.
-/
import Idealize.ShloMosaic.PureOps.Ideal

noncomputable section

open scoped BigOperators

namespace Cert.GradReal

variable {N : ℕ}

/-- The logistic function on the reals. -/
def rsig (z : ℝ) : ℝ := (1 + Real.exp (-z))⁻¹
/-- `z · sig z` on the reals. -/
def rsilu (z : ℝ) : ℝ := z * rsig z
/-- The derivative of `silu` at `z`, written with `s = sig z`. -/
def rdsilu (z s : ℝ) : ℝ := s + z * s * (1 - s)

/-- The forward pass with real entries: query, target, second-layer weight, and the two pre-activations. -/
structure RFwd (N : ℕ) where
  q : Fin N → Fin 16 → ℝ
  v : Fin N → Fin 16 → ℝ
  W1 : Fin 16 → Fin 32 → ℝ
  z0 : Fin N → Fin 32 → ℝ
  z1 : Fin N → Fin 16 → ℝ

namespace RFwd
variable (r : RFwd N)
/-- The hidden activations `silu z0`. -/
def u (n : Fin N) (h : Fin 32) : ℝ := rsilu (r.z0 n h)
/-- The error `silu z1 − v`. -/
def err (n : Fin N) (j : Fin 16) : ℝ := rsilu (r.z1 n j) - r.v n j
end RFwd

/-! ### The order that keeps the constants out -/
namespace Ker
variable (r : RFwd N)
def dz1 (n : Fin N) (j : Fin 16) : ℝ := r.err n j * rdsilu (r.z1 n j) (rsig (r.z1 n j))
def dh (n : Fin N) (h : Fin 32) : ℝ := ∑ j, dz1 r n j * r.W1 j h
def dz0 (n : Fin N) (h : Fin 32) : ℝ := dh r n h * rdsilu (r.z0 n h) (rsig (r.z0 n h))
def gW1 (j : Fin 16) (h : Fin 32) : ℝ := ∑ n, dz1 r n j * r.u n h
def gb1 (j : Fin 16) : ℝ := ∑ n, dz1 r n j
def gW0 (h : Fin 32) (j : Fin 16) : ℝ := ∑ n, dz0 r n h * r.q n j
def gb0 (h : Fin 32) : ℝ := ∑ n, dz0 r n h
end Ker

/-! ### The order in which each row's error enters scaled by `c` -/
namespace Ref
variable (c : ℝ) (r : RFwd N)
/-- A row's error as it enters: `c · (2 · (y − v))`. -/
def g (n : Fin N) (j : Fin 16) : ℝ := c * (2 * r.err n j)
def dz1 (n : Fin N) (j : Fin 16) : ℝ :=
  g c r n j * rsig (r.z1 n j) + r.z1 n j * g c r n j * (rsig (r.z1 n j) * (1 - rsig (r.z1 n j)))
def dh (n : Fin N) (h : Fin 32) : ℝ := ∑ j, dz1 c r n j * r.W1 j h
def dz0 (n : Fin N) (h : Fin 32) : ℝ :=
  dh c r n h * rsig (r.z0 n h) + r.z0 n h * dh c r n h * (rsig (r.z0 n h) * (1 - rsig (r.z0 n h)))
def gW1 (j : Fin 16) (h : Fin 32) : ℝ := ∑ n, dz1 c r n j * r.u n h
def gb1 (j : Fin 16) : ℝ := ∑ n, dz1 c r n j
def gW0 (h : Fin 32) (j : Fin 16) : ℝ := ∑ n, dz0 c r n h * r.q n j
def gb0 (h : Fin 32) : ℝ := ∑ n, dz0 c r n h
end Ref

variable (c : ℝ) (r : RFwd N)

/-- The product rule written as two products is the error times the derivative of `silu`, up to `2 · c`. -/
theorem dz1_eq (n : Fin N) (j : Fin 16) : Ref.dz1 c r n j = (2 * c) * Ker.dz1 r n j := by
  unfold Ref.dz1 Ref.g Ker.dz1 rdsilu
  ring

/-- The factor passes through the sum over the output width. -/
theorem dh_eq (n : Fin N) (h : Fin 32) : Ref.dh c r n h = (2 * c) * Ker.dh r n h := by
  unfold Ref.dh Ker.dh
  rw [Finset.mul_sum]
  exact Finset.sum_congr rfl fun j _ => by rw [dz1_eq]; ring

/-- The factor passes through the derivative of the first activation. -/
theorem dz0_eq (n : Fin N) (h : Fin 32) : Ref.dz0 c r n h = (2 * c) * Ker.dz0 r n h := by
  unfold Ref.dz0 Ker.dz0 rdsilu
  rw [dh_eq]
  ring

/-- The gradient of the second weight: the factor passes through the sum over the rows. -/
theorem gW1_eq (j : Fin 16) (h : Fin 32) : Ref.gW1 c r j h = (2 * c) * Ker.gW1 r j h := by
  unfold Ref.gW1 Ker.gW1
  rw [Finset.mul_sum]
  exact Finset.sum_congr rfl fun n _ => by rw [dz1_eq]; ring

/-- The gradient of the second bias. -/
theorem gb1_eq (j : Fin 16) : Ref.gb1 c r j = (2 * c) * Ker.gb1 r j := by
  unfold Ref.gb1 Ker.gb1
  rw [Finset.mul_sum]
  exact Finset.sum_congr rfl fun n _ => dz1_eq c r n j

/-- The gradient of the first weight. -/
theorem gW0_eq (h : Fin 32) (j : Fin 16) : Ref.gW0 c r h j = (2 * c) * Ker.gW0 r h j := by
  unfold Ref.gW0 Ker.gW0
  rw [Finset.mul_sum]
  exact Finset.sum_congr rfl fun n _ => by rw [dz0_eq]; ring

/-- The gradient of the first bias. -/
theorem gb0_eq (h : Fin 32) : Ref.gb0 c r h = (2 * c) * Ker.gb0 r h := by
  unfold Ref.gb0 Ker.gb0
  rw [Finset.mul_sum]
  exact Finset.sum_congr rfl fun n _ => dz0_eq c r n h

/-- A step `θ` along `(2 · c) · g` is a step `θ · (2 · c)` along `g`. -/
theorem step_eq (a w θ θs gRef gKer : ℝ) (hθ : θs = θ * (2 * c)) (hg : gRef = (2 * c) * gKer) :
    a * w - θ * gRef = a * w - θs * gKer := by
  rw [hθ, hg]; ring

variable (a w θ θs : ℝ) (hθ : θs = θ * (2 * c))
include hθ

/-- The new first weight is the same in both orders. -/
theorem step_gW0 (h : Fin 32) (j : Fin 16) : a * w - θ * Ref.gW0 c r h j = a * w - θs * Ker.gW0 r h j :=
  step_eq c a w θ θs _ _ hθ (gW0_eq c r h j)

/-- The new first bias is the same in both orders. -/
theorem step_gb0 (h : Fin 32) : a * w - θ * Ref.gb0 c r h = a * w - θs * Ker.gb0 r h :=
  step_eq c a w θ θs _ _ hθ (gb0_eq c r h)

/-- The new second weight is the same in both orders. -/
theorem step_gW1 (j : Fin 16) (h : Fin 32) : a * w - θ * Ref.gW1 c r j h = a * w - θs * Ker.gW1 r j h :=
  step_eq c a w θ θs _ _ hθ (gW1_eq c r j h)

/-- The new second bias is the same in both orders. -/
theorem step_gb1 (j : Fin 16) : a * w - θ * Ref.gb1 c r j = a * w - θs * Ker.gb1 r j :=
  step_eq c a w θ θs _ _ hθ (gb1_eq c r j)

end Cert.GradReal

end
-- ==== Proof.GradAgree.lean ====
/-
  The two backward passes agree on real entries.

  `Cert.Spec` states both backward passes on the extended reals.  When the five arrays of the forward pass are
  coercions of real arrays, every quantity of either backward pass is the coercion of the same quantity computed over
  the reals (`Cert.GradReal`): the operations involved are sums, products, differences and the logistic function,
  each of which maps real entries to the real result.  The float constants are real numbers too:
  `θ = 13421773 · 2⁻²⁸`, the kernel's step `13421773 · 2⁻⁵¹`, the count `2²⁴`, and `2`, `1`.  Since
  `13421773 · 2⁻⁵¹ = (13421773 · 2⁻²⁸) · (2 · 2⁻²⁴)`, the real statement gives that the new parameters
  `a · w − θ · ∂w` of the two orders of evaluation are equal.
-/
import Idealize.ShloMosaic.PureOps.Ideal
import proofs.«144527_j2001454760825_2_alg».proof.Proof.Spec
import proofs.«144527_j2001454760825_2_alg».proof.Proof.LibRealEntries
import proofs.«144527_j2001454760825_2_alg».proof.Proof.GradReal

noncomputable section

open scoped BigOperators

namespace Cert.GradReal

open Idealize.ShloMosaic

variable {N : ℕ}

/-- A forward pass with real entries, read on the extended reals. -/
def RFwd.toFwd (r : RFwd N) : Cert.Spec.Fwd N where
  q := fun n j => (r.q n j : EReal)
  v := fun n j => (r.v n j : EReal)
  W1 := fun j h => (r.W1 j h : EReal)
  z0 := fun n h => (r.z0 n h : EReal)
  z1 := fun n j => (r.z1 n j : EReal)

end Cert.GradReal

namespace Cert.GradAgree

open Idealize.ShloMosaic Idealize.ShloMosaic.RealEntries Cert.GradReal

variable {N : ℕ}

/-! ### The float constants as real numbers -/

/-- The reference's step is `13421773 · 2⁻²⁸`. -/
theorem theta_eq : Cert.Spec.theta = ((13421773 * 2 ^ (-28 : ℤ) : ℝ) : EReal) := by
  simp [Ideal.ofBits, Ideal.ieee, -EReal.coe_mul]

/-- The kernel's step is `13421773 · 2⁻⁵¹`. -/
theorem thetaScaled_eq : Cert.Spec.thetaScaled = ((13421773 * 2 ^ (-51 : ℤ) : ℝ) : EReal) := by
  simp [Ideal.ofBits, Ideal.ieee, -EReal.coe_mul]

/-- The count is `2²⁴ = 16777216`. -/
theorem count_eq : Cert.Spec.count = ((16777216 : ℝ) : EReal) := by
  simp [Ideal.ofBits, Ideal.ieee, -EReal.coe_mul]; norm_num

/-- The constant `2`. -/
theorem two_eq : Cert.Spec.two = ((2 : ℝ) : EReal) := by
  simp [Ideal.ofBits, Ideal.ieee, -EReal.coe_mul]; norm_num

/-- The constant `1`. -/
theorem one_eq : Cert.Spec.one = ((1 : ℝ) : EReal) := by
  simp [Ideal.ofBits, Ideal.ieee, -EReal.coe_mul]; norm_num

/-- The decay is `16760439 · 2⁻²⁴`. -/
theorem decay_eq : Cert.Spec.decay = ((16760439 * 2 ^ (-24 : ℤ) : ℝ) : EReal) := by
  simp [Ideal.ofBits, Ideal.ieee, -EReal.coe_mul]

/-- The reciprocal of the count, as the reference forms it, is the real `1 / 2²⁴`. -/
theorem invCount_eq : Ideal.div Cert.Spec.one Cert.Spec.count = (((1 : ℝ) / 16777216 : ℝ) : EReal) := by
  rw [one_eq, count_eq]
  exact div_coe_coe 1 (by norm_num)

/-- The kernel's step is the reference's step times `2 · (1 / 2²⁴)`. -/
theorem step_consts : (13421773 * 2 ^ (-51 : ℤ) : ℝ) = (13421773 * 2 ^ (-28 : ℤ)) * (2 * ((1 : ℝ) / 16777216)) := by
  norm_num

/-! ### The activations on real entries -/

/-- The logistic function of a real entry. -/
theorem sig_coe (z : ℝ) : Cert.Spec.sig (z : EReal) = ((rsig z : ℝ) : EReal) := Ideal.logistic_coe z

/-- `silu` of a real entry. -/
theorem silu_coe (z : ℝ) : Cert.Spec.silu (z : EReal) = ((rsilu z : ℝ) : EReal) := by
  unfold Cert.Spec.silu rsilu
  rw [sig_coe, mul_coe]

/-- The derivative of `silu` on real entries. -/
theorem dsilu_coe (z s : ℝ) : Cert.Spec.dsilu (z : EReal) (s : EReal) = ((rdsilu z s : ℝ) : EReal) := by
  unfold Cert.Spec.dsilu rdsilu
  rw [one_coe, sub_coe, mul_coe, mul_coe, add_coe]

variable (r : RFwd N)

/-- The hidden activations of a real forward pass. -/
theorem u_coe (n : Fin N) (h : Fin 32) : r.toFwd.u n h = ((r.u n h : ℝ) : EReal) := silu_coe _

/-- The error of a real forward pass. -/
theorem err_coe (n : Fin N) (j : Fin 16) : r.toFwd.err n j = ((r.err n j : ℝ) : EReal) := by
  show Cert.Spec.silu ((r.z1 n j : ℝ) : EReal) - ((r.v n j : ℝ) : EReal) = _
  rw [silu_coe, sub_coe]; rfl

/-! ### The kernel's order on real entries -/

theorem ker_dz1_coe (n : Fin N) (j : Fin 16) : Cert.Spec.Ker.dz1 r.toFwd n j = ((Ker.dz1 r n j : ℝ) : EReal) := by
  show r.toFwd.err n j * Cert.Spec.dsilu ((r.z1 n j : ℝ) : EReal) (Cert.Spec.sig ((r.z1 n j : ℝ) : EReal)) = _
  rw [err_coe, sig_coe, dsilu_coe, mul_coe]; rfl

theorem ker_dh_coe (n : Fin N) (h : Fin 32) : Cert.Spec.Ker.dh r.toFwd n h = ((Ker.dh r n h : ℝ) : EReal) := by
  show ∑ j, Cert.Spec.Ker.dz1 r.toFwd n j * ((r.W1 j h : ℝ) : EReal) = _
  simp only [ker_dz1_coe, mul_coe, univ_sum_coe]; rfl

theorem ker_dz0_coe (n : Fin N) (h : Fin 32) : Cert.Spec.Ker.dz0 r.toFwd n h = ((Ker.dz0 r n h : ℝ) : EReal) := by
  show Cert.Spec.Ker.dh r.toFwd n h
      * Cert.Spec.dsilu ((r.z0 n h : ℝ) : EReal) (Cert.Spec.sig ((r.z0 n h : ℝ) : EReal)) = _
  rw [ker_dh_coe, sig_coe, dsilu_coe, mul_coe]; rfl

theorem ker_gW1_coe (j : Fin 16) (h : Fin 32) : Cert.Spec.Ker.gW1 r.toFwd j h = ((Ker.gW1 r j h : ℝ) : EReal) := by
  show ∑ n, Cert.Spec.Ker.dz1 r.toFwd n j * r.toFwd.u n h = _
  simp only [ker_dz1_coe, u_coe, mul_coe, univ_sum_coe]; rfl

theorem ker_gb1_coe (j : Fin 16) : Cert.Spec.Ker.gb1 r.toFwd j = ((Ker.gb1 r j : ℝ) : EReal) := by
  show ∑ n, Cert.Spec.Ker.dz1 r.toFwd n j = _
  simp only [ker_dz1_coe, univ_sum_coe]; rfl

theorem ker_gW0_coe (h : Fin 32) (j : Fin 16) : Cert.Spec.Ker.gW0 r.toFwd h j = ((Ker.gW0 r h j : ℝ) : EReal) := by
  show ∑ n, Cert.Spec.Ker.dz0 r.toFwd n h * ((r.q n j : ℝ) : EReal) = _
  simp only [ker_dz0_coe, mul_coe, univ_sum_coe]; rfl

theorem ker_gb0_coe (h : Fin 32) : Cert.Spec.Ker.gb0 r.toFwd h = ((Ker.gb0 r h : ℝ) : EReal) := by
  show ∑ n, Cert.Spec.Ker.dz0 r.toFwd n h = _
  simp only [ker_dz0_coe, univ_sum_coe]; rfl

/-! ### The reference's order on real entries, with `c = 1 / 2²⁴` -/

/-- The real constant each row's error is scaled by. -/
abbrev cR : ℝ := (1 : ℝ) / 16777216

theorem ref_g_coe (n : Fin N) (j : Fin 16) : Cert.Spec.Ref.g r.toFwd n j = ((Ref.g cR r n j : ℝ) : EReal) := by
  show Ideal.div Cert.Spec.one Cert.Spec.count * (Cert.Spec.two * r.toFwd.err n j) = _
  rw [invCount_eq, two_eq, err_coe, mul_coe, mul_coe]; rfl

theorem ref_dz1_coe (n : Fin N) (j : Fin 16) : Cert.Spec.Ref.dz1 r.toFwd n j = ((Ref.dz1 cR r n j : ℝ) : EReal) := by
  show Cert.Spec.Ref.g r.toFwd n j * Cert.Spec.sig ((r.z1 n j : ℝ) : EReal)
      + ((r.z1 n j : ℝ) : EReal) * Cert.Spec.Ref.g r.toFwd n j
        * (Cert.Spec.sig ((r.z1 n j : ℝ) : EReal) * (Cert.Spec.one - Cert.Spec.sig ((r.z1 n j : ℝ) : EReal))) = _
  simp only [ref_g_coe, sig_coe, one_eq, sub_coe, mul_coe, add_coe]; rfl

theorem ref_dh_coe (n : Fin N) (h : Fin 32) : Cert.Spec.Ref.dh r.toFwd n h = ((Ref.dh cR r n h : ℝ) : EReal) := by
  show ∑ j, Cert.Spec.Ref.dz1 r.toFwd n j * ((r.W1 j h : ℝ) : EReal) = _
  simp only [ref_dz1_coe, mul_coe, univ_sum_coe]; rfl

theorem ref_dz0_coe (n : Fin N) (h : Fin 32) : Cert.Spec.Ref.dz0 r.toFwd n h = ((Ref.dz0 cR r n h : ℝ) : EReal) := by
  show Cert.Spec.Ref.dh r.toFwd n h * Cert.Spec.sig ((r.z0 n h : ℝ) : EReal)
      + ((r.z0 n h : ℝ) : EReal) * Cert.Spec.Ref.dh r.toFwd n h
        * (Cert.Spec.sig ((r.z0 n h : ℝ) : EReal) * (Cert.Spec.one - Cert.Spec.sig ((r.z0 n h : ℝ) : EReal))) = _
  simp only [ref_dh_coe, sig_coe, one_eq, sub_coe, mul_coe, add_coe]; rfl

theorem ref_gW1_coe (j : Fin 16) (h : Fin 32) : Cert.Spec.Ref.gW1 r.toFwd j h = ((Ref.gW1 cR r j h : ℝ) : EReal) := by
  show ∑ n, Cert.Spec.Ref.dz1 r.toFwd n j * r.toFwd.u n h = _
  simp only [ref_dz1_coe, u_coe, mul_coe, univ_sum_coe]; rfl

theorem ref_gb1_coe (j : Fin 16) : Cert.Spec.Ref.gb1 r.toFwd j = ((Ref.gb1 cR r j : ℝ) : EReal) := by
  show ∑ n, Cert.Spec.Ref.dz1 r.toFwd n j = _
  simp only [ref_dz1_coe, univ_sum_coe]; rfl

theorem ref_gW0_coe (h : Fin 32) (j : Fin 16) : Cert.Spec.Ref.gW0 r.toFwd h j = ((Ref.gW0 cR r h j : ℝ) : EReal) := by
  show ∑ n, Cert.Spec.Ref.dz0 r.toFwd n h * ((r.q n j : ℝ) : EReal) = _
  simp only [ref_dz0_coe, mul_coe, univ_sum_coe]; rfl

theorem ref_gb0_coe (h : Fin 32) : Cert.Spec.Ref.gb0 r.toFwd h = ((Ref.gb0 cR r h : ℝ) : EReal) := by
  show ∑ n, Cert.Spec.Ref.dz0 r.toFwd n h = _
  simp only [ref_dz0_coe, univ_sum_coe]; rfl

/-! ### The new parameters agree -/

/-- The step on the extended reals, from its real form: both sides are coercions, and the reals agree. -/
theorem step_agree (w gRef gKer : ℝ)
    (hreal : ∀ a θ θs : ℝ, θs = θ * (2 * cR) → a * w - θ * gRef = a * w - θs * gKer) :
    Cert.Spec.decay * (w : EReal) - Cert.Spec.theta * (gRef : EReal)
      = Cert.Spec.decay * (w : EReal) - Cert.Spec.thetaScaled * (gKer : EReal) := by
  rw [decay_eq, theta_eq, thetaScaled_eq]
  simp only [mul_coe, sub_coe]
  exact congrArg _ (hreal _ _ _ step_consts)

/-- The new first weight is the same in both orders, on real entries. -/
theorem new_W0 (w : ℝ) (h : Fin 32) (j : Fin 16) :
    Cert.Spec.decay * (w : EReal) - Cert.Spec.theta * Cert.Spec.Ref.gW0 r.toFwd h j
      = Cert.Spec.decay * (w : EReal) - Cert.Spec.thetaScaled * Cert.Spec.Ker.gW0 r.toFwd h j := by
  rw [ref_gW0_coe, ker_gW0_coe]
  exact step_agree w _ _ fun a θ θs hθ => step_gW0 cR r a w θ θs hθ h j

/-- The new first bias is the same in both orders, on real entries. -/
theorem new_b0 (w : ℝ) (h : Fin 32) :
    Cert.Spec.decay * (w : EReal) - Cert.Spec.theta * Cert.Spec.Ref.gb0 r.toFwd h
      = Cert.Spec.decay * (w : EReal) - Cert.Spec.thetaScaled * Cert.Spec.Ker.gb0 r.toFwd h := by
  rw [ref_gb0_coe, ker_gb0_coe]
  exact step_agree w _ _ fun a θ θs hθ => step_gb0 cR r a w θ θs hθ h

/-- The new second weight is the same in both orders, on real entries. -/
theorem new_W1 (w : ℝ) (j : Fin 16) (h : Fin 32) :
    Cert.Spec.decay * (w : EReal) - Cert.Spec.theta * Cert.Spec.Ref.gW1 r.toFwd j h
      = Cert.Spec.decay * (w : EReal) - Cert.Spec.thetaScaled * Cert.Spec.Ker.gW1 r.toFwd j h := by
  rw [ref_gW1_coe, ker_gW1_coe]
  exact step_agree w _ _ fun a θ θs hθ => step_gW1 cR r a w θ θs hθ j h

/-- The new second bias is the same in both orders, on real entries. -/
theorem new_b1 (w : ℝ) (j : Fin 16) :
    Cert.Spec.decay * (w : EReal) - Cert.Spec.theta * Cert.Spec.Ref.gb1 r.toFwd j
      = Cert.Spec.decay * (w : EReal) - Cert.Spec.thetaScaled * Cert.Spec.Ker.gb1 r.toFwd j := by
  rw [ref_gb1_coe, ker_gb1_coe]
  exact step_agree w _ _ fun a θ θs hθ => step_gb1 cR r a w θ θs hθ j

/-- Each new parameter, in the kernel's order, is a real number. -/
theorem new_real (w gKer : ℝ) :
    ∃ x : ℝ, Cert.Spec.decay * (w : EReal) - Cert.Spec.thetaScaled * (gKer : EReal) = (x : EReal) := by
  rw [decay_eq, thetaScaled_eq]
  simp only [mul_coe, sub_coe]
  exact ⟨_, rfl⟩

/-! ### The same, for a forward pass given with the hypothesis that its five arrays are real -/

/-- A forward pass whose five arrays are coercions of real arrays is the reading of a real forward pass. -/
theorem exists_toFwd (f : Cert.Spec.Fwd N)
    (hq : ∃ x : Fin N → Fin 16 → ℝ, f.q = fun n j => ((x n j : ℝ) : EReal))
    (hv : ∃ x : Fin N → Fin 16 → ℝ, f.v = fun n j => ((x n j : ℝ) : EReal))
    (hW1 : ∃ x : Fin 16 → Fin 32 → ℝ, f.W1 = fun j h => ((x j h : ℝ) : EReal))
    (hz0 : ∃ x : Fin N → Fin 32 → ℝ, f.z0 = fun n h => ((x n h : ℝ) : EReal))
    (hz1 : ∃ x : Fin N → Fin 16 → ℝ, f.z1 = fun n j => ((x n j : ℝ) : EReal)) :
    ∃ r : RFwd N, f = r.toFwd := by
  obtain ⟨q, hq⟩ := hq
  obtain ⟨v, hv⟩ := hv
  obtain ⟨W1, hW1⟩ := hW1
  obtain ⟨z0, hz0⟩ := hz0
  obtain ⟨z1, hz1⟩ := hz1
  refine ⟨⟨q, v, W1, z0, z1⟩, ?_⟩
  cases f
  simp only at hq hv hW1 hz0 hz1
  subst hq hv hW1 hz0 hz1
  rfl

section Hyp
variable (f : Cert.Spec.Fwd N)
  (hq : ∃ x : Fin N → Fin 16 → ℝ, f.q = fun n j => ((x n j : ℝ) : EReal))
  (hv : ∃ x : Fin N → Fin 16 → ℝ, f.v = fun n j => ((x n j : ℝ) : EReal))
  (hW1 : ∃ x : Fin 16 → Fin 32 → ℝ, f.W1 = fun j h => ((x j h : ℝ) : EReal))
  (hz0 : ∃ x : Fin N → Fin 32 → ℝ, f.z0 = fun n h => ((x n h : ℝ) : EReal))
  (hz1 : ∃ x : Fin N → Fin 16 → ℝ, f.z1 = fun n j => ((x n j : ℝ) : EReal))
include hq hv hW1 hz0 hz1

theorem agree_W0 (w : ℝ) (h : Fin 32) (j : Fin 16) :
    Cert.Spec.decay * (w : EReal) - Cert.Spec.theta * Cert.Spec.Ref.gW0 f h j
      = Cert.Spec.decay * (w : EReal) - Cert.Spec.thetaScaled * Cert.Spec.Ker.gW0 f h j := by
  obtain ⟨r, rfl⟩ := exists_toFwd f hq hv hW1 hz0 hz1
  exact new_W0 r w h j

theorem agree_b0 (w : ℝ) (h : Fin 32) :
    Cert.Spec.decay * (w : EReal) - Cert.Spec.theta * Cert.Spec.Ref.gb0 f h
      = Cert.Spec.decay * (w : EReal) - Cert.Spec.thetaScaled * Cert.Spec.Ker.gb0 f h := by
  obtain ⟨r, rfl⟩ := exists_toFwd f hq hv hW1 hz0 hz1
  exact new_b0 r w h

theorem agree_W1 (w : ℝ) (j : Fin 16) (h : Fin 32) :
    Cert.Spec.decay * (w : EReal) - Cert.Spec.theta * Cert.Spec.Ref.gW1 f j h
      = Cert.Spec.decay * (w : EReal) - Cert.Spec.thetaScaled * Cert.Spec.Ker.gW1 f j h := by
  obtain ⟨r, rfl⟩ := exists_toFwd f hq hv hW1 hz0 hz1
  exact new_W1 r w j h

theorem agree_b1 (w : ℝ) (j : Fin 16) :
    Cert.Spec.decay * (w : EReal) - Cert.Spec.theta * Cert.Spec.Ref.gb1 f j
      = Cert.Spec.decay * (w : EReal) - Cert.Spec.thetaScaled * Cert.Spec.Ker.gb1 f j := by
  obtain ⟨r, rfl⟩ := exists_toFwd f hq hv hW1 hz0 hz1
  exact new_b1 r w j

end Hyp

end Cert.GradAgree

end
-- ==== Proof.FwdReal.lean ====
/-
  The forward pass maps real inputs to real entries.

  Every operation of the forward pass — a finite sum of products, the logistic function, the square root of a sum of
  squares, the larger of that root and the positive constant `ε`, and a division by that (hence positive) bound —
  takes real entries to a real entry.  So when the input and the parameters are coercions of real arrays, the query,
  the target, and the two pre-activations of `Cert.Spec.fwd` are coercions of the real arrays computed by the same
  formulas over the reals, and so are the read-out and the new parameters.

  The two facts that keep the corner values of the extended reals away: `1 + e^x > 0` (inside the logistic
  function), and `max (sqrt s) ε ≥ ε > 0` for the row norm, with `ε = 9223372 · 2⁻⁶³`.
-/
import Idealize.ShloMosaic.PureOps.Ideal
import proofs.«144527_j2001454760825_2_alg».proof.Proof.Spec
import proofs.«144527_j2001454760825_2_alg».proof.Proof.LibRealEntries
import proofs.«144527_j2001454760825_2_alg».proof.Proof.GradReal
import proofs.«144527_j2001454760825_2_alg».proof.Proof.GradAgree

noncomputable section

open scoped BigOperators

namespace Cert.FwdReal

open Idealize.ShloMosaic Idealize.ShloMosaic.RealEntries Cert.GradReal Cert.GradAgree

variable {N : ℕ}

/-- A real vector read on the extended reals. -/
abbrev up1 {α : Type} (x : α → ℝ) : α → EReal := fun a => (x a : EReal)
/-- A real matrix read on the extended reals. -/
abbrev up2 {α β : Type} (x : α → β → ℝ) : α → β → EReal := fun a b => (x a b : EReal)

/-- The lower bound of a row's norm as a real number, `9223372 · 2⁻⁶³`. -/
abbrev epsR : ℝ := 9223372 * 2 ^ (-63 : ℤ)

/-- The constant `ε` is the real `9223372 · 2⁻⁶³`. -/
theorem eps_eq : Cert.Spec.eps = ((epsR : ℝ) : EReal) := by
  simp [Ideal.ofBits, Ideal.ieee, -EReal.coe_mul]

/-- `ε` is positive. -/
theorem epsR_pos : 0 < epsR := by unfold epsR; positivity

/-! ### The forward pass over the reals -/

def rproj (X : Fin N → Fin 16 → ℝ) (W : Fin 16 → Fin 16 → ℝ) (n : Fin N) (j : Fin 16) : ℝ := ∑ k, X n k * W j k
def rrowNorm (a : Fin N → Fin 16 → ℝ) (n : Fin N) : ℝ := max (Real.sqrt (∑ j, a n j * a n j)) epsR
def rnormalize (a : Fin N → Fin 16 → ℝ) (n : Fin N) (j : Fin 16) : ℝ := a n j / rrowNorm a n
def rpre0 (r : Fin N → Fin 16 → ℝ) (W0 : Fin 32 → Fin 16 → ℝ) (b0 : Fin 32 → ℝ) (n : Fin N) (h : Fin 32) : ℝ :=
  (∑ j, r n j * W0 h j) + b0 h
def rpre1 (u : Fin N → Fin 32 → ℝ) (W1 : Fin 16 → Fin 32 → ℝ) (b1 : Fin 16 → ℝ) (n : Fin N) (j : Fin 16) : ℝ :=
  (∑ h, u n h * W1 j h) + b1 j
def rhidden (r : Fin N → Fin 16 → ℝ) (W0 : Fin 32 → Fin 16 → ℝ) (b0 : Fin 32 → ℝ) (n : Fin N) (h : Fin 32) : ℝ :=
  rsilu (rpre0 r W0 b0 n h)
def rmlp (r : Fin N → Fin 16 → ℝ) (W0 : Fin 32 → Fin 16 → ℝ) (b0 : Fin 32 → ℝ) (W1 : Fin 16 → Fin 32 → ℝ)
    (b1 : Fin 16 → ℝ) (n : Fin N) (j : Fin 16) : ℝ :=
  rsilu (rpre1 (rhidden r W0 b0) W1 b1 n j)
def rretrieve (X : Fin N → Fin 16 → ℝ) (WQ : Fin 16 → Fin 16 → ℝ) (W0 : Fin 32 → Fin 16 → ℝ) (b0 : Fin 32 → ℝ)
    (W1 : Fin 16 → Fin 32 → ℝ) (b1 : Fin 16 → ℝ) : Fin N → Fin 16 → ℝ :=
  rmlp (fun n j => rsilu (rnormalize (rproj X WQ) n j)) W0 b0 W1 b1
def rquery (X : Fin N → Fin 16 → ℝ) (WQ : Fin 16 → Fin 16 → ℝ) : Fin N → Fin 16 → ℝ :=
  rnormalize (fun n j => rsilu (rproj X WQ n j))
def rvalue (X : Fin N → Fin 16 → ℝ) (WV : Fin 16 → Fin 16 → ℝ) (n : Fin N) (j : Fin 16) : ℝ :=
  rsilu (rproj X WV n j)
/-- The forward pass of the write over the reals. -/
def rfwd (X : Fin N → Fin 16 → ℝ) (W0 : Fin 32 → Fin 16 → ℝ) (b0 : Fin 32 → ℝ) (W1 : Fin 16 → Fin 32 → ℝ)
    (b1 : Fin 16 → ℝ) (WV WQ : Fin 16 → Fin 16 → ℝ) : RFwd N where
  q := rquery X WQ
  v := rvalue X WV
  W1 := W1
  z0 := rpre0 (rquery X WQ) W0 b0
  z1 := rpre1 (rhidden (rquery X WQ) W0 b0) W1 b1

/-! ### Each stage on real entries -/

/-- A projection of real arrays is real. -/
theorem proj_coe (X : Fin N → Fin 16 → ℝ) (W : Fin 16 → Fin 16 → ℝ) :
    Cert.Spec.proj (up2 X) (up2 W) = up2 (rproj X W) := by
  funext n j
  show ∑ k, ((X n k : ℝ) : EReal) * ((W j k : ℝ) : EReal) = _
  simp only [mul_coe, univ_sum_coe]; rfl

/-- The norm of a real row is positive. -/
theorem rrowNorm_pos (a : Fin N → Fin 16 → ℝ) (n : Fin N) : 0 < rrowNorm a n := lt_max_of_lt_right epsR_pos

/-- The norm of a real row is real. -/
theorem rowNorm_coe (a : Fin N → Fin 16 → ℝ) (n : Fin N) :
    Cert.Spec.rowNorm (up2 a) n = ((rrowNorm a n : ℝ) : EReal) := by
  show max (Ideal.sqrt (∑ j, ((a n j : ℝ) : EReal) * ((a n j : ℝ) : EReal))) Cert.Spec.eps = _
  simp only [mul_coe, univ_sum_coe]
  rw [sqrt_coe_of_nonneg (sum_mul_self_nonneg _ _), eps_eq, max_coe]; rfl

/-- A real row divided by its norm is real. -/
theorem normalize_coe (a : Fin N → Fin 16 → ℝ) : Cert.Spec.normalize (up2 a) = up2 (rnormalize a) := by
  funext n j
  show Ideal.div ((a n j : ℝ) : EReal) (Cert.Spec.rowNorm (up2 a) n) = _
  rw [rowNorm_coe, div_coe_coe _ (rrowNorm_pos a n).ne']; rfl

/-- The first pre-activation on real arrays is real. -/
theorem pre0_coe (r : Fin N → Fin 16 → ℝ) (W0 : Fin 32 → Fin 16 → ℝ) (b0 : Fin 32 → ℝ) :
    Cert.Spec.pre0 (up2 r) (up2 W0) (up1 b0) = up2 (rpre0 r W0 b0) := by
  funext n h
  show (∑ j, ((r n j : ℝ) : EReal) * ((W0 h j : ℝ) : EReal)) + ((b0 h : ℝ) : EReal) = _
  simp only [mul_coe, univ_sum_coe, add_coe]; rfl

/-- The second pre-activation on real arrays is real. -/
theorem pre1_coe (u : Fin N → Fin 32 → ℝ) (W1 : Fin 16 → Fin 32 → ℝ) (b1 : Fin 16 → ℝ) :
    Cert.Spec.pre1 (up2 u) (up2 W1) (up1 b1) = up2 (rpre1 u W1 b1) := by
  funext n j
  show (∑ h, ((u n h : ℝ) : EReal) * ((W1 j h : ℝ) : EReal)) + ((b1 j : ℝ) : EReal) = _
  simp only [mul_coe, univ_sum_coe, add_coe]; rfl

/-- The hidden activations on real arrays are real. -/
theorem hidden_coe (r : Fin N → Fin 16 → ℝ) (W0 : Fin 32 → Fin 16 → ℝ) (b0 : Fin 32 → ℝ) :
    Cert.Spec.hidden (up2 r) (up2 W0) (up1 b0) = up2 (rhidden r W0 b0) := by
  funext n h
  show Cert.Spec.silu (Cert.Spec.pre0 (up2 r) (up2 W0) (up1 b0) n h) = _
  rw [pre0_coe]
  exact silu_coe _

/-- The network on real arrays is real. -/
theorem mlp_coe (r : Fin N → Fin 16 → ℝ) (W0 : Fin 32 → Fin 16 → ℝ) (b0 : Fin 32 → ℝ) (W1 : Fin 16 → Fin 32 → ℝ)
    (b1 : Fin 16 → ℝ) :
    Cert.Spec.mlp (up2 r) (up2 W0) (up1 b0) (up2 W1) (up1 b1) = up2 (rmlp r W0 b0 W1 b1) := by
  funext n j
  show Cert.Spec.silu (Cert.Spec.pre1 (Cert.Spec.hidden (up2 r) (up2 W0) (up1 b0)) (up2 W1) (up1 b1) n j) = _
  rw [hidden_coe, pre1_coe]
  exact silu_coe _

/-- `silu` applied entrywise to a real array is real. -/
theorem silu_arr_coe (a : Fin N → Fin 16 → ℝ) :
    (fun n j => Cert.Spec.silu (up2 a n j)) = up2 (fun n j => rsilu (a n j)) := by
  funext n j
  exact silu_coe _

/-- The read-out on real arrays is real. -/
theorem retrieve_coe (X : Fin N → Fin 16 → ℝ) (WQ : Fin 16 → Fin 16 → ℝ) (W0 : Fin 32 → Fin 16 → ℝ) (b0 : Fin 32 → ℝ)
    (W1 : Fin 16 → Fin 32 → ℝ) (b1 : Fin 16 → ℝ) :
    Cert.Spec.retrieve (up2 X) (up2 WQ) (up2 W0) (up1 b0) (up2 W1) (up1 b1)
      = up2 (rretrieve X WQ W0 b0 W1 b1) := by
  unfold Cert.Spec.retrieve
  rw [proj_coe, normalize_coe, silu_arr_coe, mlp_coe]; rfl

/-- The query on real arrays is real. -/
theorem query_coe (X : Fin N → Fin 16 → ℝ) (WQ : Fin 16 → Fin 16 → ℝ) :
    Cert.Spec.query (up2 X) (up2 WQ) = up2 (rquery X WQ) := by
  unfold Cert.Spec.query
  rw [proj_coe, silu_arr_coe, normalize_coe]; rfl

/-- The target on real arrays is real. -/
theorem value_coe (X : Fin N → Fin 16 → ℝ) (WV : Fin 16 → Fin 16 → ℝ) :
    Cert.Spec.value (up2 X) (up2 WV) = up2 (rvalue X WV) := by
  funext n j
  show Cert.Spec.silu (Cert.Spec.proj (up2 X) (up2 WV) n j) = _
  rw [proj_coe]
  exact silu_coe _

/-- The forward pass on real arrays is the reading of the real forward pass. -/
theorem fwd_coe (X : Fin N → Fin 16 → ℝ) (W0 : Fin 32 → Fin 16 → ℝ) (b0 : Fin 32 → ℝ) (W1 : Fin 16 → Fin 32 → ℝ)
    (b1 : Fin 16 → ℝ) (WV WQ : Fin 16 → Fin 16 → ℝ) :
    Cert.Spec.fwd (up2 X) (up2 W0) (up1 b0) (up2 W1) (up1 b1) (up2 WV) (up2 WQ)
      = (rfwd X W0 b0 W1 b1 WV WQ).toFwd := by
  unfold Cert.Spec.fwd
  rw [query_coe, value_coe, hidden_coe, pre0_coe, pre1_coe]; rfl

/-! ### The same, from the hypothesis that the inputs are real -/

section Hyp
variable {X : Fin N → Fin 16 → EReal} {W0 : Fin 32 → Fin 16 → EReal} {b0 : Fin 32 → EReal}
  {W1 : Fin 16 → Fin 32 → EReal} {b1 : Fin 16 → EReal} {WV WQ : Fin 16 → Fin 16 → EReal}
  (hX : ∃ x : Fin N → Fin 16 → ℝ, X = fun n k => ((x n k : ℝ) : EReal))
  (hW0 : ∃ x : Fin 32 → Fin 16 → ℝ, W0 = fun h j => ((x h j : ℝ) : EReal))
  (hb0 : ∃ x : Fin 32 → ℝ, b0 = fun h => ((x h : ℝ) : EReal))
  (hW1 : ∃ x : Fin 16 → Fin 32 → ℝ, W1 = fun j h => ((x j h : ℝ) : EReal))
  (hb1 : ∃ x : Fin 16 → ℝ, b1 = fun j => ((x j : ℝ) : EReal))
  (hWV : ∃ x : Fin 16 → Fin 16 → ℝ, WV = fun j k => ((x j k : ℝ) : EReal))
  (hWQ : ∃ x : Fin 16 → Fin 16 → ℝ, WQ = fun j k => ((x j k : ℝ) : EReal))

include hX hW0 hb0 hW1 hb1 hWQ in
/-- The read-out of real inputs is a real array. -/
theorem retrieve_real : ∃ y : Fin N → Fin 16 → ℝ,
    Cert.Spec.retrieve X WQ W0 b0 W1 b1 = fun n j => ((y n j : ℝ) : EReal) := by
  obtain ⟨x, rfl⟩ := hX
  obtain ⟨w0, rfl⟩ := hW0
  obtain ⟨c0, rfl⟩ := hb0
  obtain ⟨w1, rfl⟩ := hW1
  obtain ⟨c1, rfl⟩ := hb1
  obtain ⟨wq, rfl⟩ := hWQ
  exact ⟨_, retrieve_coe x wq w0 c0 w1 c1⟩

include hX hW0 hb0 hW1 hb1 hWV hWQ

/-- The forward pass of real inputs is the reading of a real forward pass. -/
theorem fwd_real : ∃ r : RFwd N, Cert.Spec.fwd X W0 b0 W1 b1 WV WQ = r.toFwd := by
  obtain ⟨x, rfl⟩ := hX
  obtain ⟨w0, rfl⟩ := hW0
  obtain ⟨c0, rfl⟩ := hb0
  obtain ⟨w1, rfl⟩ := hW1
  obtain ⟨c1, rfl⟩ := hb1
  obtain ⟨wv, rfl⟩ := hWV
  obtain ⟨wq, rfl⟩ := hWQ
  exact ⟨_, fwd_coe x w0 c0 w1 c1 wv wq⟩

/-- The query of real inputs is a real array. -/
theorem fwd_q_real : ∃ y : Fin N → Fin 16 → ℝ,
    (Cert.Spec.fwd X W0 b0 W1 b1 WV WQ).q = fun n j => ((y n j : ℝ) : EReal) := by
  obtain ⟨r, hr⟩ := fwd_real hX hW0 hb0 hW1 hb1 hWV hWQ
  exact ⟨r.q, by rw [hr]; rfl⟩

/-- The target of real inputs is a real array. -/
theorem fwd_v_real : ∃ y : Fin N → Fin 16 → ℝ,
    (Cert.Spec.fwd X W0 b0 W1 b1 WV WQ).v = fun n j => ((y n j : ℝ) : EReal) := by
  obtain ⟨r, hr⟩ := fwd_real hX hW0 hb0 hW1 hb1 hWV hWQ
  exact ⟨r.v, by rw [hr]; rfl⟩

/-- The second weight carried by the forward pass is a real array. -/
theorem fwd_W1_real : ∃ y : Fin 16 → Fin 32 → ℝ,
    (Cert.Spec.fwd X W0 b0 W1 b1 WV WQ).W1 = fun j h => ((y j h : ℝ) : EReal) := by
  obtain ⟨r, hr⟩ := fwd_real hX hW0 hb0 hW1 hb1 hWV hWQ
  exact ⟨r.W1, by rw [hr]; rfl⟩

/-- The first pre-activation of real inputs is a real array. -/
theorem fwd_z0_real : ∃ y : Fin N → Fin 32 → ℝ,
    (Cert.Spec.fwd X W0 b0 W1 b1 WV WQ).z0 = fun n h => ((y n h : ℝ) : EReal) := by
  obtain ⟨r, hr⟩ := fwd_real hX hW0 hb0 hW1 hb1 hWV hWQ
  exact ⟨r.z0, by rw [hr]; rfl⟩

/-- The second pre-activation of real inputs is a real array. -/
theorem fwd_z1_real : ∃ y : Fin N → Fin 16 → ℝ,
    (Cert.Spec.fwd X W0 b0 W1 b1 WV WQ).z1 = fun n j => ((y n j : ℝ) : EReal) := by
  obtain ⟨r, hr⟩ := fwd_real hX hW0 hb0 hW1 hb1 hWV hWQ
  exact ⟨r.z1, by rw [hr]; rfl⟩

/-- The new first weight of real inputs, at a real old weight, is a real number (in either order). -/
theorem newW0_real (w : ℝ) (h : Fin 32) (j : Fin 16) : ∃ y : ℝ,
    Cert.Spec.decay * (w : EReal)
      - Cert.Spec.thetaScaled * Cert.Spec.Ker.gW0 (Cert.Spec.fwd X W0 b0 W1 b1 WV WQ) h j = (y : EReal) := by
  obtain ⟨r, hr⟩ := fwd_real hX hW0 hb0 hW1 hb1 hWV hWQ
  rw [hr, ker_gW0_coe]
  exact new_real w _

/-- The new first bias of real inputs is a real number. -/
theorem newb0_real (w : ℝ) (h : Fin 32) : ∃ y : ℝ,
    Cert.Spec.decay * (w : EReal)
      - Cert.Spec.thetaScaled * Cert.Spec.Ker.gb0 (Cert.Spec.fwd X W0 b0 W1 b1 WV WQ) h = (y : EReal) := by
  obtain ⟨r, hr⟩ := fwd_real hX hW0 hb0 hW1 hb1 hWV hWQ
  rw [hr, ker_gb0_coe]
  exact new_real w _

/-- The new second weight of real inputs is a real number. -/
theorem newW1_real (w : ℝ) (j : Fin 16) (h : Fin 32) : ∃ y : ℝ,
    Cert.Spec.decay * (w : EReal)
      - Cert.Spec.thetaScaled * Cert.Spec.Ker.gW1 (Cert.Spec.fwd X W0 b0 W1 b1 WV WQ) j h = (y : EReal) := by
  obtain ⟨r, hr⟩ := fwd_real hX hW0 hb0 hW1 hb1 hWV hWQ
  rw [hr, ker_gW1_coe]
  exact new_real w _

/-- The new second bias of real inputs is a real number. -/
theorem newb1_real (w : ℝ) (j : Fin 16) : ∃ y : ℝ,
    Cert.Spec.decay * (w : EReal)
      - Cert.Spec.thetaScaled * Cert.Spec.Ker.gb1 (Cert.Spec.fwd X W0 b0 W1 b1 WV WQ) j = (y : EReal) := by
  obtain ⟨r, hr⟩ := fwd_real hX hW0 hb0 hW1 hb1 hWV hWQ
  rw [hr, ker_gb1_coe]
  exact new_real w _

end Hyp

end Cert.FwdReal

end
-- ==== Proof.PreReal.lean ====
/-
  From the precondition to real entries.

  The precondition is the printed predicate: for each of the eight argument arrays, `all (|x| < +∞)`, and the
  conjunction of the eight.  An extended real whose absolute value `max x (−x)` is below `+∞` is neither `+∞`
  nor `−∞`, hence a real number.  Reading the predicate back — the conjunction splits, each `all` gives its
  comparison at every index, each comparison gives a real entry — shows that every entry of every argument array
  is the coercion of a real number; stated array by array in curried form, a real array exists whose coercion the
  argument array is.
-/
import Idealize.ShloMosaic.Lib.ReduceAll
import Idealize.ShloMosaic.Lib.ValueIdx
import Idealize.ShloMosaic.PureOps.Ideal
import proofs.«144527_j2001454760825_2_alg».proof.Pre_finite_inputs

noncomputable section

namespace Cert.PreReal

open Idealize.ShloMosaic Cert.Pre_finite_inputs

/-- The scalar shape has one index. -/
instance : Subsingleton S_.Idx := ⟨fun a b => funext fun d => d.elim0⟩

/-- The single-precision pattern of `+∞` denotes `⊤`. -/
theorem inf_eq : Ideal.ofBits .f32 0x7F800000#32 = (⊤ : EReal) := by simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | top => simp [Ideal.cmp] at h
  | coe r => exact ⟨r, rfl⟩

/-- An array all of whose entries have absolute value below `+∞` (the printed `all (|a| < +∞)`) has real entries. -/
theorem all_real {s : Shape} {axes : List (Fin s.rank)} (a : FVec Ideal s .f32) (dims : Fin S_.rank → Fin s.rank)
    (hb : S_.BroadcastsInDim s dims) (hr : s.ReducesTo axes S_) (hu : 0 < S_.numel) (init : IVec S_ 1)
    (e : Host.reduce IntOp.andi
        (cmpf .olt (Host.absf a) (broadcastInDim s dims hb (constant (F := Ideal) S_ .f32 0x7F800000#32)))
        init hr hu ValueIdx.ix0 = 1#1) (i : s.Idx) : ∃ r : ℝ, a i = (r : EReal) :=
  real_of_abs_lt (a i) (Host.reduce_andi_all _ init hr hu ValueIdx.ix0 e i)

/-- A rank-2 array with real entries is, curried, the coercion of a real array. -/
theorem curry2 {n0 n1 : ℕ} (a : (⟨2, ![n0, n1]⟩ : Shape).Idx → EReal) (H : ∀ i, ∃ r : ℝ, a i = (r : EReal)) :
    ∃ x : Fin n0 → Fin n1 → ℝ, (fun n k => a (ValueIdx.ix2 n k)) = fun n k => ((x n k : ℝ) : EReal) :=
  ⟨fun n k => (H (ValueIdx.ix2 n k)).choose, funext fun n => funext fun k => (H (ValueIdx.ix2 n k)).choose_spec⟩

/-- A rank-1 array with real entries is, curried, the coercion of a real array. -/
theorem curry1 {n : ℕ} (a : (⟨1, ![n]⟩ : Shape).Idx → EReal) (H : ∀ i, ∃ r : ℝ, a i = (r : EReal)) :
    ∃ x : Fin n → ℝ, (fun h => a (ValueIdx.ix1 h)) = fun h => ((x h : ℝ) : EReal) :=
  ⟨fun h => (H (ValueIdx.ix1 h)).choose, funext fun h => (H (ValueIdx.ix1 h)).choose_spec⟩

variable [Facts]

section Args
variable {a0 : FVec Ideal S1048576x16 .f32} {a1 : FVec Ideal S32x16 .f32} {a2 : FVec Ideal S32 .f32}
  {a3 : FVec Ideal S16x32 .f32} {a4 : FVec Ideal S16 .f32} {a5 a6 a7 : FVec Ideal S16x16 .f32}

/-- The precondition gives real entries in all eight argument arrays. -/
theorem entries_real (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ValueIdx.ix0
  dsimp only [fn, fn_part1, fn_part2] at h0
  obtain ⟨h33, h37⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨all_real a0 _ _ _ _ _ h3, all_real a1 _ _ _ _ _ h7, all_real a2 _ _ _ _ _ h12, all_real a3 _ _ _ _ _ h17,
    all_real a4 _ _ _ _ _ h22, all_real a5 _ _ _ _ _ h27, all_real a6 _ _ _ _ _ h32, all_real a7 _ _ _ _ _ h37⟩

variable (h : fn (F := Ideal) a0 a1 a2 a3 a4 a5 a6 a7 = fun _ => 1#1)
include h

/-- The first argument (1048576 × 16), curried, is the coercion of a real array. -/
theorem arg0_real : ∃ x : Fin 1048576 → Fin 16 → ℝ,
    (fun n k => a0 (ValueIdx.ix2 n k)) = fun n k => ((x n k : ℝ) : EReal) := curry2 a0 (entries_real h).1

/-- The second argument (32 × 16), curried, is the coercion of a real array. -/
theorem arg1_real : ∃ x : Fin 32 → Fin 16 → ℝ,
    (fun n k => a1 (ValueIdx.ix2 n k)) = fun n k => ((x n k : ℝ) : EReal) := curry2 a1 (entries_real h).2.1

/-- The third argument (32), curried, is the coercion of a real array. -/
theorem arg2_real : ∃ x : Fin 32 → ℝ,
    (fun n => a2 (ValueIdx.ix1 n)) = fun n => ((x n : ℝ) : EReal) := curry1 a2 (entries_real h).2.2.1

/-- The fourth argument (16 × 32), curried, is the coercion of a real array. -/
theorem arg3_real : ∃ x : Fin 16 → Fin 32 → ℝ,
    (fun n k => a3 (ValueIdx.ix2 n k)) = fun n k => ((x n k : ℝ) : EReal) := curry2 a3 (entries_real h).2.2.2.1

/-- The fifth argument (16), curried, is the coercion of a real array. -/
theorem arg4_real : ∃ x : Fin 16 → ℝ,
    (fun n => a4 (ValueIdx.ix1 n)) = fun n => ((x n : ℝ) : EReal) := curry1 a4 (entries_real h).2.2.2.2.1

/-- The sixth argument (16 × 16), curried, is the coercion of a real array. -/
theorem arg5_real : ∃ x : Fin 16 → Fin 16 → ℝ,
    (fun n k => a5 (ValueIdx.ix2 n k)) = fun n k => ((x n k : ℝ) : EReal) := curry2 a5 (entries_real h).2.2.2.2.2.1

/-- The seventh argument (16 × 16), curried, is the coercion of a real array. -/
theorem arg6_real : ∃ x : Fin 16 → Fin 16 → ℝ,
    (fun n k => a6 (ValueIdx.ix2 n k)) = fun n k => ((x n k : ℝ) : EReal) := curry2 a6 (entries_real h).2.2.2.2.2.2.1

/-- The eighth argument (16 × 16), curried, is the coercion of a real array. -/
theorem arg7_real : ∃ x : Fin 16 → Fin 16 → ℝ,
    (fun n k => a7 (ValueIdx.ix2 n k)) = fun n k => ((x n k : ℝ) : EReal) := curry2 a7 (entries_real h).2.2.2.2.2.2.2

end Args

end Cert.PreReal

end
-- ==== Proof.RefKernelForm.lean ====
/-
  The reference program's result with the new parameters written as the kernel computes them: on real inputs the step
  `θ · ∂p` of the reference's backward pass is the step `(θ · 2⁻²³) · ∂p` of the unscaled sums.
-/
import proofs.«144527_j2001454760825_2_alg».proof.Proof.RefResult
import proofs.«144527_j2001454760825_2_alg».proof.Proof.GradAgree
import proofs.«144527_j2001454760825_2_alg».proof.Proof.FwdReal
import proofs.«144527_j2001454760825_2_alg».proof.Proof.PreReal

noncomputable section

namespace Cert.RefSide

open Cert.ReferenceIdeal Cert.ReferenceIdeal.Read Idealize.ShloMosaic Idealize.ShloMosaic.ValueIdx

variable [Cert.Pre_finite_inputs.Facts]

/-- Under the precondition that every input is finite, the program's result is the read-out at the parameters
    `a · p − (θ · 2⁻²³) · ∂p`, with `∂p` the sums of the unscaled backward pass. -/
theorem result_kernel_form (a0 : Arr S1048576x16) (a1 : Arr S32x16) (a2 : Arr S32) (a3 : Arr S16x32) (a4 : Arr S16)
    (a5 a6 a7 : Arr S16x16)
    (hpre : Cert.Pre_finite_inputs.fn (F := Ideal) a0 a1 a2 a3 a4 a5 a6 a7 = fun _ => 1#1)
    (n : Fin 1048576) (j : Fin 16) :
    val_main_v140 (F := Ideal) a0 a1 a2 a3 a4 a6 a7 (ix2 n j)
      = Spec.retrieve (Xc a0) (Mc a7)
          (fun h j => Spec.decay * W0c a1 h j - Spec.thetaScaled * Spec.Ker.gW0 (Fw a0 a1 a2 a3 a4 a6 a7) h j)
          (fun h => Spec.decay * b0c a2 h - Spec.thetaScaled * Spec.Ker.gb0 (Fw a0 a1 a2 a3 a4 a6 a7) h)
          (fun j h => Spec.decay * W1c a3 j h - Spec.thetaScaled * Spec.Ker.gW1 (Fw a0 a1 a2 a3 a4 a6 a7) j h)
          (fun j => Spec.decay * b1c a4 j - Spec.thetaScaled * Spec.Ker.gb1 (Fw a0 a1 a2 a3 a4 a6 a7) j) n j := by
  obtain ⟨x0, hx0⟩ := Cert.PreReal.arg0_real hpre
  obtain ⟨x1, hx1⟩ := Cert.PreReal.arg1_real hpre
  obtain ⟨x2, hx2⟩ := Cert.PreReal.arg2_real hpre
  obtain ⟨x3, hx3⟩ := Cert.PreReal.arg3_real hpre
  obtain ⟨x4, hx4⟩ := Cert.PreReal.arg4_real hpre
  obtain ⟨x6, hx6⟩ := Cert.PreReal.arg6_real hpre
  obtain ⟨x7, hx7⟩ := Cert.PreReal.arg7_real hpre
  have hX : ∃ x : Fin 1048576 → Fin 16 → ℝ, Xc a0 = fun n k => ((x n k : ℝ) : EReal) := ⟨x0, hx0⟩
  have hW0 : ∃ x : Fin 32 → Fin 16 → ℝ, W0c a1 = fun h j => ((x h j : ℝ) : EReal) := ⟨x1, hx1⟩
  have hb0 : ∃ x : Fin 32 → ℝ, b0c a2 = fun h => ((x h : ℝ) : EReal) := ⟨x2, hx2⟩
  have hW1 : ∃ x : Fin 16 → Fin 32 → ℝ, W1c a3 = fun j h => ((x j h : ℝ) : EReal) := ⟨x3, hx3⟩
  have hb1 : ∃ x : Fin 16 → ℝ, b1c a4 = fun j => ((x j : ℝ) : EReal) := ⟨x4, hx4⟩
  have hWV : ∃ x : Fin 16 → Fin 16 → ℝ, Mc a6 = fun j k => ((x j k : ℝ) : EReal) := ⟨x6, hx6⟩
  have hWQ : ∃ x : Fin 16 → Fin 16 → ℝ, Mc a7 = fun j k => ((x j k : ℝ) : EReal) := ⟨x7, hx7⟩
  have fq := Cert.FwdReal.fwd_q_real hX hW0 hb0 hW1 hb1 hWV hWQ
  have fv := Cert.FwdReal.fwd_v_real hX hW0 hb0 hW1 hb1 hWV hWQ
  have fW1 := Cert.FwdReal.fwd_W1_real hX hW0 hb0 hW1 hb1 hWV hWQ
  have fz0 := Cert.FwdReal.fwd_z0_real hX hW0 hb0 hW1 hb1 hWV hWQ
  have fz1 := Cert.FwdReal.fwd_z1_real hX hW0 hb0 hW1 hb1 hWV hWQ
  have eW0 : (fun h j => Spec.decay * W0c a1 h j - Spec.theta * Spec.Ref.gW0 (Fw a0 a1 a2 a3 a4 a6 a7) h j)
      = fun h j => Spec.decay * W0c a1 h j - Spec.thetaScaled * Spec.Ker.gW0 (Fw a0 a1 a2 a3 a4 a6 a7) h j := by
    funext h j
    have e : W0c a1 h j = ((x1 h j : ℝ) : EReal) := congrFun (congrFun hx1 h) j
    rw [e]
    exact Cert.GradAgree.agree_W0 (Fw a0 a1 a2 a3 a4 a6 a7) fq fv fW1 fz0 fz1 (x1 h j) h j
  have eb0 : (fun h => Spec.decay * b0c a2 h - Spec.theta * Spec.Ref.gb0 (Fw a0 a1 a2 a3 a4 a6 a7) h)
      = fun h => Spec.decay * b0c a2 h - Spec.thetaScaled * Spec.Ker.gb0 (Fw a0 a1 a2 a3 a4 a6 a7) h := by
    funext h
    have e : b0c a2 h = ((x2 h : ℝ) : EReal) := congrFun hx2 h
    rw [e]
    exact Cert.GradAgree.agree_b0 (Fw a0 a1 a2 a3 a4 a6 a7) fq fv fW1 fz0 fz1 (x2 h) h
  have eW1 : (fun j h => Spec.decay * W1c a3 j h - Spec.theta * Spec.Ref.gW1 (Fw a0 a1 a2 a3 a4 a6 a7) j h)
      = fun j h => Spec.decay * W1c a3 j h - Spec.thetaScaled * Spec.Ker.gW1 (Fw a0 a1 a2 a3 a4 a6 a7) j h := by
    funext j h
    have e : W1c a3 j h = ((x3 j h : ℝ) : EReal) := congrFun (congrFun hx3 j) h
    rw [e]
    exact Cert.GradAgree.agree_W1 (Fw a0 a1 a2 a3 a4 a6 a7) fq fv fW1 fz0 fz1 (x3 j h) j h
  have eb1 : (fun j => Spec.decay * b1c a4 j - Spec.theta * Spec.Ref.gb1 (Fw a0 a1 a2 a3 a4 a6 a7) j)
      = fun j => Spec.decay * b1c a4 j - Spec.thetaScaled * Spec.Ker.gb1 (Fw a0 a1 a2 a3 a4 a6 a7) j := by
    funext j
    have e : b1c a4 j = ((x4 j : ℝ) : EReal) := congrFun hx4 j
    rw [e]
    exact Cert.GradAgree.agree_b1 (Fw a0 a1 a2 a3 a4 a6 a7) fq fv fW1 fz0 fz1 (x4 j) j
  rw [result_spec, eW0, eb0, eW1, eb1]

end Cert.RefSide

end
-- ==== Proof.Bridge.lean ====
/-
  The two programs end with the same result array.

  The kernel's result is the read-out at the parameters the host formed from the first region's outputs, which are one
  gradient step of the whole array with the constant `θ · 2⁻²³` outside the sums.  The reference's result is the same
  read-out at its own step, `θ` times the gradient of the mean, which on finite entries is the same step.
-/
import proofs.«144527_j2001454760825_2_alg».proof.Proof.K0Grad
import proofs.«144527_j2001454760825_2_alg».proof.Proof.KResult
import proofs.«144527_j2001454760825_2_alg».proof.Proof.RefKernelForm

set_option maxRecDepth 16384

noncomputable section

namespace Cert.Bridge

open Cert.KernelIdeal Cert.KernelIdeal.Gen Cert.RefSide
open Idealize.ShloMosaic Idealize.ShloMosaic.TcCoe Idealize.ShloMosaic.ValueIdx
open Idealize.SL Idealize.SL.Sem

variable [Cert.Pre_finite_inputs.Facts]
variable (m : (ℓ : Loc nD τ sig) → Buf (Elt Ideal) ℓ) (ρ : Dev nD → PrngReg) (c : Dev nD)

/-- Under the precondition the array the kernel's second region leaves is the reference's last stage. -/
theorem result_eq
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    W4 m ρ c (Proc.devRef .tc main_v44)
      = Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  funext idx
  obtain ⟨n, j, rfl⟩ : ∃ (n : Fin 1048576) (j : Fin 16), idx = ix2 n j := ⟨idx 0, idx 1, eq_ix2 idx⟩
  refine (Cert.KernelIdeal.Result.result_apply m ρ c n j).trans ?_
  refine Eq.trans ?_ (Cert.RefSide.result_kernel_form (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hpre n j).symm
  have e1 : (fun h j => newW0 (F := Ideal) (m ((c : Thread nD τ).loc main_arg1)) ((dat0 (V1 m ρ) c).arrAt 8 cfg0.N) (ix2 h j))
      = fun h j => Cert.Spec.decay * W0c (m ((c : Thread nD τ).loc main_arg1)) h j - Cert.Spec.thetaScaled * Cert.Spec.Ker.gW0 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) h j :=
    funext fun h => funext fun j => newW0_kernel m ρ c h j
  have e2 : (fun h => newB0 (F := Ideal) (m ((c : Thread nD τ).loc main_arg2)) ((dat0 (V1 m ρ) c).arrAt 9 cfg0.N) (ix2 (0 : Fin 1) h))
      = fun h => Cert.Spec.decay * b0c (m ((c : Thread nD τ).loc main_arg2)) h - Cert.Spec.thetaScaled * Cert.Spec.Ker.gb0 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) h :=
    funext fun h => newB0_kernel m ρ c h
  have e3 : (fun j h => newW1 (F := Ideal) (m ((c : Thread nD τ).loc main_arg3)) ((dat0 (V1 m ρ) c).arrAt 10 cfg0.N) (ix2 j h))
      = fun j h => Cert.Spec.decay * W1c (m ((c : Thread nD τ).loc main_arg3)) j h - Cert.Spec.thetaScaled * Cert.Spec.Ker.gW1 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) j h :=
    funext fun j => funext fun h => newW1_kernel m ρ c j h
  have e4 : (fun j => newB1 (F := Ideal) (m ((c : Thread nD τ).loc main_arg4)) ((dat0 (V1 m ρ) c).arrAt 11 cfg0.N) (ix2 (0 : Fin 1) j))
      = fun j => Cert.Spec.decay * b1c (m ((c : Thread nD τ).loc main_arg4)) j - Cert.Spec.thetaScaled * Cert.Spec.Ker.gb1 (Fw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) j :=
    funext fun j => newB1_kernel m ρ c j
  rw [e1, e2, e3, e4]

end Cert.Bridge

end
-- ==== Proof.lean ====
/-
  The certificate's five claims.

  The two kernel programs' frames are the generated frame certificates.  The reference is a host program: its run,
  written operation by operation, ends with the result at the last operation's stage and the arguments unchanged,
  which is its frame once the result is dropped.  The idealization rewrote nothing, so the kernel and its idealization
  are one text.  The value claim: the idealized kernel's run ends with the result buffer at the array its second
  pipelined region leaves, the reference's at its last stage, and under the precondition these are the same array
  (`Cert.Bridge.result_eq`): both are the read-out `silu (silu (r · W0'ᵀ + b0') · W1'ᵀ + b1')` at
  `r = silu (normalise (X · WQᵀ))` with the parameters after one gradient step, and the two ways of taking that
  step — a scale inside every row's error, or one scaled constant outside the sums — agree on finite entries.
-/
import proofs.«144527_j2001454760825_2_alg».proof.Defs
import proofs.«144527_j2001454760825_2_alg».proof.Proof.Gen.Kernel
import proofs.«144527_j2001454760825_2_alg».proof.Proof.Gen.Kernel.Frame
import proofs.«144527_j2001454760825_2_alg».proof.Proof.Gen.KernelIdeal
import proofs.«144527_j2001454760825_2_alg».proof.Proof.Gen.KernelIdeal.Frame
import proofs.«144527_j2001454760825_2_alg».proof.Proof.Gen.ReferenceIdeal
import proofs.«144527_j2001454760825_2_alg».proof.Proof.Gen.Pre_finite_inputs
import proofs.«144527_j2001454760825_2_alg».proof.Proof.KRun
import proofs.«144527_j2001454760825_2_alg».proof.Proof.RefRun
import proofs.«144527_j2001454760825_2_alg».proof.Proof.Bridge
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefSide.ref_run (F := Ideal) m ρ)
theorem preserves : Cert.preserves_Kernel_KernelIdeal := trivial

/-- Both programs run; the kernel's result array is the reference's (`Cert.Bridge.result_eq`, which uses the
    precondition), and each leaves its arguments as launched. -/
theorem algebraic : Cert.algebraic_KernelIdeal_ReferenceIdeal := by
  intro m ρ m' ρ' hpre hagree
  refine ⟨fun c => Cert.KernelIdeal.Gen.W4 m ρ c (Proc.devRef .tc Cert.KernelIdeal.main_v44),
    Cert.KernelIdeal.Gen.run_result (F := Ideal) m ρ, ?_⟩
  refine (θ_run Cert.ReferenceIdeal.defs _ _).mono (fun _ h c => ⟨(h c).1.trans ?_, (h c).2⟩)
    (Cert.RefSide.ref_run (F := Ideal) m' ρ')
  rw [(hagree c).1, (hagree c).2.1, (hagree c).2.2.1, (hagree c).2.2.2.1, (hagree c).2.2.2.2.1,
    (hagree c).2.2.2.2.2.2.1, (hagree c).2.2.2.2.2.2.2]
  exact (Cert.Bridge.result_eq m ρ c (hpre c)).symm

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
